-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S4096x4096 : Shape := ⟨2, ![4096, 4096]⟩
abbrev S8192x8192 : Shape := ⟨2, ![8192, 8192]⟩
abbrev S4096x8192 : Shape := ⟨2, ![4096, 8192]⟩
abbrev S8192x4096 : Shape := ⟨2, ![8192, 4096]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg14 : FVec F S128x128 .f32) (main_arg15 : FVec F S128x128 .f32) (main_arg16 : FVec F S128x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  main_v83

def fn_part3 {F : FTy → Type} [FloatOps F] (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_v63 main_v67

def fn_part2 {F : FTy → Type} [FloatOps F] (main_arg7 : FVec F S8192x4096 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_v33 : IVec S_ 1) : IVec S_ 1 :=
  let main_v34 : FVec F S8192x4096 .f32 := Host.absf main_arg7
  let main_cst_12 : FVec F S_ .f32 := constant S_ .f32 0x7F800000#32
  let main_v35 : FVec F S8192x4096 .f32 := broadcastInDim S8192x4096 ![] bcast_S_S8192x4096 main_cst_12
  let main_v36 : IVec S8192x4096 1 := cmpf .olt main_v34 main_v35
  let main_c_13 : IVec S_ 1 := constantI S_ 1 1#1
  let main_v37 : IVec S_ 1 := (fun x v => Host.reduce IntOp.andi x v reducesTo_S8192x4096_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_v48 main_v49 main_v50

def fn_part1 {F : FTy → Type} [FloatOps F] (main_arg4 : FVec F S8192x8192 .f32) (main_arg5 : FVec F S4096x4096 .f32) (main_arg6 : FVec F S4096x8192 .f32) (main_arg7 : FVec F S8192x4096 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x8192 .f32 := Host.absf main_arg6
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x128 .f32) (main_arg1 : FVec F S8192x128 .f32) (main_arg2 : FVec F S4096x128 .f32) (main_arg3 : FVec F S4096x4096 .f32) (main_arg4 : FVec F S8192x8192 .f32) (main_arg5 : FVec F S4096x4096 .f32) (main_arg6 : FVec F S4096x8192 .f32) (main_arg7 : FVec F S8192x4096 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x128 : Shape := ⟨2, ![4096, 128]⟩
abbrev S8192x128 : Shape := ⟨2, ![8192, 128]⟩
abbrev S4096x4096 : Shape := ⟨2, ![4096, 4096]⟩
abbrev S8192x8192 : Shape := ⟨2, ![8192, 8192]⟩
abbrev S4096x8192 : Shape := ⟨2, ![4096, 8192]⟩
abbrev S8192x4096 : Shape := ⟨2, ![8192, 4096]⟩
abbrev S128x128 : Shape := ⟨2, ![128, 128]⟩
abbrev S256x4096 : Shape := ⟨2, ![256, 4096]⟩
abbrev S256x8192 : Shape := ⟨2, ![256, 8192]⟩
abbrev S256x128 : Shape := ⟨2, ![256, 128]⟩
abbrev S128x8192 : Shape := ⟨2, ![128, 8192]⟩
abbrev S1024x4096 : Shape := ⟨2, ![1024, 4096]⟩
abbrev S1024x128 : Shape := ⟨2, ![1024, 128]⟩
abbrev S128x4096 : Shape := ⟨2, ![128, 4096]⟩
abbrev S512x4096 : Shape := ⟨2, ![512, 4096]⟩
abbrev S512x8192 : Shape := ⟨2, ![512, 8192]⟩
abbrev S512x128 : Shape := ⟨2, ![512, 128]⟩
abbrev S128x256 : Shape := ⟨2, ![128, 256]⟩
abbrev S128x1024 : Shape := ⟨2, ![128, 1024]⟩

abbrev nBuf : Space → Nat
  | .hbm => 28
  | .vmem => 65
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S4096x128, .f32⟩
  | .hbm, ⟨3, _⟩ => ⟨S4096x4096, .f32⟩
  | .hbm, ⟨4, _⟩ => ⟨S8192x8192, .f32⟩
  | .hbm, ⟨5, _⟩ => ⟨S4096x4096, .f32⟩
  | .hbm, ⟨6, _⟩ => ⟨S4096x8192, .f32⟩
  | .hbm, ⟨7, _⟩ => ⟨S8192x4096, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S4096x128, .f32⟩
  | .hbm, ⟨18, _⟩ => ⟨S4096x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S4096x128, .f32⟩
  | .hbm, ⟨23, _⟩ => ⟨S4096x128, .f32⟩
  | .hbm, ⟨24, _⟩ => ⟨S128x8192, .f32⟩
  | .hbm, ⟨25, _⟩ => ⟨S8192x128, .f32⟩
  | .hbm, ⟨26, _⟩ => ⟨S128x4096, .f32⟩
  | .hbm, ⟨27, _⟩ => ⟨S4096x128, .f32⟩
  | .local _ .vmem, ⟨0, _⟩ => ⟨S256x4096, .f32⟩
  | .local _ .vmem, ⟨1, _⟩ => ⟨S256x4096, .f32⟩
  | .local _ .vmem, ⟨2, _⟩ => ⟨S256x8192, .f32⟩
  | .local _ .vmem, ⟨3, _⟩ => ⟨S256x8192, .f32⟩
  | .local _ .vmem, ⟨4, _⟩ => ⟨S4096x128, .f32⟩
  | .local _ .vmem, ⟨5, _⟩ => ⟨S8192x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S8192x128, .f32⟩
  | .local _ .vmem, ⟨15, _⟩ => ⟨S4096x128, .f32⟩
  | .local _ .vmem, ⟨16, _⟩ => ⟨S8192x128, .f32⟩
  | .local _ .vmem, ⟨17, _⟩ => ⟨S4096x128, .f32⟩
  | .local _ .vmem, ⟨18, _⟩ => ⟨S128x8192, .f32⟩
  | .local _ .vmem, ⟨19, _⟩ => ⟨S1024x4096, .f32⟩
  | .local _ .vmem, ⟨20, _⟩ => ⟨S1024x4096, .f32⟩
  | .local _ .vmem, ⟨21, _⟩ => ⟨S8192x128, .f32⟩
  | .local _ .vmem, ⟨22, _⟩ => ⟨S4096x128, .f32⟩
  | .local _ .vmem, ⟨23, _⟩ => ⟨S128x128, .f32⟩
  | .local _ .vmem, ⟨24, _⟩ => ⟨S128x128, .f32⟩
  | .local _ .vmem, ⟨25, _⟩ => ⟨S1024x128, .f32⟩
  | .local _ .vmem, ⟨26, _⟩ => ⟨S1024x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S4096x128, .f32⟩
  | .local _ .vmem, ⟨35, _⟩ => ⟨S4096x128, .f32⟩
  | .local _ .vmem, ⟨36, _⟩ => ⟨S8192x128, .f32⟩
  | .local _ .vmem, ⟨37, _⟩ => ⟨S128x4096, .f32⟩
  | .local _ .vmem, ⟨38, _⟩ => ⟨S512x4096, .f32⟩
  | .local _ .vmem, ⟨39, _⟩ => ⟨S512x4096, .f32⟩
  | .local _ .vmem, ⟨40, _⟩ => ⟨S512x8192, .f32⟩
  | .local _ .vmem, ⟨41, _⟩ => ⟨S512x8192, .f32⟩
  | .local _ .vmem, ⟨42, _⟩ => ⟨S4096x128, .f32⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | .local _ .vmem, ⟨47, _⟩ => ⟨S128x8192, .f32⟩
  | .local _ .vmem, ⟨48, _⟩ => ⟨S256x8192, .f32⟩
  | .local _ .vmem, ⟨49, _⟩ => ⟨S256x8192, .f32⟩
  | .local _ .vmem, ⟨50, _⟩ => ⟨S256x4096, .f32⟩
  | .local _ .vmem, ⟨51, _⟩ => ⟨S256x4096, .f32⟩
  | .local _ .vmem, ⟨52, _⟩ => ⟨S8192x128, .f32⟩
  | .local _ .vmem, ⟨53, _⟩ => ⟨S256x128, .f32⟩
  | .local _ .vmem, ⟨54, _⟩ => ⟨S256x128, .f32⟩
  | .local _ .vmem, ⟨55, _⟩ => ⟨S128x8192, .f32⟩
  | .local _ .vmem, ⟨56, _⟩ => ⟨S256x128, .f32⟩
  | .local _ .vmem, ⟨57, _⟩ => ⟨S256x128, .f32⟩
  | .local _ .vmem, ⟨58, _⟩ => ⟨S128x4096, .f32⟩
  | .local _ .vmem, ⟨59, _⟩ => ⟨S1024x4096, .f32⟩
  | .local _ .vmem, ⟨60, _⟩ => ⟨S1024x4096, .f32⟩
  | .local _ .vmem, ⟨61, _⟩ => ⟨S4096x128, .f32⟩
  | .local _ .vmem, ⟨62, _⟩ => ⟨S128x4096, .f32⟩
  | .local _ .vmem, ⟨63, _⟩ => ⟨S1024x128, .f32⟩
  | .local _ .vmem, ⟨64, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_v2_0 : Ref sig .tc := ⟨.hbm, 23, rfl⟩
abbrev main_v2_1 : Ref sig .tc := ⟨.hbm, 24, rfl⟩
abbrev main_v3_0 : Ref sig .tc := ⟨.hbm, 25, rfl⟩
abbrev main_v3_1 : Ref sig .tc := ⟨.hbm, 26, rfl⟩
abbrev main_v4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_scratch0 : Ref sig .tc := ⟨.vmem, 35, rfl⟩
abbrev cc1_scratch1 : Ref sig .tc := ⟨.vmem, 36, rfl⟩
abbrev cc1_scratch2 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg3_1 : Ref sig .tc := ⟨.vmem, 44, rfl⟩
abbrev cc2_stg4_0 : Ref sig .tc := ⟨.vmem, 45, rfl⟩
abbrev cc2_stg4_1 : Ref sig .tc := ⟨.vmem, 46, rfl⟩
abbrev cc2_stg5_0 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg3_0 : Ref sig .tc := ⟨.vmem, 53, rfl⟩
abbrev cc3_stg3_1 : Ref sig .tc := ⟨.vmem, 54, rfl⟩
abbrev cc3_stg4_0 : Ref sig .tc := ⟨.vmem, 55, rfl⟩
abbrev cc3_stg5_0 : Ref sig .tc := ⟨.vmem, 56, rfl⟩
abbrev cc3_stg5_1 : Ref sig .tc := ⟨.vmem, 57, rfl⟩
abbrev cc3_stg6_0 : Ref sig .tc := ⟨.vmem, 58, rfl⟩
abbrev cc4_stg0_0 : Ref sig .tc := ⟨.vmem, 59, rfl⟩
abbrev cc4_stg0_1 : Ref sig .tc := ⟨.vmem, 60, rfl⟩
abbrev cc4_stg1_0 : Ref sig .tc := ⟨.vmem, 61, rfl⟩
abbrev cc4_stg2_0 : Ref sig .tc := ⟨.vmem, 62, rfl⟩
abbrev cc4_stg3_0 : Ref sig .tc := ⟨.vmem, 63, rfl⟩
abbrev cc4_stg3_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem3_0 : DmaSem sig := 36
abbrev cc2_sem3_1 : DmaSem sig := 37
abbrev cc2_sem4_0 : DmaSem sig := 38
abbrev cc2_sem4_1 : DmaSem sig := 39
abbrev cc2_sem5_0 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem3_0 : DmaSem sig := 46
abbrev cc3_sem3_1 : DmaSem sig := 47
abbrev cc3_sem4_0 : DmaSem sig := 48
abbrev cc3_sem5_0 : DmaSem sig := 49
abbrev cc3_sem5_1 : DmaSem sig := 50
abbrev cc3_sem6_0 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem3_0 : DmaSem sig := 56
abbrev cc4_sem3_1 : DmaSem sig := 57

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v18 : BitVec 32 := Scalar.muli arg0 c256_i32
  let v19 : Index := Scalar.indexCast v18
  let c0_21 : Index := 0#32
  ![v19.toNat, 0]
def k0_cond2 (i : grid0.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_25 : BitVec 32 := 0#32
  let v28 : BitVec 1 := Scalar.cmpi .ne v27 c0_i32_25
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![8], ![false]⟩

def k1_off1 (i : grid1.Coords) : Fin 2 → Nat :=
  let arg0 : BitVec 32 := BitVec.ofNat 32 (i 0).val
  let c1024_i32 : BitVec 32 := 1024#32
  let v17 : BitVec 32 := Scalar.muli arg0 c1024_i32
  let v18 : Index := Scalar.indexCast v17
  let c0_18 : Index := 0#32
  ![v18.toNat, 0]
def k1_cond2 (i : grid1.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_22 : BitVec 32 := 0#32
  let v27 : BitVec 1 := Scalar.cmpi .ne v26 c0_i32_22
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S4096x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x8192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![32], ![false]⟩

def k3_off1 (i : grid3.Coords) : Fin 2 → Nat :=
  let c0 : Index := 0#32
  let arg0 : BitVec 32 := BitVec.ofNat 32 (i 0).val
  let c256_i32 : BitVec 32 := 256#32
  let v3 : BitVec 32 := Scalar.muli arg0 c256_i32
  let v4 : Index := Scalar.indexCast v3
  ![0, v4.toNat]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8192x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x8192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x4096 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![4], ![false]⟩

def k4_off1 (i : grid4.Coords) : Fin 2 → Nat :=
  let c0 : Index := 0#32
  let arg0 : BitVec 32 := BitVec.ofNat 32 (i 0).val
  let c1024_i32 : BitVec 32 := 1024#32
  let v0 : BitVec 32 := Scalar.muli arg0 c1024_i32
  let v1 : Index := Scalar.indexCast v0
  ![0, v1.toNat]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x4096 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S4096x128_S4096x128 : S4096x128.ShapeCasts S4096x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x8192_S256x8192_0_0 : ∀ a, (![0, 0] : Fin 2 → Nat) a + S256x8192.size a ≤ S256x8192.size a
  h_S256x8192 : 0 < S256x8192.numel
  inb_S256x4096_S256x4096_0_0 : ∀ a, (![0, 0] : Fin 2 → Nat) a + S256x4096.size a ≤ S256x4096.size a
  h_S256x4096 : 0 < S256x4096.numel
  inb_S256x128_S256x128_0_0 : ∀ a, (![0, 0] : Fin 2 → Nat) a + S256x128.size a ≤ S256x128.size a
  h_S256x128 : 0 < S256x128.numel
  transposes_S128x8192_p1_0_S8192x128 : S128x8192.Transposes [1, 0] S8192x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S1024x4096_0_0 : ∀ a, (![0, 0] : Fin 2 → Nat) a + S1024x4096.size a ≤ S1024x4096.size a
  h_S1024x4096 : 0 < S1024x4096.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S128x4096_p1_0_S4096x128 : S128x4096.Transposes [1, 0] S4096x128
  inb_S512x4096_S512x4096_0_0 : ∀ a, (![0, 0] : Fin 2 → Nat) a + S512x4096.size a ≤ S512x4096.size a
  h_S512x4096 : 0 < S512x4096.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x8192_S512x8192_0_0 : ∀ a, (![0, 0] : Fin 2 → Nat) a + S512x8192.size a ≤ S512x8192.size a
  h_S512x8192 : 0 < S512x8192.numel
  h_S128x256 : 0 < S128x256.numel
  shapeCasts_S128x256_S128x256 : S128x256.ShapeCasts S128x256
  transposes_S128x256_p1_0_S256x128 : S128x256.Transposes [1, 0] S256x128
  shapeCasts_S256x128_S256x128 : S256x128.ShapeCasts S256x128
  h_S128x1024 : 0 < S128x1024.numel
  shapeCasts_S128x1024_S128x1024 : S128x1024.ShapeCasts S128x1024
  transposes_S128x1024_p1_0_S1024x128 : S128x1024.Transposes [1, 0] S1024x128
  dot_S4096x128_S128x128_S4096x128_1_0_0_1_n_n_wf : DotDims.WF S4096x128 S128x128 S4096x128 [1] [0] [0] [1] [] []
  dot_S8192x128_S128x128_S8192x128_1_0_0_1_n_n_wf : DotDims.WF S8192x128 S128x128 S8192x128 [1] [0] [0] [1] [] []
  dot_S256x4096_S4096x128_S256x128_1_0_0_1_n_n_wf : DotDims.WF S256x4096 S4096x128 S256x128 [1] [0] [0] [1] [] []
  dot_S256x8192_S8192x128_S256x128_1_0_0_1_n_n_wf : DotDims.WF S256x8192 S8192x128 S256x128 [1] [0] [0] [1] [] []
  dot_S256x128_S128x128_S256x128_1_0_0_1_n_n_wf : DotDims.WF S256x128 S128x128 S256x128 [1] [0] [0] [1] [] []
  dot_S256x128_S256x8192_S128x8192_0_0_1_1_n_n_wf : DotDims.WF S256x128 S256x8192 S128x8192 [0] [0] [1] [1] [] []
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  dot_S1024x128_S1024x4096_S128x4096_0_0_1_1_n_n_wf : DotDims.WF S1024x128 S1024x4096 S128x4096 [0] [0] [1] [1] [] []
  dot_S512x4096_S4096x128_S512x128_1_0_0_1_n_n_wf : DotDims.WF S512x4096 S4096x128 S512x128 [1] [0] [0] [1] [] []
  dot_S512x128_S512x8192_S128x8192_0_0_1_1_n_n_wf : DotDims.WF S512x128 S512x8192 S128x8192 [0] [0] [1] [1] [] []
  dot_S256x128_S256x4096_S128x4096_0_0_1_1_n_n_wf : DotDims.WF S256x128 S256x4096 S128x4096 [0] [0] [1] [1] [] []
  hrank0 : 0 < grid0.rank
  k0_off1_inb : ∀ i : grid0.Coords, ∀ a, (k0_off1 i) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .f32 = 32 ∨ (Rect.block (s := S8192x128) S8192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S4096x128.size a
  hwx0_8 : ∀ i : grid0.Coords, EltTy.bits .f32 = 32 ∨ (Rect.block (s := S4096x128) S256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S4096x128.size a
  hwx0_9 : ∀ i : grid0.Coords, EltTy.bits .f32 = 32 ∨ (Rect.block (s := S4096x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8192x128.size a ≤ S8192x128.size a
  hwx0_10 : ∀ i : grid0.Coords, EltTy.bits .f32 = 32 ∨ (Rect.block (s := S8192x128) S8192x128.size (cc0_transform_10 i) (hinb0_10 i)).WholeWords (EltTy.packing .f32)
  hrank1 : 0 < grid1.rank
  k1_off1_inb : ∀ i : grid1.Coords, ∀ a, (k1_off1 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .f32 = 32 ∨ (Rect.block (s := S4096x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x128.size a ≤ S8192x128.size a
  hwx1_9 : ∀ i : grid1.Coords, EltTy.bits .f32 = 32 ∨ (Rect.block (s := S8192x128) S1024x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x128.size a ≤ S8192x128.size a
  hwx1_10 : ∀ i : grid1.Coords, EltTy.bits .f32 = 32 ∨ (Rect.block (s := S8192x128) S1024x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4096x128.size a ≤ S4096x128.size a
  hwx1_11 : ∀ i : grid1.Coords, EltTy.bits .f32 = 32 ∨ (Rect.block (s := S4096x128) S4096x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x8192.size a ≤ S4096x8192.size a
  hwx2_1 : ∀ i : grid2.Coords, EltTy.bits .f32 = 32 ∨ (Rect.block (s := S4096x8192) S512x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S4096x128.size a
  hwx2_2 : ∀ i : grid2.Coords, EltTy.bits .f32 = 32 ∨ (Rect.block (s := S4096x128) S4096x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S4096x128.size a
  hwx2_4 : ∀ i : grid2.Coords, EltTy.bits .f32 = 32 ∨ (Rect.block (s := S4096x128) S512x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x8192.size a ≤ S128x8192.size a
  hwx2_5 : ∀ i : grid2.Coords, EltTy.bits .f32 = 32 ∨ (Rect.block (s := S128x8192) S128x8192.size (cc2_transform_5 i) (hinb2_5 i)).WholeWords (EltTy.packing .f32)
  hrank3 : 0 < grid3.rank
  k3_off1_inb : ∀ i : grid3.Coords, ∀ a, (k3_off1 i) a + S128x256.size a ≤ S128x8192.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .f32 = 32 ∨ (Rect.block (s := S8192x8192) S256x8192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x4096.size a ≤ S8192x4096.size a
  hwx3_1 : ∀ i : grid3.Coords, EltTy.bits .f32 = 32 ∨ (Rect.block (s := S8192x4096) S256x4096.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S8192x128.size a
  hwx3_2 : ∀ i : grid3.Coords, EltTy.bits .f32 = 32 ∨ (Rect.block (s := S8192x128) S8192x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S8192x128.size a
  hwx3_3 : ∀ i : grid3.Coords, EltTy.bits .f32 = 32 ∨ (Rect.block (s := S8192x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x8192.size a ≤ S128x8192.size a
  hwx3_4 : ∀ i : grid3.Coords, EltTy.bits .f32 = 32 ∨ (Rect.block (s := S128x8192) S128x8192.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S8192x128.size a
  hwx3_5 : ∀ i : grid3.Coords, EltTy.bits .f32 = 32 ∨ (Rect.block (s := S8192x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x4096.size a ≤ S128x4096.size a
  hwx3_6 : ∀ i : grid3.Coords, EltTy.bits .f32 = 32 ∨ (Rect.block (s := S128x4096) S128x4096.size (cc3_transform_6 i) (hinb3_6 i)).WholeWords (EltTy.packing .f32)
  hrank4 : 0 < grid4.rank
  k4_off1_inb : ∀ i : grid4.Coords, ∀ a, (k4_off1 i) a + S128x1024.size a ≤ S128x4096.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x4096.size a ≤ S4096x4096.size a
  hwx4_0 : ∀ i : grid4.Coords, EltTy.bits .f32 = 32 ∨ (Rect.block (s := S4096x4096) S1024x4096.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S4096x128.size a
  hwx4_1 : ∀ i : grid4.Coords, EltTy.bits .f32 = 32 ∨ (Rect.block (s := S4096x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x4096.size a ≤ S128x4096.size a
  hwx4_2 : ∀ i : grid4.Coords, EltTy.bits .f32 = 32 ∨ (Rect.block (s := S128x4096) S128x4096.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S4096x128.size a
  hwx4_3 : ∀ i : grid4.Coords, EltTy.bits .f32 = 32 ∨ (Rect.block (s := S4096x128) S1024x128.size (cc4_transform_3 i) (hinb4_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S256x8192_S128x8192_0_0_1_1_n_n : DotDims S256x128 S256x8192 S128x8192 where
  lhsContracting := [0]
  rhsContracting := [0]
  lhsNonContracting := [1]
  rhsNonContracting := [1]
  lhsBatch := []
  rhsBatch := []
  wf := dot_S256x128_S256x8192_S128x8192_0_0_1_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S1024x4096_S128x4096_0_0_1_1_n_n : DotDims S1024x128 S1024x4096 S128x4096 where
  lhsContracting := [0]
  rhsContracting := [0]
  lhsNonContracting := [1]
  rhsNonContracting := [1]
  lhsBatch := []
  rhsBatch := []
  wf := dot_S1024x128_S1024x4096_S128x4096_0_0_1_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S512x8192_S128x8192_0_0_1_1_n_n : DotDims S512x128 S512x8192 S128x8192 where
  lhsContracting := [0]
  rhsContracting := [0]
  lhsNonContracting := [1]
  rhsNonContracting := [1]
  lhsBatch := []
  rhsBatch := []
  wf := dot_S512x128_S512x8192_S128x8192_0_0_1_1_n_n_wf
def dot_S256x128_S256x4096_S128x4096_0_0_1_1_n_n : DotDims S256x128 S256x4096 S128x4096 where
  lhsContracting := [0]
  rhsContracting := [0]
  lhsNonContracting := [1]
  rhsNonContracting := [1]
  lhsBatch := []
  rhsBatch := []
  wf := dot_S256x128_S256x4096_S128x4096_0_0_1_1_n_n_wf

abbrev win0_0 : Pipeline.Window sig grid0 :=
  Pipeline.Window.ofSpec (Memref.whole main_arg3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S256x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S256x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S8192x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

abbrev win1_0 : Pipeline.Window sig grid1 :=
  Pipeline.Window.ofSpec (Memref.whole main_arg7) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_2) S1024x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1_0) S1024x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v1_1) S1024x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v1_2) S4096x128.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | ⟨_ + 12, h⟩ => absurd h (Nat.not_lt.2 (Nat.le_add_left _ _))

abbrev win2_0 : Pipeline.Window sig grid2 :=
  Pipeline.Window.ofSpec (Memref.whole main_arg3) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S4096x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0_1) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S512x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_1) S128x8192.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg4) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1_0) S8192x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1_1) S256x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v2_1) S128x8192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v3_0) S256x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v3_1) S128x4096.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg5) S1024x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1_2) S4096x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v3_1) S128x4096.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S4096x4096 : Shape := ⟨2, ![4096, 4096]⟩
abbrev S8192x8192 : Shape := ⟨2, ![8192, 8192]⟩
abbrev S4096x8192 : Shape := ⟨2, ![4096, 8192]⟩
abbrev S8192x4096 : Shape := ⟨2, ![8192, 4096]⟩
abbrev S128x128 : Shape := ⟨2, ![128, 128]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S4096x128, .f32⟩
  | .hbm, ⟨3, _⟩ => ⟨S4096x4096, .f32⟩
  | .hbm, ⟨4, _⟩ => ⟨S8192x8192, .f32⟩
  | .hbm, ⟨5, _⟩ => ⟨S4096x4096, .f32⟩
  | .hbm, ⟨6, _⟩ => ⟨S4096x8192, .f32⟩
  | .hbm, ⟨7, _⟩ => ⟨S8192x4096, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S8192x4096, .f32⟩
  | .hbm, ⟨18, _⟩ => ⟨S4096x8192, .f32⟩
  | .hbm, ⟨19, _⟩ => ⟨S4096x128, .f32⟩
  | .hbm, ⟨20, _⟩ => ⟨S4096x128, .f32⟩
  | .hbm, ⟨21, _⟩ => ⟨S8192x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S8192x128, .f32⟩
  | .hbm, ⟨34, _⟩ => ⟨S4096x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S_, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S_, .f32⟩
  | .hbm, ⟨70, _⟩ => ⟨S4096x128, .f32⟩
  | .hbm, ⟨71, _⟩ => ⟨S4096x128, .f32⟩
  | .hbm, ⟨72, _⟩ => ⟨S_, .f32⟩
  | .hbm, ⟨73, _⟩ => ⟨S4096x128, .f32⟩
  | .hbm, ⟨74, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  transposes_S4096x8192_S8192x4096_1_0 : S4096x8192.Transposes [1, 0] S8192x4096
  transposes_S8192x4096_S4096x8192_1_0 : S8192x4096.Transposes [1, 0] S4096x8192
  bcast_S_S4096x128 : S_.BroadcastsInDim S4096x128 (![] : Fin 0 → Fin S4096x128.rank)
  bcast_S_S8192x128 : S_.BroadcastsInDim S8192x128 (![] : Fin 0 → Fin S8192x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []
  dot_S8192x128_S128x128_S8192x128_1_0_0_1_n_n_wf : DotDims.WF S8192x128 S128x128 S8192x128 [1] [0] [0] [1] [] []
  dot_S4096x8192_S8192x128_S4096x128_1_0_0_1_n_n_wf : DotDims.WF S4096x8192 S8192x128 S4096x128 [1] [0] [0] [1] [] []
  dot_S8192x4096_S4096x128_S8192x128_1_0_0_1_n_n_wf : DotDims.WF S8192x4096 S4096x128 S8192x128 [1] [0] [0] [1] [] []
  dot_S8192x8192_S8192x128_S8192x128_1_0_0_1_n_n_wf : DotDims.WF S8192x8192 S8192x128 S8192x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.R0Base.lean ====
/-
  Region 0 (the first sweep over the row blocks of A0 and I1): what its three cases share.

  At every grid point the body forms s = logistic(A·P00 + M·P01a) for the point's 256-row blocks A of A0 and M of I1,
  stores s·Wa and s·Wb, and adds (rows [256·i, 256·i+256) of P01b)ᵀ·M to a 128 × 8192 accumulator. The three products
  P00 = x0·W1_00, P01a = x1·W1_01, P01b = x0·W1_01 are formed once, at the first point, where the accumulator is also
  zeroed; at the last point the accumulator's transpose is stored into the third output's buffer. So there are three
  cases: the first point, a middle point, the last point.
-/
import proofs.«129582_g64467459113426_cont_9to1_m_811_15_alg».proof.Proof.Gen.Kernel.Launch
import proofs.«129582_g64467459113426_cont_9to1_m_811_15_alg».proof.Proof.Gen.Kernel.Skeleton
import proofs.«129582_g64467459113426_cont_9to1_m_811_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The rectangles the body loads and stores through: each whole buffer, and one row slice -/

abbrev rA : Rect S256x4096 := Rect.unit (s := S256x4096) ![0, 0] S256x4096.size inb_S256x4096_S256x4096_0_0
abbrev rM : Rect S256x8192 := Rect.unit (s := S256x8192) ![0, 0] S256x8192.size inb_S256x8192_S256x8192_0_0
abbrev rX0 : Rect S4096x128 := Rect.unit (s := S4096x128) ![0, 0] S4096x128.size inb_S4096x128_S4096x128_0_0
abbrev rX1 : Rect S8192x128 := Rect.unit (s := S8192x128) ![0, 0] S8192x128.size inb_S8192x128_S8192x128_0_0
abbrev rW : Rect S128x128 := Rect.unit (s := S128x128) ![0, 0] S128x128.size inb_S128x128_S128x128_0_0
abbrev rO : Rect S256x128 := Rect.unit (s := S256x128) ![0, 0] S256x128.size inb_S256x128_S256x128_0_0
abbrev rAcc : Rect S128x8192 := Rect.unit (s := S128x8192) ![0, 0] S128x8192.size inb_S128x8192_S128x8192_0_0
/-- Rows [256·i, 256·i + 256) of a 4096 × 128 buffer. -/
abbrev rSl (i : grid0.Coords) : Rect S4096x128 := Rect.unit (s := S4096x128) (k0_off1 i) S256x128.size (k0_off1_inb i)

/-- The zero offsets of a whole-buffer rectangle. -/
theorem off00 : (![0, 0] : Fin 2 → Nat) = fun _ => 0 := by
  funext a; fin_cases a <;> rfl

/-! ## What each store leaves, as a function of what the loads read -/

/-- P00 = x0·W1_00 as the first point's one whole store leaves it. -/
def sc0A (x2 : Vec F S4096x128 .f32) (x4 : Vec F S128x128 .f32) : Vec F S4096x128 .f32 :=
  View.canon [⟨rX0, k0_pay3 (View.ld x2 rX0) (View.ld x4 rW)⟩]
/-- P01a = x1·W1_01. -/
def sc1A (x3 : Vec F S8192x128 .f32) (x5 : Vec F S128x128 .f32) : Vec F S8192x128 .f32 :=
  View.canon [⟨rX1, k0_pay4 (View.ld x3 rX1) (View.ld x5 rW)⟩]
/-- P01b = x0·W1_01. -/
def sc2A (x2 : Vec F S4096x128 .f32) (x5 : Vec F S128x128 .f32) : Vec F S4096x128 .f32 :=
  View.canon [⟨rX0, k0_pay5 (View.ld x2 rX0) (View.ld x5 rW)⟩]
/-- The zeroed accumulator. -/
def acc0 : Vec F S128x8192 .f32 :=
  View.canon [⟨rAcc, k0_pay2 (F := F)⟩]
/-- s·Wa for the point's blocks A (x0) and M (x1), over scratch contents s0 = P00 and s1 = P01a. -/
def out8 (x0 : Vec F S256x4096 .f32) (x1 : Vec F S256x8192 .f32) (s0 : Vec F S4096x128 .f32) (s1 : Vec F S8192x128 .f32)
    (x6 : Vec F S128x128 .f32) : Vec F S256x128 .f32 :=
  View.canon [⟨rO, k0_pay7 (View.ld x1 rM) (View.ld x0 rA) (View.ld s0 rX0) (View.ld s1 rX1) (View.ld x6 rW)⟩]
/-- s·Wb. -/
def out9 (x0 : Vec F S256x4096 .f32) (x1 : Vec F S256x8192 .f32) (s0 : Vec F S4096x128 .f32) (s1 : Vec F S8192x128 .f32)
    (x7 : Vec F S128x128 .f32) : Vec F S256x128 .f32 :=
  View.canon [⟨rO, k0_pay8 (View.ld x1 rM) (View.ld x0 rA) (View.ld s0 rX0) (View.ld s1 rX1) (View.ld x7 rW)⟩]
/-- The accumulator after the point: what it held (s3) plus (the point's rows of s2)ᵀ·M. -/
def accNext (i : grid0.Coords) (x1 : Vec F S256x8192 .f32) (s2 : Vec F S4096x128 .f32) (s3 : Vec F S128x8192 .f32) :
    Vec F S128x8192 .f32 :=
  View.canon [⟨rAcc, k0_pay9 (View.ld x1 rM) (View.ld s3 rAcc) (View.ld s2 (rSl i))⟩]
/-- The accumulator's transpose, as the last point stores it. -/
def out10 (s3 : Vec F S128x8192 .f32) : Vec F S8192x128 .f32 :=
  View.canon [⟨rX1, k0_pay1 (View.ld s3 rAcc)⟩]

/-- One store through a whole-buffer rectangle covers the buffer, whatever came before it. -/
theorem cover_whole {S : Shape} {e : EltTy} {off : Fin S.rank → Nat} (h : off = fun _ => 0)
    (inb : ∀ a, off a + S.size a ≤ S.size a) (p : (Rect.unit (s := S) off S.size inb).shape.Idx → Elt F e)
    (L : List (View.Piece (Elt F) S e)) (y : S.Idx) :
    ∃ pc ∈ ((⟨Rect.unit (s := S) off S.size inb, p⟩ : View.Piece (Elt F) S e) :: L), y ∈ pc.1.set :=
  ⟨_, List.mem_cons_self, View.mem_set_unit_zero h inb y⟩

/-- A load of a whole buffer after a whole store into it (whatever was stored before) reads what the stores left. -/
theorem readCov_whole {S : Shape} {e : EltTy} (v : View sig .tc .vmem S e) {off : Fin S.rank → Nat} (h : off = fun _ => 0)
    (inb : ∀ a, off a + S.size a ≤ S.size a) (p : (Rect.unit (s := S) off S.size inb).shape.Idx → Elt F e)
    (L : List (View.Piece (Elt F) S e)) :
    v.readCov ((⟨Rect.unit (s := S) off S.size inb, p⟩ : View.Piece (Elt F) S e) :: L) (Rect.unit (s := S) off S.size inb).toLoadRect
      = View.ld (View.canon ((⟨Rect.unit (s := S) off S.size inb, p⟩ : View.Piece (Elt F) S e) :: L)) (Rect.unit (s := S) off S.size inb) :=
  View.readCov_eq_canon_ld v _ _ (cover_whole h inb p L)

/-- A load through any rectangle of stores made over an unwritten buffer reads what the stores left. -/
theorem readAt_junk {S : Shape} {e : EltTy} (v : View sig .tc .vmem S e) (L : List (View.Piece (Elt F) S e)) (r : Rect S) :
    v.readAt (Elt F) r.toLoadRect (v.writes (Elt F) v.junk L) = View.ld (View.canon L) r :=
  View.readAt_writes_junk_eq_canon v L r.toLoadRect

/-! ## The body's two conditions, in closed form over the grid -/

/-- The first conditional's condition (is this the first point?), from the grid coordinates. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)
/-- The second conditional's condition (is this the last point?). -/
abbrev cond0_1 (i : grid0.Coords) : Prop := k0_cond2 i = 1#1
/-- It holds at point 15 only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Windows 0–9 are never idle. -/
theorem liveAt0 : ∀ (w : Fin 11), w.val < 10 → ∀ t : Fin cfg0.N, cfg0.idle w (grid0.coords t) = false := by decide +kernel
/-- Away from the last point the third output is idle: the body stores nothing into it there, -/
theorem idleAt0_10 : ∀ t : Fin cfg0.N, ¬cond0_1 (grid0.coords t) → cfg0.idle 10 (grid0.coords t) = true := by decide +kernel
/-- and its block is not written back there. -/
theorem noFlush0_10 : ∀ t : Fin cfg0.N, ¬cond0_1 (grid0.coords t) → (cfg0.win 10).flush t = false := by decide +kernel
/-- At the last point it is live. -/
theorem liveAt0_10 : ∀ t : Fin cfg0.N, cond0_1 (grid0.coords t) → cfg0.idle 10 (grid0.coords t) = false := by decide +kernel

/-! ## The memrefs the body is called with at a point -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8192x128 .f32 := win0_10.stage (cfg0.slots t 10)
abbrev hs0_10 (t : Fin cfg0.N) : (ms0_10 t).IsWhole := hstage0_10 ((cfg0.slots t 10).cast nbuf0_10)
/-- The four scratch operands: whole buffers of the kernel's own, passed beside the windows. -/
abbrev scM0_0 : Memref sig .tc .vmem S4096x128 .f32 := Memref.whole cc0_scratch0
abbrev scM0_1 : Memref sig .tc .vmem S8192x128 .f32 := Memref.whole cc0_scratch1
abbrev scM0_2 : Memref sig .tc .vmem S4096x128 .f32 := Memref.whole cc0_scratch2
abbrev scM0_3 : Memref sig .tc .vmem S128x8192 .f32 := Memref.whole cc0_scratch3

/-- The other scoped buffers, which the body never touches. -/
abbrev restBut0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The invariant the launch hands the region, with the four scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ restBut0 c) ∗ (∃ r, prngReg c r)) := by
  unfold Pipeline.ΦA; rw [scopedRest0_split]; simp only [scM0_0, scM0_1, scM0_2, scM0_3, owns_whole]; try rfl

end Cert.Kernel.Hand
end
-- ==== Proof.K.R0RunA.lean ====
/-
  Region 0, the first point: the body's triple on whole memrefs.
-/
import proofs.«129582_g64467459113426_cont_9to1_m_811_15_alg».proof.Proof.K.R0Base
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- THE FIRST POINT (first conditional taken, second not). On whole memrefs — the eight inputs at their contents, the first
    two outputs and all four scratch operands at anything, the third output at contents handed back untouched — the body
    runs to the continuation holding the inputs as they were, the three product scratches at x0·W1_00, x1·W1_01 and
    x0·W1_01, the first two outputs at s·Wa and s·Wb over those products, and the accumulator at zero plus this point's term. -/
theorem kernelRun0_A (c : Dev nD) (i : grid0.Coords) (arg1 : Memref sig .tc .vmem S256x4096 .f32) (harg1 : arg1.IsWhole) (arg2 : Memref sig .tc .vmem S256x8192 .f32) (harg2 : arg2.IsWhole) (arg3 : Memref sig .tc .vmem S4096x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S8192x128 .f32) (harg11 : arg11.IsWhole) (arg12 : Memref sig .tc .vmem S4096x128 .f32) (harg12 : arg12.IsWhole) (arg13 : Memref sig .tc .vmem S8192x128 .f32) (harg13 : arg13.IsWhole) (arg14 : Memref sig .tc .vmem S4096x128 .f32) (harg14 : arg14.IsWhole) (arg15 : Memref sig .tc .vmem S128x8192 .f32) (harg15 : arg15.IsWhole) (hc0 : cond0_0 i) (hc1 : ¬cond0_1 i)
    (x0 : Vec F S256x4096 .f32) (x1 : Vec F S256x8192 .f32) (x2 : Vec F S4096x128 .f32) (x3 : Vec F S8192x128 .f32) (x4 x5 x6 x7 : Vec F S128x128 .f32)
    (xi10 : Vec F S8192x128 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ owns (c : Thread nD τ) arg11 fullShare xi10
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out8 x0 x1 (sc0A x2 x4) (sc1A x3 x5) x6)
            ∗ owns (c : Thread nD τ) arg10 fullShare (out9 x0 x1 (sc0A x2 x4) (sc1A x3 x5) x7)
            ∗ owns (c : Thread nD τ) arg11 fullShare xi10
            ∗ owns (c : Thread nD τ) arg12 fullShare (sc0A x2 x4)
            ∗ owns (c : Thread nD τ) arg13 fullShare (sc1A x3 x5)
            ∗ owns (c : Thread nD τ) arg14 fullShare (sc2A x2 x5)
            ∗ owns (c : Thread nD τ) arg15 fullShare (accNext i x1 (sc2A x2 x5) acc0)) -∗ K ⟨⟩))
      ⊢ wp frame (wpE (defs₀ (F := F)) Variants.none c none) E (cc0__s1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__s1_body_eq_skeleton]; unfold cc0__s1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
  subst hf0; subst hf1; subst hf2; subst hf3; subst hf4; subst hf5; subst hf6; subst hf7; subst hf10
  sl_exec (disch := first | exact hc0 | exact hc1)
  sl_unfold_run_names
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover_whole off00 _ _ _)).trans ?_
    rw [readCov_whole arg12.view off00, readCov_whole arg13.view off00]
    rfl
  isplitl [H9]
  · iexists _; isplitr
    swap; · iexact H9
    ipureintro
    refine (View.read_writes_eq_canon _ _ _ (cover_whole off00 _ _ _)).trans ?_
    rw [readCov_whole arg12.view off00, readCov_whole arg13.view off00]
    rfl
  isplitl [H10]
  · iexists f10; isplitr; · ipureintro; rfl
    iexact H10
  isplitl [HS0]
  · iexists _; isplitr
    swap; · iexact HS0
    ipureintro
    exact View.read_writes_eq_canon _ _ _ (cover_whole off00 _ _ _)
  isplitl [HS1]
  · iexists _; isplitr
    swap; · iexact HS1
    ipureintro
    exact View.read_writes_eq_canon _ _ _ (cover_whole off00 _ _ _)
  isplitl [HS2]
  · iexists _; isplitr
    swap; · iexact HS2
    ipureintro
    exact View.read_writes_eq_canon _ _ _ (cover_whole off00 _ _ _)
  iexists _; isplitr
  swap; · iexact HS3
  ipureintro
  refine (View.read_writes_eq_canon _ _ _ (cover_whole off00 _ _ _)).trans ?_
  unfold accNext
  rw [View.canon_cons_unit_zero off00, View.canon_cons_unit_zero off00]
  rw [readCov_whole arg15.view off00, readAt_junk arg14.view]
  rfl

end Cert.Kernel.Hand
end
-- ==== Proof.K.R0RunB.lean ====
/-
  Region 0, a middle point: the body's triple on whole memrefs.
-/
import proofs.«129582_g64467459113426_cont_9to1_m_811_15_alg».proof.Proof.K.R0Base
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- A MIDDLE POINT (neither conditional taken). On whole memrefs — the eight inputs at their contents, the first two outputs
    at anything, the third output (not stored into here) at contents handed back untouched, the four scratch operands at
    what the point before left — the body runs to the continuation holding the inputs as they were, the first two outputs at
    s·Wa and s·Wb, the three product scratches as they were and the accumulator with this point's term added. -/
theorem kernelRun0_B (c : Dev nD) (i : grid0.Coords) (arg1 : Memref sig .tc .vmem S256x4096 .f32) (harg1 : arg1.IsWhole) (arg2 : Memref sig .tc .vmem S256x8192 .f32) (harg2 : arg2.IsWhole) (arg3 : Memref sig .tc .vmem S4096x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S8192x128 .f32) (harg11 : arg11.IsWhole) (arg12 : Memref sig .tc .vmem S4096x128 .f32) (harg12 : arg12.IsWhole) (arg13 : Memref sig .tc .vmem S8192x128 .f32) (harg13 : arg13.IsWhole) (arg14 : Memref sig .tc .vmem S4096x128 .f32) (harg14 : arg14.IsWhole) (arg15 : Memref sig .tc .vmem S128x8192 .f32) (harg15 : arg15.IsWhole) (hc0 : ¬cond0_0 i) (hc1 : ¬cond0_1 i)
    (x0 : Vec F S256x4096 .f32) (x1 : Vec F S256x8192 .f32) (x2 : Vec F S4096x128 .f32) (x3 : Vec F S8192x128 .f32) (x4 x5 x6 x7 : Vec F S128x128 .f32)
    (xi10 : Vec F S8192x128 .f32) (s0 : Vec F S4096x128 .f32) (s1 : Vec F S8192x128 .f32) (s2 : Vec F S4096x128 .f32) (s3 : Vec F S128x8192 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ owns (c : Thread nD τ) arg11 fullShare xi10
        ∗ owns (c : Thread nD τ) arg12 fullShare s0
        ∗ owns (c : Thread nD τ) arg13 fullShare s1
        ∗ owns (c : Thread nD τ) arg14 fullShare s2
        ∗ owns (c : Thread nD τ) arg15 fullShare s3
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out8 x0 x1 s0 s1 x6)
            ∗ owns (c : Thread nD τ) arg10 fullShare (out9 x0 x1 s0 s1 x7)
            ∗ owns (c : Thread nD τ) arg11 fullShare xi10
            ∗ owns (c : Thread nD τ) arg12 fullShare s0
            ∗ owns (c : Thread nD τ) arg13 fullShare s1
            ∗ owns (c : Thread nD τ) arg14 fullShare s2
            ∗ owns (c : Thread nD τ) arg15 fullShare (accNext i x1 s2 s3)) -∗ K ⟨⟩))
      ⊢ wp frame (wpE (defs₀ (F := F)) Variants.none c none) E (cc0__s1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__s1_body_eq_skeleton]; unfold cc0__s1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, ⟨%fs3, %hfs3, HS3⟩, Hk⟩
  subst hf0; subst hf1; subst hf2; subst hf3; subst hf4; subst hf5; subst hf6; subst hf7; subst hf10; subst hfs0; subst hfs1; subst hfs2; subst hfs3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_whole off00 _ _ _)
  isplitl [H9]
  · iexists _; isplitr
    swap; · iexact H9
    ipureintro
    exact View.read_writes_eq_canon _ _ _ (cover_whole off00 _ _ _)
  isplitl [H10]
  · iexists f10; isplitr; · ipureintro; rfl
    iexact H10
  isplitl [HS0]
  · iexists fs0; isplitr; · ipureintro; rfl
    iexact HS0
  isplitl [HS1]
  · iexists fs1; isplitr; · ipureintro; rfl
    iexact HS1
  isplitl [HS2]
  · iexists fs2; isplitr; · ipureintro; rfl
    iexact HS2
  iexists _; isplitr
  swap; · iexact HS3
  ipureintro
  exact View.read_writes_eq_canon _ _ _ (cover_whole off00 _ _ _)

end Cert.Kernel.Hand
end
-- ==== Proof.K.R0RunC.lean ====
/-
  Region 0, the last point: the body's triple on whole memrefs.
-/
import proofs.«129582_g64467459113426_cont_9to1_m_811_15_alg».proof.Proof.K.R0Base
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- THE LAST POINT (first conditional not taken, second taken). As at a middle point, and then the third output's buffer,
    found at anything, is stored whole with the transpose of the accumulator as this point leaves it. -/
theorem kernelRun0_C (c : Dev nD) (i : grid0.Coords) (arg1 : Memref sig .tc .vmem S256x4096 .f32) (harg1 : arg1.IsWhole) (arg2 : Memref sig .tc .vmem S256x8192 .f32) (harg2 : arg2.IsWhole) (arg3 : Memref sig .tc .vmem S4096x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S8192x128 .f32) (harg11 : arg11.IsWhole) (arg12 : Memref sig .tc .vmem S4096x128 .f32) (harg12 : arg12.IsWhole) (arg13 : Memref sig .tc .vmem S8192x128 .f32) (harg13 : arg13.IsWhole) (arg14 : Memref sig .tc .vmem S4096x128 .f32) (harg14 : arg14.IsWhole) (arg15 : Memref sig .tc .vmem S128x8192 .f32) (harg15 : arg15.IsWhole) (hc0 : ¬cond0_0 i) (hc1 : cond0_1 i)
    (x0 : Vec F S256x4096 .f32) (x1 : Vec F S256x8192 .f32) (x2 : Vec F S4096x128 .f32) (x3 : Vec F S8192x128 .f32) (x4 x5 x6 x7 : Vec F S128x128 .f32)
    (s0 : Vec F S4096x128 .f32) (s1 : Vec F S8192x128 .f32) (s2 : Vec F S4096x128 .f32) (s3 : Vec F S128x8192 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (∃ d, owns (c : Thread nD τ) arg11 fullShare d)
        ∗ owns (c : Thread nD τ) arg12 fullShare s0
        ∗ owns (c : Thread nD τ) arg13 fullShare s1
        ∗ owns (c : Thread nD τ) arg14 fullShare s2
        ∗ owns (c : Thread nD τ) arg15 fullShare s3
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out8 x0 x1 s0 s1 x6)
            ∗ owns (c : Thread nD τ) arg10 fullShare (out9 x0 x1 s0 s1 x7)
            ∗ owns (c : Thread nD τ) arg11 fullShare (out10 (accNext i x1 s2 s3))
            ∗ owns (c : Thread nD τ) arg12 fullShare s0
            ∗ owns (c : Thread nD τ) arg13 fullShare s1
            ∗ owns (c : Thread nD τ) arg14 fullShare s2
            ∗ owns (c : Thread nD τ) arg15 fullShare (accNext i x1 s2 s3)) -∗ K ⟨⟩))
      ⊢ wp frame (wpE (defs₀ (F := F)) Variants.none c none) E (cc0__s1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__s1_body_eq_skeleton]; unfold cc0__s1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, Hk⟩
  subst hf0; subst hf1; subst hf2; subst hf3; subst hf4; subst hf5; subst hf6; subst hf7; subst hfs0; subst hfs1; subst hfs2; subst hfs3
  sl_exec (disch := first | exact hc0 | exact hc1)
  sl_unfold_run_names
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_whole off00 _ _ _)
  isplitl [H9]
  · iexists _; isplitr
    swap; · iexact H9
    ipureintro
    exact View.read_writes_eq_canon _ _ _ (cover_whole off00 _ _ _)
  isplitl [H10]
  · iexists _; isplitr
    swap; · iexact H10
    ipureintro
    refine (View.read_writes_eq_canon _ _ _ (cover_whole off00 _ _ _)).trans ?_
    rw [readCov_whole arg15.view off00]
    rfl
  isplitl [HS0]
  · iexists fs0; isplitr; · ipureintro; rfl
    iexact HS0
  isplitl [HS1]
  · iexists fs1; isplitr; · ipureintro; rfl
    iexact HS1
  isplitl [HS2]
  · iexists fs2; isplitr; · ipureintro; rfl
    iexact HS2
  iexists _; isplitr
  swap; · iexact HS3
  ipureintro
  exact View.read_writes_eq_canon _ _ _ (cover_whole off00 _ _ _)

end Cert.Kernel.Hand
end
-- ==== Proof.K.Region0.lean ====
/-
  Region 0: the proof data of its pipeline and the body obligation.

  The three product scratches are written at the first point and only read afterwards; the accumulator gains one term
  per point. So what the four scratch operands hold after the body at position n is a recursion on n, and the region's
  invariant before a point that is not the first is the scoped rest with the four at what the point before left.
  The first two outputs are written and written back at every point; the third is stored, and written back, at the
  last point only, and is idle elsewhere: there its buffer is handed back as found.
-/
import proofs.«129582_g64467459113426_cont_9to1_m_811_15_alg».proof.Proof.K.R0RunA
import proofs.«129582_g64467459113426_cont_9to1_m_811_15_alg».proof.Proof.K.R0RunB
import proofs.«129582_g64467459113426_cont_9to1_m_811_15_alg».proof.Proof.K.R0RunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window w's block at point t, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current buffer holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## What the four scratch operands hold after each point -/

/-- (P00, P01a, P01b, accumulator) after the body at position n: at the first point the three products and zero plus
    the first term; afterwards the products as they were and the accumulator with the point's term added. -/
noncomputable def scAt0 (c : Dev nD) : (n : ℕ) → n < cfg0.N → Vec F S4096x128 .f32 × Vec F S8192x128 .f32 × Vec F S4096x128 .f32 × Vec F S128x8192 .f32
  | 0, hn => (sc0A (iblk0 V c 2 ⟨0, hn⟩) (iblk0 V c 4 ⟨0, hn⟩), sc1A (iblk0 V c 3 ⟨0, hn⟩) (iblk0 V c 5 ⟨0, hn⟩), sc2A (iblk0 V c 2 ⟨0, hn⟩) (iblk0 V c 5 ⟨0, hn⟩),
      accNext (grid0.coords ⟨0, hn⟩) (iblk0 V c 1 ⟨0, hn⟩) (sc2A (iblk0 V c 2 ⟨0, hn⟩) (iblk0 V c 5 ⟨0, hn⟩)) acc0)
  | n + 1, hn => ((scAt0 c n (Nat.lt_of_succ_lt hn)).1, (scAt0 c n (Nat.lt_of_succ_lt hn)).2.1, (scAt0 c n (Nat.lt_of_succ_lt hn)).2.2.1,
      accNext (grid0.coords ⟨n + 1, hn⟩) (iblk0 V c 1 ⟨n + 1, hn⟩) (scAt0 c n (Nat.lt_of_succ_lt hn)).2.2.1 (scAt0 c n (Nat.lt_of_succ_lt hn)).2.2.2)

/-- At the first point. -/
theorem scAt0_A (c : Dev nD) (t : Fin cfg0.N) (hz : t.val = 0) :
    scAt0 V c t.val t.isLt = (sc0A (iblk0 V c 2 t) (iblk0 V c 4 t), sc1A (iblk0 V c 3 t) (iblk0 V c 5 t), sc2A (iblk0 V c 2 t) (iblk0 V c 5 t),
      accNext (grid0.coords t) (iblk0 V c 1 t) (sc2A (iblk0 V c 2 t) (iblk0 V c 5 t)) acc0) := by
  obtain ⟨n, hn⟩ := t
  cases n with
  | zero => rfl
  | succ n => exact absurd hz (Nat.succ_ne_zero n)

/-- At a later point, over what the point before left. -/
theorem scAt0_pos (c : Dev nD) (t : Fin cfg0.N) (hz : t.val ≠ 0) :
    scAt0 V c t.val t.isLt = ((scAt0 V c (t.val - 1) (Nat.lt_of_le_of_lt (Nat.sub_le _ _) t.isLt)).1, (scAt0 V c (t.val - 1) (Nat.lt_of_le_of_lt (Nat.sub_le _ _) t.isLt)).2.1, (scAt0 V c (t.val - 1) (Nat.lt_of_le_of_lt (Nat.sub_le _ _) t.isLt)).2.2.1,
      accNext (grid0.coords t) (iblk0 V c 1 t) (scAt0 V c (t.val - 1) (Nat.lt_of_le_of_lt (Nat.sub_le _ _) t.isLt)).2.2.1 (scAt0 V c (t.val - 1) (Nat.lt_of_le_of_lt (Nat.sub_le _ _) t.isLt)).2.2.2) := by
  obtain ⟨n, hn⟩ := t
  cases n with
  | zero => exact absurd rfl hz
  | succ n => rfl

/-- The region invariant before position n: before the first point what the launch hands over (every scratch at
    anything); afterwards the scoped rest with the four scratch operands at what the point before left. -/
noncomputable def PhiS0 (c : Dev nD) : (n : ℕ) → n ≤ cfg0.N → sProp 𝕄
  | 0, _ => Pipeline.ΦA spec0 c
  | n + 1, hn => iprop(iprop(iprop(owns (c : Thread nD τ) scM0_0 fullShare (scAt0 V c n hn).1 ∗ owns (c : Thread nD τ) scM0_1 fullShare (scAt0 V c n hn).2.1 ∗ owns (c : Thread nD τ) scM0_2 fullShare (scAt0 V c n hn).2.2.1 ∗ owns (c : Thread nD τ) scM0_3 fullShare (scAt0 V c n hn).2.2.2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (scAt0 V c n hn).1 ∗ owns (c : Thread nD τ) scM0_1 fullShare (scAt0 V c n hn).2.1 ∗ owns (c : Thread nD τ) scM0_2 fullShare (scAt0 V c n hn).2.2.1 ∗ owns (c : Thread nD τ) scM0_3 fullShare (scAt0 V c n hn).2.2.2) ∗ restBut0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (scAt0 V c (n - 1) (by omega)).1 ∗ owns (c : Thread nD τ) scM0_1 fullShare (scAt0 V c (n - 1) (by omega)).2.1 ∗ owns (c : Thread nD τ) scM0_2 fullShare (scAt0 V c (n - 1) (by omega)).2.2.1 ∗ owns (c : Thread nD τ) scM0_3 fullShare (scAt0 V c (n - 1) (by omega)).2.2.2) ∗ restBut0 c) ∗ (∃ r, prngReg c r)) := by
  cases n with
  | zero => exact absurd rfl hz
  | succ n => rfl

/-! ## The pipeline's proof data -/

/-- The proof data of pipeline 0 on core c: the arrays as the region finds them; after the body at point t each input's
    buffer at its block, the first two outputs at s·Wa and s·Wb over the product scratches, the third at the transpose
    of the accumulator as the point leaves it (consulted at the last point only: elsewhere the window is idle); the
    invariant above; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out8 (iblk0 V c 0 t) (iblk0 V c 1 t) (scAt0 V c t.val t.isLt).1 (scAt0 V c t.val t.isLt).2.1 (iblk0 V c 6 t)
    | ⟨9, _⟩ => out9 (iblk0 V c 0 t) (iblk0 V c 1 t) (scAt0 V c t.val t.isLt).1 (scAt0 V c t.val t.isLt).2.1 (iblk0 V c 7 t)
    | ⟨10, _⟩ => out10 (scAt0 V c t.val t.isLt).2.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out8 (iblk0 V c 0 t) (iblk0 V c 1 t) (scAt0 V c t.val t.isLt).1 (scAt0 V c t.val t.isLt).2.1 (iblk0 V c 6 t) := by dsimp only [dat0]
theorem after0_9 (c : Dev nD) (t : Fin cfg0.N) : (dat0 V c).after 9 t = out9 (iblk0 V c 0 t) (iblk0 V c 1 t) (scAt0 V c t.val t.isLt).1 (scAt0 V c t.val t.isLt).2.1 (iblk0 V c 7 t) := by dsimp only [dat0]
theorem after0_10 (c : Dev nD) (t : Fin cfg0.N) : (dat0 V c).after 10 t = out10 (scAt0 V c t.val t.isLt).2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! What the body must leave in the ten windows that are never idle. -/
theorem leaves0_0 (c : Dev nD) (t : Fin cfg0.N) :
    (dat0 V c).leavesExact 0 t = owns (c : Thread nD τ) (ms0_0 t) fullShare (iblk0 V c 0 t) := by
  unfold Dat.leavesExact; rw [liveAt0 0 (by decide) t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0 1 (by decide) t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0 2 (by decide) t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0 3 (by decide) t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0 4 (by decide) t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0 5 (by decide) t, after0_5]
theorem leaves0_6 (c : Dev nD) (t : Fin cfg0.N) :
    (dat0 V c).leavesExact 6 t = owns (c : Thread nD τ) (ms0_6 t) fullShare (iblk0 V c 6 t) := by
  unfold Dat.leavesExact; rw [liveAt0 6 (by decide) t, after0_6]
theorem leaves0_7 (c : Dev nD) (t : Fin cfg0.N) :
    (dat0 V c).leavesExact 7 t = owns (c : Thread nD τ) (ms0_7 t) fullShare (iblk0 V c 7 t) := by
  unfold Dat.leavesExact; rw [liveAt0 7 (by decide) t, after0_7]
theorem leaves0_8 (c : Dev nD) (t : Fin cfg0.N) :
    (dat0 V c).leavesExact 8 t = owns (c : Thread nD τ) (ms0_8 t) fullShare (out8 (iblk0 V c 0 t) (iblk0 V c 1 t) (scAt0 V c t.val t.isLt).1 (scAt0 V c t.val t.isLt).2.1 (iblk0 V c 6 t)) := by
  unfold Dat.leavesExact; rw [liveAt0 8 (by decide) t, after0_8]
theorem leaves0_9 (c : Dev nD) (t : Fin cfg0.N) :
    (dat0 V c).leavesExact 9 t = owns (c : Thread nD τ) (ms0_9 t) fullShare (out9 (iblk0 V c 0 t) (iblk0 V c 1 t) (scAt0 V c t.val t.isLt).1 (scAt0 V c t.val t.isLt).2.1 (iblk0 V c 7 t)) := by
  unfold Dat.leavesExact; rw [liveAt0 9 (by decide) t, after0_9]

/-! ## The body obligation, at a generic point -/

noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' memrefs hold their blocks; the closed forms say which case the point is in; the
    invariant hands the body the four scratch operands (at anything at the first point, at what the point before left
    afterwards) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6, leaves0_7, leaves0_8, leaves0_9]
  have hN : t.val < 16 := lt_of_lt_of_eq t.isLt (show cfg0.N = 16 from N_0)
  by_cases h0 : t.val % 16 = 0
  · have h1 : ¬t.val % 16 = 15 := by omega
    have hz : t.val = 0 := by omega
    rw [Dat.leavesExact_idle (dat0 V c) 10 t (idleAt0_10 t (fun h => h1 ((hcond0_1 t).mp h))) (noFlush0_10 t (fun h => h1 ((hcond0_1 t).mp h)))]
    rw [PhiS0_castSucc V c t, PhiS0_zero V c _ _ hz, PhiA0_eq, scAt0_A V c t hz]
    iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun0_A c (grid0.coords t) _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hrest Hg]
    · isplitl [HS0 HS1 HS2 HS3 Hrest]
      · isplitl [HS0 HS1 HS2 HS3]
        · isplitl [HS0]; · iexact HS0
          isplitl [HS1]; · iexact HS1
          isplitl [HS2]; · iexact HS2
          iexact HS3
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hz : t.val ≠ 0 := by omega
    by_cases h1 : t.val % 16 = 15
    · rw [show (dat0 V c).leavesExact 10 t = owns (c : Thread nD τ) (ms0_10 t) fullShare ((dat0 V c).after 10 t) from by
        unfold Dat.leavesExact; rw [liveAt0_10 t ((hcond0_1 t).mpr h1)], after0_10]
      rw [PhiS0_castSucc V c t, PhiS0_pos V c _ _ hz, scAt0_pos V c t hz]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (kernelRun0_C c (grid0.coords t) _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hrest Hg]
      · isplitl [HS0 HS1 HS2 HS3 Hrest]
        · isplitl [HS0 HS1 HS2 HS3]
          · isplitl [HS0]; · iexact HS0
            isplitl [HS1]; · iexact HS1
            isplitl [HS2]; · iexact HS2
            iexact HS3
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dat0 V c) 10 t (idleAt0_10 t (fun h => h1 ((hcond0_1 t).mp h))) (noFlush0_10 t (fun h => h1 ((hcond0_1 t).mp h)))]
      rw [PhiS0_castSucc V c t, PhiS0_pos V c _ _ hz, scAt0_pos V c t hz]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hrest Hg]
      · isplitl [HS0 HS1 HS2 HS3 Hrest]
        · isplitl [HS0 HS1 HS2 HS3]
          · isplitl [HS0]; · iexact HS0
            isplitl [HS1]; · iexact HS1
            isplitl [HS2]; · iexact HS2
            iexact HS3
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the scratch operands' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2, HS3⟩, Hrest⟩, Hg⟩
  isplitl [HS0 HS1 HS2 HS3 Hrest]
  · isplitl [HS0 HS1 HS2 HS3]
    · isplitl [HS0]; · iexists _; iexact HS0
      isplitl [HS1]; · iexists _; iexact HS1
      isplitl [HS2]; · iexists _; iexact HS2
      iexists _; iexact HS3
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand
end
-- ==== Proof.K.R1Runs.lean ====
import proofs.«129582_g64467459113426_cont_9to1_m_811_15_alg».proof.Proof.Gen.Kernel.Launch
import proofs.«129582_g64467459113426_cont_9to1_m_811_15_alg».proof.Proof.Gen.Kernel.Skeleton
import proofs.«129582_g64467459113426_cont_9to1_m_811_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: what the three cases of the body share -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- The first conditional (the carried buffers are initialised): taken at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional (the transposed accumulator is multiplied out): taken at the last point only. -/
abbrev cond1_1 (i : grid1.Coords) : Prop := k1_cond2 i = 1#1
theorem hcond1_1 : ∀ t : Fin cfg1.N, cond1_1 (grid1.coords t) ↔ t.val = 7 :=
  (by decide +kernel : ∀ t : Fin grid1.N, cond1_1 (grid1.coords t) ↔ t.val = 7)

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
/-- Off the last point nothing is stored into window 11, and it is not written back there. -/
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
/-- At the last point window 11 is stored into. -/
theorem liveAt1_11 : ∀ t : Fin cfg1.N, cond1_1 (grid1.coords t) → cfg1.idle 11 (grid1.coords t) = false := by decide +kernel

/-! ## The memrefs the body is called with -/
abbrev ms1_0 (t : Fin cfg1.N) : Memref sig .tc .vmem S1024x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1024x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x128 .f32 := win1_11.stage (cfg1.slots t 11)
abbrev hs1_11 (t : Fin cfg1.N) : (ms1_11 t).IsWhole := hstage1_11 ((cfg1.slots t 11).cast nbuf1_11)
/-- The three carried buffers, whole. -/
abbrev scM1_0 : Memref sig .tc .vmem S4096x128 .f32 := Memref.whole cc1_scratch0
abbrev scM1_1 : Memref sig .tc .vmem S8192x128 .f32 := Memref.whole cc1_scratch1
abbrev scM1_2 : Memref sig .tc .vmem S128x4096 .f32 := Memref.whole cc1_scratch2

/-- The rest of the scoped memory that the region never opens. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three carried buffers as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ rest1 (F := F) c) ∗ (∃ r, prngReg c r)) := by
  unfold Pipeline.ΦA; rw [scopedRest1_split]; simp only [scM1_0, scM1_1, scM1_2, owns_whole]; try rfl

end Cert.Kernel.Hand

end
-- ==== Proof.K.R1RunA.lean ====
import proofs.«129582_g64467459113426_cont_9to1_m_811_15_alg».proof.Proof.K.R1Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- THE FIRST POINT. The body, on whole memrefs — the nine inputs at their contents, the two row-block outputs and the three carried buffers at anything, the whole-array output at contents handed back untouched — runs to the continuation with the inputs as they were and each stored buffer with its stores written (the pieces, last first, are what the run finds). -/
noncomputable def kernelRun1_A (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i)
    (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  :
    Σ' (L9 : List (View.Piece (Elt F) S1024x128 .f32)) (L10 : List (View.Piece (Elt F) S1024x128 .f32)) (LS0 : List (View.Piece (Elt F) S4096x128 .f32)) (LS1 : List (View.Piece (Elt F) S8192x128 .f32)), { LS2 : List (View.Piece (Elt F) S128x4096 .f32) //
      ∀ (xi11 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__s2_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi11 E K => ?run⟩
  case run =>
    simp only [cc1__s2_body_eq_skeleton]; unfold cc1__s2_body_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%d14, %f14, -, H14⟩, ⟨%d15, %f15, -, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; isplitr; · ipureintro; exact harg12.read_unread _
      iexact H12
    isplitl [H13]
    · iexists _; iexact H13
    isplitl [H14]
    · iexists _; iexact H14
    iexists _; iexact H15

end Cert.Kernel.Hand

end
-- ==== Proof.K.R1RunB.lean ====
import proofs.«129582_g64467459113426_cont_9to1_m_811_15_alg».proof.Proof.K.R1Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- A MIDDLE POINT. As at the first point, but the three carried buffers come in at what the point before left; the two products are only read and the accumulator is stored once. -/
noncomputable def kernelRun1_B (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i)
    (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) :
    Σ' (L9 : List (View.Piece (Elt F) S1024x128 .f32)) (L10 : List (View.Piece (Elt F) S1024x128 .f32)), { LS2 : List (View.Piece (Elt F) S128x4096 .f32) //
      ∀ (xi11 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xi11 ∗ owns (c : Thread nD τ) arg13 fullShare xs0 ∗ owns (c : Thread nD τ) arg14 fullShare xs1 ∗ owns (c : Thread nD τ) arg15 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xi11 ∗ owns (c : Thread nD τ) arg13 fullShare xs0 ∗ owns (c : Thread nD τ) arg14 fullShare xs1 ∗ (∃ f, arg15.view.loc (c : Thread nD τ) ↦[arg15.view.set]{fullShare} arg15.view.writes (Elt F) f LS2)) -∗ K ⟨⟩))
          ⊢ wp frame (wpE (defs₀ (F := F)) Variants.none c none) E (cc1__s2_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 E K => ?run⟩
  case run =>
    simp only [cc1__s2_body_eq_skeleton]; unfold cc1__s2_body_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg14.eq_unread hf14; obtain rfl := harg15.eq_unread hf15
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    iexists _; iexact H15

end Cert.Kernel.Hand

end
-- ==== Proof.K.R1RunC.lean ====
import proofs.«129582_g64467459113426_cont_9to1_m_811_15_alg».proof.Proof.K.R1Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- THE LAST POINT. As at a middle point, and then the whole-array output, handed in at anything, is stored with the transposed accumulator multiplied out. -/
noncomputable def kernelRun1_C (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i)
    (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) :
    Σ' (L9 : List (View.Piece (Elt F) S1024x128 .f32)) (L10 : List (View.Piece (Elt F) S1024x128 .f32)) (L11 : List (View.Piece (Elt F) S4096x128 .f32)), { LS2 : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs0 ∗ owns (c : Thread nD τ) arg14 fullShare xs1 ∗ (∃ f, arg15.view.loc (c : Thread nD τ) ↦[arg15.view.set]{fullShare} arg15.view.writes (Elt F) f LS2)) -∗ K ⟨⟩))
          ⊢ wp frame (wpE (defs₀ (F := F)) Variants.none c none) E (cc1__s2_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__s2_body_eq_skeleton]; unfold cc1__s2_body_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; isplitr; · ipureintro; exact harg13.read_unread _
      iexact H13
    isplitl [H14]
    · iexists _; isplitr; · ipureintro; exact harg14.read_unread _
      iexact H14
    iexists _; iexact H15

end Cert.Kernel.Hand

end
-- ==== Proof.K.Region1.lean ====
import proofs.«129582_g64467459113426_cont_9to1_m_811_15_alg».proof.Proof.K.R1RunA
import proofs.«129582_g64467459113426_cont_9to1_m_811_15_alg».proof.Proof.K.R1RunB
import proofs.«129582_g64467459113426_cont_9to1_m_811_15_alg».proof.Proof.K.R1RunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the three cases assembled -/

/-! ## Each case's stores cover the buffers they fill -/

theorem cover1_A_9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S1024x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1 S1024x128.size (by sl_kernel_rfl) y

theorem cover1_A_10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S1024x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1 S1024x128.size (by sl_kernel_rfl) y

theorem cover1_A_s0 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S4096x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1 S4096x128.size (by sl_kernel_rfl) y

theorem cover1_A_s1 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S8192x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1 S8192x128.size (by sl_kernel_rfl) y

theorem cover1_A_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S128x4096.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1 S128x4096.size (by sl_kernel_rfl) y

theorem cover1_B_9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S1024x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1 S1024x128.size (by sl_kernel_rfl) y

theorem cover1_B_10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S1024x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1 S1024x128.size (by sl_kernel_rfl) y

theorem cover1_B_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S128x4096.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1 S128x4096.size (by sl_kernel_rfl) y

theorem cover1_C_9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S1024x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1 S1024x128.size (by sl_kernel_rfl) y

theorem cover1_C_10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S1024x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1 S1024x128.size (by sl_kernel_rfl) y

theorem cover1_C_11 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S4096x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1 S4096x128.size (by sl_kernel_rfl) y

theorem cover1_C_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S128x4096.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.2.1 S128x4096.size (by sl_kernel_rfl) y

/-! ## The cases at a point of the grid -/

/-- The first point's run, on that point's memrefs and blocks. -/
def runA1 (c : Dev nD) (t : Fin cfg1.N) (h0 : t.val = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t) (iblk1 V c 6 t) (iblk1 V c 7 t) (iblk1 V c 8 t)
/-- A middle point's run, over what the carried buffers hold. -/
def runB1 (c : Dev nD) (t : Fin cfg1.N) (h0 : t.val ≠ 0) (h1 : t.val ≠ 7) (xs0 : Vec F S4096x128 .f32) (xs1 : Vec F S8192x128 .f32) (xs2 : Vec F S128x4096 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xs0 xs1 xs2
/-- The last point's run. -/
def runC1 (c : Dev nD) (t : Fin cfg1.N) (h1 : t.val = 7) (xs0 : Vec F S4096x128 .f32) (xs1 : Vec F S8192x128 .f32) (xs2 : Vec F S128x4096 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) xs0 xs1 xs2

/-! ## What the carried buffers hold after each point -/

/-- What the first point leaves in the two products and the accumulator: it stores all three. -/
def scrInit1 (c : Dev nD) (t : Fin cfg1.N) (h0 : t.val = 0) : Vec F S4096x128 .f32 × Vec F S8192x128 .f32 × Vec F S128x4096 .f32 :=
  (View.canon (runA1 V c t h0).2.2.1, View.canon (runA1 V c t h0).2.2.2.1, View.canon (runA1 V c t h0).2.2.2.2.1)

/-- What a later point leaves, over what the point before left (`p`): the products are kept, the accumulator is stored again. -/
def scrStep1 (c : Dev nD) (t : Fin cfg1.N) (h0 : t.val ≠ 0) (p : Vec F S4096x128 .f32 × Vec F S8192x128 .f32 × Vec F S128x4096 .f32) :
    Vec F S4096x128 .f32 × Vec F S8192x128 .f32 × Vec F S128x4096 .f32 :=
  if h1 : t.val = 7 then (p.1, p.2.1, View.canon (runC1 V c t h1 p.1 p.2.1 p.2.2).2.2.2.1)
  else (p.1, p.2.1, View.canon (runB1 V c t h0 h1 p.1 p.2.1 p.2.2).2.2.1)

/-- The two products and the accumulator after point `n`, by recursion on the point. -/
def scrAt1 (c : Dev nD) : (n : ℕ) → n < cfg1.N → Vec F S4096x128 .f32 × Vec F S8192x128 .f32 × Vec F S128x4096 .f32
  | 0, hn => scrInit1 V c ⟨0, hn⟩ rfl
  | n + 1, hn => scrStep1 V c ⟨n + 1, hn⟩ (Nat.succ_ne_zero n) (scrAt1 c n (Nat.lt_of_succ_lt hn))

/-- What the point before `t` left in the carried buffers. -/
abbrev prev1 (c : Dev nD) (t : Fin cfg1.N) := scrAt1 V c (t.val - 1) (Nat.lt_of_le_of_lt (Nat.sub_le _ _) t.isLt)

theorem scrAt1_zero (c : Dev nD) (t : Fin cfg1.N) (h0 : t.val = 0) : scrAt1 V c t.val t.isLt = scrInit1 V c t h0 := by
  obtain ⟨n, hn⟩ := t
  cases n with
  | zero => rfl
  | succ n => exact absurd h0 (Nat.succ_ne_zero n)

theorem scrAt1_pos (c : Dev nD) (t : Fin cfg1.N) (h0 : t.val ≠ 0) : scrAt1 V c t.val t.isLt = scrStep1 V c t h0 (prev1 V c t) := by
  obtain ⟨n, hn⟩ := t
  cases n with
  | zero => exact absurd rfl h0
  | succ n => rfl

theorem scrAt1_A (c : Dev nD) (t : Fin cfg1.N) (h0 : t.val = 0) :
    scrAt1 V c t.val t.isLt = (View.canon (runA1 V c t h0).2.2.1, View.canon (runA1 V c t h0).2.2.2.1, View.canon (runA1 V c t h0).2.2.2.2.1) :=
  scrAt1_zero V c t h0

theorem scrAt1_B (c : Dev nD) (t : Fin cfg1.N) (h0 : t.val ≠ 0) (h1 : t.val ≠ 7) :
    scrAt1 V c t.val t.isLt = ((prev1 V c t).1, (prev1 V c t).2.1, View.canon (runB1 V c t h0 h1 (prev1 V c t).1 (prev1 V c t).2.1 (prev1 V c t).2.2).2.2.1) :=
  (scrAt1_pos V c t h0).trans (dif_neg h1)

theorem scrAt1_C (c : Dev nD) (t : Fin cfg1.N) (h0 : t.val ≠ 0) (h1 : t.val = 7) :
    scrAt1 V c t.val t.isLt = ((prev1 V c t).1, (prev1 V c t).2.1, View.canon (runC1 V c t h1 (prev1 V c t).1 (prev1 V c t).2.1 (prev1 V c t).2.2).2.2.2.1) :=
  (scrAt1_pos V c t h0).trans (dif_pos h1)

/-! ## What the outputs' buffers hold after the body at a point -/

def out9At1 (c : Dev nD) (t : Fin cfg1.N) : Vec F S1024x128 .f32 :=
  if h0 : t.val = 0 then View.canon (runA1 V c t h0).1
  else if h1 : t.val = 7 then View.canon (runC1 V c t h1 (prev1 V c t).1 (prev1 V c t).2.1 (prev1 V c t).2.2).1
  else View.canon (runB1 V c t h0 h1 (prev1 V c t).1 (prev1 V c t).2.1 (prev1 V c t).2.2).1

def out10At1 (c : Dev nD) (t : Fin cfg1.N) : Vec F S1024x128 .f32 :=
  if h0 : t.val = 0 then View.canon (runA1 V c t h0).2.1
  else if h1 : t.val = 7 then View.canon (runC1 V c t h1 (prev1 V c t).1 (prev1 V c t).2.1 (prev1 V c t).2.2).2.1
  else View.canon (runB1 V c t h0 h1 (prev1 V c t).1 (prev1 V c t).2.1 (prev1 V c t).2.2).2.1

/-- The whole-array output's buffer: stored at the last point only; elsewhere the window is idle and not written back,
    and this value is consulted by nothing. -/
def out11At1 (c : Dev nD) (t : Fin cfg1.N) : Vec F S4096x128 .f32 :=
  if h1 : t.val = 7 then View.canon (runC1 V c t h1 (prev1 V c t).1 (prev1 V c t).2.1 (prev1 V c t).2.2).2.2.1
  else View.canon (Val := Elt F) (s := S4096x128) (e := .f32) []

/-! ## The invariant -/

/-- Before the first point the class invariant; afterwards the three carried buffers at what the point before left,
    the unopened rest and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (scrAt1 V c (n - 1) (by omega)).1 ∗ owns (c : Thread nD τ) scM1_1 fullShare (scrAt1 V c (n - 1) (by omega)).2.1 ∗ owns (c : Thread nD τ) scM1_2 fullShare (scrAt1 V c (n - 1) (by omega)).2.2) ∗ rest1 (F := F) c) ∗ (∃ r, prngReg c r)) := by
  cases n with
  | zero => exact absurd rfl hz
  | succ n => rfl

/-! ## The proof data -/

/-- The arrays as the region finds them; after the body each input's buffer at its block and each output's at what the
    point's case leaves; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out9At1 V c t
    | ⟨10, _⟩ => out10At1 V c t
    | ⟨11, _⟩ => out11At1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out9At1 V c t := by dsimp only [dat1]
theorem after1_10 (c : Dev nD) (t : Fin cfg1.N) : (dat1 V c).after 10 t = out10At1 V c t := by dsimp only [dat1]
theorem after1_11 (c : Dev nD) (t : Fin cfg1.N) : (dat1 V c).after 11 t = out11At1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]
theorem leaves1_5 (c : Dev nD) (t : Fin cfg1.N) :
    (dat1 V c).leavesExact 5 t = owns (c : Thread nD τ) (ms1_5 t) fullShare ((dat1 V c).after 5 t) := by
  unfold Dat.leavesExact; rw [liveAt1_5 t]
theorem leaves1_6 (c : Dev nD) (t : Fin cfg1.N) :
    (dat1 V c).leavesExact 6 t = owns (c : Thread nD τ) (ms1_6 t) fullShare ((dat1 V c).after 6 t) := by
  unfold Dat.leavesExact; rw [liveAt1_6 t]
theorem leaves1_7 (c : Dev nD) (t : Fin cfg1.N) :
    (dat1 V c).leavesExact 7 t = owns (c : Thread nD τ) (ms1_7 t) fullShare ((dat1 V c).after 7 t) := by
  unfold Dat.leavesExact; rw [liveAt1_7 t]
theorem leaves1_8 (c : Dev nD) (t : Fin cfg1.N) :
    (dat1 V c).leavesExact 8 t = owns (c : Thread nD τ) (ms1_8 t) fullShare ((dat1 V c).after 8 t) := by
  unfold Dat.leavesExact; rw [liveAt1_8 t]
theorem leaves1_9 (c : Dev nD) (t : Fin cfg1.N) :
    (dat1 V c).leavesExact 9 t = owns (c : Thread nD τ) (ms1_9 t) fullShare ((dat1 V c).after 9 t) := by
  unfold Dat.leavesExact; rw [liveAt1_9 t]
theorem leaves1_10 (c : Dev nD) (t : Fin cfg1.N) :
    (dat1 V c).leavesExact 10 t = owns (c : Thread nD τ) (ms1_10 t) fullShare ((dat1 V c).after 10 t) := by
  unfold Dat.leavesExact; rw [liveAt1_10 t]
theorem leaves1_11 (c : Dev nD) (t : Fin cfg1.N) (h1 : t.val = 7) :
    (dat1 V c).leavesExact 11 t = owns (c : Thread nD τ) (ms1_11 t) fullShare ((dat1 V c).after 11 t) := by
  unfold Dat.leavesExact; rw [liveAt1_11 t ((hcond1_1 t).mpr h1)]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4800000 in
/-- The body at any point: the inputs' memrefs hold their blocks; the closed forms say which case the point is in; the
    invariant hands the body the carried buffers (at anything at the first point, afterwards at what the point before
    left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [leaves1_0, leaves1_1, leaves1_2, leaves1_3, leaves1_4, leaves1_5, leaves1_6, leaves1_7, leaves1_8, leaves1_9, leaves1_10]
  rw [after1_0, after1_1, after1_2, after1_3, after1_4, after1_5, after1_6, after1_7, after1_8, after1_9, after1_10]
  unfold out9At1 out10At1
  by_cases h0 : t.val = 0
  · have hn1 : ¬cond1_1 (grid1.coords t) := fun h => by have := (hcond1_1 t).mp h; omega
    rw [Dat.leavesExact_idle (dat1 V c) 11 t (idleAt1_11 t hn1) (noFlush1_11 t hn1)]
    rw [scrAt1_A V c t h0]
    simp only [dif_pos h0]
    rw [PhiS1_castSucc V c t, PhiS1_zero V c _ _ h0, PhiA1_eq]
    iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA1 V c t h0).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    iintro ⟨H0, H1, H2, H3, H4, H5, H6, H7, H8, ⟨%e9, H9⟩, ⟨%e10, H10⟩, H11, ⟨%es0, HS0⟩, ⟨%es1, HS1⟩, ⟨%es2, HS2⟩⟩
    isplitl [HS0 HS1 HS2 HR Hg]
    · isplitl [HS0 HS1 HS2 HR]
      · isplitl [HS0 HS1 HS2]
        · isplitl [HS0]
          · unfold owns; iexists _; isplitr
            swap; · iexact HS0
            ipureintro; exact View.read_writes_eq_canon _ _ _ (cover1_A_s0 _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (cover1_A_s1 _ _ _ _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_eq_canon _ _ _ (cover1_A_s2 _ _ _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (cover1_A_9 _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_eq_canon _ _ _ (cover1_A_10 _ _ _ _ _ _ _ _ _ _ _ _ _ _ _ _ _ _ _ _ _ _ _ _ _ _ _ _ _ _ _ _ _ _ _ _ _ _ _ _ _ _ _)
    iexists _; iexact H11
  · by_cases h1 : t.val = 7
    · rw [leaves1_11 V c t h1, after1_11]
      unfold out11At1
      rw [scrAt1_C V c t h0 h1]
      simp only [dif_neg h0, dif_pos h1]
      rw [PhiS1_castSucc V c t, PhiS1_pos V c _ _ h0]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC1 V c t h1 (prev1 V c t).1 (prev1 V c t).2.1 (prev1 V c t).2.2).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, ⟨%e9, H9⟩, ⟨%e10, H10⟩, ⟨%e11, H11⟩, HS0, HS1, ⟨%es2, HS2⟩⟩
      isplitl [HS0 HS1 HS2 HR Hg]
      · isplitl [HS0 HS1 HS2 HR]
        · isplitl [HS0 HS1 HS2]
          · isplitl [HS0]; · iexact HS0
            isplitl [HS1]; · iexact HS1
            unfold owns; iexists _; isplitr
            swap; · iexact HS2
            ipureintro; exact View.read_writes_eq_canon _ _ _ (cover1_C_s2 _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (cover1_C_9 _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_eq_canon _ _ _ (cover1_C_10 _ _ _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_eq_canon _ _ _ (cover1_C_11 _ _ _ _ _ _ _ _ _ _ _ _ _ _ _ _ _ _ _ _ _ _ _ _ _ _ _ _ _ _ _ _ _ _ _ _ _ _ _ _ _ _ _ _ _ _)
    · have hn1 : ¬cond1_1 (grid1.coords t) := fun h => h1 ((hcond1_1 t).mp h)
      rw [Dat.leavesExact_idle (dat1 V c) 11 t (idleAt1_11 t hn1) (noFlush1_11 t hn1)]
      rw [scrAt1_B V c t h0 h1]
      simp only [dif_neg h0, dif_neg h1]
      rw [PhiS1_castSucc V c t, PhiS1_pos V c _ _ h0]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB1 V c t h0 h1 (prev1 V c t).1 (prev1 V c t).2.1 (prev1 V c t).2.2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [HS0]; · iexact HS0
      isplitl [HS1]; · iexact HS1
      isplitl [HS2]; · iexact HS2
      iintro ⟨H0, H1, H2, H3, H4, H5, H6, H7, H8, ⟨%e9, H9⟩, ⟨%e10, H10⟩, H11, HS0, HS1, ⟨%es2, HS2⟩⟩
      isplitl [HS0 HS1 HS2 HR Hg]
      · isplitl [HS0 HS1 HS2 HR]
        · isplitl [HS0 HS1 HS2]
          · isplitl [HS0]; · iexact HS0
            isplitl [HS1]; · iexact HS1
            unfold owns; iexists _; isplitr
            swap; · iexact HS2
            ipureintro; exact View.read_writes_eq_canon _ _ _ (cover1_B_s2 _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (cover1_B_9 _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_eq_canon _ _ _ (cover1_B_10 _ _ _ _ _ _ _ _ _ _ _ _ _ _ _ _ _ _ _ _ _ _ _ _ _ _ _ _ _ _ _ _ _ _ _ _ _ _ _ _ _ _ _ _ _ _)
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

theorem hout1 (c : Dev nD) : (dat1 V c).Φ (Fin.last cfg1.N) ⊢ Pipeline.ΦA spec1 c :=
  Phi_out1 V c _ (by rw [Fin.val_last]; have : cfg1.N = 8 := N_1; omega)

end Cert.Kernel.Hand

end
-- ==== Proof.K.R2Body.lean ====
import proofs.«129582_g64467459113426_cont_9to1_m_811_15_alg».proof.Proof.Gen.Kernel.Launch
import proofs.«129582_g64467459113426_cont_9to1_m_811_15_alg».proof.Proof.Gen.Kernel.Skeleton
import proofs.«129582_g64467459113426_cont_9to1_m_811_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: one sweep over the row blocks of `A0` and `I1`

At each of the 8 grid points the body stores the product of the current 512-row block of `A0` with `u00`
into the first result's block, and adds (u01 block)ᵀ · (I1 block) to an accumulator of shape 128 × 8192 kept in
the second result's staging buffer; at the first point the accumulator is zeroed first. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it is fetched there:
    unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it is fetched there:
    unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it is fetched there:
    unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it is fetched there:
    unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The zeroing condition -/

/-- The body's conditional: the grid coordinate is zero. -/
abbrev cond2_0 (i : grid2.Coords) : Prop := (Scalar.cmpi .ne (Scalar.extui (Scalar.cmpi .eq (BitVec.ofNat 32 (i 0).val) 0#32)) 0#32) = 1#1
/-- It holds at the first point only (decided over the 8 points). -/
theorem hcond2_0 : ∀ t : Fin cfg2.N, cond2_0 (grid2.coords t) ↔ t.val % 8 = 0 :=
  (by decide +kernel : ∀ t : Fin grid2.N, cond2_0 (grid2.coords t) ↔ t.val % 8 = 0)

/-! ## Whole-buffer accesses -/

theorem hz2 : (![0, 0] : Fin 2 → Nat) = fun _ => 0 := funext fun a => by fin_cases a <;> rfl

/-- A list of writes whose last write is of the whole buffer covers it. -/
theorem cover_head_whole2 {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- After writes whose last is of the whole buffer, the buffer reads as that write's payload. -/
theorem read_writes_head_whole2 {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (cover_head_whole2 h inb w L), View.canon_cons_unit_zero h]

/-! ## The body's triple, case by case -/

set_option maxHeartbeats 1000000 in
/-- FIRST POINT. On whole staging buffers, the inputs' at contents `x0 … x3` and the outputs' at anything, the body
    leaves the inputs as they were, the first output at `x0 · x2` (`k2_pay2`) and the accumulator at
    `0 + x3ᵀ · x1` (`k2_pay3` of the zero block `k2_pay1`). -/
theorem sound_kernel2_A (c : Dev nD) (E : Set ℕ) (i : grid2.Coords) (arg1 : Memref sig .tc .vmem S512x4096 .f32) (harg1 : arg1.IsWhole) (arg2 : Memref sig .tc .vmem S512x8192 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x8192 .f32) (harg6 : arg6.IsWhole) (hc : cond2_0 i)
    (x0 : Vec F S512x4096 .f32) (x1 : Vec F S512x8192 .f32) (x2 : Vec F S4096x128 .f32) (x3 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay2 x0 x2) ∗ owns (c : Thread nD τ) arg6 fullShare (k2_pay3 (k2_pay1 (F := F)) x3 x1)) -∗ K ⟨⟩))
      ⊢ wp frame (wpE (defs₀ (F := F)) Variants.none c none) E (cc2__s4_body i arg1 harg1 arg2 harg2 arg3 harg3 arg4 harg4 arg5 harg5 arg6 harg6) K := by
  simp only [cc2__s4_body_eq_skeleton]; unfold cc2__s4_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_head_whole2 _ _ hz2]
    simp only [View.readAt_eq_ld, View.ld_unit_zero (S := S512x4096) hz2, View.ld_unit_zero (S := S4096x128) hz2]
  iexists _; isplitr
  swap; · iexact H5
  ipureintro
  rw [read_writes_head_whole2 _ _ hz2]
  sl_unfold_words
  rw [View.readCov_unit_zero _ hz2]
  simp only [View.readAt_eq_ld, View.ld_unit_zero (S := S512x128) hz2, View.ld_unit_zero (S := S512x8192) hz2]

set_option maxHeartbeats 1000000 in
/-- LATER POINTS. The same with the accumulator's buffer at known contents `acc`: it ends at `acc + x3ᵀ · x1`. -/
theorem sound_kernel2_B (c : Dev nD) (E : Set ℕ) (i : grid2.Coords) (arg1 : Memref sig .tc .vmem S512x4096 .f32) (harg1 : arg1.IsWhole) (arg2 : Memref sig .tc .vmem S512x8192 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x8192 .f32) (harg6 : arg6.IsWhole) (hc : ¬cond2_0 i)
    (x0 : Vec F S512x4096 .f32) (x1 : Vec F S512x8192 .f32) (x2 : Vec F S4096x128 .f32) (x3 : Vec F S512x128 .f32)
    (acc : Vec F S128x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay2 x0 x2) ∗ owns (c : Thread nD τ) arg6 fullShare (k2_pay3 acc x3 x1)) -∗ K ⟨⟩))
      ⊢ wp frame (wpE (defs₀ (F := F)) Variants.none c none) E (cc2__s4_body i arg1 harg1 arg2 harg2 arg3 harg3 arg4 harg4 arg5 harg5 arg6 harg6) K := by
  simp only [cc2__s4_body_eq_skeleton]; unfold cc2__s4_body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_head_whole2 _ _ hz2]
    simp only [View.readAt_eq_ld, View.ld_unit_zero (S := S512x4096) hz2, View.ld_unit_zero (S := S4096x128) hz2]
  iexists _; isplitr
  swap; · iexact H5
  ipureintro
  rw [read_writes_head_whole2 _ _ hz2]
  simp only [View.readAt_eq_ld, View.ld_unit_zero (S := S128x8192) hz2, View.ld_unit_zero (S := S512x128) hz2, View.ld_unit_zero (S := S512x8192) hz2]

end Cert.Kernel.Hand
end
-- ==== Proof.K.Region2.lean ====
import proofs.«129582_g64467459113426_cont_9to1_m_811_15_alg».proof.Proof.K.R2Body
import proofs.«129582_g64467459113426_cont_9to1_m_811_15_alg».proof.Proof.Gen.Kernel.Launch
import proofs.«129582_g64467459113426_cont_9to1_m_811_15_alg».proof.Proof.Gen.Kernel.Skeleton
import proofs.«129582_g64467459113426_cont_9to1_m_811_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: the proof data and the body obligation -/

/-! ## What the accumulator's buffer holds after each point -/

/-- The accumulator after the body at position `n`: at the first point the zero block plus that point's product
    (u01 block)ᵀ · (I1 block); afterwards what the point before left plus this point's product. The buffer is not
    written back between points, so each point finds what the one before left. -/
def outsAt2 (c : Dev nD) : (n : ℕ) → n < cfg2.N → Vec F S128x8192 .f32
  | 0, hn => k2_pay3 (k2_pay1 (F := F)) (iblk2 V c 3 ⟨0, hn⟩) (iblk2 V c 1 ⟨0, hn⟩)
  | n + 1, hn => k2_pay3 (outsAt2 c n (Nat.lt_of_succ_lt hn)) (iblk2 V c 3 ⟨n + 1, hn⟩) (iblk2 V c 1 ⟨n + 1, hn⟩)

/-- At the first point. -/
theorem outsAt2_zero (c : Dev nD) (t : Fin cfg2.N) (h0 : t.val = 0) :
    outsAt2 V c t.val t.isLt = k2_pay3 (k2_pay1 (F := F)) (iblk2 V c 3 t) (iblk2 V c 1 t) := by
  obtain ⟨n, hn⟩ := t
  cases n with
  | zero => rfl
  | succ n => exact absurd h0 (Nat.succ_ne_zero n)

/-- At a later point. -/
theorem outsAt2_succ (c : Dev nD) (t : Fin cfg2.N) (h0 : t.val ≠ 0) :
    outsAt2 V c t.val t.isLt
      = k2_pay3 (outsAt2 V c (t.val - 1) (Nat.lt_of_le_of_lt (Nat.sub_le _ _) t.isLt)) (iblk2 V c 3 t) (iblk2 V c 1 t) := by
  obtain ⟨n, hn⟩ := t
  cases n with
  | zero => exact absurd rfl h0
  | succ n => rfl

/-! ## The proof data -/

/-- The proof data of the sweep on core `c`: the arrays as the region finds them; after the body at point `t` each
    input's buffer at its block, the first result's at the product of the `A0` block with `u00`, the accumulator's at
    `outsAt2`; the invariant is the scoped rest and the random-bit register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay2 (iblk2 V c 0 t) (iblk2 V c 2 t)
    | ⟨5, _⟩ => outsAt2 V c t.val t.isLt
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay2 (iblk2 V c 0 t) (iblk2 V c 2 t) := by dsimp only [dat2]
theorem after2_5 (c : Dev nD) (t : Fin cfg2.N) : (dat2 V c).after 5 t = outsAt2 V c t.val t.isLt := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a later point the accumulator's staging buffer holds what the body left at the point before: the buffer is
    written back after the last point only, the window is never idle and its block is whole. -/
theorem before2_5_B (c : Dev nD) (t : Fin cfg2.N) (h0 : t.val ≠ 0) (d) :
    (dat2 V c).before 5 t d = outsAt2 V c (t.val - 1) (Nat.lt_of_le_of_lt (Nat.sub_le _ _) t.isLt) := by
  have hN : t.val < 8 := lt_of_lt_of_eq t.isLt (show cfg2.N = 8 from N_2)
  rw [Dat.before_out_kept _ 5 rfl t h0 (Bool.eq_false_iff.mpr fun h => by have := (flush2_5 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 800000 in
/-- The body at any point: the inputs' buffers hold their blocks; at the first point the zeroing case runs, at a later
    point the accumulator's buffer holds what the point before left and the adding case runs; the invariant and the
    core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  by_cases h0 : t.val = 0
  · rw [outsAt2_zero V c t h0]
    iintro ⟨HΦ, Ho, ⟨%d0, H0⟩, ⟨%d1, H1⟩, ⟨%d2, H2⟩, ⟨%d3, H3⟩, ⟨%d4, H4⟩, ⟨%d5, H5⟩⟩
    iapply (sound_kernel2_A c Set.univ (grid2.coords t) _ _ _ _ _ _ _ _ _ _ _ _ ((hcond2_0 t).mpr (by rw [h0]))
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt2_succ V c t h0]
    simp only [before2_5_B V c t h0]
    have hN : t.val < 8 := lt_of_lt_of_eq t.isLt (show cfg2.N = 8 from N_2)
    iintro ⟨HΦ, Ho, ⟨%d0, H0⟩, ⟨%d1, H1⟩, ⟨%d2, H2⟩, ⟨%d3, H3⟩, ⟨%d4, H4⟩, ⟨%d5, H5⟩⟩
    iapply (sound_kernel2_B c Set.univ (grid2.coords t) _ _ _ _ _ _ _ _ _ _ _ _ (fun h => h0 (by have := (hcond2_0 t).mp h; omega))
      (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is the scoped rest and the random-bit register as the region finds them, -/
theorem hin2 (c : Dev nD) : Pipeline.ΦA spec2 c ⊢ (dat2 V c).Φ 0 := .rfl

/-- and so it is after the last. -/
theorem hout2 (c : Dev nD) : (dat2 V c).Φ (Fin.last cfg2.N) ⊢ Pipeline.ΦA spec2 c := .rfl

end Cert.Kernel.Hand
end
-- ==== Proof.K.R3Runs.lean ====
import proofs.«129582_g64467459113426_cont_9to1_m_811_15_alg».proof.Proof.Gen.Kernel.Launch
import proofs.«129582_g64467459113426_cont_9to1_m_811_15_alg».proof.Proof.Gen.Kernel.Skeleton
import proofs.«129582_g64467459113426_cont_9to1_m_811_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The fourth sweep (grid of 32 row blocks of 256 rows): what its modules share -/

/-- Window `w`'s block at point `t`, read off its array as the sweep finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the array at every point, whether or not it was fetched
    there: a window that is not fetched has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block of the array at every point, whether or not it was fetched
    there: a window that is not fetched has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block of the array at every point, whether or not it was fetched
    there: a window that is not fetched has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block of the array at every point, whether or not it was fetched
    there: a window that is not fetched has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block of the array at every point, whether or not it was fetched
    there: a window that is not fetched has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The branch on the first point -/

/-- The condition of the body's one conditional (zero the accumulator), from the grid coordinate. -/
abbrev cond3_0 (i : grid3.Coords) : Prop := (Scalar.cmpi .ne (Scalar.extui (Scalar.cmpi .eq (BitVec.ofNat 32 (i 0).val) 0#32)) 0#32) = 1#1
/-- It holds at the first point only — decided over the 32 points. -/
theorem hcond3_0 : ∀ t : Fin cfg3.N, cond3_0 (grid3.coords t) ↔ t.val = 0 :=
  (by decide +kernel : ∀ t : Fin grid3.N, cond3_0 (grid3.coords t) ↔ t.val = 0)

/-! ## The staging buffers at a point -/

/-- One staging buffer of each output window, through which its contents are stated (the choice does not matter). -/
abbrev VO3_5 : View sig .tc .vmem S256x128 .f32 := (Memref.whole cc3_stg5_0 : Memref sig .tc .vmem S256x128 .f32).view
abbrev VO3_6 : View sig .tc .vmem S128x4096 .f32 := (Memref.whole cc3_stg6_0 : Memref sig .tc .vmem S128x4096 .f32).view
abbrev ms3_0 (t : Fin cfg3.N) : Memref sig .tc .vmem S256x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8192x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x8192 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x4096 .f32 := win3_6.stage (cfg3.slots t 6)
abbrev hs3_6 (t : Fin cfg3.N) : (ms3_6 t).IsWhole := hstage3_6 ((cfg3.slots t 6).cast nbuf3_6)

end Cert.Kernel.Hand

end
-- ==== Proof.K.R3RunA.lean ====
import proofs.«129582_g64467459113426_cont_9to1_m_811_15_alg».proof.Proof.K.R3Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 2000000 in
/-- The body at the FIRST point (the conditional taken: the accumulator is zeroed first). On whole staging buffers — the five
    inputs' at their contents, the two outputs' at anything — it runs to the continuation holding the inputs' as they were and each
    output's buffer with the stores' pieces written (last store first); the pieces are found by running the body's memory
    operations in order. -/
noncomputable def kernelRun3_A (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) :
    Σ' (L5 : List (View.Piece (Elt F) S256x128 .f32)), { L6 : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc3__s5_body i arg1 harg1 arg2 harg2 arg3 harg3 arg4 harg4 arg5 harg5 arg6 harg6 arg7 harg7) K } := by
  refine ⟨?_, ?_, fun E K => ?run⟩
  case run =>
    simp only [cc3__s5_body_eq_skeleton]; unfold cc3__s5_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

end Cert.Kernel.Hand

end
-- ==== Proof.K.R3RunB.lean ====
import proofs.«129582_g64467459113426_cont_9to1_m_811_15_alg».proof.Proof.K.R3RunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 2000000 in
/-- The body at a LATER point (the conditional not taken). On whole staging buffers — the five inputs' at their contents, the
    row-block output's at anything, the accumulator's at what the point before left (`xo6`) — it runs to the continuation holding the
    inputs' as they were and each output's buffer with the stores' pieces written (last store first). -/
noncomputable def kernelRun3_B (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) :
    Σ' (L5 : List (View.Piece (Elt F) S256x128 .f32)), { L6 : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc3__s5_body i arg1 harg1 arg2 harg2 arg3 harg3 arg4 harg4 arg5 harg5 arg6 harg6 arg7 harg7) K } := by
  refine ⟨?_, ?_, fun E K => ?run⟩
  case run =>
    simp only [cc3__s5_body_eq_skeleton]; unfold cc3__s5_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

end Cert.Kernel.Hand

end
-- ==== Proof.K.Region3.lean ====
import proofs.«129582_g64467459113426_cont_9to1_m_811_15_alg».proof.Proof.K.R3RunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The fourth sweep: what each point leaves, the proof data, the body obligation

At point `t` the body reads row block `t` (256 rows) of the 8192×8192 and the 8192×4096 operands and of the second
8192×128 operand, the whole first 8192×128 operand and columns [256·t, 256·t + 256) of the 128×8192 addend; it stores the
row-block output (written back at every point) and adds into the 128×4096 accumulator, which stays in its staging buffer
from the first point to the last and is written back once, after the last. -/

/-- The row-block output's stores at the first point tile its 256×128 buffer, so they cover it. -/
theorem cover3_A_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) (y : S256x128.Idx) :
    ∃ pc ∈ (kernelRun3_A c i arg1 harg1 arg2 harg2 arg3 harg3 arg4 harg4 arg5 harg5 arg6 harg6 arg7 harg7 hc0 x0 x1 x2 x3 x4).1, y ∈ pc.1.set :=
  View.cover_of_tiledL (kernelRun3_A c i arg1 harg1 arg2 harg2 arg3 harg3 arg4 harg4 arg5 harg5 arg6 harg6 arg7 harg7 hc0 x0 x1 x2 x3 x4).1 S256x128.size (by sl_kernel_rfl) y

/-- What the body leaves in the row-block output's buffer at the first point: its stores read back. -/
def out3_A_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) : Vec F S256x128 .f32 :=
  VO3_5.read (Elt F) (VO3_5.writes (Elt F) VO3_5.junk (kernelRun3_A c i arg1 harg1 arg2 harg2 arg3 harg3 arg4 harg4 arg5 harg5 arg6 harg6 arg7 harg7 hc0 x0 x1 x2 x3 x4).1)

/-- The accumulator's stores at the first point tile its 128×4096 buffer, so they cover it. -/
theorem cover3_A_6 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) (y : S128x4096.Idx) :
    ∃ pc ∈ (kernelRun3_A c i arg1 harg1 arg2 harg2 arg3 harg3 arg4 harg4 arg5 harg5 arg6 harg6 arg7 harg7 hc0 x0 x1 x2 x3 x4).2.1, y ∈ pc.1.set :=
  View.cover_of_tiledL (kernelRun3_A c i arg1 harg1 arg2 harg2 arg3 harg3 arg4 harg4 arg5 harg5 arg6 harg6 arg7 harg7 hc0 x0 x1 x2 x3 x4).2.1 S128x4096.size (by sl_kernel_rfl) y

/-- What the body leaves in the accumulator's buffer at the first point: its stores read back. -/
def out3_A_6 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) : Vec F S128x4096 .f32 :=
  VO3_6.read (Elt F) (VO3_6.writes (Elt F) VO3_6.junk (kernelRun3_A c i arg1 harg1 arg2 harg2 arg3 harg3 arg4 harg4 arg5 harg5 arg6 harg6 arg7 harg7 hc0 x0 x1 x2 x3 x4).2.1)

/-- The row-block output's stores at a later point tile its 256×128 buffer, so they cover it. -/
theorem cover3_B_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) (y : S256x128.Idx) :
    ∃ pc ∈ (kernelRun3_B c i arg1 harg1 arg2 harg2 arg3 harg3 arg4 harg4 arg5 harg5 arg6 harg6 arg7 harg7 hc0 x0 x1 x2 x3 x4 xo6).1, y ∈ pc.1.set :=
  View.cover_of_tiledL (kernelRun3_B c i arg1 harg1 arg2 harg2 arg3 harg3 arg4 harg4 arg5 harg5 arg6 harg6 arg7 harg7 hc0 x0 x1 x2 x3 x4 xo6).1 S256x128.size (by sl_kernel_rfl) y

/-- What the body leaves in the row-block output's buffer at a later point: its stores read back. -/
def out3_B_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) : Vec F S256x128 .f32 :=
  VO3_5.read (Elt F) (VO3_5.writes (Elt F) VO3_5.junk (kernelRun3_B c i arg1 harg1 arg2 harg2 arg3 harg3 arg4 harg4 arg5 harg5 arg6 harg6 arg7 harg7 hc0 x0 x1 x2 x3 x4 xo6).1)

/-- The accumulator's stores at a later point tile its 128×4096 buffer, so they cover it. -/
theorem cover3_B_6 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) (y : S128x4096.Idx) :
    ∃ pc ∈ (kernelRun3_B c i arg1 harg1 arg2 harg2 arg3 harg3 arg4 harg4 arg5 harg5 arg6 harg6 arg7 harg7 hc0 x0 x1 x2 x3 x4 xo6).2.1, y ∈ pc.1.set :=
  View.cover_of_tiledL (kernelRun3_B c i arg1 harg1 arg2 harg2 arg3 harg3 arg4 harg4 arg5 harg5 arg6 harg6 arg7 harg7 hc0 x0 x1 x2 x3 x4 xo6).2.1 S128x4096.size (by sl_kernel_rfl) y

/-- What the body leaves in the accumulator's buffer at a later point: its stores read back. -/
def out3_B_6 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) : Vec F S128x4096 .f32 :=
  VO3_6.read (Elt F) (VO3_6.writes (Elt F) VO3_6.junk (kernelRun3_B c i arg1 harg1 arg2 harg2 arg3 harg3 arg4 harg4 arg5 harg5 arg6 harg6 arg7 harg7 hc0 x0 x1 x2 x3 x4 xo6).2.1)

/-! ## What the accumulator holds after each point -/

/-- The accumulator's buffer after the body at position `n`: at the first point what the zeroing case leaves; afterwards what
    the adding case leaves over what the point before left (the buffer is not written back in between). -/
def outsAt3 (c : Dev nD) : (n : ℕ) → n < cfg3.N → Vec F S128x4096 .f32
  | 0, hn => out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) ((hcond3_0 ⟨0, hn⟩).mpr rfl) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn => out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (fun h => Nat.succ_ne_zero n ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn))

/-- At the first point: the zeroing case's contents. -/
theorem outsAt3_A (c : Dev nD) (t : Fin cfg3.N) (h0 : t.val = 0) :
    outsAt3 V c t.val t.isLt = out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t) := by
  obtain ⟨n, hn⟩ := t
  cases n with
  | zero => exact rfl
  | succ n => exact absurd h0 (Nat.succ_ne_zero n)

/-- At a later point: the adding case's contents, over what the point before left. -/
theorem outsAt3_B (c : Dev nD) (t : Fin cfg3.N) (h0 : ¬t.val = 0) :
    outsAt3 V c t.val t.isLt = out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)) := by
  obtain ⟨n, hn⟩ := t
  cases n with
  | zero => exact absurd rfl h0
  | succ n => exact rfl

/-- The row-block output's buffer after the body at point `t`: the case of the point, run on the point's blocks. -/
def out5At3 (c : Dev nD) (t : Fin cfg3.N) : Vec F S256x128 .f32 :=
  if h0 : t.val = 0 then
    out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t)
  else
    out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt))

theorem out5At3_A (c : Dev nD) (t : Fin cfg3.N) (h0 : t.val = 0) :
    out5At3 V c t = out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t) := by
  unfold out5At3; exact dif_pos h0

theorem out5At3_B (c : Dev nD) (t : Fin cfg3.N) (h0 : ¬t.val = 0) :
    out5At3 V c t = out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)) := by
  unfold out5At3; exact dif_neg h0

/-! ## The proof data -/

/-- The sweep's proof data on core `c`: the arrays as the sweep finds them; after the body at point `t` each input's buffer
    at its block, the row-block output's at `out5At3`, the accumulator's at `outsAt3`; the invariant: the scoped buffers
    that are no staging buffer and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out5At3 V c t
    | ⟨6, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out5At3 V c t := by dsimp only [dat3]
theorem after3_6 (c : Dev nD) (t : Fin cfg3.N) : (dat3 V c).after 6 t = outsAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- At a later point the accumulator's buffer holds what the body left at the point before: the buffer is written back after
    the last point only, and the window is never idle and never cut. -/
theorem before3_6_B (c : Dev nD) (t : Fin cfg3.N) (h0 : ¬t.val = 0) (d) :
    (dat3 V c).before 6 t d = outsAt3 V c (t.val - 1) (Nat.lt_of_le_of_lt (Nat.sub_le _ _) t.isLt) := by
  have hN : t.val < 32 := lt_of_lt_of_eq t.isLt (show cfg3.N = 32 from N_3)
  rw [Dat.before_out_kept _ 6 rfl t h0 (Bool.eq_false_iff.mpr fun h => by have := (flush3_6 _).mp h; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t))

set_option maxHeartbeats 1600000 in
/-- The body at any point: the inputs' buffers hold their blocks; the point is the first or a later one; at a later one the
    accumulator's buffer holds what the point before left; so the case's run applies. The invariant passes through unread;
    the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  by_cases h0 : t.val = 0
  · rw [outsAt3_A V c t h0, out5At3_A V c t h0]
    unfold out3_A_5 out3_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ ((hcond3_0 t).mpr h0) (iblk3 V c 0 t) (iblk3 V c 1 t) (iblk3 V c 2 t) (iblk3 V c 3 t) (iblk3 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover3_A_5 c _ _ _ _ _ _ _ _ _ _ _ _ _ _ _ _ _ _ _ _ _)
    unfold owns; iexists _; isplitr
    swap; · iexact H6
    ipureintro; exact View.read_writes_of_cover _ _ _ _ _ (cover3_A_6 c _ _ _ _ _ _ _ _ _ _ _ _ _ _ _ _ _ _ _ _ _)
  · rw [outsAt3_B V c t h0, out5At3_B V c t h0]
    simp only [before3_6_B V c t h0]
    unfold out3_B_5 out3_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun3_B c (grid3.coords t) _ _ _ _ _ _ _ _ _ _ _ _ _ _ (fun h => h0 ((hcond3_0 t).mp h)) (iblk3 V c 0 t) (iblk3 V c 1 t) (iblk3 V c 2 t) (iblk3 V c 3 t) (iblk3 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover3_B_5 c _ _ _ _ _ _ _ _ _ _ _ _ _ _ _ _ _ _ _ _ _ _)
    unfold owns; iexists _; isplitr
    swap; · iexact H6
    ipureintro; exact View.read_writes_of_cover _ _ _ _ _ (cover3_B_6 c _ _ _ _ _ _ _ _ _ _ _ _ _ _ _ _ _ _ _ _ _ _)

/-- The body obligation, at every point. -/
theorem body_obligation3 (c : Dev nD) : BodyObligation (dat3 (F := F) V c) (defs₀ (F := F)) Variants.none () Set.univ := fun t => by
  rw [bigSep_W3, bigSep_W3]
  exact sound_body3 V c t

/-- The invariant at the first position is the class invariant, -/
theorem hin3 (c : Dev nD) : Pipeline.ΦA spec3 c ⊢ (dat3 V c).Φ 0 := by
  dsimp only [dat3]; exact .rfl

/-- and at the last. -/
theorem hout3 (c : Dev nD) : (dat3 V c).Φ (Fin.last cfg3.N) ⊢ Pipeline.ΦA spec3 c := by
  dsimp only [dat3]; exact .rfl

end Cert.Kernel.Hand

end
-- ==== Proof.K.Region4.lean ====
import proofs.«129582_g64467459113426_cont_9to1_m_811_15_alg».proof.Proof.Gen.Kernel.Launch
import proofs.«129582_g64467459113426_cont_9to1_m_811_15_alg».proof.Proof.Gen.Kernel.Skeleton
import proofs.«129582_g64467459113426_cont_9to1_m_811_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the row sweep over the 4096 × 4096 matrix, logistic (addendᵀ block + row block · right factor)

Four windows. Window 0 is a 1024 × 4096 row block of the big matrix, moving with the point. Windows 1 (the 4096 × 128
right factor) and 2 (the 128 × 4096 transposed addend) are whole arrays whose block index never moves. Window 3 is the
1024 × 128 row block of the result, written back at every point. The body reads columns [1024·i, 1024·i + 1024) of
window 2 at point i. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, for any proof data whose array is the entry
    contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 likewise: fetched at the first point only, its block index never moves afterwards. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole row block of the big matrix. -/
abbrev r4_0 : Rect S1024x4096 := Rect.unit (s := S1024x4096) ![0, 0] S1024x4096.size inb_S1024x4096_S1024x4096_0_0
/-- The whole right factor. -/
abbrev r4_1 : Rect S4096x128 := Rect.unit (s := S4096x128) ![0, 0] S4096x128.size inb_S4096x128_S4096x128_0_0
/-- The 128 × 1024 column band of the transposed addend that point `i` reads: columns from 1024·i on. -/
abbrev r4_2 (i : grid4.Coords) : Rect S128x4096 := Rect.unit (s := S128x4096) (k4_off1 i) S128x1024.size (k4_off1_inb i)
/-- The whole result block. -/
abbrev r4_3 : Rect S1024x128 := Rect.unit (s := S1024x128) ![0, 0] S1024x128.size inb_S1024x128_S1024x128_0_0

/-! ## What the body leaves in the output window's buffer -/

/-- Window 3's buffer after the body at grid coordinates `i`, from the input windows' blocks: its one store. -/
def out4_3 (i : grid4.Coords) (x0 : Vec F S1024x4096 .f32) (x1 : Vec F S4096x128 .f32) (x2 : Vec F S128x4096 .f32) : Vec F S1024x128 .f32 :=
  View.canon [⟨r4_3, k4_pay1 (View.ld x2 (r4_2 i)) (View.ld x0 r4_0) (View.ld x1 r4_1)⟩]

/-- The one store is the whole buffer, so it covers it. -/
theorem cover4_3 (p0 : Vec F S1024x128 .f32) (y : S1024x128.Idx) :
    ∃ pc ∈ ([⟨r4_3, p0⟩] : List (View.Piece (Elt F) S1024x128 .f32)), y ∈ pc.1.set :=
  View.cover_of_tiled [⟨r4_3, p0⟩] S1024x128.size (by rfl) y

/-! ## The body's triple -/

set_option maxHeartbeats 1000000 in
/-- The body on whole staging memrefs, the inputs' at read contents and the output's at anything, runs to the
    continuation holding the inputs' as they were and the output's at `out4_3` of the inputs'. -/
theorem sound_kernel4 (c : Dev nD) (E : Set ℕ) (i : grid4.Coords)
    (arg1 : Memref sig .tc .vmem S1024x4096 .f32) (harg1 : arg1.IsWhole) (arg2 : Memref sig .tc .vmem S4096x128 .f32) (harg2 : arg2.IsWhole)
    (arg3 : Memref sig .tc .vmem S128x4096 .f32) (harg3 : arg3.IsWhole) (arg4 : Memref sig .tc .vmem S1024x128 .f32) (harg4 : arg4.IsWhole)
    (x0 : Vec F S1024x4096 .f32) (x1 : Vec F S4096x128 .f32) (x2 : Vec F S128x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 i x0 x1 x2)) -∗ K ⟨⟩))
      ⊢ wp frame (wpE (defs₀ (F := F)) Variants.none c none) E (cc4__s6_body i arg1 harg1 arg2 harg2 arg3 harg3 arg4 harg4) K := by
  simp only [cc4__s6_body_eq_skeleton]; unfold cc4__s6_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region on core `c`: the arrays as the region finds them; after the body at point `t` each
    input's buffer at its block and the output's at `out4_3` of the input blocks; the invariant is the class's (the
    scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (grid4.coords t) (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (grid4.coords t) (iblk4 V c 0 t) (iblk4 V c 1 t) (iblk4 V c 2 t) := by dsimp only [dat4]

/-- Each input's current buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- Before the first point the invariant is the class invariant itself, -/
theorem hin4 (c : Dev nD) : Pipeline.ΦA spec4 c ⊢ (dat4 V c).Φ 0 := by
  rw [show (dat4 V c).Φ 0 = Pipeline.ΦA spec4 c from rfl]

/-- and so it is after the last. -/
theorem hout4 (c : Dev nD) : (dat4 V c).Φ (Fin.last cfg4.N) ⊢ Pipeline.ΦA spec4 c := by
  rw [show (dat4 V c).Φ (Fin.last cfg4.N) = Pipeline.ΦA spec4 c from rfl]

example (c : Dev nD) : (dat4 V c).q = fun _ => fullShare := rfl
example (c : Dev nD) : (dat4 V c).owed = fun _ => 0 := rfl

end Cert.Kernel.Hand

end
-- ==== Proof.K.Run.lean ====
/-
  The five regions run one after the other.

  Between two regions every buffer that lives outside the kernels holds a known array: at the start what the program was
  launched with, and after region K what it held before, except that each array one of region K's windows writes holds what the
  region's write-backs leave in it (the fold of the blocks written back, point after point).  An array that region K only reads,
  or does not touch, is unchanged by it.  So the seventeen arguments end as launched, and each of the layer's three results is read
  off the fold of the region that writes it.
-/
import proofs.«129582_g64467459113426_cont_9to1_m_811_15_alg».proof.Proof.K.Region0
import proofs.«129582_g64467459113426_cont_9to1_m_811_15_alg».proof.Proof.K.Region1
import proofs.«129582_g64467459113426_cont_9to1_m_811_15_alg».proof.Proof.K.Region2
import proofs.«129582_g64467459113426_cont_9to1_m_811_15_alg».proof.Proof.K.Region3
import proofs.«129582_g64467459113426_cont_9to1_m_811_15_alg».proof.Proof.K.Region4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays between the regions -/

/-- What every buffer holds at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After region 0: its windows' arrays at the fold of its write-backs, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- A buffer that no OUTPUT window of region 0 writes is unchanged by the region: either no window of the region has it as
    its array, or an input window has, and an input's array is never written back. -/
theorem W1_keep (c : Dev nD) (b : Ref sig .tc) (hb : ∀ w, Pipeline.arrRef spec0 w = b → (cfg0.win w).isOut = false) :
    W1 m c (Proc.devRef .tc b) = W0 m c (Proc.devRef .tc b) := by
  by_cases h : ∃ w, Pipeline.arrRef spec0 w = b
  · obtain ⟨w, rfl⟩ := h
    rw [W1_arr]
    exact ((dat0 (V0 m) c).arrAt_in w (hb w rfl) _).trans (A_eq0 (V0 m) c w)
  · exact W1_of_ne m c b fun w e => h ⟨w, e⟩

/-- After region 1: its windows' arrays at the fold of its write-backs, every other buffer as before. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)
/-- A buffer that no OUTPUT window of region 1 writes is unchanged by the region: either no window of the region has it as
    its array, or an input window has, and an input's array is never written back. -/
theorem W2_keep (c : Dev nD) (b : Ref sig .tc) (hb : ∀ w, Pipeline.arrRef spec1 w = b → (cfg1.win w).isOut = false) :
    W2 m c (Proc.devRef .tc b) = W1 m c (Proc.devRef .tc b) := by
  by_cases h : ∃ w, Pipeline.arrRef spec1 w = b
  · obtain ⟨w, rfl⟩ := h
    rw [W2_arr]
    exact ((dat1 (V1 m) c).arrAt_in w (hb w rfl) _).trans (A_eq1 (V1 m) c w)
  · exact W2_of_ne m c b fun w e => h ⟨w, e⟩

/-- After region 2: its windows' arrays at the fold of its write-backs, every other buffer as before. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)
/-- A buffer that no OUTPUT window of region 2 writes is unchanged by the region: either no window of the region has it as
    its array, or an input window has, and an input's array is never written back. -/
theorem W3_keep (c : Dev nD) (b : Ref sig .tc) (hb : ∀ w, Pipeline.arrRef spec2 w = b → (cfg2.win w).isOut = false) :
    W3 m c (Proc.devRef .tc b) = W2 m c (Proc.devRef .tc b) := by
  by_cases h : ∃ w, Pipeline.arrRef spec2 w = b
  · obtain ⟨w, rfl⟩ := h
    rw [W3_arr]
    exact ((dat2 (V2 m) c).arrAt_in w (hb w rfl) _).trans (A_eq2 (V2 m) c w)
  · exact W3_of_ne m c b fun w e => h ⟨w, e⟩

/-- After region 3: its windows' arrays at the fold of its write-backs, every other buffer as before. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)
/-- A buffer that no OUTPUT window of region 3 writes is unchanged by the region: either no window of the region has it as
    its array, or an input window has, and an input's array is never written back. -/
theorem W4_keep (c : Dev nD) (b : Ref sig .tc) (hb : ∀ w, Pipeline.arrRef spec3 w = b → (cfg3.win w).isOut = false) :
    W4 m c (Proc.devRef .tc b) = W3 m c (Proc.devRef .tc b) := by
  by_cases h : ∃ w, Pipeline.arrRef spec3 w = b
  · obtain ⟨w, rfl⟩ := h
    rw [W4_arr]
    exact ((dat3 (V3 m) c).arrAt_in w (hb w rfl) _).trans (A_eq3 (V3 m) c w)
  · exact W4_of_ne m c b fun w e => h ⟨w, e⟩

/-- After region 4: its windows' arrays at the fold of its write-backs, every other buffer as before. -/
def W5 (c : Dev nD) : Valuation τ sig (Elt F) :=
  Pipeline.withArrays spec4 c (W4 m c) fun w => (dat4 (V4 m) c).arrAt w cfg4.N
theorem W5_arr (c : Dev nD) (w : Fin cfg4.W) :
    W5 m c (Proc.devRef .tc (Pipeline.arrRef spec4 w)) = (dat4 (V4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
abbrev V5 : (c : Dev nD) → (b : Ref sig .tc) → Buf (Elt F) ((c : Thread nD τ).loc b) := fun c b => W5 m c b
theorem hF4 (c : Dev nD) (w : Fin cfg4.W) : (dat4 (V4 m) c).arrAt w cfg4.N = V5 m c (Pipeline.arrRef spec4 w) :=
  (W5_arr m c w).symm
theorem hrest4 (c : Dev nD) : ∀ b, b ∉ Finset.univ.image (Pipeline.arrRef spec4) → V5 m c b = V4 m c b :=
  fun b hb => W5_of_ne m c b fun w e => hb (Finset.mem_image.mpr ⟨w, Finset.mem_univ _, e⟩)
/-- A buffer that no OUTPUT window of region 4 writes is unchanged by the region: either no window of the region has it as
    its array, or an input window has, and an input's array is never written back. -/
theorem W5_keep (c : Dev nD) (b : Ref sig .tc) (hb : ∀ w, Pipeline.arrRef spec4 w = b → (cfg4.win w).isOut = false) :
    W5 m c (Proc.devRef .tc b) = W4 m c (Proc.devRef .tc b) := by
  by_cases h : ∃ w, Pipeline.arrRef spec4 w = b
  · obtain ⟨w, rfl⟩ := h
    rw [W5_arr]
    exact ((dat4 (V4 m) c).arrAt_in w (hb w rfl) _).trans (A_eq4 (V4 m) c w)
  · exact W5_of_ne m c b fun w e => h ⟨w, e⟩

/-! ## The proof data of the five pipelines, and what rides beside the buffers -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0: entered with every outside buffer at `W0`, left with them at `W1`. Its windows' arrays are split out of the
    outside buffers at entry and put back at exit; the generator register goes into the invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every outside buffer at `W1`, left with them at `W2`. Its windows' arrays are split out of the
    outside buffers at entry and put back at exit; the generator register goes into the invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every outside buffer at `W2`, left with them at `W3`. Its windows' arrays are split out of the
    outside buffers at entry and put back at exit; the generator register goes into the invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (V2 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (V2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every outside buffer at `W3`, left with them at `W4`. Its windows' arrays are split out of the
    outside buffers at entry and put back at exit; the generator register goes into the invariant and comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m 3 c).Φ 0 from hin3 (V3 m) c)
    unfold Pipeline.ΦA
    iintro ⟨Hp, -, Hr⟩
    isplitl [Hr]; · iexact Hr
    iexact Hp
  hout c := by
    rw [Pipeline.ownSems0_none]
    refine BIBase.Entails.trans (show (pdats m 3 c).Φ (Fin.last _) ⊢ Pipeline.ΦA spec3 c from hout3 (V3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every outside buffer at `W4`, left with them at `W5`. Its windows' arrays are split out of the
    outside buffers at entry and put back at exit; the generator register goes into the invariant and comes back; nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m 4 c).Φ 0 from hin4 (V4 m) c)
    unfold Pipeline.ΦA
    iintro ⟨Hp, -, Hr⟩
    isplitl [Hr]; · iexact Hr
    iexact Hp
  hout c := by
    rw [Pipeline.ownSems0_none]
    refine BIBase.Entails.trans (show (pdats m 4 c).Φ (Fin.last _) ⊢ Pipeline.ΦA spec4 c from hout4 (V4 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V4 m c) (V5 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its five segments, and the run -/

abbrev segs : List (Pipeline.Seg (pcfgs (F := F)) adm (pdats m) () defs₀ 𝒱₀ L lv) :=
  [ .region (reg0 m), .region (reg1 m), .region (reg2 m), .region (reg3 m), .region (reg4 m) ]
theorem main_run (c : Dev nD) : main (F := F) c = Pipeline.Seg.run (segs m) := (main_chain c).trans (by chain_rfl)

set_option backward.isDefEq.respectTransparency.types false in
/-- From any memory with zero counters every weakly fair execution of the program terminates, nothing faulting, and in every final
    state each buffer that lives outside the kernels holds what the fold through the five regions says (`W5`). -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched -/
theorem W5_main_arg0 (c : Dev nD) : W5 m c (Proc.devRef .tc main_arg0) = m ((c : Thread nD τ).loc main_arg0) :=
  (W5_keep m c main_arg0 (by decide)).trans <| (W4_keep m c main_arg0 (by decide)).trans <| (W3_keep m c main_arg0 (by decide)).trans <|
    (W2_keep m c main_arg0 (by decide)).trans <| (W1_keep m c main_arg0 (by decide)).trans rfl
theorem W5_main_arg1 (c : Dev nD) : W5 m c (Proc.devRef .tc main_arg1) = m ((c : Thread nD τ).loc main_arg1) :=
  (W5_keep m c main_arg1 (by decide)).trans <| (W4_keep m c main_arg1 (by decide)).trans <| (W3_keep m c main_arg1 (by decide)).trans <|
    (W2_keep m c main_arg1 (by decide)).trans <| (W1_keep m c main_arg1 (by decide)).trans rfl
theorem W5_main_arg2 (c : Dev nD) : W5 m c (Proc.devRef .tc main_arg2) = m ((c : Thread nD τ).loc main_arg2) :=
  (W5_keep m c main_arg2 (by decide)).trans <| (W4_keep m c main_arg2 (by decide)).trans <| (W3_keep m c main_arg2 (by decide)).trans <|
    (W2_keep m c main_arg2 (by decide)).trans <| (W1_keep m c main_arg2 (by decide)).trans rfl
theorem W5_main_arg3 (c : Dev nD) : W5 m c (Proc.devRef .tc main_arg3) = m ((c : Thread nD τ).loc main_arg3) :=
  (W5_keep m c main_arg3 (by decide)).trans <| (W4_keep m c main_arg3 (by decide)).trans <| (W3_keep m c main_arg3 (by decide)).trans <|
    (W2_keep m c main_arg3 (by decide)).trans <| (W1_keep m c main_arg3 (by decide)).trans rfl
theorem W5_main_arg4 (c : Dev nD) : W5 m c (Proc.devRef .tc main_arg4) = m ((c : Thread nD τ).loc main_arg4) :=
  (W5_keep m c main_arg4 (by decide)).trans <| (W4_keep m c main_arg4 (by decide)).trans <| (W3_keep m c main_arg4 (by decide)).trans <|
    (W2_keep m c main_arg4 (by decide)).trans <| (W1_keep m c main_arg4 (by decide)).trans rfl
theorem W5_main_arg5 (c : Dev nD) : W5 m c (Proc.devRef .tc main_arg5) = m ((c : Thread nD τ).loc main_arg5) :=
  (W5_keep m c main_arg5 (by decide)).trans <| (W4_keep m c main_arg5 (by decide)).trans <| (W3_keep m c main_arg5 (by decide)).trans <|
    (W2_keep m c main_arg5 (by decide)).trans <| (W1_keep m c main_arg5 (by decide)).trans rfl
theorem W5_main_arg6 (c : Dev nD) : W5 m c (Proc.devRef .tc main_arg6) = m ((c : Thread nD τ).loc main_arg6) :=
  (W5_keep m c main_arg6 (by decide)).trans <| (W4_keep m c main_arg6 (by decide)).trans <| (W3_keep m c main_arg6 (by decide)).trans <|
    (W2_keep m c main_arg6 (by decide)).trans <| (W1_keep m c main_arg6 (by decide)).trans rfl
theorem W5_main_arg7 (c : Dev nD) : W5 m c (Proc.devRef .tc main_arg7) = m ((c : Thread nD τ).loc main_arg7) :=
  (W5_keep m c main_arg7 (by decide)).trans <| (W4_keep m c main_arg7 (by decide)).trans <| (W3_keep m c main_arg7 (by decide)).trans <|
    (W2_keep m c main_arg7 (by decide)).trans <| (W1_keep m c main_arg7 (by decide)).trans rfl
theorem W5_main_arg8 (c : Dev nD) : W5 m c (Proc.devRef .tc main_arg8) = m ((c : Thread nD τ).loc main_arg8) :=
  (W5_keep m c main_arg8 (by decide)).trans <| (W4_keep m c main_arg8 (by decide)).trans <| (W3_keep m c main_arg8 (by decide)).trans <|
    (W2_keep m c main_arg8 (by decide)).trans <| (W1_keep m c main_arg8 (by decide)).trans rfl
theorem W5_main_arg9 (c : Dev nD) : W5 m c (Proc.devRef .tc main_arg9) = m ((c : Thread nD τ).loc main_arg9) :=
  (W5_keep m c main_arg9 (by decide)).trans <| (W4_keep m c main_arg9 (by decide)).trans <| (W3_keep m c main_arg9 (by decide)).trans <|
    (W2_keep m c main_arg9 (by decide)).trans <| (W1_keep m c main_arg9 (by decide)).trans rfl
theorem W5_main_arg10 (c : Dev nD) : W5 m c (Proc.devRef .tc main_arg10) = m ((c : Thread nD τ).loc main_arg10) :=
  (W5_keep m c main_arg10 (by decide)).trans <| (W4_keep m c main_arg10 (by decide)).trans <| (W3_keep m c main_arg10 (by decide)).trans <|
    (W2_keep m c main_arg10 (by decide)).trans <| (W1_keep m c main_arg10 (by decide)).trans rfl
theorem W5_main_arg11 (c : Dev nD) : W5 m c (Proc.devRef .tc main_arg11) = m ((c : Thread nD τ).loc main_arg11) :=
  (W5_keep m c main_arg11 (by decide)).trans <| (W4_keep m c main_arg11 (by decide)).trans <| (W3_keep m c main_arg11 (by decide)).trans <|
    (W2_keep m c main_arg11 (by decide)).trans <| (W1_keep m c main_arg11 (by decide)).trans rfl
theorem W5_main_arg12 (c : Dev nD) : W5 m c (Proc.devRef .tc main_arg12) = m ((c : Thread nD τ).loc main_arg12) :=
  (W5_keep m c main_arg12 (by decide)).trans <| (W4_keep m c main_arg12 (by decide)).trans <| (W3_keep m c main_arg12 (by decide)).trans <|
    (W2_keep m c main_arg12 (by decide)).trans <| (W1_keep m c main_arg12 (by decide)).trans rfl
theorem W5_main_arg13 (c : Dev nD) : W5 m c (Proc.devRef .tc main_arg13) = m ((c : Thread nD τ).loc main_arg13) :=
  (W5_keep m c main_arg13 (by decide)).trans <| (W4_keep m c main_arg13 (by decide)).trans <| (W3_keep m c main_arg13 (by decide)).trans <|
    (W2_keep m c main_arg13 (by decide)).trans <| (W1_keep m c main_arg13 (by decide)).trans rfl
theorem W5_main_arg14 (c : Dev nD) : W5 m c (Proc.devRef .tc main_arg14) = m ((c : Thread nD τ).loc main_arg14) :=
  (W5_keep m c main_arg14 (by decide)).trans <| (W4_keep m c main_arg14 (by decide)).trans <| (W3_keep m c main_arg14 (by decide)).trans <|
    (W2_keep m c main_arg14 (by decide)).trans <| (W1_keep m c main_arg14 (by decide)).trans rfl
theorem W5_main_arg15 (c : Dev nD) : W5 m c (Proc.devRef .tc main_arg15) = m ((c : Thread nD τ).loc main_arg15) :=
  (W5_keep m c main_arg15 (by decide)).trans <| (W4_keep m c main_arg15 (by decide)).trans <| (W3_keep m c main_arg15 (by decide)).trans <|
    (W2_keep m c main_arg15 (by decide)).trans <| (W1_keep m c main_arg15 (by decide)).trans rfl
theorem W5_main_arg16 (c : Dev nD) : W5 m c (Proc.devRef .tc main_arg16) = m ((c : Thread nD τ).loc main_arg16) :=
  (W5_keep m c main_arg16 (by decide)).trans <| (W4_keep m c main_arg16 (by decide)).trans <| (W3_keep m c main_arg16 (by decide)).trans <|
    (W2_keep m c main_arg16 (by decide)).trans <| (W1_keep m c main_arg16 (by decide)).trans rfl

/-- The frame: every argument array ends holding what it was launched with. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c),
     (h c _ (mem_uc main_arg8 (by decide))).trans (W5_main_arg8 m c),
     (h c _ (mem_uc main_arg9 (by decide))).trans (W5_main_arg9 m c),
     (h c _ (mem_uc main_arg10 (by decide))).trans (W5_main_arg10 m c),
     (h c _ (mem_uc main_arg11 (by decide))).trans (W5_main_arg11 m c),
     (h c _ (mem_uc main_arg12 (by decide))).trans (W5_main_arg12 m c),
     (h c _ (mem_uc main_arg13 (by decide))).trans (W5_main_arg13 m c),
     (h c _ (mem_uc main_arg14 (by decide))).trans (W5_main_arg14 m c),
     (h c _ (mem_uc main_arg15 (by decide))).trans (W5_main_arg15 m c),
     (h c _ (mem_uc main_arg16 (by decide))).trans (W5_main_arg16 m c)⟩)
    (run_all m ρ)

end Cert.Kernel.Hand

end
-- ==== Proof.KI.R0Base.lean ====
/-
  Region 0 (the first sweep over the row blocks of A0 and I1): what its three cases share.

  At every grid point the body forms s = logistic(A·P00 + M·P01a) for the point's 256-row blocks A of A0 and M of I1,
  stores s·Wa and s·Wb, and adds (rows [256·i, 256·i+256) of P01b)ᵀ·M to a 128 × 8192 accumulator. The three products
  P00 = x0·W1_00, P01a = x1·W1_01, P01b = x0·W1_01 are formed once, at the first point, where the accumulator is also
  zeroed; at the last point the accumulator's transpose is stored into the third output's buffer. So there are three
  cases: the first point, a middle point, the last point.
-/
import proofs.«129582_g64467459113426_cont_9to1_m_811_15_alg».proof.Proof.Gen.KernelIdeal.Launch
import proofs.«129582_g64467459113426_cont_9to1_m_811_15_alg».proof.Proof.Gen.KernelIdeal.Skeleton
import proofs.«129582_g64467459113426_cont_9to1_m_811_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The rectangles the body loads and stores through: each whole buffer, and one row slice -/

abbrev rA : Rect S256x4096 := Rect.unit (s := S256x4096) ![0, 0] S256x4096.size inb_S256x4096_S256x4096_0_0
abbrev rM : Rect S256x8192 := Rect.unit (s := S256x8192) ![0, 0] S256x8192.size inb_S256x8192_S256x8192_0_0
abbrev rX0 : Rect S4096x128 := Rect.unit (s := S4096x128) ![0, 0] S4096x128.size inb_S4096x128_S4096x128_0_0
abbrev rX1 : Rect S8192x128 := Rect.unit (s := S8192x128) ![0, 0] S8192x128.size inb_S8192x128_S8192x128_0_0
abbrev rW : Rect S128x128 := Rect.unit (s := S128x128) ![0, 0] S128x128.size inb_S128x128_S128x128_0_0
abbrev rO : Rect S256x128 := Rect.unit (s := S256x128) ![0, 0] S256x128.size inb_S256x128_S256x128_0_0
abbrev rAcc : Rect S128x8192 := Rect.unit (s := S128x8192) ![0, 0] S128x8192.size inb_S128x8192_S128x8192_0_0
/-- Rows [256·i, 256·i + 256) of a 4096 × 128 buffer. -/
abbrev rSl (i : grid0.Coords) : Rect S4096x128 := Rect.unit (s := S4096x128) (k0_off1 i) S256x128.size (k0_off1_inb i)

/-- The zero offsets of a whole-buffer rectangle. -/
theorem off00 : (![0, 0] : Fin 2 → Nat) = fun _ => 0 := by
  funext a; fin_cases a <;> rfl

/-! ## What each store leaves, as a function of what the loads read -/

/-- P00 = x0·W1_00 as the first point's one whole store leaves it. -/
def sc0A (x2 : Vec F S4096x128 .f32) (x4 : Vec F S128x128 .f32) : Vec F S4096x128 .f32 :=
  View.canon [⟨rX0, k0_pay3 (View.ld x2 rX0) (View.ld x4 rW)⟩]
/-- P01a = x1·W1_01. -/
def sc1A (x3 : Vec F S8192x128 .f32) (x5 : Vec F S128x128 .f32) : Vec F S8192x128 .f32 :=
  View.canon [⟨rX1, k0_pay4 (View.ld x3 rX1) (View.ld x5 rW)⟩]
/-- P01b = x0·W1_01. -/
def sc2A (x2 : Vec F S4096x128 .f32) (x5 : Vec F S128x128 .f32) : Vec F S4096x128 .f32 :=
  View.canon [⟨rX0, k0_pay5 (View.ld x2 rX0) (View.ld x5 rW)⟩]
/-- The zeroed accumulator. -/
def acc0 : Vec F S128x8192 .f32 :=
  View.canon [⟨rAcc, k0_pay2 (F := F)⟩]
/-- s·Wa for the point's blocks A (x0) and M (x1), over scratch contents s0 = P00 and s1 = P01a. -/
def out8 (x0 : Vec F S256x4096 .f32) (x1 : Vec F S256x8192 .f32) (s0 : Vec F S4096x128 .f32) (s1 : Vec F S8192x128 .f32)
    (x6 : Vec F S128x128 .f32) : Vec F S256x128 .f32 :=
  View.canon [⟨rO, k0_pay7 (View.ld x1 rM) (View.ld x0 rA) (View.ld s0 rX0) (View.ld s1 rX1) (View.ld x6 rW)⟩]
/-- s·Wb. -/
def out9 (x0 : Vec F S256x4096 .f32) (x1 : Vec F S256x8192 .f32) (s0 : Vec F S4096x128 .f32) (s1 : Vec F S8192x128 .f32)
    (x7 : Vec F S128x128 .f32) : Vec F S256x128 .f32 :=
  View.canon [⟨rO, k0_pay8 (View.ld x1 rM) (View.ld x0 rA) (View.ld s0 rX0) (View.ld s1 rX1) (View.ld x7 rW)⟩]
/-- The accumulator after the point: what it held (s3) plus (the point's rows of s2)ᵀ·M. -/
def accNext (i : grid0.Coords) (x1 : Vec F S256x8192 .f32) (s2 : Vec F S4096x128 .f32) (s3 : Vec F S128x8192 .f32) :
    Vec F S128x8192 .f32 :=
  View.canon [⟨rAcc, k0_pay9 (View.ld x1 rM) (View.ld s3 rAcc) (View.ld s2 (rSl i))⟩]
/-- The accumulator's transpose, as the last point stores it. -/
def out10 (s3 : Vec F S128x8192 .f32) : Vec F S8192x128 .f32 :=
  View.canon [⟨rX1, k0_pay1 (View.ld s3 rAcc)⟩]

/-- One store through a whole-buffer rectangle covers the buffer, whatever came before it. -/
theorem cover_whole {S : Shape} {e : EltTy} {off : Fin S.rank → Nat} (h : off = fun _ => 0)
    (inb : ∀ a, off a + S.size a ≤ S.size a) (p : (Rect.unit (s := S) off S.size inb).shape.Idx → Elt F e)
    (L : List (View.Piece (Elt F) S e)) (y : S.Idx) :
    ∃ pc ∈ ((⟨Rect.unit (s := S) off S.size inb, p⟩ : View.Piece (Elt F) S e) :: L), y ∈ pc.1.set :=
  ⟨_, List.mem_cons_self, View.mem_set_unit_zero h inb y⟩

/-- A load of a whole buffer after a whole store into it (whatever was stored before) reads what the stores left. -/
theorem readCov_whole {S : Shape} {e : EltTy} (v : View sig .tc .vmem S e) {off : Fin S.rank → Nat} (h : off = fun _ => 0)
    (inb : ∀ a, off a + S.size a ≤ S.size a) (p : (Rect.unit (s := S) off S.size inb).shape.Idx → Elt F e)
    (L : List (View.Piece (Elt F) S e)) :
    v.readCov ((⟨Rect.unit (s := S) off S.size inb, p⟩ : View.Piece (Elt F) S e) :: L) (Rect.unit (s := S) off S.size inb).toLoadRect
      = View.ld (View.canon ((⟨Rect.unit (s := S) off S.size inb, p⟩ : View.Piece (Elt F) S e) :: L)) (Rect.unit (s := S) off S.size inb) :=
  View.readCov_eq_canon_ld v _ _ (cover_whole h inb p L)

/-- A load through any rectangle of stores made over an unwritten buffer reads what the stores left. -/
theorem readAt_junk {S : Shape} {e : EltTy} (v : View sig .tc .vmem S e) (L : List (View.Piece (Elt F) S e)) (r : Rect S) :
    v.readAt (Elt F) r.toLoadRect (v.writes (Elt F) v.junk L) = View.ld (View.canon L) r :=
  View.readAt_writes_junk_eq_canon v L r.toLoadRect

/-! ## The body's two conditions, in closed form over the grid -/

/-- The first conditional's condition (is this the first point?), from the grid coordinates. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)
/-- The second conditional's condition (is this the last point?). -/
abbrev cond0_1 (i : grid0.Coords) : Prop := k0_cond2 i = 1#1
/-- It holds at point 15 only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Windows 0–9 are never idle. -/
theorem liveAt0 : ∀ (w : Fin 11), w.val < 10 → ∀ t : Fin cfg0.N, cfg0.idle w (grid0.coords t) = false := by decide +kernel
/-- Away from the last point the third output is idle: the body stores nothing into it there, -/
theorem idleAt0_10 : ∀ t : Fin cfg0.N, ¬cond0_1 (grid0.coords t) → cfg0.idle 10 (grid0.coords t) = true := by decide +kernel
/-- and its block is not written back there. -/
theorem noFlush0_10 : ∀ t : Fin cfg0.N, ¬cond0_1 (grid0.coords t) → (cfg0.win 10).flush t = false := by decide +kernel
/-- At the last point it is live. -/
theorem liveAt0_10 : ∀ t : Fin cfg0.N, cond0_1 (grid0.coords t) → cfg0.idle 10 (grid0.coords t) = false := by decide +kernel

/-! ## The memrefs the body is called with at a point -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8192x128 .f32 := win0_10.stage (cfg0.slots t 10)
abbrev hs0_10 (t : Fin cfg0.N) : (ms0_10 t).IsWhole := hstage0_10 ((cfg0.slots t 10).cast nbuf0_10)
/-- The four scratch operands: whole buffers of the kernel's own, passed beside the windows. -/
abbrev scM0_0 : Memref sig .tc .vmem S4096x128 .f32 := Memref.whole cc0_scratch0
abbrev scM0_1 : Memref sig .tc .vmem S8192x128 .f32 := Memref.whole cc0_scratch1
abbrev scM0_2 : Memref sig .tc .vmem S4096x128 .f32 := Memref.whole cc0_scratch2
abbrev scM0_3 : Memref sig .tc .vmem S128x8192 .f32 := Memref.whole cc0_scratch3

/-- The other scoped buffers, which the body never touches. -/
abbrev restBut0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The invariant the launch hands the region, with the four scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ restBut0 c) ∗ (∃ r, prngReg c r)) := by
  unfold Pipeline.ΦA; rw [scopedRest0_split]; simp only [scM0_0, scM0_1, scM0_2, scM0_3, owns_whole]; try rfl

end Cert.KernelIdeal.Hand
end
-- ==== Proof.KI.R0RunA.lean ====
/-
  Region 0, the first point: the body's triple on whole memrefs.
-/
import proofs.«129582_g64467459113426_cont_9to1_m_811_15_alg».proof.Proof.KI.R0Base
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- THE FIRST POINT (first conditional taken, second not). On whole memrefs — the eight inputs at their contents, the first
    two outputs and all four scratch operands at anything, the third output at contents handed back untouched — the body
    runs to the continuation holding the inputs as they were, the three product scratches at x0·W1_00, x1·W1_01 and
    x0·W1_01, the first two outputs at s·Wa and s·Wb over those products, and the accumulator at zero plus this point's term. -/
theorem kernelRun0_A (c : Dev nD) (i : grid0.Coords) (arg1 : Memref sig .tc .vmem S256x4096 .f32) (harg1 : arg1.IsWhole) (arg2 : Memref sig .tc .vmem S256x8192 .f32) (harg2 : arg2.IsWhole) (arg3 : Memref sig .tc .vmem S4096x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S8192x128 .f32) (harg11 : arg11.IsWhole) (arg12 : Memref sig .tc .vmem S4096x128 .f32) (harg12 : arg12.IsWhole) (arg13 : Memref sig .tc .vmem S8192x128 .f32) (harg13 : arg13.IsWhole) (arg14 : Memref sig .tc .vmem S4096x128 .f32) (harg14 : arg14.IsWhole) (arg15 : Memref sig .tc .vmem S128x8192 .f32) (harg15 : arg15.IsWhole) (hc0 : cond0_0 i) (hc1 : ¬cond0_1 i)
    (x0 : Vec F S256x4096 .f32) (x1 : Vec F S256x8192 .f32) (x2 : Vec F S4096x128 .f32) (x3 : Vec F S8192x128 .f32) (x4 x5 x6 x7 : Vec F S128x128 .f32)
    (xi10 : Vec F S8192x128 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ owns (c : Thread nD τ) arg11 fullShare xi10
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out8 x0 x1 (sc0A x2 x4) (sc1A x3 x5) x6)
            ∗ owns (c : Thread nD τ) arg10 fullShare (out9 x0 x1 (sc0A x2 x4) (sc1A x3 x5) x7)
            ∗ owns (c : Thread nD τ) arg11 fullShare xi10
            ∗ owns (c : Thread nD τ) arg12 fullShare (sc0A x2 x4)
            ∗ owns (c : Thread nD τ) arg13 fullShare (sc1A x3 x5)
            ∗ owns (c : Thread nD τ) arg14 fullShare (sc2A x2 x5)
            ∗ owns (c : Thread nD τ) arg15 fullShare (accNext i x1 (sc2A x2 x5) acc0)) -∗ K ⟨⟩))
      ⊢ wp frame (wpE (defs₀ (F := F)) Variants.none c none) E (cc0__s1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__s1_body_eq_skeleton]; unfold cc0__s1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
  subst hf0; subst hf1; subst hf2; subst hf3; subst hf4; subst hf5; subst hf6; subst hf7; subst hf10
  sl_exec (disch := first | exact hc0 | exact hc1)
  sl_unfold_run_names
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover_whole off00 _ _ _)).trans ?_
    rw [readCov_whole arg12.view off00, readCov_whole arg13.view off00]
    rfl
  isplitl [H9]
  · iexists _; isplitr
    swap; · iexact H9
    ipureintro
    refine (View.read_writes_eq_canon _ _ _ (cover_whole off00 _ _ _)).trans ?_
    rw [readCov_whole arg12.view off00, readCov_whole arg13.view off00]
    rfl
  isplitl [H10]
  · iexists f10; isplitr; · ipureintro; rfl
    iexact H10
  isplitl [HS0]
  · iexists _; isplitr
    swap; · iexact HS0
    ipureintro
    exact View.read_writes_eq_canon _ _ _ (cover_whole off00 _ _ _)
  isplitl [HS1]
  · iexists _; isplitr
    swap; · iexact HS1
    ipureintro
    exact View.read_writes_eq_canon _ _ _ (cover_whole off00 _ _ _)
  isplitl [HS2]
  · iexists _; isplitr
    swap; · iexact HS2
    ipureintro
    exact View.read_writes_eq_canon _ _ _ (cover_whole off00 _ _ _)
  iexists _; isplitr
  swap; · iexact HS3
  ipureintro
  refine (View.read_writes_eq_canon _ _ _ (cover_whole off00 _ _ _)).trans ?_
  unfold accNext
  rw [View.canon_cons_unit_zero off00, View.canon_cons_unit_zero off00]
  rw [readCov_whole arg15.view off00, readAt_junk arg14.view]
  rfl

end Cert.KernelIdeal.Hand
end
-- ==== Proof.KI.R0RunB.lean ====
/-
  Region 0, a middle point: the body's triple on whole memrefs.
-/
import proofs.«129582_g64467459113426_cont_9to1_m_811_15_alg».proof.Proof.KI.R0Base
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- A MIDDLE POINT (neither conditional taken). On whole memrefs — the eight inputs at their contents, the first two outputs
    at anything, the third output (not stored into here) at contents handed back untouched, the four scratch operands at
    what the point before left — the body runs to the continuation holding the inputs as they were, the first two outputs at
    s·Wa and s·Wb, the three product scratches as they were and the accumulator with this point's term added. -/
theorem kernelRun0_B (c : Dev nD) (i : grid0.Coords) (arg1 : Memref sig .tc .vmem S256x4096 .f32) (harg1 : arg1.IsWhole) (arg2 : Memref sig .tc .vmem S256x8192 .f32) (harg2 : arg2.IsWhole) (arg3 : Memref sig .tc .vmem S4096x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S8192x128 .f32) (harg11 : arg11.IsWhole) (arg12 : Memref sig .tc .vmem S4096x128 .f32) (harg12 : arg12.IsWhole) (arg13 : Memref sig .tc .vmem S8192x128 .f32) (harg13 : arg13.IsWhole) (arg14 : Memref sig .tc .vmem S4096x128 .f32) (harg14 : arg14.IsWhole) (arg15 : Memref sig .tc .vmem S128x8192 .f32) (harg15 : arg15.IsWhole) (hc0 : ¬cond0_0 i) (hc1 : ¬cond0_1 i)
    (x0 : Vec F S256x4096 .f32) (x1 : Vec F S256x8192 .f32) (x2 : Vec F S4096x128 .f32) (x3 : Vec F S8192x128 .f32) (x4 x5 x6 x7 : Vec F S128x128 .f32)
    (xi10 : Vec F S8192x128 .f32) (s0 : Vec F S4096x128 .f32) (s1 : Vec F S8192x128 .f32) (s2 : Vec F S4096x128 .f32) (s3 : Vec F S128x8192 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ owns (c : Thread nD τ) arg11 fullShare xi10
        ∗ owns (c : Thread nD τ) arg12 fullShare s0
        ∗ owns (c : Thread nD τ) arg13 fullShare s1
        ∗ owns (c : Thread nD τ) arg14 fullShare s2
        ∗ owns (c : Thread nD τ) arg15 fullShare s3
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out8 x0 x1 s0 s1 x6)
            ∗ owns (c : Thread nD τ) arg10 fullShare (out9 x0 x1 s0 s1 x7)
            ∗ owns (c : Thread nD τ) arg11 fullShare xi10
            ∗ owns (c : Thread nD τ) arg12 fullShare s0
            ∗ owns (c : Thread nD τ) arg13 fullShare s1
            ∗ owns (c : Thread nD τ) arg14 fullShare s2
            ∗ owns (c : Thread nD τ) arg15 fullShare (accNext i x1 s2 s3)) -∗ K ⟨⟩))
      ⊢ wp frame (wpE (defs₀ (F := F)) Variants.none c none) E (cc0__s1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__s1_body_eq_skeleton]; unfold cc0__s1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, ⟨%fs3, %hfs3, HS3⟩, Hk⟩
  subst hf0; subst hf1; subst hf2; subst hf3; subst hf4; subst hf5; subst hf6; subst hf7; subst hf10; subst hfs0; subst hfs1; subst hfs2; subst hfs3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_whole off00 _ _ _)
  isplitl [H9]
  · iexists _; isplitr
    swap; · iexact H9
    ipureintro
    exact View.read_writes_eq_canon _ _ _ (cover_whole off00 _ _ _)
  isplitl [H10]
  · iexists f10; isplitr; · ipureintro; rfl
    iexact H10
  isplitl [HS0]
  · iexists fs0; isplitr; · ipureintro; rfl
    iexact HS0
  isplitl [HS1]
  · iexists fs1; isplitr; · ipureintro; rfl
    iexact HS1
  isplitl [HS2]
  · iexists fs2; isplitr; · ipureintro; rfl
    iexact HS2
  iexists _; isplitr
  swap; · iexact HS3
  ipureintro
  exact View.read_writes_eq_canon _ _ _ (cover_whole off00 _ _ _)

end Cert.KernelIdeal.Hand
end
-- ==== Proof.KI.R0RunC.lean ====
/-
  Region 0, the last point: the body's triple on whole memrefs.
-/
import proofs.«129582_g64467459113426_cont_9to1_m_811_15_alg».proof.Proof.KI.R0Base
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- THE LAST POINT (first conditional not taken, second taken). As at a middle point, and then the third output's buffer,
    found at anything, is stored whole with the transpose of the accumulator as this point leaves it. -/
theorem kernelRun0_C (c : Dev nD) (i : grid0.Coords) (arg1 : Memref sig .tc .vmem S256x4096 .f32) (harg1 : arg1.IsWhole) (arg2 : Memref sig .tc .vmem S256x8192 .f32) (harg2 : arg2.IsWhole) (arg3 : Memref sig .tc .vmem S4096x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S8192x128 .f32) (harg11 : arg11.IsWhole) (arg12 : Memref sig .tc .vmem S4096x128 .f32) (harg12 : arg12.IsWhole) (arg13 : Memref sig .tc .vmem S8192x128 .f32) (harg13 : arg13.IsWhole) (arg14 : Memref sig .tc .vmem S4096x128 .f32) (harg14 : arg14.IsWhole) (arg15 : Memref sig .tc .vmem S128x8192 .f32) (harg15 : arg15.IsWhole) (hc0 : ¬cond0_0 i) (hc1 : cond0_1 i)
    (x0 : Vec F S256x4096 .f32) (x1 : Vec F S256x8192 .f32) (x2 : Vec F S4096x128 .f32) (x3 : Vec F S8192x128 .f32) (x4 x5 x6 x7 : Vec F S128x128 .f32)
    (s0 : Vec F S4096x128 .f32) (s1 : Vec F S8192x128 .f32) (s2 : Vec F S4096x128 .f32) (s3 : Vec F S128x8192 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (∃ d, owns (c : Thread nD τ) arg11 fullShare d)
        ∗ owns (c : Thread nD τ) arg12 fullShare s0
        ∗ owns (c : Thread nD τ) arg13 fullShare s1
        ∗ owns (c : Thread nD τ) arg14 fullShare s2
        ∗ owns (c : Thread nD τ) arg15 fullShare s3
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out8 x0 x1 s0 s1 x6)
            ∗ owns (c : Thread nD τ) arg10 fullShare (out9 x0 x1 s0 s1 x7)
            ∗ owns (c : Thread nD τ) arg11 fullShare (out10 (accNext i x1 s2 s3))
            ∗ owns (c : Thread nD τ) arg12 fullShare s0
            ∗ owns (c : Thread nD τ) arg13 fullShare s1
            ∗ owns (c : Thread nD τ) arg14 fullShare s2
            ∗ owns (c : Thread nD τ) arg15 fullShare (accNext i x1 s2 s3)) -∗ K ⟨⟩))
      ⊢ wp frame (wpE (defs₀ (F := F)) Variants.none c none) E (cc0__s1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__s1_body_eq_skeleton]; unfold cc0__s1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, Hk⟩
  subst hf0; subst hf1; subst hf2; subst hf3; subst hf4; subst hf5; subst hf6; subst hf7; subst hfs0; subst hfs1; subst hfs2; subst hfs3
  sl_exec (disch := first | exact hc0 | exact hc1)
  sl_unfold_run_names
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_whole off00 _ _ _)
  isplitl [H9]
  · iexists _; isplitr
    swap; · iexact H9
    ipureintro
    exact View.read_writes_eq_canon _ _ _ (cover_whole off00 _ _ _)
  isplitl [H10]
  · iexists _; isplitr
    swap; · iexact H10
    ipureintro
    refine (View.read_writes_eq_canon _ _ _ (cover_whole off00 _ _ _)).trans ?_
    rw [readCov_whole arg15.view off00]
    rfl
  isplitl [HS0]
  · iexists fs0; isplitr; · ipureintro; rfl
    iexact HS0
  isplitl [HS1]
  · iexists fs1; isplitr; · ipureintro; rfl
    iexact HS1
  isplitl [HS2]
  · iexists fs2; isplitr; · ipureintro; rfl
    iexact HS2
  iexists _; isplitr
  swap; · iexact HS3
  ipureintro
  exact View.read_writes_eq_canon _ _ _ (cover_whole off00 _ _ _)

end Cert.KernelIdeal.Hand
end
-- ==== Proof.KI.Region0.lean ====
/-
  Region 0: the proof data of its pipeline and the body obligation.

  The three product scratches are written at the first point and only read afterwards; the accumulator gains one term
  per point. So what the four scratch operands hold after the body at position n is a recursion on n, and the region's
  invariant before a point that is not the first is the scoped rest with the four at what the point before left.
  The first two outputs are written and written back at every point; the third is stored, and written back, at the
  last point only, and is idle elsewhere: there its buffer is handed back as found.
-/
import proofs.«129582_g64467459113426_cont_9to1_m_811_15_alg».proof.Proof.KI.R0RunA
import proofs.«129582_g64467459113426_cont_9to1_m_811_15_alg».proof.Proof.KI.R0RunB
import proofs.«129582_g64467459113426_cont_9to1_m_811_15_alg».proof.Proof.KI.R0RunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window w's block at point t, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current buffer holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## What the four scratch operands hold after each point -/

/-- (P00, P01a, P01b, accumulator) after the body at position n: at the first point the three products and zero plus
    the first term; afterwards the products as they were and the accumulator with the point's term added. -/
noncomputable def scAt0 (c : Dev nD) : (n : ℕ) → n < cfg0.N → Vec F S4096x128 .f32 × Vec F S8192x128 .f32 × Vec F S4096x128 .f32 × Vec F S128x8192 .f32
  | 0, hn => (sc0A (iblk0 V c 2 ⟨0, hn⟩) (iblk0 V c 4 ⟨0, hn⟩), sc1A (iblk0 V c 3 ⟨0, hn⟩) (iblk0 V c 5 ⟨0, hn⟩), sc2A (iblk0 V c 2 ⟨0, hn⟩) (iblk0 V c 5 ⟨0, hn⟩),
      accNext (grid0.coords ⟨0, hn⟩) (iblk0 V c 1 ⟨0, hn⟩) (sc2A (iblk0 V c 2 ⟨0, hn⟩) (iblk0 V c 5 ⟨0, hn⟩)) acc0)
  | n + 1, hn => ((scAt0 c n (Nat.lt_of_succ_lt hn)).1, (scAt0 c n (Nat.lt_of_succ_lt hn)).2.1, (scAt0 c n (Nat.lt_of_succ_lt hn)).2.2.1,
      accNext (grid0.coords ⟨n + 1, hn⟩) (iblk0 V c 1 ⟨n + 1, hn⟩) (scAt0 c n (Nat.lt_of_succ_lt hn)).2.2.1 (scAt0 c n (Nat.lt_of_succ_lt hn)).2.2.2)

/-- At the first point. -/
theorem scAt0_A (c : Dev nD) (t : Fin cfg0.N) (hz : t.val = 0) :
    scAt0 V c t.val t.isLt = (sc0A (iblk0 V c 2 t) (iblk0 V c 4 t), sc1A (iblk0 V c 3 t) (iblk0 V c 5 t), sc2A (iblk0 V c 2 t) (iblk0 V c 5 t),
      accNext (grid0.coords t) (iblk0 V c 1 t) (sc2A (iblk0 V c 2 t) (iblk0 V c 5 t)) acc0) := by
  obtain ⟨n, hn⟩ := t
  cases n with
  | zero => rfl
  | succ n => exact absurd hz (Nat.succ_ne_zero n)

/-- At a later point, over what the point before left. -/
theorem scAt0_pos (c : Dev nD) (t : Fin cfg0.N) (hz : t.val ≠ 0) :
    scAt0 V c t.val t.isLt = ((scAt0 V c (t.val - 1) (Nat.lt_of_le_of_lt (Nat.sub_le _ _) t.isLt)).1, (scAt0 V c (t.val - 1) (Nat.lt_of_le_of_lt (Nat.sub_le _ _) t.isLt)).2.1, (scAt0 V c (t.val - 1) (Nat.lt_of_le_of_lt (Nat.sub_le _ _) t.isLt)).2.2.1,
      accNext (grid0.coords t) (iblk0 V c 1 t) (scAt0 V c (t.val - 1) (Nat.lt_of_le_of_lt (Nat.sub_le _ _) t.isLt)).2.2.1 (scAt0 V c (t.val - 1) (Nat.lt_of_le_of_lt (Nat.sub_le _ _) t.isLt)).2.2.2) := by
  obtain ⟨n, hn⟩ := t
  cases n with
  | zero => exact absurd rfl hz
  | succ n => rfl

/-- The region invariant before position n: before the first point what the launch hands over (every scratch at
    anything); afterwards the scoped rest with the four scratch operands at what the point before left. -/
noncomputable def PhiS0 (c : Dev nD) : (n : ℕ) → n ≤ cfg0.N → sProp 𝕄
  | 0, _ => Pipeline.ΦA spec0 c
  | n + 1, hn => iprop(iprop(iprop(owns (c : Thread nD τ) scM0_0 fullShare (scAt0 V c n hn).1 ∗ owns (c : Thread nD τ) scM0_1 fullShare (scAt0 V c n hn).2.1 ∗ owns (c : Thread nD τ) scM0_2 fullShare (scAt0 V c n hn).2.2.1 ∗ owns (c : Thread nD τ) scM0_3 fullShare (scAt0 V c n hn).2.2.2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (scAt0 V c n hn).1 ∗ owns (c : Thread nD τ) scM0_1 fullShare (scAt0 V c n hn).2.1 ∗ owns (c : Thread nD τ) scM0_2 fullShare (scAt0 V c n hn).2.2.1 ∗ owns (c : Thread nD τ) scM0_3 fullShare (scAt0 V c n hn).2.2.2) ∗ restBut0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (scAt0 V c (n - 1) (by omega)).1 ∗ owns (c : Thread nD τ) scM0_1 fullShare (scAt0 V c (n - 1) (by omega)).2.1 ∗ owns (c : Thread nD τ) scM0_2 fullShare (scAt0 V c (n - 1) (by omega)).2.2.1 ∗ owns (c : Thread nD τ) scM0_3 fullShare (scAt0 V c (n - 1) (by omega)).2.2.2) ∗ restBut0 c) ∗ (∃ r, prngReg c r)) := by
  cases n with
  | zero => exact absurd rfl hz
  | succ n => rfl

/-! ## The pipeline's proof data -/

/-- The proof data of pipeline 0 on core c: the arrays as the region finds them; after the body at point t each input's
    buffer at its block, the first two outputs at s·Wa and s·Wb over the product scratches, the third at the transpose
    of the accumulator as the point leaves it (consulted at the last point only: elsewhere the window is idle); the
    invariant above; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out8 (iblk0 V c 0 t) (iblk0 V c 1 t) (scAt0 V c t.val t.isLt).1 (scAt0 V c t.val t.isLt).2.1 (iblk0 V c 6 t)
    | ⟨9, _⟩ => out9 (iblk0 V c 0 t) (iblk0 V c 1 t) (scAt0 V c t.val t.isLt).1 (scAt0 V c t.val t.isLt).2.1 (iblk0 V c 7 t)
    | ⟨10, _⟩ => out10 (scAt0 V c t.val t.isLt).2.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out8 (iblk0 V c 0 t) (iblk0 V c 1 t) (scAt0 V c t.val t.isLt).1 (scAt0 V c t.val t.isLt).2.1 (iblk0 V c 6 t) := by dsimp only [dat0]
theorem after0_9 (c : Dev nD) (t : Fin cfg0.N) : (dat0 V c).after 9 t = out9 (iblk0 V c 0 t) (iblk0 V c 1 t) (scAt0 V c t.val t.isLt).1 (scAt0 V c t.val t.isLt).2.1 (iblk0 V c 7 t) := by dsimp only [dat0]
theorem after0_10 (c : Dev nD) (t : Fin cfg0.N) : (dat0 V c).after 10 t = out10 (scAt0 V c t.val t.isLt).2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! What the body must leave in the ten windows that are never idle. -/
theorem leaves0_0 (c : Dev nD) (t : Fin cfg0.N) :
    (dat0 V c).leavesExact 0 t = owns (c : Thread nD τ) (ms0_0 t) fullShare (iblk0 V c 0 t) := by
  unfold Dat.leavesExact; rw [liveAt0 0 (by decide) t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0 1 (by decide) t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0 2 (by decide) t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0 3 (by decide) t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0 4 (by decide) t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0 5 (by decide) t, after0_5]
theorem leaves0_6 (c : Dev nD) (t : Fin cfg0.N) :
    (dat0 V c).leavesExact 6 t = owns (c : Thread nD τ) (ms0_6 t) fullShare (iblk0 V c 6 t) := by
  unfold Dat.leavesExact; rw [liveAt0 6 (by decide) t, after0_6]
theorem leaves0_7 (c : Dev nD) (t : Fin cfg0.N) :
    (dat0 V c).leavesExact 7 t = owns (c : Thread nD τ) (ms0_7 t) fullShare (iblk0 V c 7 t) := by
  unfold Dat.leavesExact; rw [liveAt0 7 (by decide) t, after0_7]
theorem leaves0_8 (c : Dev nD) (t : Fin cfg0.N) :
    (dat0 V c).leavesExact 8 t = owns (c : Thread nD τ) (ms0_8 t) fullShare (out8 (iblk0 V c 0 t) (iblk0 V c 1 t) (scAt0 V c t.val t.isLt).1 (scAt0 V c t.val t.isLt).2.1 (iblk0 V c 6 t)) := by
  unfold Dat.leavesExact; rw [liveAt0 8 (by decide) t, after0_8]
theorem leaves0_9 (c : Dev nD) (t : Fin cfg0.N) :
    (dat0 V c).leavesExact 9 t = owns (c : Thread nD τ) (ms0_9 t) fullShare (out9 (iblk0 V c 0 t) (iblk0 V c 1 t) (scAt0 V c t.val t.isLt).1 (scAt0 V c t.val t.isLt).2.1 (iblk0 V c 7 t)) := by
  unfold Dat.leavesExact; rw [liveAt0 9 (by decide) t, after0_9]

/-! ## The body obligation, at a generic point -/

noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' memrefs hold their blocks; the closed forms say which case the point is in; the
    invariant hands the body the four scratch operands (at anything at the first point, at what the point before left
    afterwards) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6, leaves0_7, leaves0_8, leaves0_9]
  have hN : t.val < 16 := lt_of_lt_of_eq t.isLt (show cfg0.N = 16 from N_0)
  by_cases h0 : t.val % 16 = 0
  · have h1 : ¬t.val % 16 = 15 := by omega
    have hz : t.val = 0 := by omega
    rw [Dat.leavesExact_idle (dat0 V c) 10 t (idleAt0_10 t (fun h => h1 ((hcond0_1 t).mp h))) (noFlush0_10 t (fun h => h1 ((hcond0_1 t).mp h)))]
    rw [PhiS0_castSucc V c t, PhiS0_zero V c _ _ hz, PhiA0_eq, scAt0_A V c t hz]
    iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun0_A c (grid0.coords t) _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hrest Hg]
    · isplitl [HS0 HS1 HS2 HS3 Hrest]
      · isplitl [HS0 HS1 HS2 HS3]
        · isplitl [HS0]; · iexact HS0
          isplitl [HS1]; · iexact HS1
          isplitl [HS2]; · iexact HS2
          iexact HS3
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hz : t.val ≠ 0 := by omega
    by_cases h1 : t.val % 16 = 15
    · rw [show (dat0 V c).leavesExact 10 t = owns (c : Thread nD τ) (ms0_10 t) fullShare ((dat0 V c).after 10 t) from by
        unfold Dat.leavesExact; rw [liveAt0_10 t ((hcond0_1 t).mpr h1)], after0_10]
      rw [PhiS0_castSucc V c t, PhiS0_pos V c _ _ hz, scAt0_pos V c t hz]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (kernelRun0_C c (grid0.coords t) _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hrest Hg]
      · isplitl [HS0 HS1 HS2 HS3 Hrest]
        · isplitl [HS0 HS1 HS2 HS3]
          · isplitl [HS0]; · iexact HS0
            isplitl [HS1]; · iexact HS1
            isplitl [HS2]; · iexact HS2
            iexact HS3
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dat0 V c) 10 t (idleAt0_10 t (fun h => h1 ((hcond0_1 t).mp h))) (noFlush0_10 t (fun h => h1 ((hcond0_1 t).mp h)))]
      rw [PhiS0_castSucc V c t, PhiS0_pos V c _ _ hz, scAt0_pos V c t hz]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hrest Hg]
      · isplitl [HS0 HS1 HS2 HS3 Hrest]
        · isplitl [HS0 HS1 HS2 HS3]
          · isplitl [HS0]; · iexact HS0
            isplitl [HS1]; · iexact HS1
            isplitl [HS2]; · iexact HS2
            iexact HS3
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the scratch operands' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2, HS3⟩, Hrest⟩, Hg⟩
  isplitl [HS0 HS1 HS2 HS3 Hrest]
  · isplitl [HS0 HS1 HS2 HS3]
    · isplitl [HS0]; · iexists _; iexact HS0
      isplitl [HS1]; · iexists _; iexact HS1
      isplitl [HS2]; · iexists _; iexact HS2
      iexists _; iexact HS3
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand
end
-- ==== Proof.KI.R1Runs.lean ====
import proofs.«129582_g64467459113426_cont_9to1_m_811_15_alg».proof.Proof.Gen.KernelIdeal.Launch
import proofs.«129582_g64467459113426_cont_9to1_m_811_15_alg».proof.Proof.Gen.KernelIdeal.Skeleton
import proofs.«129582_g64467459113426_cont_9to1_m_811_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: what the three cases of the body share -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- The first conditional (the carried buffers are initialised): taken at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional (the transposed accumulator is multiplied out): taken at the last point only. -/
abbrev cond1_1 (i : grid1.Coords) : Prop := k1_cond2 i = 1#1
theorem hcond1_1 : ∀ t : Fin cfg1.N, cond1_1 (grid1.coords t) ↔ t.val = 7 :=
  (by decide +kernel : ∀ t : Fin grid1.N, cond1_1 (grid1.coords t) ↔ t.val = 7)

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
/-- Off the last point nothing is stored into window 11, and it is not written back there. -/
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
/-- At the last point window 11 is stored into. -/
theorem liveAt1_11 : ∀ t : Fin cfg1.N, cond1_1 (grid1.coords t) → cfg1.idle 11 (grid1.coords t) = false := by decide +kernel

/-! ## The memrefs the body is called with -/
abbrev ms1_0 (t : Fin cfg1.N) : Memref sig .tc .vmem S1024x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1024x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x128 .f32 := win1_11.stage (cfg1.slots t 11)
abbrev hs1_11 (t : Fin cfg1.N) : (ms1_11 t).IsWhole := hstage1_11 ((cfg1.slots t 11).cast nbuf1_11)
/-- The three carried buffers, whole. -/
abbrev scM1_0 : Memref sig .tc .vmem S4096x128 .f32 := Memref.whole cc1_scratch0
abbrev scM1_1 : Memref sig .tc .vmem S8192x128 .f32 := Memref.whole cc1_scratch1
abbrev scM1_2 : Memref sig .tc .vmem S128x4096 .f32 := Memref.whole cc1_scratch2

/-- The rest of the scoped memory that the region never opens. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three carried buffers as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ rest1 (F := F) c) ∗ (∃ r, prngReg c r)) := by
  unfold Pipeline.ΦA; rw [scopedRest1_split]; simp only [scM1_0, scM1_1, scM1_2, owns_whole]; try rfl

end Cert.KernelIdeal.Hand

end
-- ==== Proof.KI.R1RunA.lean ====
import proofs.«129582_g64467459113426_cont_9to1_m_811_15_alg».proof.Proof.KI.R1Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- THE FIRST POINT. The body, on whole memrefs — the nine inputs at their contents, the two row-block outputs and the three carried buffers at anything, the whole-array output at contents handed back untouched — runs to the continuation with the inputs as they were and each stored buffer with its stores written (the pieces, last first, are what the run finds). -/
noncomputable def kernelRun1_A (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i)
    (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  :
    Σ' (L9 : List (View.Piece (Elt F) S1024x128 .f32)) (L10 : List (View.Piece (Elt F) S1024x128 .f32)) (LS0 : List (View.Piece (Elt F) S4096x128 .f32)) (LS1 : List (View.Piece (Elt F) S8192x128 .f32)), { LS2 : List (View.Piece (Elt F) S128x4096 .f32) //
      ∀ (xi11 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__s2_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi11 E K => ?run⟩
  case run =>
    simp only [cc1__s2_body_eq_skeleton]; unfold cc1__s2_body_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%d14, %f14, -, H14⟩, ⟨%d15, %f15, -, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; isplitr; · ipureintro; exact harg12.read_unread _
      iexact H12
    isplitl [H13]
    · iexists _; iexact H13
    isplitl [H14]
    · iexists _; iexact H14
    iexists _; iexact H15

end Cert.KernelIdeal.Hand

end
-- ==== Proof.KI.R1RunB.lean ====
import proofs.«129582_g64467459113426_cont_9to1_m_811_15_alg».proof.Proof.KI.R1Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- A MIDDLE POINT. As at the first point, but the three carried buffers come in at what the point before left; the two products are only read and the accumulator is stored once. -/
noncomputable def kernelRun1_B (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i)
    (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) :
    Σ' (L9 : List (View.Piece (Elt F) S1024x128 .f32)) (L10 : List (View.Piece (Elt F) S1024x128 .f32)), { LS2 : List (View.Piece (Elt F) S128x4096 .f32) //
      ∀ (xi11 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xi11 ∗ owns (c : Thread nD τ) arg13 fullShare xs0 ∗ owns (c : Thread nD τ) arg14 fullShare xs1 ∗ owns (c : Thread nD τ) arg15 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xi11 ∗ owns (c : Thread nD τ) arg13 fullShare xs0 ∗ owns (c : Thread nD τ) arg14 fullShare xs1 ∗ (∃ f, arg15.view.loc (c : Thread nD τ) ↦[arg15.view.set]{fullShare} arg15.view.writes (Elt F) f LS2)) -∗ K ⟨⟩))
          ⊢ wp frame (wpE (defs₀ (F := F)) Variants.none c none) E (cc1__s2_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 E K => ?run⟩
  case run =>
    simp only [cc1__s2_body_eq_skeleton]; unfold cc1__s2_body_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg14.eq_unread hf14; obtain rfl := harg15.eq_unread hf15
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    iexists _; iexact H15

end Cert.KernelIdeal.Hand

end
-- ==== Proof.KI.R1RunC.lean ====
import proofs.«129582_g64467459113426_cont_9to1_m_811_15_alg».proof.Proof.KI.R1Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- THE LAST POINT. As at a middle point, and then the whole-array output, handed in at anything, is stored with the transposed accumulator multiplied out. -/
noncomputable def kernelRun1_C (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i)
    (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) :
    Σ' (L9 : List (View.Piece (Elt F) S1024x128 .f32)) (L10 : List (View.Piece (Elt F) S1024x128 .f32)) (L11 : List (View.Piece (Elt F) S4096x128 .f32)), { LS2 : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs0 ∗ owns (c : Thread nD τ) arg14 fullShare xs1 ∗ (∃ f, arg15.view.loc (c : Thread nD τ) ↦[arg15.view.set]{fullShare} arg15.view.writes (Elt F) f LS2)) -∗ K ⟨⟩))
          ⊢ wp frame (wpE (defs₀ (F := F)) Variants.none c none) E (cc1__s2_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__s2_body_eq_skeleton]; unfold cc1__s2_body_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; isplitr; · ipureintro; exact harg13.read_unread _
      iexact H13
    isplitl [H14]
    · iexists _; isplitr; · ipureintro; exact harg14.read_unread _
      iexact H14
    iexists _; iexact H15

end Cert.KernelIdeal.Hand

end
-- ==== Proof.KI.Region1.lean ====
import proofs.«129582_g64467459113426_cont_9to1_m_811_15_alg».proof.Proof.KI.R1RunA
import proofs.«129582_g64467459113426_cont_9to1_m_811_15_alg».proof.Proof.KI.R1RunB
import proofs.«129582_g64467459113426_cont_9to1_m_811_15_alg».proof.Proof.KI.R1RunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the three cases assembled -/

/-! ## Each case's stores cover the buffers they fill -/

theorem cover1_A_9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S1024x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1 S1024x128.size (by sl_kernel_rfl) y

theorem cover1_A_10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S1024x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1 S1024x128.size (by sl_kernel_rfl) y

theorem cover1_A_s0 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S4096x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1 S4096x128.size (by sl_kernel_rfl) y

theorem cover1_A_s1 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S8192x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1 S8192x128.size (by sl_kernel_rfl) y

theorem cover1_A_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32)  (y : S128x4096.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1 S128x4096.size (by sl_kernel_rfl) y

theorem cover1_B_9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S1024x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1 S1024x128.size (by sl_kernel_rfl) y

theorem cover1_B_10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S1024x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1 S1024x128.size (by sl_kernel_rfl) y

theorem cover1_B_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S128x4096.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1 S128x4096.size (by sl_kernel_rfl) y

theorem cover1_C_9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S1024x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1 S1024x128.size (by sl_kernel_rfl) y

theorem cover1_C_10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S1024x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1 S1024x128.size (by sl_kernel_rfl) y

theorem cover1_C_11 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S4096x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1 S4096x128.size (by sl_kernel_rfl) y

theorem cover1_C_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) (y : S128x4096.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.2.1 S128x4096.size (by sl_kernel_rfl) y

/-! ## The cases at a point of the grid -/

/-- The first point's run, on that point's memrefs and blocks. -/
def runA1 (c : Dev nD) (t : Fin cfg1.N) (h0 : t.val = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t) (iblk1 V c 6 t) (iblk1 V c 7 t) (iblk1 V c 8 t)
/-- A middle point's run, over what the carried buffers hold. -/
def runB1 (c : Dev nD) (t : Fin cfg1.N) (h0 : t.val ≠ 0) (h1 : t.val ≠ 7) (xs0 : Vec F S4096x128 .f32) (xs1 : Vec F S8192x128 .f32) (xs2 : Vec F S128x4096 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xs0 xs1 xs2
/-- The last point's run. -/
def runC1 (c : Dev nD) (t : Fin cfg1.N) (h1 : t.val = 7) (xs0 : Vec F S4096x128 .f32) (xs1 : Vec F S8192x128 .f32) (xs2 : Vec F S128x4096 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) xs0 xs1 xs2

/-! ## What the carried buffers hold after each point -/

/-- What the first point leaves in the two products and the accumulator: it stores all three. -/
def scrInit1 (c : Dev nD) (t : Fin cfg1.N) (h0 : t.val = 0) : Vec F S4096x128 .f32 × Vec F S8192x128 .f32 × Vec F S128x4096 .f32 :=
  (View.canon (runA1 V c t h0).2.2.1, View.canon (runA1 V c t h0).2.2.2.1, View.canon (runA1 V c t h0).2.2.2.2.1)

/-- What a later point leaves, over what the point before left (`p`): the products are kept, the accumulator is stored again. -/
def scrStep1 (c : Dev nD) (t : Fin cfg1.N) (h0 : t.val ≠ 0) (p : Vec F S4096x128 .f32 × Vec F S8192x128 .f32 × Vec F S128x4096 .f32) :
    Vec F S4096x128 .f32 × Vec F S8192x128 .f32 × Vec F S128x4096 .f32 :=
  if h1 : t.val = 7 then (p.1, p.2.1, View.canon (runC1 V c t h1 p.1 p.2.1 p.2.2).2.2.2.1)
  else (p.1, p.2.1, View.canon (runB1 V c t h0 h1 p.1 p.2.1 p.2.2).2.2.1)

/-- The two products and the accumulator after point `n`, by recursion on the point. -/
def scrAt1 (c : Dev nD) : (n : ℕ) → n < cfg1.N → Vec F S4096x128 .f32 × Vec F S8192x128 .f32 × Vec F S128x4096 .f32
  | 0, hn => scrInit1 V c ⟨0, hn⟩ rfl
  | n + 1, hn => scrStep1 V c ⟨n + 1, hn⟩ (Nat.succ_ne_zero n) (scrAt1 c n (Nat.lt_of_succ_lt hn))

/-- What the point before `t` left in the carried buffers. -/
abbrev prev1 (c : Dev nD) (t : Fin cfg1.N) := scrAt1 V c (t.val - 1) (Nat.lt_of_le_of_lt (Nat.sub_le _ _) t.isLt)

theorem scrAt1_zero (c : Dev nD) (t : Fin cfg1.N) (h0 : t.val = 0) : scrAt1 V c t.val t.isLt = scrInit1 V c t h0 := by
  obtain ⟨n, hn⟩ := t
  cases n with
  | zero => rfl
  | succ n => exact absurd h0 (Nat.succ_ne_zero n)

theorem scrAt1_pos (c : Dev nD) (t : Fin cfg1.N) (h0 : t.val ≠ 0) : scrAt1 V c t.val t.isLt = scrStep1 V c t h0 (prev1 V c t) := by
  obtain ⟨n, hn⟩ := t
  cases n with
  | zero => exact absurd rfl h0
  | succ n => rfl

theorem scrAt1_A (c : Dev nD) (t : Fin cfg1.N) (h0 : t.val = 0) :
    scrAt1 V c t.val t.isLt = (View.canon (runA1 V c t h0).2.2.1, View.canon (runA1 V c t h0).2.2.2.1, View.canon (runA1 V c t h0).2.2.2.2.1) :=
  scrAt1_zero V c t h0

theorem scrAt1_B (c : Dev nD) (t : Fin cfg1.N) (h0 : t.val ≠ 0) (h1 : t.val ≠ 7) :
    scrAt1 V c t.val t.isLt = ((prev1 V c t).1, (prev1 V c t).2.1, View.canon (runB1 V c t h0 h1 (prev1 V c t).1 (prev1 V c t).2.1 (prev1 V c t).2.2).2.2.1) :=
  (scrAt1_pos V c t h0).trans (dif_neg h1)

theorem scrAt1_C (c : Dev nD) (t : Fin cfg1.N) (h0 : t.val ≠ 0) (h1 : t.val = 7) :
    scrAt1 V c t.val t.isLt = ((prev1 V c t).1, (prev1 V c t).2.1, View.canon (runC1 V c t h1 (prev1 V c t).1 (prev1 V c t).2.1 (prev1 V c t).2.2).2.2.2.1) :=
  (scrAt1_pos V c t h0).trans (dif_pos h1)

/-! ## What the outputs' buffers hold after the body at a point -/

def out9At1 (c : Dev nD) (t : Fin cfg1.N) : Vec F S1024x128 .f32 :=
  if h0 : t.val = 0 then View.canon (runA1 V c t h0).1
  else if h1 : t.val = 7 then View.canon (runC1 V c t h1 (prev1 V c t).1 (prev1 V c t).2.1 (prev1 V c t).2.2).1
  else View.canon (runB1 V c t h0 h1 (prev1 V c t).1 (prev1 V c t).2.1 (prev1 V c t).2.2).1

def out10At1 (c : Dev nD) (t : Fin cfg1.N) : Vec F S1024x128 .f32 :=
  if h0 : t.val = 0 then View.canon (runA1 V c t h0).2.1
  else if h1 : t.val = 7 then View.canon (runC1 V c t h1 (prev1 V c t).1 (prev1 V c t).2.1 (prev1 V c t).2.2).2.1
  else View.canon (runB1 V c t h0 h1 (prev1 V c t).1 (prev1 V c t).2.1 (prev1 V c t).2.2).2.1

/-- The whole-array output's buffer: stored at the last point only; elsewhere the window is idle and not written back,
    and this value is consulted by nothing. -/
def out11At1 (c : Dev nD) (t : Fin cfg1.N) : Vec F S4096x128 .f32 :=
  if h1 : t.val = 7 then View.canon (runC1 V c t h1 (prev1 V c t).1 (prev1 V c t).2.1 (prev1 V c t).2.2).2.2.1
  else View.canon (Val := Elt F) (s := S4096x128) (e := .f32) []

/-! ## The invariant -/

/-- Before the first point the class invariant; afterwards the three carried buffers at what the point before left,
    the unopened rest and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (scrAt1 V c (n - 1) (by omega)).1 ∗ owns (c : Thread nD τ) scM1_1 fullShare (scrAt1 V c (n - 1) (by omega)).2.1 ∗ owns (c : Thread nD τ) scM1_2 fullShare (scrAt1 V c (n - 1) (by omega)).2.2) ∗ rest1 (F := F) c) ∗ (∃ r, prngReg c r)) := by
  cases n with
  | zero => exact absurd rfl hz
  | succ n => rfl

/-! ## The proof data -/

/-- The arrays as the region finds them; after the body each input's buffer at its block and each output's at what the
    point's case leaves; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out9At1 V c t
    | ⟨10, _⟩ => out10At1 V c t
    | ⟨11, _⟩ => out11At1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out9At1 V c t := by dsimp only [dat1]
theorem after1_10 (c : Dev nD) (t : Fin cfg1.N) : (dat1 V c).after 10 t = out10At1 V c t := by dsimp only [dat1]
theorem after1_11 (c : Dev nD) (t : Fin cfg1.N) : (dat1 V c).after 11 t = out11At1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]
theorem leaves1_5 (c : Dev nD) (t : Fin cfg1.N) :
    (dat1 V c).leavesExact 5 t = owns (c : Thread nD τ) (ms1_5 t) fullShare ((dat1 V c).after 5 t) := by
  unfold Dat.leavesExact; rw [liveAt1_5 t]
theorem leaves1_6 (c : Dev nD) (t : Fin cfg1.N) :
    (dat1 V c).leavesExact 6 t = owns (c : Thread nD τ) (ms1_6 t) fullShare ((dat1 V c).after 6 t) := by
  unfold Dat.leavesExact; rw [liveAt1_6 t]
theorem leaves1_7 (c : Dev nD) (t : Fin cfg1.N) :
    (dat1 V c).leavesExact 7 t = owns (c : Thread nD τ) (ms1_7 t) fullShare ((dat1 V c).after 7 t) := by
  unfold Dat.leavesExact; rw [liveAt1_7 t]
theorem leaves1_8 (c : Dev nD) (t : Fin cfg1.N) :
    (dat1 V c).leavesExact 8 t = owns (c : Thread nD τ) (ms1_8 t) fullShare ((dat1 V c).after 8 t) := by
  unfold Dat.leavesExact; rw [liveAt1_8 t]
theorem leaves1_9 (c : Dev nD) (t : Fin cfg1.N) :
    (dat1 V c).leavesExact 9 t = owns (c : Thread nD τ) (ms1_9 t) fullShare ((dat1 V c).after 9 t) := by
  unfold Dat.leavesExact; rw [liveAt1_9 t]
theorem leaves1_10 (c : Dev nD) (t : Fin cfg1.N) :
    (dat1 V c).leavesExact 10 t = owns (c : Thread nD τ) (ms1_10 t) fullShare ((dat1 V c).after 10 t) := by
  unfold Dat.leavesExact; rw [liveAt1_10 t]
theorem leaves1_11 (c : Dev nD) (t : Fin cfg1.N) (h1 : t.val = 7) :
    (dat1 V c).leavesExact 11 t = owns (c : Thread nD τ) (ms1_11 t) fullShare ((dat1 V c).after 11 t) := by
  unfold Dat.leavesExact; rw [liveAt1_11 t ((hcond1_1 t).mpr h1)]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4800000 in
/-- The body at any point: the inputs' memrefs hold their blocks; the closed forms say which case the point is in; the
    invariant hands the body the carried buffers (at anything at the first point, afterwards at what the point before
    left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [leaves1_0, leaves1_1, leaves1_2, leaves1_3, leaves1_4, leaves1_5, leaves1_6, leaves1_7, leaves1_8, leaves1_9, leaves1_10]
  rw [after1_0, after1_1, after1_2, after1_3, after1_4, after1_5, after1_6, after1_7, after1_8, after1_9, after1_10]
  unfold out9At1 out10At1
  by_cases h0 : t.val = 0
  · have hn1 : ¬cond1_1 (grid1.coords t) := fun h => by have := (hcond1_1 t).mp h; omega
    rw [Dat.leavesExact_idle (dat1 V c) 11 t (idleAt1_11 t hn1) (noFlush1_11 t hn1)]
    rw [scrAt1_A V c t h0]
    simp only [dif_pos h0]
    rw [PhiS1_castSucc V c t, PhiS1_zero V c _ _ h0, PhiA1_eq]
    iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA1 V c t h0).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    iintro ⟨H0, H1, H2, H3, H4, H5, H6, H7, H8, ⟨%e9, H9⟩, ⟨%e10, H10⟩, H11, ⟨%es0, HS0⟩, ⟨%es1, HS1⟩, ⟨%es2, HS2⟩⟩
    isplitl [HS0 HS1 HS2 HR Hg]
    · isplitl [HS0 HS1 HS2 HR]
      · isplitl [HS0 HS1 HS2]
        · isplitl [HS0]
          · unfold owns; iexists _; isplitr
            swap; · iexact HS0
            ipureintro; exact View.read_writes_eq_canon _ _ _ (cover1_A_s0 _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (cover1_A_s1 _ _ _ _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_eq_canon _ _ _ (cover1_A_s2 _ _ _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (cover1_A_9 _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_eq_canon _ _ _ (cover1_A_10 _ _ _ _ _ _ _ _ _ _ _ _ _ _ _ _ _ _ _ _ _ _ _ _ _ _ _ _ _ _ _ _ _ _ _ _ _ _ _ _ _ _ _)
    iexists _; iexact H11
  · by_cases h1 : t.val = 7
    · rw [leaves1_11 V c t h1, after1_11]
      unfold out11At1
      rw [scrAt1_C V c t h0 h1]
      simp only [dif_neg h0, dif_pos h1]
      rw [PhiS1_castSucc V c t, PhiS1_pos V c _ _ h0]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC1 V c t h1 (prev1 V c t).1 (prev1 V c t).2.1 (prev1 V c t).2.2).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, ⟨%e9, H9⟩, ⟨%e10, H10⟩, ⟨%e11, H11⟩, HS0, HS1, ⟨%es2, HS2⟩⟩
      isplitl [HS0 HS1 HS2 HR Hg]
      · isplitl [HS0 HS1 HS2 HR]
        · isplitl [HS0 HS1 HS2]
          · isplitl [HS0]; · iexact HS0
            isplitl [HS1]; · iexact HS1
            unfold owns; iexists _; isplitr
            swap; · iexact HS2
            ipureintro; exact View.read_writes_eq_canon _ _ _ (cover1_C_s2 _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (cover1_C_9 _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_eq_canon _ _ _ (cover1_C_10 _ _ _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_eq_canon _ _ _ (cover1_C_11 _ _ _ _ _ _ _ _ _ _ _ _ _ _ _ _ _ _ _ _ _ _ _ _ _ _ _ _ _ _ _ _ _ _ _ _ _ _ _ _ _ _ _ _ _ _)
    · have hn1 : ¬cond1_1 (grid1.coords t) := fun h => h1 ((hcond1_1 t).mp h)
      rw [Dat.leavesExact_idle (dat1 V c) 11 t (idleAt1_11 t hn1) (noFlush1_11 t hn1)]
      rw [scrAt1_B V c t h0 h1]
      simp only [dif_neg h0, dif_neg h1]
      rw [PhiS1_castSucc V c t, PhiS1_pos V c _ _ h0]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB1 V c t h0 h1 (prev1 V c t).1 (prev1 V c t).2.1 (prev1 V c t).2.2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [HS0]; · iexact HS0
      isplitl [HS1]; · iexact HS1
      isplitl [HS2]; · iexact HS2
      iintro ⟨H0, H1, H2, H3, H4, H5, H6, H7, H8, ⟨%e9, H9⟩, ⟨%e10, H10⟩, H11, HS0, HS1, ⟨%es2, HS2⟩⟩
      isplitl [HS0 HS1 HS2 HR Hg]
      · isplitl [HS0 HS1 HS2 HR]
        · isplitl [HS0 HS1 HS2]
          · isplitl [HS0]; · iexact HS0
            isplitl [HS1]; · iexact HS1
            unfold owns; iexists _; isplitr
            swap; · iexact HS2
            ipureintro; exact View.read_writes_eq_canon _ _ _ (cover1_B_s2 _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (cover1_B_9 _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_eq_canon _ _ _ (cover1_B_10 _ _ _ _ _ _ _ _ _ _ _ _ _ _ _ _ _ _ _ _ _ _ _ _ _ _ _ _ _ _ _ _ _ _ _ _ _ _ _ _ _ _ _ _ _ _)
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Hand

end
-- ==== Proof.KI.R2Body.lean ====
import proofs.«129582_g64467459113426_cont_9to1_m_811_15_alg».proof.Proof.Gen.KernelIdeal.Launch
import proofs.«129582_g64467459113426_cont_9to1_m_811_15_alg».proof.Proof.Gen.KernelIdeal.Skeleton
import proofs.«129582_g64467459113426_cont_9to1_m_811_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: one sweep over the row blocks of `A0` and `I1`

At each of the 8 grid points the body stores the product of the current 512-row block of `A0` with `u00`
into the first result's block, and adds (u01 block)ᵀ · (I1 block) to an accumulator of shape 128 × 8192 kept in
the second result's staging buffer; at the first point the accumulator is zeroed first. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it is fetched there:
    unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it is fetched there:
    unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it is fetched there:
    unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it is fetched there:
    unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The zeroing condition -/

/-- The body's conditional: the grid coordinate is zero. -/
abbrev cond2_0 (i : grid2.Coords) : Prop := (Scalar.cmpi .ne (Scalar.extui (Scalar.cmpi .eq (BitVec.ofNat 32 (i 0).val) 0#32)) 0#32) = 1#1
/-- It holds at the first point only (decided over the 8 points). -/
theorem hcond2_0 : ∀ t : Fin cfg2.N, cond2_0 (grid2.coords t) ↔ t.val % 8 = 0 :=
  (by decide +kernel : ∀ t : Fin grid2.N, cond2_0 (grid2.coords t) ↔ t.val % 8 = 0)

/-! ## Whole-buffer accesses -/

theorem hz2 : (![0, 0] : Fin 2 → Nat) = fun _ => 0 := funext fun a => by fin_cases a <;> rfl

/-- A list of writes whose last write is of the whole buffer covers it. -/
theorem cover_head_whole2 {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- After writes whose last is of the whole buffer, the buffer reads as that write's payload. -/
theorem read_writes_head_whole2 {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (cover_head_whole2 h inb w L), View.canon_cons_unit_zero h]

/-! ## The body's triple, case by case -/

set_option maxHeartbeats 1000000 in
/-- FIRST POINT. On whole staging buffers, the inputs' at contents `x0 … x3` and the outputs' at anything, the body
    leaves the inputs as they were, the first output at `x0 · x2` (`k2_pay2`) and the accumulator at
    `0 + x3ᵀ · x1` (`k2_pay3` of the zero block `k2_pay1`). -/
theorem sound_kernel2_A (c : Dev nD) (E : Set ℕ) (i : grid2.Coords) (arg1 : Memref sig .tc .vmem S512x4096 .f32) (harg1 : arg1.IsWhole) (arg2 : Memref sig .tc .vmem S512x8192 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x8192 .f32) (harg6 : arg6.IsWhole) (hc : cond2_0 i)
    (x0 : Vec F S512x4096 .f32) (x1 : Vec F S512x8192 .f32) (x2 : Vec F S4096x128 .f32) (x3 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay2 x0 x2) ∗ owns (c : Thread nD τ) arg6 fullShare (k2_pay3 (k2_pay1 (F := F)) x3 x1)) -∗ K ⟨⟩))
      ⊢ wp frame (wpE (defs₀ (F := F)) Variants.none c none) E (cc2__s4_body i arg1 harg1 arg2 harg2 arg3 harg3 arg4 harg4 arg5 harg5 arg6 harg6) K := by
  simp only [cc2__s4_body_eq_skeleton]; unfold cc2__s4_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_head_whole2 _ _ hz2]
    simp only [View.readAt_eq_ld, View.ld_unit_zero (S := S512x4096) hz2, View.ld_unit_zero (S := S4096x128) hz2]
  iexists _; isplitr
  swap; · iexact H5
  ipureintro
  rw [read_writes_head_whole2 _ _ hz2]
  sl_unfold_words
  rw [View.readCov_unit_zero _ hz2]
  simp only [View.readAt_eq_ld, View.ld_unit_zero (S := S512x128) hz2, View.ld_unit_zero (S := S512x8192) hz2]

set_option maxHeartbeats 1000000 in
/-- LATER POINTS. The same with the accumulator's buffer at known contents `acc`: it ends at `acc + x3ᵀ · x1`. -/
theorem sound_kernel2_B (c : Dev nD) (E : Set ℕ) (i : grid2.Coords) (arg1 : Memref sig .tc .vmem S512x4096 .f32) (harg1 : arg1.IsWhole) (arg2 : Memref sig .tc .vmem S512x8192 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x8192 .f32) (harg6 : arg6.IsWhole) (hc : ¬cond2_0 i)
    (x0 : Vec F S512x4096 .f32) (x1 : Vec F S512x8192 .f32) (x2 : Vec F S4096x128 .f32) (x3 : Vec F S512x128 .f32)
    (acc : Vec F S128x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay2 x0 x2) ∗ owns (c : Thread nD τ) arg6 fullShare (k2_pay3 acc x3 x1)) -∗ K ⟨⟩))
      ⊢ wp frame (wpE (defs₀ (F := F)) Variants.none c none) E (cc2__s4_body i arg1 harg1 arg2 harg2 arg3 harg3 arg4 harg4 arg5 harg5 arg6 harg6) K := by
  simp only [cc2__s4_body_eq_skeleton]; unfold cc2__s4_body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_head_whole2 _ _ hz2]
    simp only [View.readAt_eq_ld, View.ld_unit_zero (S := S512x4096) hz2, View.ld_unit_zero (S := S4096x128) hz2]
  iexists _; isplitr
  swap; · iexact H5
  ipureintro
  rw [read_writes_head_whole2 _ _ hz2]
  simp only [View.readAt_eq_ld, View.ld_unit_zero (S := S128x8192) hz2, View.ld_unit_zero (S := S512x128) hz2, View.ld_unit_zero (S := S512x8192) hz2]

end Cert.KernelIdeal.Hand
end
-- ==== Proof.KI.Region2.lean ====
import proofs.«129582_g64467459113426_cont_9to1_m_811_15_alg».proof.Proof.KI.R2Body
import proofs.«129582_g64467459113426_cont_9to1_m_811_15_alg».proof.Proof.Gen.KernelIdeal.Launch
import proofs.«129582_g64467459113426_cont_9to1_m_811_15_alg».proof.Proof.Gen.KernelIdeal.Skeleton
import proofs.«129582_g64467459113426_cont_9to1_m_811_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: the proof data and the body obligation -/

/-! ## What the accumulator's buffer holds after each point -/

/-- The accumulator after the body at position `n`: at the first point the zero block plus that point's product
    (u01 block)ᵀ · (I1 block); afterwards what the point before left plus this point's product. The buffer is not
    written back between points, so each point finds what the one before left. -/
def outsAt2 (c : Dev nD) : (n : ℕ) → n < cfg2.N → Vec F S128x8192 .f32
  | 0, hn => k2_pay3 (k2_pay1 (F := F)) (iblk2 V c 3 ⟨0, hn⟩) (iblk2 V c 1 ⟨0, hn⟩)
  | n + 1, hn => k2_pay3 (outsAt2 c n (Nat.lt_of_succ_lt hn)) (iblk2 V c 3 ⟨n + 1, hn⟩) (iblk2 V c 1 ⟨n + 1, hn⟩)

/-- At the first point. -/
theorem outsAt2_zero (c : Dev nD) (t : Fin cfg2.N) (h0 : t.val = 0) :
    outsAt2 V c t.val t.isLt = k2_pay3 (k2_pay1 (F := F)) (iblk2 V c 3 t) (iblk2 V c 1 t) := by
  obtain ⟨n, hn⟩ := t
  cases n with
  | zero => rfl
  | succ n => exact absurd h0 (Nat.succ_ne_zero n)

/-- At a later point. -/
theorem outsAt2_succ (c : Dev nD) (t : Fin cfg2.N) (h0 : t.val ≠ 0) :
    outsAt2 V c t.val t.isLt
      = k2_pay3 (outsAt2 V c (t.val - 1) (Nat.lt_of_le_of_lt (Nat.sub_le _ _) t.isLt)) (iblk2 V c 3 t) (iblk2 V c 1 t) := by
  obtain ⟨n, hn⟩ := t
  cases n with
  | zero => exact absurd rfl h0
  | succ n => rfl

/-! ## The proof data -/

/-- The proof data of the sweep on core `c`: the arrays as the region finds them; after the body at point `t` each
    input's buffer at its block, the first result's at the product of the `A0` block with `u00`, the accumulator's at
    `outsAt2`; the invariant is the scoped rest and the random-bit register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay2 (iblk2 V c 0 t) (iblk2 V c 2 t)
    | ⟨5, _⟩ => outsAt2 V c t.val t.isLt
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay2 (iblk2 V c 0 t) (iblk2 V c 2 t) := by dsimp only [dat2]
theorem after2_5 (c : Dev nD) (t : Fin cfg2.N) : (dat2 V c).after 5 t = outsAt2 V c t.val t.isLt := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a later point the accumulator's staging buffer holds what the body left at the point before: the buffer is
    written back after the last point only, the window is never idle and its block is whole. -/
theorem before2_5_B (c : Dev nD) (t : Fin cfg2.N) (h0 : t.val ≠ 0) (d) :
    (dat2 V c).before 5 t d = outsAt2 V c (t.val - 1) (Nat.lt_of_le_of_lt (Nat.sub_le _ _) t.isLt) := by
  have hN : t.val < 8 := lt_of_lt_of_eq t.isLt (show cfg2.N = 8 from N_2)
  rw [Dat.before_out_kept _ 5 rfl t h0 (Bool.eq_false_iff.mpr fun h => by have := (flush2_5 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 800000 in
/-- The body at any point: the inputs' buffers hold their blocks; at the first point the zeroing case runs, at a later
    point the accumulator's buffer holds what the point before left and the adding case runs; the invariant and the
    core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  by_cases h0 : t.val = 0
  · rw [outsAt2_zero V c t h0]
    iintro ⟨HΦ, Ho, ⟨%d0, H0⟩, ⟨%d1, H1⟩, ⟨%d2, H2⟩, ⟨%d3, H3⟩, ⟨%d4, H4⟩, ⟨%d5, H5⟩⟩
    iapply (sound_kernel2_A c Set.univ (grid2.coords t) _ _ _ _ _ _ _ _ _ _ _ _ ((hcond2_0 t).mpr (by rw [h0]))
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt2_succ V c t h0]
    simp only [before2_5_B V c t h0]
    have hN : t.val < 8 := lt_of_lt_of_eq t.isLt (show cfg2.N = 8 from N_2)
    iintro ⟨HΦ, Ho, ⟨%d0, H0⟩, ⟨%d1, H1⟩, ⟨%d2, H2⟩, ⟨%d3, H3⟩, ⟨%d4, H4⟩, ⟨%d5, H5⟩⟩
    iapply (sound_kernel2_B c Set.univ (grid2.coords t) _ _ _ _ _ _ _ _ _ _ _ _ (fun h => h0 (by have := (hcond2_0 t).mp h; omega))
      (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is the scoped rest and the random-bit register as the region finds them, -/
theorem hin2 (c : Dev nD) : Pipeline.ΦA spec2 c ⊢ (dat2 V c).Φ 0 := .rfl

/-- and so it is after the last. -/
theorem hout2 (c : Dev nD) : (dat2 V c).Φ (Fin.last cfg2.N) ⊢ Pipeline.ΦA spec2 c := .rfl

end Cert.KernelIdeal.Hand
end
-- ==== Proof.KI.R3Runs.lean ====
import proofs.«129582_g64467459113426_cont_9to1_m_811_15_alg».proof.Proof.Gen.KernelIdeal.Launch
import proofs.«129582_g64467459113426_cont_9to1_m_811_15_alg».proof.Proof.Gen.KernelIdeal.Skeleton
import proofs.«129582_g64467459113426_cont_9to1_m_811_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The fourth sweep (grid of 32 row blocks of 256 rows): what its modules share -/

/-- Window `w`'s block at point `t`, read off its array as the sweep finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block of the array at every point, whether or not it was fetched
    there: a window that is not fetched has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block of the array at every point, whether or not it was fetched
    there: a window that is not fetched has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block of the array at every point, whether or not it was fetched
    there: a window that is not fetched has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block of the array at every point, whether or not it was fetched
    there: a window that is not fetched has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block of the array at every point, whether or not it was fetched
    there: a window that is not fetched has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The branch on the first point -/

/-- The condition of the body's one conditional (zero the accumulator), from the grid coordinate. -/
abbrev cond3_0 (i : grid3.Coords) : Prop := (Scalar.cmpi .ne (Scalar.extui (Scalar.cmpi .eq (BitVec.ofNat 32 (i 0).val) 0#32)) 0#32) = 1#1
/-- It holds at the first point only — decided over the 32 points. -/
theorem hcond3_0 : ∀ t : Fin cfg3.N, cond3_0 (grid3.coords t) ↔ t.val = 0 :=
  (by decide +kernel : ∀ t : Fin grid3.N, cond3_0 (grid3.coords t) ↔ t.val = 0)

/-! ## The staging buffers at a point -/

/-- One staging buffer of each output window, through which its contents are stated (the choice does not matter). -/
abbrev VO3_5 : View sig .tc .vmem S256x128 .f32 := (Memref.whole cc3_stg5_0 : Memref sig .tc .vmem S256x128 .f32).view
abbrev VO3_6 : View sig .tc .vmem S128x4096 .f32 := (Memref.whole cc3_stg6_0 : Memref sig .tc .vmem S128x4096 .f32).view
abbrev ms3_0 (t : Fin cfg3.N) : Memref sig .tc .vmem S256x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8192x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x8192 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x4096 .f32 := win3_6.stage (cfg3.slots t 6)
abbrev hs3_6 (t : Fin cfg3.N) : (ms3_6 t).IsWhole := hstage3_6 ((cfg3.slots t 6).cast nbuf3_6)

end Cert.KernelIdeal.Hand

end
-- ==== Proof.KI.R3RunA.lean ====
import proofs.«129582_g64467459113426_cont_9to1_m_811_15_alg».proof.Proof.KI.R3Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 2000000 in
/-- The body at the FIRST point (the conditional taken: the accumulator is zeroed first). On whole staging buffers — the five
    inputs' at their contents, the two outputs' at anything — it runs to the continuation holding the inputs' as they were and each
    output's buffer with the stores' pieces written (last store first); the pieces are found by running the body's memory
    operations in order. -/
noncomputable def kernelRun3_A (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) :
    Σ' (L5 : List (View.Piece (Elt F) S256x128 .f32)), { L6 : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc3__s5_body i arg1 harg1 arg2 harg2 arg3 harg3 arg4 harg4 arg5 harg5 arg6 harg6 arg7 harg7) K } := by
  refine ⟨?_, ?_, fun E K => ?run⟩
  case run =>
    simp only [cc3__s5_body_eq_skeleton]; unfold cc3__s5_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

end Cert.KernelIdeal.Hand

end
-- ==== Proof.KI.R3RunB.lean ====
import proofs.«129582_g64467459113426_cont_9to1_m_811_15_alg».proof.Proof.KI.R3RunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 2000000 in
/-- The body at a LATER point (the conditional not taken). On whole staging buffers — the five inputs' at their contents, the
    row-block output's at anything, the accumulator's at what the point before left (`xo6`) — it runs to the continuation holding the
    inputs' as they were and each output's buffer with the stores' pieces written (last store first). -/
noncomputable def kernelRun3_B (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) :
    Σ' (L5 : List (View.Piece (Elt F) S256x128 .f32)), { L6 : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc3__s5_body i arg1 harg1 arg2 harg2 arg3 harg3 arg4 harg4 arg5 harg5 arg6 harg6 arg7 harg7) K } := by
  refine ⟨?_, ?_, fun E K => ?run⟩
  case run =>
    simp only [cc3__s5_body_eq_skeleton]; unfold cc3__s5_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

end Cert.KernelIdeal.Hand

end
-- ==== Proof.KI.Region3.lean ====
import proofs.«129582_g64467459113426_cont_9to1_m_811_15_alg».proof.Proof.KI.R3RunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The fourth sweep: what each point leaves, the proof data, the body obligation

At point `t` the body reads row block `t` (256 rows) of the 8192×8192 and the 8192×4096 operands and of the second
8192×128 operand, the whole first 8192×128 operand and columns [256·t, 256·t + 256) of the 128×8192 addend; it stores the
row-block output (written back at every point) and adds into the 128×4096 accumulator, which stays in its staging buffer
from the first point to the last and is written back once, after the last. -/

/-- The row-block output's stores at the first point tile its 256×128 buffer, so they cover it. -/
theorem cover3_A_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) (y : S256x128.Idx) :
    ∃ pc ∈ (kernelRun3_A c i arg1 harg1 arg2 harg2 arg3 harg3 arg4 harg4 arg5 harg5 arg6 harg6 arg7 harg7 hc0 x0 x1 x2 x3 x4).1, y ∈ pc.1.set :=
  View.cover_of_tiledL (kernelRun3_A c i arg1 harg1 arg2 harg2 arg3 harg3 arg4 harg4 arg5 harg5 arg6 harg6 arg7 harg7 hc0 x0 x1 x2 x3 x4).1 S256x128.size (by sl_kernel_rfl) y

/-- What the body leaves in the row-block output's buffer at the first point: its stores read back. -/
def out3_A_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) : Vec F S256x128 .f32 :=
  VO3_5.read (Elt F) (VO3_5.writes (Elt F) VO3_5.junk (kernelRun3_A c i arg1 harg1 arg2 harg2 arg3 harg3 arg4 harg4 arg5 harg5 arg6 harg6 arg7 harg7 hc0 x0 x1 x2 x3 x4).1)

/-- The accumulator's stores at the first point tile its 128×4096 buffer, so they cover it. -/
theorem cover3_A_6 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) (y : S128x4096.Idx) :
    ∃ pc ∈ (kernelRun3_A c i arg1 harg1 arg2 harg2 arg3 harg3 arg4 harg4 arg5 harg5 arg6 harg6 arg7 harg7 hc0 x0 x1 x2 x3 x4).2.1, y ∈ pc.1.set :=
  View.cover_of_tiledL (kernelRun3_A c i arg1 harg1 arg2 harg2 arg3 harg3 arg4 harg4 arg5 harg5 arg6 harg6 arg7 harg7 hc0 x0 x1 x2 x3 x4).2.1 S128x4096.size (by sl_kernel_rfl) y

/-- What the body leaves in the accumulator's buffer at the first point: its stores read back. -/
def out3_A_6 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) : Vec F S128x4096 .f32 :=
  VO3_6.read (Elt F) (VO3_6.writes (Elt F) VO3_6.junk (kernelRun3_A c i arg1 harg1 arg2 harg2 arg3 harg3 arg4 harg4 arg5 harg5 arg6 harg6 arg7 harg7 hc0 x0 x1 x2 x3 x4).2.1)

/-- The row-block output's stores at a later point tile its 256×128 buffer, so they cover it. -/
theorem cover3_B_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) (y : S256x128.Idx) :
    ∃ pc ∈ (kernelRun3_B c i arg1 harg1 arg2 harg2 arg3 harg3 arg4 harg4 arg5 harg5 arg6 harg6 arg7 harg7 hc0 x0 x1 x2 x3 x4 xo6).1, y ∈ pc.1.set :=
  View.cover_of_tiledL (kernelRun3_B c i arg1 harg1 arg2 harg2 arg3 harg3 arg4 harg4 arg5 harg5 arg6 harg6 arg7 harg7 hc0 x0 x1 x2 x3 x4 xo6).1 S256x128.size (by sl_kernel_rfl) y

/-- What the body leaves in the row-block output's buffer at a later point: its stores read back. -/
def out3_B_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) : Vec F S256x128 .f32 :=
  VO3_5.read (Elt F) (VO3_5.writes (Elt F) VO3_5.junk (kernelRun3_B c i arg1 harg1 arg2 harg2 arg3 harg3 arg4 harg4 arg5 harg5 arg6 harg6 arg7 harg7 hc0 x0 x1 x2 x3 x4 xo6).1)

/-- The accumulator's stores at a later point tile its 128×4096 buffer, so they cover it. -/
theorem cover3_B_6 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) (y : S128x4096.Idx) :
    ∃ pc ∈ (kernelRun3_B c i arg1 harg1 arg2 harg2 arg3 harg3 arg4 harg4 arg5 harg5 arg6 harg6 arg7 harg7 hc0 x0 x1 x2 x3 x4 xo6).2.1, y ∈ pc.1.set :=
  View.cover_of_tiledL (kernelRun3_B c i arg1 harg1 arg2 harg2 arg3 harg3 arg4 harg4 arg5 harg5 arg6 harg6 arg7 harg7 hc0 x0 x1 x2 x3 x4 xo6).2.1 S128x4096.size (by sl_kernel_rfl) y

/-- What the body leaves in the accumulator's buffer at a later point: its stores read back. -/
def out3_B_6 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) : Vec F S128x4096 .f32 :=
  VO3_6.read (Elt F) (VO3_6.writes (Elt F) VO3_6.junk (kernelRun3_B c i arg1 harg1 arg2 harg2 arg3 harg3 arg4 harg4 arg5 harg5 arg6 harg6 arg7 harg7 hc0 x0 x1 x2 x3 x4 xo6).2.1)

/-! ## What the accumulator holds after each point -/

/-- The accumulator's buffer after the body at position `n`: at the first point what the zeroing case leaves; afterwards what
    the adding case leaves over what the point before left (the buffer is not written back in between). -/
def outsAt3 (c : Dev nD) : (n : ℕ) → n < cfg3.N → Vec F S128x4096 .f32
  | 0, hn => out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) ((hcond3_0 ⟨0, hn⟩).mpr rfl) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn => out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (fun h => Nat.succ_ne_zero n ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn))

/-- At the first point: the zeroing case's contents. -/
theorem outsAt3_A (c : Dev nD) (t : Fin cfg3.N) (h0 : t.val = 0) :
    outsAt3 V c t.val t.isLt = out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t) := by
  obtain ⟨n, hn⟩ := t
  cases n with
  | zero => exact rfl
  | succ n => exact absurd h0 (Nat.succ_ne_zero n)

/-- At a later point: the adding case's contents, over what the point before left. -/
theorem outsAt3_B (c : Dev nD) (t : Fin cfg3.N) (h0 : ¬t.val = 0) :
    outsAt3 V c t.val t.isLt = out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)) := by
  obtain ⟨n, hn⟩ := t
  cases n with
  | zero => exact absurd rfl h0
  | succ n => exact rfl

/-- The row-block output's buffer after the body at point `t`: the case of the point, run on the point's blocks. -/
def out5At3 (c : Dev nD) (t : Fin cfg3.N) : Vec F S256x128 .f32 :=
  if h0 : t.val = 0 then
    out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t)
  else
    out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt))

theorem out5At3_A (c : Dev nD) (t : Fin cfg3.N) (h0 : t.val = 0) :
    out5At3 V c t = out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t) := by
  unfold out5At3; exact dif_pos h0

theorem out5At3_B (c : Dev nD) (t : Fin cfg3.N) (h0 : ¬t.val = 0) :
    out5At3 V c t = out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)) := by
  unfold out5At3; exact dif_neg h0

/-! ## The proof data -/

/-- The sweep's proof data on core `c`: the arrays as the sweep finds them; after the body at point `t` each input's buffer
    at its block, the row-block output's at `out5At3`, the accumulator's at `outsAt3`; the invariant: the scoped buffers
    that are no staging buffer and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out5At3 V c t
    | ⟨6, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out5At3 V c t := by dsimp only [dat3]
theorem after3_6 (c : Dev nD) (t : Fin cfg3.N) : (dat3 V c).after 6 t = outsAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- At a later point the accumulator's buffer holds what the body left at the point before: the buffer is written back after
    the last point only, and the window is never idle and never cut. -/
theorem before3_6_B (c : Dev nD) (t : Fin cfg3.N) (h0 : ¬t.val = 0) (d) :
    (dat3 V c).before 6 t d = outsAt3 V c (t.val - 1) (Nat.lt_of_le_of_lt (Nat.sub_le _ _) t.isLt) := by
  have hN : t.val < 32 := lt_of_lt_of_eq t.isLt (show cfg3.N = 32 from N_3)
  rw [Dat.before_out_kept _ 6 rfl t h0 (Bool.eq_false_iff.mpr fun h => by have := (flush3_6 _).mp h; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t))

set_option maxHeartbeats 1600000 in
/-- The body at any point: the inputs' buffers hold their blocks; the point is the first or a later one; at a later one the
    accumulator's buffer holds what the point before left; so the case's run applies. The invariant passes through unread;
    the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  by_cases h0 : t.val = 0
  · rw [outsAt3_A V c t h0, out5At3_A V c t h0]
    unfold out3_A_5 out3_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ ((hcond3_0 t).mpr h0) (iblk3 V c 0 t) (iblk3 V c 1 t) (iblk3 V c 2 t) (iblk3 V c 3 t) (iblk3 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover3_A_5 c _ _ _ _ _ _ _ _ _ _ _ _ _ _ _ _ _ _ _ _ _)
    unfold owns; iexists _; isplitr
    swap; · iexact H6
    ipureintro; exact View.read_writes_of_cover _ _ _ _ _ (cover3_A_6 c _ _ _ _ _ _ _ _ _ _ _ _ _ _ _ _ _ _ _ _ _)
  · rw [outsAt3_B V c t h0, out5At3_B V c t h0]
    simp only [before3_6_B V c t h0]
    unfold out3_B_5 out3_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun3_B c (grid3.coords t) _ _ _ _ _ _ _ _ _ _ _ _ _ _ (fun h => h0 ((hcond3_0 t).mp h)) (iblk3 V c 0 t) (iblk3 V c 1 t) (iblk3 V c 2 t) (iblk3 V c 3 t) (iblk3 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover3_B_5 c _ _ _ _ _ _ _ _ _ _ _ _ _ _ _ _ _ _ _ _ _ _)
    unfold owns; iexists _; isplitr
    swap; · iexact H6
    ipureintro; exact View.read_writes_of_cover _ _ _ _ _ (cover3_B_6 c _ _ _ _ _ _ _ _ _ _ _ _ _ _ _ _ _ _ _ _ _ _)

/-- The body obligation, at every point. -/
theorem body_obligation3 (c : Dev nD) : BodyObligation (dat3 (F := F) V c) (defs₀ (F := F)) Variants.none () Set.univ := fun t => by
  rw [bigSep_W3, bigSep_W3]
  exact sound_body3 V c t

/-- The invariant at the first position is the class invariant, -/
theorem hin3 (c : Dev nD) : Pipeline.ΦA spec3 c ⊢ (dat3 V c).Φ 0 := by
  dsimp only [dat3]; exact .rfl

/-- and at the last. -/
theorem hout3 (c : Dev nD) : (dat3 V c).Φ (Fin.last cfg3.N) ⊢ Pipeline.ΦA spec3 c := by
  dsimp only [dat3]; exact .rfl

end Cert.KernelIdeal.Hand

end
-- ==== Proof.KI.Region4.lean ====
import proofs.«129582_g64467459113426_cont_9to1_m_811_15_alg».proof.Proof.Gen.KernelIdeal.Launch
import proofs.«129582_g64467459113426_cont_9to1_m_811_15_alg».proof.Proof.Gen.KernelIdeal.Skeleton
import proofs.«129582_g64467459113426_cont_9to1_m_811_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the row sweep over the 4096 × 4096 matrix, logistic (addendᵀ block + row block · right factor)

Four windows. Window 0 is a 1024 × 4096 row block of the big matrix, moving with the point. Windows 1 (the 4096 × 128
right factor) and 2 (the 128 × 4096 transposed addend) are whole arrays whose block index never moves. Window 3 is the
1024 × 128 row block of the result, written back at every point. The body reads columns [1024·i, 1024·i + 1024) of
window 2 at point i. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, for any proof data whose array is the entry
    contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 likewise: fetched at the first point only, its block index never moves afterwards. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole row block of the big matrix. -/
abbrev r4_0 : Rect S1024x4096 := Rect.unit (s := S1024x4096) ![0, 0] S1024x4096.size inb_S1024x4096_S1024x4096_0_0
/-- The whole right factor. -/
abbrev r4_1 : Rect S4096x128 := Rect.unit (s := S4096x128) ![0, 0] S4096x128.size inb_S4096x128_S4096x128_0_0
/-- The 128 × 1024 column band of the transposed addend that point `i` reads: columns from 1024·i on. -/
abbrev r4_2 (i : grid4.Coords) : Rect S128x4096 := Rect.unit (s := S128x4096) (k4_off1 i) S128x1024.size (k4_off1_inb i)
/-- The whole result block. -/
abbrev r4_3 : Rect S1024x128 := Rect.unit (s := S1024x128) ![0, 0] S1024x128.size inb_S1024x128_S1024x128_0_0

/-! ## What the body leaves in the output window's buffer -/

/-- Window 3's buffer after the body at grid coordinates `i`, from the input windows' blocks: its one store. -/
def out4_3 (i : grid4.Coords) (x0 : Vec F S1024x4096 .f32) (x1 : Vec F S4096x128 .f32) (x2 : Vec F S128x4096 .f32) : Vec F S1024x128 .f32 :=
  View.canon [⟨r4_3, k4_pay1 (View.ld x2 (r4_2 i)) (View.ld x0 r4_0) (View.ld x1 r4_1)⟩]

/-- The one store is the whole buffer, so it covers it. -/
theorem cover4_3 (p0 : Vec F S1024x128 .f32) (y : S1024x128.Idx) :
    ∃ pc ∈ ([⟨r4_3, p0⟩] : List (View.Piece (Elt F) S1024x128 .f32)), y ∈ pc.1.set :=
  View.cover_of_tiled [⟨r4_3, p0⟩] S1024x128.size (by rfl) y

/-! ## The body's triple -/

set_option maxHeartbeats 1000000 in
/-- The body on whole staging memrefs, the inputs' at read contents and the output's at anything, runs to the
    continuation holding the inputs' as they were and the output's at `out4_3` of the inputs'. -/
theorem sound_kernel4 (c : Dev nD) (E : Set ℕ) (i : grid4.Coords)
    (arg1 : Memref sig .tc .vmem S1024x4096 .f32) (harg1 : arg1.IsWhole) (arg2 : Memref sig .tc .vmem S4096x128 .f32) (harg2 : arg2.IsWhole)
    (arg3 : Memref sig .tc .vmem S128x4096 .f32) (harg3 : arg3.IsWhole) (arg4 : Memref sig .tc .vmem S1024x128 .f32) (harg4 : arg4.IsWhole)
    (x0 : Vec F S1024x4096 .f32) (x1 : Vec F S4096x128 .f32) (x2 : Vec F S128x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 i x0 x1 x2)) -∗ K ⟨⟩))
      ⊢ wp frame (wpE (defs₀ (F := F)) Variants.none c none) E (cc4__s6_body i arg1 harg1 arg2 harg2 arg3 harg3 arg4 harg4) K := by
  simp only [cc4__s6_body_eq_skeleton]; unfold cc4__s6_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region on core `c`: the arrays as the region finds them; after the body at point `t` each
    input's buffer at its block and the output's at `out4_3` of the input blocks; the invariant is the class's (the
    scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (grid4.coords t) (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (grid4.coords t) (iblk4 V c 0 t) (iblk4 V c 1 t) (iblk4 V c 2 t) := by dsimp only [dat4]

/-- Each input's current buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- Before the first point the invariant is the class invariant itself, -/
theorem hin4 (c : Dev nD) : Pipeline.ΦA spec4 c ⊢ (dat4 V c).Φ 0 := by
  rw [show (dat4 V c).Φ 0 = Pipeline.ΦA spec4 c from rfl]

/-- and so it is after the last. -/
theorem hout4 (c : Dev nD) : (dat4 V c).Φ (Fin.last cfg4.N) ⊢ Pipeline.ΦA spec4 c := by
  rw [show (dat4 V c).Φ (Fin.last cfg4.N) = Pipeline.ΦA spec4 c from rfl]

example (c : Dev nD) : (dat4 V c).q = fun _ => fullShare := rfl
example (c : Dev nD) : (dat4 V c).owed = fun _ => 0 := rfl

end Cert.KernelIdeal.Hand

end
-- ==== Proof.KI.Run.lean ====
/-
  The five regions run one after the other.

  Between two regions every buffer that lives outside the kernels holds a known array: at the start what the program was
  launched with, and after region K what it held before, except that each array one of region K's windows writes holds what the
  region's write-backs leave in it (the fold of the blocks written back, point after point).  An array that region K only reads,
  or does not touch, is unchanged by it.  So the seventeen arguments end as launched, and each of the layer's three results is read
  off the fold of the region that writes it.
-/
import proofs.«129582_g64467459113426_cont_9to1_m_811_15_alg».proof.Proof.KI.Region0
import proofs.«129582_g64467459113426_cont_9to1_m_811_15_alg».proof.Proof.KI.Region1
import proofs.«129582_g64467459113426_cont_9to1_m_811_15_alg».proof.Proof.KI.Region2
import proofs.«129582_g64467459113426_cont_9to1_m_811_15_alg».proof.Proof.KI.Region3
import proofs.«129582_g64467459113426_cont_9to1_m_811_15_alg».proof.Proof.KI.Region4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays between the regions -/

/-- What every buffer holds at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After region 0: its windows' arrays at the fold of its write-backs, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- A buffer that no OUTPUT window of region 0 writes is unchanged by the region: either no window of the region has it as
    its array, or an input window has, and an input's array is never written back. -/
theorem W1_keep (c : Dev nD) (b : Ref sig .tc) (hb : ∀ w, Pipeline.arrRef spec0 w = b → (cfg0.win w).isOut = false) :
    W1 m c (Proc.devRef .tc b) = W0 m c (Proc.devRef .tc b) := by
  by_cases h : ∃ w, Pipeline.arrRef spec0 w = b
  · obtain ⟨w, rfl⟩ := h
    rw [W1_arr]
    exact ((dat0 (V0 m) c).arrAt_in w (hb w rfl) _).trans (A_eq0 (V0 m) c w)
  · exact W1_of_ne m c b fun w e => h ⟨w, e⟩

/-- After region 1: its windows' arrays at the fold of its write-backs, every other buffer as before. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)
/-- A buffer that no OUTPUT window of region 1 writes is unchanged by the region: either no window of the region has it as
    its array, or an input window has, and an input's array is never written back. -/
theorem W2_keep (c : Dev nD) (b : Ref sig .tc) (hb : ∀ w, Pipeline.arrRef spec1 w = b → (cfg1.win w).isOut = false) :
    W2 m c (Proc.devRef .tc b) = W1 m c (Proc.devRef .tc b) := by
  by_cases h : ∃ w, Pipeline.arrRef spec1 w = b
  · obtain ⟨w, rfl⟩ := h
    rw [W2_arr]
    exact ((dat1 (V1 m) c).arrAt_in w (hb w rfl) _).trans (A_eq1 (V1 m) c w)
  · exact W2_of_ne m c b fun w e => h ⟨w, e⟩

/-- After region 2: its windows' arrays at the fold of its write-backs, every other buffer as before. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)
/-- A buffer that no OUTPUT window of region 2 writes is unchanged by the region: either no window of the region has it as
    its array, or an input window has, and an input's array is never written back. -/
theorem W3_keep (c : Dev nD) (b : Ref sig .tc) (hb : ∀ w, Pipeline.arrRef spec2 w = b → (cfg2.win w).isOut = false) :
    W3 m c (Proc.devRef .tc b) = W2 m c (Proc.devRef .tc b) := by
  by_cases h : ∃ w, Pipeline.arrRef spec2 w = b
  · obtain ⟨w, rfl⟩ := h
    rw [W3_arr]
    exact ((dat2 (V2 m) c).arrAt_in w (hb w rfl) _).trans (A_eq2 (V2 m) c w)
  · exact W3_of_ne m c b fun w e => h ⟨w, e⟩

/-- After region 3: its windows' arrays at the fold of its write-backs, every other buffer as before. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)
/-- A buffer that no OUTPUT window of region 3 writes is unchanged by the region: either no window of the region has it as
    its array, or an input window has, and an input's array is never written back. -/
theorem W4_keep (c : Dev nD) (b : Ref sig .tc) (hb : ∀ w, Pipeline.arrRef spec3 w = b → (cfg3.win w).isOut = false) :
    W4 m c (Proc.devRef .tc b) = W3 m c (Proc.devRef .tc b) := by
  by_cases h : ∃ w, Pipeline.arrRef spec3 w = b
  · obtain ⟨w, rfl⟩ := h
    rw [W4_arr]
    exact ((dat3 (V3 m) c).arrAt_in w (hb w rfl) _).trans (A_eq3 (V3 m) c w)
  · exact W4_of_ne m c b fun w e => h ⟨w, e⟩

/-- After region 4: its windows' arrays at the fold of its write-backs, every other buffer as before. -/
def W5 (c : Dev nD) : Valuation τ sig (Elt F) :=
  Pipeline.withArrays spec4 c (W4 m c) fun w => (dat4 (V4 m) c).arrAt w cfg4.N
theorem W5_arr (c : Dev nD) (w : Fin cfg4.W) :
    W5 m c (Proc.devRef .tc (Pipeline.arrRef spec4 w)) = (dat4 (V4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
abbrev V5 : (c : Dev nD) → (b : Ref sig .tc) → Buf (Elt F) ((c : Thread nD τ).loc b) := fun c b => W5 m c b
theorem hF4 (c : Dev nD) (w : Fin cfg4.W) : (dat4 (V4 m) c).arrAt w cfg4.N = V5 m c (Pipeline.arrRef spec4 w) :=
  (W5_arr m c w).symm
theorem hrest4 (c : Dev nD) : ∀ b, b ∉ Finset.univ.image (Pipeline.arrRef spec4) → V5 m c b = V4 m c b :=
  fun b hb => W5_of_ne m c b fun w e => hb (Finset.mem_image.mpr ⟨w, Finset.mem_univ _, e⟩)
/-- A buffer that no OUTPUT window of region 4 writes is unchanged by the region: either no window of the region has it as
    its array, or an input window has, and an input's array is never written back. -/
theorem W5_keep (c : Dev nD) (b : Ref sig .tc) (hb : ∀ w, Pipeline.arrRef spec4 w = b → (cfg4.win w).isOut = false) :
    W5 m c (Proc.devRef .tc b) = W4 m c (Proc.devRef .tc b) := by
  by_cases h : ∃ w, Pipeline.arrRef spec4 w = b
  · obtain ⟨w, rfl⟩ := h
    rw [W5_arr]
    exact ((dat4 (V4 m) c).arrAt_in w (hb w rfl) _).trans (A_eq4 (V4 m) c w)
  · exact W5_of_ne m c b fun w e => h ⟨w, e⟩

/-! ## The proof data of the five pipelines, and what rides beside the buffers -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0: entered with every outside buffer at `W0`, left with them at `W1`. Its windows' arrays are split out of the
    outside buffers at entry and put back at exit; the generator register goes into the invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every outside buffer at `W1`, left with them at `W2`. Its windows' arrays are split out of the
    outside buffers at entry and put back at exit; the generator register goes into the invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every outside buffer at `W2`, left with them at `W3`. Its windows' arrays are split out of the
    outside buffers at entry and put back at exit; the generator register goes into the invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (V2 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (V2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every outside buffer at `W3`, left with them at `W4`. Its windows' arrays are split out of the
    outside buffers at entry and put back at exit; the generator register goes into the invariant and comes back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m 3 c).Φ 0 from hin3 (V3 m) c)
    unfold Pipeline.ΦA
    iintro ⟨Hp, -, Hr⟩
    isplitl [Hr]; · iexact Hr
    iexact Hp
  hout c := by
    rw [Pipeline.ownSems0_none]
    refine BIBase.Entails.trans (show (pdats m 3 c).Φ (Fin.last _) ⊢ Pipeline.ΦA spec3 c from hout3 (V3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every outside buffer at `W4`, left with them at `W5`. Its windows' arrays are split out of the
    outside buffers at entry and put back at exit; the generator register goes into the invariant and comes back; nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m 4 c).Φ 0 from hin4 (V4 m) c)
    unfold Pipeline.ΦA
    iintro ⟨Hp, -, Hr⟩
    isplitl [Hr]; · iexact Hr
    iexact Hp
  hout c := by
    rw [Pipeline.ownSems0_none]
    refine BIBase.Entails.trans (show (pdats m 4 c).Φ (Fin.last _) ⊢ Pipeline.ΦA spec4 c from hout4 (V4 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V4 m c) (V5 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its five segments, and the run -/

abbrev segs : List (Pipeline.Seg (pcfgs (F := F)) adm (pdats m) () defs₀ 𝒱₀ L lv) :=
  [ .region (reg0 m), .region (reg1 m), .region (reg2 m), .region (reg3 m), .region (reg4 m) ]
theorem main_run (c : Dev nD) : main (F := F) c = Pipeline.Seg.run (segs m) := (main_chain c).trans (by chain_rfl)

set_option backward.isDefEq.respectTransparency.types false in
/-- From any memory with zero counters every weakly fair execution of the program terminates, nothing faulting, and in every final
    state each buffer that lives outside the kernels holds what the fold through the five regions says (`W5`). -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched -/
theorem W5_main_arg0 (c : Dev nD) : W5 m c (Proc.devRef .tc main_arg0) = m ((c : Thread nD τ).loc main_arg0) :=
  (W5_keep m c main_arg0 (by decide)).trans <| (W4_keep m c main_arg0 (by decide)).trans <| (W3_keep m c main_arg0 (by decide)).trans <|
    (W2_keep m c main_arg0 (by decide)).trans <| (W1_keep m c main_arg0 (by decide)).trans rfl
theorem W5_main_arg1 (c : Dev nD) : W5 m c (Proc.devRef .tc main_arg1) = m ((c : Thread nD τ).loc main_arg1) :=
  (W5_keep m c main_arg1 (by decide)).trans <| (W4_keep m c main_arg1 (by decide)).trans <| (W3_keep m c main_arg1 (by decide)).trans <|
    (W2_keep m c main_arg1 (by decide)).trans <| (W1_keep m c main_arg1 (by decide)).trans rfl
theorem W5_main_arg2 (c : Dev nD) : W5 m c (Proc.devRef .tc main_arg2) = m ((c : Thread nD τ).loc main_arg2) :=
  (W5_keep m c main_arg2 (by decide)).trans <| (W4_keep m c main_arg2 (by decide)).trans <| (W3_keep m c main_arg2 (by decide)).trans <|
    (W2_keep m c main_arg2 (by decide)).trans <| (W1_keep m c main_arg2 (by decide)).trans rfl
theorem W5_main_arg3 (c : Dev nD) : W5 m c (Proc.devRef .tc main_arg3) = m ((c : Thread nD τ).loc main_arg3) :=
  (W5_keep m c main_arg3 (by decide)).trans <| (W4_keep m c main_arg3 (by decide)).trans <| (W3_keep m c main_arg3 (by decide)).trans <|
    (W2_keep m c main_arg3 (by decide)).trans <| (W1_keep m c main_arg3 (by decide)).trans rfl
theorem W5_main_arg4 (c : Dev nD) : W5 m c (Proc.devRef .tc main_arg4) = m ((c : Thread nD τ).loc main_arg4) :=
  (W5_keep m c main_arg4 (by decide)).trans <| (W4_keep m c main_arg4 (by decide)).trans <| (W3_keep m c main_arg4 (by decide)).trans <|
    (W2_keep m c main_arg4 (by decide)).trans <| (W1_keep m c main_arg4 (by decide)).trans rfl
theorem W5_main_arg5 (c : Dev nD) : W5 m c (Proc.devRef .tc main_arg5) = m ((c : Thread nD τ).loc main_arg5) :=
  (W5_keep m c main_arg5 (by decide)).trans <| (W4_keep m c main_arg5 (by decide)).trans <| (W3_keep m c main_arg5 (by decide)).trans <|
    (W2_keep m c main_arg5 (by decide)).trans <| (W1_keep m c main_arg5 (by decide)).trans rfl
theorem W5_main_arg6 (c : Dev nD) : W5 m c (Proc.devRef .tc main_arg6) = m ((c : Thread nD τ).loc main_arg6) :=
  (W5_keep m c main_arg6 (by decide)).trans <| (W4_keep m c main_arg6 (by decide)).trans <| (W3_keep m c main_arg6 (by decide)).trans <|
    (W2_keep m c main_arg6 (by decide)).trans <| (W1_keep m c main_arg6 (by decide)).trans rfl
theorem W5_main_arg7 (c : Dev nD) : W5 m c (Proc.devRef .tc main_arg7) = m ((c : Thread nD τ).loc main_arg7) :=
  (W5_keep m c main_arg7 (by decide)).trans <| (W4_keep m c main_arg7 (by decide)).trans <| (W3_keep m c main_arg7 (by decide)).trans <|
    (W2_keep m c main_arg7 (by decide)).trans <| (W1_keep m c main_arg7 (by decide)).trans rfl
theorem W5_main_arg8 (c : Dev nD) : W5 m c (Proc.devRef .tc main_arg8) = m ((c : Thread nD τ).loc main_arg8) :=
  (W5_keep m c main_arg8 (by decide)).trans <| (W4_keep m c main_arg8 (by decide)).trans <| (W3_keep m c main_arg8 (by decide)).trans <|
    (W2_keep m c main_arg8 (by decide)).trans <| (W1_keep m c main_arg8 (by decide)).trans rfl
theorem W5_main_arg9 (c : Dev nD) : W5 m c (Proc.devRef .tc main_arg9) = m ((c : Thread nD τ).loc main_arg9) :=
  (W5_keep m c main_arg9 (by decide)).trans <| (W4_keep m c main_arg9 (by decide)).trans <| (W3_keep m c main_arg9 (by decide)).trans <|
    (W2_keep m c main_arg9 (by decide)).trans <| (W1_keep m c main_arg9 (by decide)).trans rfl
theorem W5_main_arg10 (c : Dev nD) : W5 m c (Proc.devRef .tc main_arg10) = m ((c : Thread nD τ).loc main_arg10) :=
  (W5_keep m c main_arg10 (by decide)).trans <| (W4_keep m c main_arg10 (by decide)).trans <| (W3_keep m c main_arg10 (by decide)).trans <|
    (W2_keep m c main_arg10 (by decide)).trans <| (W1_keep m c main_arg10 (by decide)).trans rfl
theorem W5_main_arg11 (c : Dev nD) : W5 m c (Proc.devRef .tc main_arg11) = m ((c : Thread nD τ).loc main_arg11) :=
  (W5_keep m c main_arg11 (by decide)).trans <| (W4_keep m c main_arg11 (by decide)).trans <| (W3_keep m c main_arg11 (by decide)).trans <|
    (W2_keep m c main_arg11 (by decide)).trans <| (W1_keep m c main_arg11 (by decide)).trans rfl
theorem W5_main_arg12 (c : Dev nD) : W5 m c (Proc.devRef .tc main_arg12) = m ((c : Thread nD τ).loc main_arg12) :=
  (W5_keep m c main_arg12 (by decide)).trans <| (W4_keep m c main_arg12 (by decide)).trans <| (W3_keep m c main_arg12 (by decide)).trans <|
    (W2_keep m c main_arg12 (by decide)).trans <| (W1_keep m c main_arg12 (by decide)).trans rfl
theorem W5_main_arg13 (c : Dev nD) : W5 m c (Proc.devRef .tc main_arg13) = m ((c : Thread nD τ).loc main_arg13) :=
  (W5_keep m c main_arg13 (by decide)).trans <| (W4_keep m c main_arg13 (by decide)).trans <| (W3_keep m c main_arg13 (by decide)).trans <|
    (W2_keep m c main_arg13 (by decide)).trans <| (W1_keep m c main_arg13 (by decide)).trans rfl
theorem W5_main_arg14 (c : Dev nD) : W5 m c (Proc.devRef .tc main_arg14) = m ((c : Thread nD τ).loc main_arg14) :=
  (W5_keep m c main_arg14 (by decide)).trans <| (W4_keep m c main_arg14 (by decide)).trans <| (W3_keep m c main_arg14 (by decide)).trans <|
    (W2_keep m c main_arg14 (by decide)).trans <| (W1_keep m c main_arg14 (by decide)).trans rfl
theorem W5_main_arg15 (c : Dev nD) : W5 m c (Proc.devRef .tc main_arg15) = m ((c : Thread nD τ).loc main_arg15) :=
  (W5_keep m c main_arg15 (by decide)).trans <| (W4_keep m c main_arg15 (by decide)).trans <| (W3_keep m c main_arg15 (by decide)).trans <|
    (W2_keep m c main_arg15 (by decide)).trans <| (W1_keep m c main_arg15 (by decide)).trans rfl
theorem W5_main_arg16 (c : Dev nD) : W5 m c (Proc.devRef .tc main_arg16) = m ((c : Thread nD τ).loc main_arg16) :=
  (W5_keep m c main_arg16 (by decide)).trans <| (W4_keep m c main_arg16 (by decide)).trans <| (W3_keep m c main_arg16 (by decide)).trans <|
    (W2_keep m c main_arg16 (by decide)).trans <| (W1_keep m c main_arg16 (by decide)).trans rfl

/-- The frame: every argument array ends holding what it was launched with. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c),
     (h c _ (mem_uc main_arg8 (by decide))).trans (W5_main_arg8 m c),
     (h c _ (mem_uc main_arg9 (by decide))).trans (W5_main_arg9 m c),
     (h c _ (mem_uc main_arg10 (by decide))).trans (W5_main_arg10 m c),
     (h c _ (mem_uc main_arg11 (by decide))).trans (W5_main_arg11 m c),
     (h c _ (mem_uc main_arg12 (by decide))).trans (W5_main_arg12 m c),
     (h c _ (mem_uc main_arg13 (by decide))).trans (W5_main_arg13 m c),
     (h c _ (mem_uc main_arg14 (by decide))).trans (W5_main_arg14 m c),
     (h c _ (mem_uc main_arg15 (by decide))).trans (W5_main_arg15 m c),
     (h c _ (mem_uc main_arg16 (by decide))).trans (W5_main_arg16 m c)⟩)
    (run_all m ρ)

end Cert.KernelIdeal.Hand

end
-- ==== Proof.Spec.lean ====
/-
  The mathematics of the two-level message-passing layer, with no program in sight.

  A matrix is a function from a literal rank-2 index to the extended reals.  The layer is built from four operations:
  the product L·R (entry (p, q) is the sum over j of L[p, j]·R[j, q]), the product Lᵀ·R contracted over the ROWS of
  both operands (entry (p, q) is the sum over j of L[j, p]·R[j, q]), the transpose, and the logistic function applied
  entry by entry, beside the entrywise sum.

  Two facts join a blocked computation to the whole one.  A sum over n·b rows taken b rows at a time — start at zero,
  add one block's partial sum per step — is the sum over all rows (`blockAcc_eq`), because addition of extended reals
  is associative and commutative; no distributivity is used, so nothing here needs the entries to be finite.  And the
  transpose of Lᵀ·R is Rᵀ·L, entry by entry, by commutativity of the product (`tr_tmm`).
-/
import Idealize.ShloMosaic.PureOps.Ideal
import Idealize.ShloMosaic.Lib.ValueIdx

noncomputable section

open scoped BigOperators

namespace Cert.Spec

open Idealize.ShloMosaic Idealize.ShloMosaic.ValueIdx

/-- An a × b matrix of extended reals, over the literal shape's index type. -/
abbrev Mat (a b : Nat) : Type := (⟨2, ![a, b]⟩ : Shape).Idx → EReal

variable {a b k : Nat}

/-- The product L·R. -/
def mm (L : Mat a k) (R : Mat k b) : Mat a b := fun i => ∑ j : Fin k, L (ix2 (i 0) j) * R (ix2 j (i 1))

/-- The product Lᵀ·R: both operands contracted over their rows. -/
def tmm (L : Mat k a) (R : Mat k b) : Mat a b := fun i => ∑ j : Fin k, L (ix2 j (i 0)) * R (ix2 j (i 1))

/-- The transpose. -/
def tr (X : Mat a b) : Mat b a := fun i => X (ix2 (i 1) (i 0))

/-- The logistic function 1 / (1 + e^(-x)), entry by entry. -/
def sg (X : Mat a b) : Mat a b := fun i => Ideal.logistic (X i)

/-- The entrywise sum. -/
def add (X Y : Mat a b) : Mat a b := fun i => X i + Y i

theorem mm_apply (L : Mat a k) (R : Mat k b) (p : Fin a) (q : Fin b) :
    mm L R (ix2 p q) = ∑ j : Fin k, L (ix2 p j) * R (ix2 j q) := rfl

theorem tmm_apply (L : Mat k a) (R : Mat k b) (p : Fin a) (q : Fin b) :
    tmm L R (ix2 p q) = ∑ j : Fin k, L (ix2 j p) * R (ix2 j q) := rfl

theorem tr_apply (X : Mat a b) (q : Fin b) (p : Fin a) : tr X (ix2 q p) = X (ix2 p q) := rfl

/-- The transpose of Lᵀ·R is Rᵀ·L read as a product with the transposed R on the left: entry (q, p) of either is the
    sum over the rows j of R[j, q]·L[j, p]. -/
theorem tr_tmm (L : Mat k a) (R : Mat k b) : tr (tmm L R) = mm (tr R) L := by
  funext i
  obtain ⟨q, p, rfl⟩ : ∃ (q : Fin b) (p : Fin a), i = ix2 q p := ⟨i 0, i 1, eq_ix2 i⟩
  show ∑ j : Fin k, L (ix2 j p) * R (ix2 j q) = ∑ j : Fin k, R (ix2 j q) * L (ix2 j p)
  exact Finset.sum_congr rfl fun j _ => mul_comm _ _

/-- A running sum taken one block of `b` consecutive terms at a time: zero, then one block's sum added per step. -/
def blockAcc (b : Nat) (f : Nat → EReal) : Nat → EReal
  | 0 => 0
  | t + 1 => blockAcc b f t + ∑ r : Fin b, f (t * b + r.val)

/-- After `t` steps the running sum is the sum of the first `t·b` terms. -/
theorem blockAcc_eq_range (b : Nat) (f : Nat → EReal) (t : Nat) :
    blockAcc b f t = ∑ j ∈ Finset.range (t * b), f j := by
  induction t with
  | zero => simp [blockAcc]
  | succ t ih =>
    rw [blockAcc, ih, Nat.succ_mul, Finset.sum_range_add, Fin.sum_univ_eq_sum_range (fun r => f (t * b + r)) b]

/-- After all `n` steps the running sum is the sum over the `n·b` rows. -/
theorem blockAcc_eq (b n N : Nat) (hN : n * b = N) (g : Fin N → EReal) :
    blockAcc b (fun j => if h : j < N then g ⟨j, h⟩ else 0) n = ∑ j : Fin N, g j := by
  subst hN
  rw [blockAcc_eq_range, ← Fin.sum_univ_eq_sum_range (fun j => if h : j < n * b then g ⟨j, h⟩ else 0) (n * b)]
  exact Finset.sum_congr rfl fun j _ => by simp [j.isLt]

end Cert.Spec

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Val.R0Pay.lean ====
import proofs.«129582_g64467459113426_cont_9to1_m_811_15_alg».proof.Proof.Gen.KernelIdeal.Skeleton
import proofs.«129582_g64467459113426_cont_9to1_m_811_15_alg».proof.Proof.Spec
import proofs.«129582_g64467459113426_cont_9to1_m_811_15_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen
open Cert.Spec
open Idealize.ShloMosaic Idealize.ShloMosaic.ValueIdx

/-! # The payloads of region 0 at the extended reals, as whole matrices

Each payload of the first sweep is one of: a transpose, the zero matrix, a product L·R, the logistic function of a sum
of two products, a product with that on the left, or an addend plus a product Lᵀ·R contracted over the rows of both
operands. -/

/-- A product L·R into the zero accumulator is `mm L R`, as whole matrices. -/
theorem matmul_plain_eq_mm {M K N : Nat} (prec : Option ContractPrecision)
    (L : FVec Ideal ⟨2, ![M, K]⟩ .f32) (R : FVec Ideal ⟨2, ![K, N]⟩ .f32) :
    FloatOps.matmul (DotDims.plain M K N) prec L R (constant ⟨2, ![M, N]⟩ .f32 0x00000000#32) = mm (L : Mat M K) (R : Mat K N) := by
  funext j
  obtain ⟨p, q, rfl⟩ : ∃ (p : Fin M) (q : Fin N), j = ix2 p q := ⟨j 0, j 1, eq_ix2 j⟩
  exact Cert.Bridge.LibMatmul.matmul_zero_apply prec L R p q

/-- A matrix transposed is `tr`, as whole matrices. -/
theorem transpose_eq_tr {a b : Nat} (x : (⟨2, ![a, b]⟩ : Shape).Idx → EReal)
    (h : (⟨2, ![a, b]⟩ : Shape).Transposes [1, 0] ⟨2, ![b, a]⟩) :
    transpose ⟨2, ![b, a]⟩ [1, 0] x h = tr (x : Mat a b) := by
  funext j
  obtain ⟨q, p, rfl⟩ : ∃ (q : Fin b) (p : Fin a), j = ix2 q p := ⟨j 0, j 1, eq_ix2 j⟩
  exact transpose_ix2_apply x h q p

/-- The product Lᵀ·R of region 0 (256 rows contracted; 128 × 8192 result) into the zero accumulator, at entry (d, col):
    the sum over the rows r of L[r, d] · R[r, col]. -/
theorem tmatmul0_apply (L : FVec Ideal S256x128 .f32) (R : FVec Ideal S256x8192 .f32) (d : Fin 128) (col : Fin 8192) :
    FloatOps.matmul dot_S256x128_S256x8192_S128x8192_0_0_1_1_n_n none L R (constant S128x8192 .f32 0x00000000#32) (ix2 d col)
      = ∑ r : Fin 256, L (ix2 r d) * R (ix2 r col) := by
  have hrank : dot_S256x128_S256x8192_S128x8192_0_0_1_1_n_n.contr.rank = 1 := rfl
  have hsize : dot_S256x128_S256x8192_S128x8192_0_0_1_1_n_n.contr.size ⟨0, by rw [hrank]; exact Nat.one_pos⟩ = 256 := rfl
  refine (Ideal.matmul_constant_zero_apply dot_S256x128_S256x8192_S128x8192_0_0_1_1_n_n none L R (ix2 d col)).trans ?_
  rw [← Equiv.sum_comp (contrEquiv1 dot_S256x128_S256x8192_S128x8192_0_0_1_1_n_n 256 hrank hsize).symm]
  refine Finset.sum_congr rfl fun k _ => ?_
  have hl : dot_S256x128_S256x8192_S128x8192_0_0_1_1_n_n.lhsIdx (ix2 d col)
      ((contrEquiv1 dot_S256x128_S256x8192_S128x8192_0_0_1_1_n_n 256 hrank hsize).symm k) = ix2 k d := by
    funext a
    refine Fin.ext ?_
    match a with
    | ⟨0, _⟩ =>
      refine (dot_S256x128_S256x8192_S128x8192_0_0_1_1_n_n.lhsIdx_val_of_single (cl := 0) rfl (ix2 d col) _).trans ?_
      exact contrEquiv1_symm_val dot_S256x128_S256x8192_S128x8192_0_0_1_1_n_n 256 hrank hsize k
    | ⟨1, _⟩ => rfl
  have hr : dot_S256x128_S256x8192_S128x8192_0_0_1_1_n_n.rhsIdx (ix2 d col)
      ((contrEquiv1 dot_S256x128_S256x8192_S128x8192_0_0_1_1_n_n 256 hrank hsize).symm k) = ix2 k col := by
    funext a
    refine Fin.ext ?_
    match a with
    | ⟨0, _⟩ =>
      refine (dot_S256x128_S256x8192_S128x8192_0_0_1_1_n_n.rhsIdx_val_of_single (cr := 0) rfl (ix2 d col) _).trans ?_
      exact contrEquiv1_symm_val dot_S256x128_S256x8192_S128x8192_0_0_1_1_n_n 256 hrank hsize k
    | ⟨1, _⟩ => rfl
  rw [hl, hr]

/-- The same as whole matrices: `tmm L R`. -/
theorem tmatmul0_eq_tmm (L : FVec Ideal S256x128 .f32) (R : FVec Ideal S256x8192 .f32) :
    FloatOps.matmul dot_S256x128_S256x8192_S128x8192_0_0_1_1_n_n none L R (constant S128x8192 .f32 0x00000000#32)
      = tmm (L : Mat 256 128) (R : Mat 256 8192) := by
  funext j
  obtain ⟨d, col, rfl⟩ : ∃ (d : Fin 128) (col : Fin 8192), j = ix2 d col := ⟨j 0, j 1, eq_ix2 j⟩
  exact tmatmul0_apply L R d col

/-- Payload 1: the transposed accumulator. -/
theorem pay0_1_eq (v29 : Vec Ideal S128x8192 .f32) : k0_pay1 v29 = tr (v29 : Mat 128 8192) := by
  unfold k0_pay1
  exact transpose_eq_tr v29 _

/-- Payload 2: the zero matrix. -/
theorem pay0_2_eq : (k0_pay2 (F := Ideal) : Mat 128 8192) = fun _ => 0 := by
  unfold k0_pay2
  refine (shapeCast_self _ _).trans ?_
  funext j
  exact Ideal.ofBits_zero_f32

/-- Payload 3: a 4096 × 128 by 128 × 128 product. -/
theorem pay0_3_eq (x : Vec Ideal S4096x128 .f32) (w : Vec Ideal S128x128 .f32) :
    k0_pay3 x w = mm (x : Mat 4096 128) (w : Mat 128 128) := by
  unfold k0_pay3
  refine (shapeCast_self _ _).trans ?_
  exact matmul_plain_eq_mm (M := 4096) (K := 128) (N := 128) none x w

/-- Payload 4: an 8192 × 128 by 128 × 128 product. -/
theorem pay0_4_eq (x : Vec Ideal S8192x128 .f32) (w : Vec Ideal S128x128 .f32) :
    k0_pay4 x w = mm (x : Mat 8192 128) (w : Mat 128 128) := by
  unfold k0_pay4
  refine (shapeCast_self _ _).trans ?_
  exact matmul_plain_eq_mm (M := 8192) (K := 128) (N := 128) none x w

/-- Payload 5: a 4096 × 128 by 128 × 128 product. -/
theorem pay0_5_eq (x : Vec Ideal S4096x128 .f32) (w : Vec Ideal S128x128 .f32) :
    k0_pay5 x w = mm (x : Mat 4096 128) (w : Mat 128 128) := by
  unfold k0_pay5
  refine (shapeCast_self _ _).trans ?_
  exact matmul_plain_eq_mm (M := 4096) (K := 128) (N := 128) none x w

/-- Payload 6: the logistic function of the sum of the two row-block products. -/
theorem pay0_6_eq (v3 : Vec Ideal S256x8192 .f32) (v4 : Vec Ideal S256x4096 .f32) (v5 : Vec Ideal S4096x128 .f32) (v7 : Vec Ideal S8192x128 .f32) :
    k0_pay6 v3 v4 v5 v7 = sg (add (mm (v4 : Mat 256 4096) (v5 : Mat 4096 128)) (mm (v3 : Mat 256 8192) (v7 : Mat 8192 128))) := by
  unfold k0_pay6
  show logistic (addf _ _) = _
  rw [show (matmul dot_S256x4096_S4096x128_S256x128_1_0_0_1_n_n none v4 v5 (constant S256x128 .f32 0x00000000#32) : FVec Ideal S256x128 .f32)
        = mm (v4 : Mat 256 4096) (v5 : Mat 4096 128) from matmul_plain_eq_mm (M := 256) (K := 4096) (N := 128) none v4 v5,
    show (matmul dot_S256x8192_S8192x128_S256x128_1_0_0_1_n_n none v3 v7 (constant S256x128 .f32 0x00000000#32) : FVec Ideal S256x128 .f32)
        = mm (v3 : Mat 256 8192) (v7 : Mat 8192 128) from matmul_plain_eq_mm (M := 256) (K := 8192) (N := 128) none v3 v7]
  rfl

/-- Payload 7: that, times a 128 × 128 weight. -/
theorem pay0_7_eq (v3 : Vec Ideal S256x8192 .f32) (v4 : Vec Ideal S256x4096 .f32) (v5 : Vec Ideal S4096x128 .f32) (v7 : Vec Ideal S8192x128 .f32)
    (v11 : Vec Ideal S128x128 .f32) :
    k0_pay7 v3 v4 v5 v7 v11
      = mm (sg (add (mm (v4 : Mat 256 4096) (v5 : Mat 4096 128)) (mm (v3 : Mat 256 8192) (v7 : Mat 8192 128)))) (v11 : Mat 128 128) := by
  unfold k0_pay7
  rw [← pay0_6_eq]
  exact matmul_plain_eq_mm (M := 256) (K := 128) (N := 128) none (k0_pay6 v3 v4 v5 v7) v11

/-- Payload 8: the same with the other weight. -/
theorem pay0_8_eq (v3 : Vec Ideal S256x8192 .f32) (v4 : Vec Ideal S256x4096 .f32) (v5 : Vec Ideal S4096x128 .f32) (v7 : Vec Ideal S8192x128 .f32)
    (v14 : Vec Ideal S128x128 .f32) :
    k0_pay8 v3 v4 v5 v7 v14
      = mm (sg (add (mm (v4 : Mat 256 4096) (v5 : Mat 4096 128)) (mm (v3 : Mat 256 8192) (v7 : Mat 8192 128)))) (v14 : Mat 128 128) := by
  unfold k0_pay8
  rw [← pay0_6_eq]
  exact matmul_plain_eq_mm (M := 256) (K := 128) (N := 128) none (k0_pay6 v3 v4 v5 v7) v14

/-- Payload 9: the accumulator plus the product of the projected rows, transposed on the left, with the row block. -/
theorem pay0_9_eq (v3 : Vec Ideal S256x8192 .f32) (v17 : Vec Ideal S128x8192 .f32) (v20 : Vec Ideal S256x128 .f32) :
    k0_pay9 v3 v17 v20 = add (v17 : Mat 128 8192) (tmm (v20 : Mat 256 128) (v3 : Mat 256 8192)) := by
  unfold k0_pay9
  refine (shapeCast_self _ _).trans ?_
  funext j
  exact congrArg (fun s => v17 j + s) (congrFun (tmatmul0_eq_tmm v20 v3) j)

end Cert.KernelIdeal.HandVal

end
-- ==== Proof.Val.Region0ab.lean ====
import proofs.«129582_g64467459113426_cont_9to1_m_811_15_alg».proof.Proof.KI.Region0
import proofs.«129582_g64467459113426_cont_9to1_m_811_15_alg».proof.Proof.Val.R0Pay
import Idealize.ShloMosaic.Lib.Pipeline.Value
set_option maxRecDepth 16384

noncomputable section
open scoped BigOperators
namespace Cert.KernelIdeal.HandVal
open Cert.Spec Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! # Region 0's first two outputs at the extended reals

Write s = logistic (A·(x0·W) + M·(x1·W')), a 4096 × 128 matrix: A is the 4096 × 4096 matrix, M the 4096 × 8192 one.
At point t the body sees rows [256·t, 256·t + 256) of A and of M, and the two product scratches hold x0·W and x1·W' from
the first point on. Row p of the block the body stores is row 256·t + p of s·Wa (of s·Wb); the sixteen blocks tile the
output. -/

/-- A row of logistic (X·P + Y·Q)·W depends on that row of X and of Y only: if row p of the blocks x, y is row r of
    X, Y, then entry (p, q) of the block's product is entry (r, q) of the whole product. -/
theorem rows_mm_sg {n a b : Nat} (X : Mat 4096 a) (Y : Mat 4096 b) (P : Mat a 128) (Q : Mat b 128) (W : Mat 128 128)
    (x : Mat n a) (y : Mat n b) (p : Fin n) (r : Fin 4096) (q : Fin 128)
    (hx : ∀ k : Fin a, x (ix2 p k) = X (ix2 r k)) (hy : ∀ k : Fin b, y (ix2 p k) = Y (ix2 r k)) :
    mm (sg (add (mm x P) (mm y Q))) W (ix2 p q) = mm (sg (add (mm X P) (mm Y Q))) W (ix2 r q) := by
  show ∑ j : Fin 128, Ideal.logistic ((∑ k : Fin a, x (ix2 p k) * P (ix2 k j)) + ∑ k : Fin b, y (ix2 p k) * Q (ix2 k j)) * W (ix2 j q)
     = ∑ j : Fin 128, Ideal.logistic ((∑ k : Fin a, X (ix2 r k) * P (ix2 k j)) + ∑ k : Fin b, Y (ix2 r k) * Q (ix2 k j)) * W (ix2 j q)
  simp only [hx, hy]

theorem sc0A_eq (x2 : Vec Ideal S4096x128 .f32) (x4 : Vec Ideal S128x128 .f32) :
    sc0A x2 x4 = mm (x2 : Mat 4096 128) (x4 : Mat 128 128) := by
  unfold sc0A
  rw [View.canon_unit_zero off00]
  simp only [View.ld_unit_zero (S := S4096x128) off00, View.ld_unit_zero (S := S128x128) off00]
  exact pay0_3_eq x2 x4

theorem sc1A_eq (x3 : Vec Ideal S8192x128 .f32) (x5 : Vec Ideal S128x128 .f32) :
    sc1A x3 x5 = mm (x3 : Mat 8192 128) (x5 : Mat 128 128) := by
  unfold sc1A
  rw [View.canon_unit_zero off00]
  simp only [View.ld_unit_zero (S := S8192x128) off00, View.ld_unit_zero (S := S128x128) off00]
  exact pay0_4_eq x3 x5

theorem out8_eq (x0 : Vec Ideal S256x4096 .f32) (x1 : Vec Ideal S256x8192 .f32) (s0 : Vec Ideal S4096x128 .f32) (s1 : Vec Ideal S8192x128 .f32)
    (x6 : Vec Ideal S128x128 .f32) :
    out8 x0 x1 s0 s1 x6 = mm (sg (add (mm (x0 : Mat 256 4096) (s0 : Mat 4096 128)) (mm (x1 : Mat 256 8192) (s1 : Mat 8192 128)))) (x6 : Mat 128 128) := by
  unfold out8
  rw [View.canon_unit_zero off00]
  simp only [View.ld_unit_zero (S := S256x4096) off00, View.ld_unit_zero (S := S256x8192) off00, View.ld_unit_zero (S := S4096x128) off00,
    View.ld_unit_zero (S := S8192x128) off00, View.ld_unit_zero (S := S128x128) off00]
  exact pay0_7_eq x1 x0 s0 s1 x6

theorem out9_eq (x0 : Vec Ideal S256x4096 .f32) (x1 : Vec Ideal S256x8192 .f32) (s0 : Vec Ideal S4096x128 .f32) (s1 : Vec Ideal S8192x128 .f32)
    (x7 : Vec Ideal S128x128 .f32) :
    out9 x0 x1 s0 s1 x7 = mm (sg (add (mm (x0 : Mat 256 4096) (s0 : Mat 4096 128)) (mm (x1 : Mat 256 8192) (s1 : Mat 8192 128)))) (x7 : Mat 128 128) := by
  unfold out9
  rw [View.canon_unit_zero off00]
  simp only [View.ld_unit_zero (S := S256x4096) off00, View.ld_unit_zero (S := S256x8192) off00, View.ld_unit_zero (S := S4096x128) off00,
    View.ld_unit_zero (S := S8192x128) off00, View.ld_unit_zero (S := S128x128) off00]
  exact pay0_8_eq x1 x0 s0 s1 x7

/-- The printed index maps, decided over the grid: the two row-block inputs and the two row-block outputs move by one
    block of 256 rows per point; the six whole-array inputs stay at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem idx_whole0 : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

variable (V : (c : Dev nD) → (b : Ref sig .tc) → Buf (Elt Ideal) ((c : Thread nD τ).loc b))

/-- Row p of point t's 256-row block is row 256·t + p of the array. -/
def row0 (t : Fin cfg0.N) (p : Fin 256) : Fin 4096 :=
  ⟨t.val * 256 + p.val, by have hN : cfg0.N = 16 := N_0; have := t.isLt; have := p.isLt; omega⟩

/-! ## The windows' blocks -/

theorem iblk0_0_apply (c : Dev nD) (t : Fin cfg0.N) (p : Fin 256) (k : Fin 4096) :
    (iblk0 V c 0 t : Vec Ideal S256x4096 .f32) (ix2 p k) = (V c main_arg3 : Mat 4096 4096) (ix2 (row0 t p) k) := by
  obtain ⟨e0, e1, -⟩ := idx_facts0 t
  unfold iblk0
  rw [View.read_apply]
  show V c main_arg3 _ = V c main_arg3 _
  congr 1
  funext a; apply Fin.ext
  match a with
  | ⟨0, _⟩ => show win0_0.index t 0 * 256 + 1 * p.val = t.val * 256 + p.val; rw [e0]; omega
  | ⟨1, _⟩ => show win0_0.index t 1 * 4096 + 1 * k.val = k.val; rw [e1]; omega

theorem iblk0_1_apply (c : Dev nD) (t : Fin cfg0.N) (p : Fin 256) (k : Fin 8192) :
    (iblk0 V c 1 t : Vec Ideal S256x8192 .f32) (ix2 p k) = (V c main_arg6 : Mat 4096 8192) (ix2 (row0 t p) k) := by
  obtain ⟨-, -, e0, e1, -⟩ := idx_facts0 t
  unfold iblk0
  rw [View.read_apply]
  show V c main_arg6 _ = V c main_arg6 _
  congr 1
  funext a; apply Fin.ext
  match a with
  | ⟨0, _⟩ => show win0_1.index t 0 * 256 + 1 * p.val = t.val * 256 + p.val; rw [e0]; omega
  | ⟨1, _⟩ => show win0_1.index t 1 * 8192 + 1 * k.val = k.val; rw [e1]; omega

theorem iblk0_2_eq (c : Dev nD) (t : Fin cfg0.N) : (iblk0 V c 2 t : Vec Ideal S4096x128 .f32) = (V c main_arg0 : Mat 4096 128) := by
  obtain ⟨e0, e1, -⟩ := idx_whole0 t
  funext j
  unfold iblk0
  rw [View.read_apply]
  show V c main_arg0 _ = V c main_arg0 j
  congr 1
  funext a; apply Fin.ext
  match a with
  | ⟨0, _⟩ => show win0_2.index t 0 * 4096 + 1 * (j 0).val = (j 0).val; rw [e0]; omega
  | ⟨1, _⟩ => show win0_2.index t 1 * 128 + 1 * (j 1).val = (j 1).val; rw [e1]; omega

theorem iblk0_3_eq (c : Dev nD) (t : Fin cfg0.N) : (iblk0 V c 3 t : Vec Ideal S8192x128 .f32) = (V c main_arg1 : Mat 8192 128) := by
  obtain ⟨-, -, e0, e1, -⟩ := idx_whole0 t
  funext j
  unfold iblk0
  rw [View.read_apply]
  show V c main_arg1 _ = V c main_arg1 j
  congr 1
  funext a; apply Fin.ext
  match a with
  | ⟨0, _⟩ => show win0_3.index t 0 * 8192 + 1 * (j 0).val = (j 0).val; rw [e0]; omega
  | ⟨1, _⟩ => show win0_3.index t 1 * 128 + 1 * (j 1).val = (j 1).val; rw [e1]; omega

theorem iblk0_4_eq (c : Dev nD) (t : Fin cfg0.N) : (iblk0 V c 4 t : Vec Ideal S128x128 .f32) = (V c main_arg8 : Mat 128 128) := by
  obtain ⟨-, -, -, -, e0, e1, -⟩ := idx_whole0 t
  funext j
  unfold iblk0
  rw [View.read_apply]
  show V c main_arg8 _ = V c main_arg8 j
  congr 1
  funext a; apply Fin.ext
  match a with
  | ⟨0, _⟩ => show win0_4.index t 0 * 128 + 1 * (j 0).val = (j 0).val; rw [e0]; omega
  | ⟨1, _⟩ => show win0_4.index t 1 * 128 + 1 * (j 1).val = (j 1).val; rw [e1]; omega

theorem iblk0_5_eq (c : Dev nD) (t : Fin cfg0.N) : (iblk0 V c 5 t : Vec Ideal S128x128 .f32) = (V c main_arg9 : Mat 128 128) := by
  obtain ⟨-, -, -, -, -, -, e0, e1, -⟩ := idx_whole0 t
  funext j
  unfold iblk0
  rw [View.read_apply]
  show V c main_arg9 _ = V c main_arg9 j
  congr 1
  funext a; apply Fin.ext
  match a with
  | ⟨0, _⟩ => show win0_5.index t 0 * 128 + 1 * (j 0).val = (j 0).val; rw [e0]; omega
  | ⟨1, _⟩ => show win0_5.index t 1 * 128 + 1 * (j 1).val = (j 1).val; rw [e1]; omega

theorem iblk0_6_eq (c : Dev nD) (t : Fin cfg0.N) : (iblk0 V c 6 t : Vec Ideal S128x128 .f32) = (V c main_arg12 : Mat 128 128) := by
  obtain ⟨-, -, -, -, -, -, -, -, e0, e1, -⟩ := idx_whole0 t
  funext j
  unfold iblk0
  rw [View.read_apply]
  show V c main_arg12 _ = V c main_arg12 j
  congr 1
  funext a; apply Fin.ext
  match a with
  | ⟨0, _⟩ => show win0_6.index t 0 * 128 + 1 * (j 0).val = (j 0).val; rw [e0]; omega
  | ⟨1, _⟩ => show win0_6.index t 1 * 128 + 1 * (j 1).val = (j 1).val; rw [e1]; omega

theorem iblk0_7_eq (c : Dev nD) (t : Fin cfg0.N) : (iblk0 V c 7 t : Vec Ideal S128x128 .f32) = (V c main_arg13 : Mat 128 128) := by
  obtain ⟨-, -, -, -, -, -, -, -, -, -, e0, e1⟩ := idx_whole0 t
  funext j
  unfold iblk0
  rw [View.read_apply]
  show V c main_arg13 _ = V c main_arg13 j
  congr 1
  funext a; apply Fin.ext
  match a with
  | ⟨0, _⟩ => show win0_7.index t 0 * 128 + 1 * (j 0).val = (j 0).val; rw [e0]; omega
  | ⟨1, _⟩ => show win0_7.index t 1 * 128 + 1 * (j 1).val = (j 1).val; rw [e1]; omega

/-! ## The two product scratches hold x0·W and x1·W' after every point -/

theorem sc_fst0 (c : Dev nD) : ∀ (n : ℕ) (t : Fin cfg0.N), t.val = n →
    (scAt0 V c t.val t.isLt).1 = mm (V c main_arg0 : Mat 4096 128) (V c main_arg8 : Mat 128 128) := by
  intro n
  induction n with
  | zero =>
    intro t ht
    rw [scAt0_A V c t ht]
    dsimp only
    rw [iblk0_2_eq, iblk0_4_eq]
    exact sc0A_eq _ _
  | succ n ih =>
    intro t ht
    rw [scAt0_pos V c t (by omega)]
    dsimp only
    exact ih ⟨t.val - 1, Nat.lt_of_le_of_lt (Nat.sub_le _ _) t.isLt⟩ (by show t.val - 1 = n; omega)

theorem sc_snd0 (c : Dev nD) : ∀ (n : ℕ) (t : Fin cfg0.N), t.val = n →
    (scAt0 V c t.val t.isLt).2.1 = mm (V c main_arg1 : Mat 8192 128) (V c main_arg9 : Mat 128 128) := by
  intro n
  induction n with
  | zero =>
    intro t ht
    rw [scAt0_A V c t ht]
    dsimp only
    rw [iblk0_3_eq, iblk0_5_eq]
    exact sc1A_eq _ _
  | succ n ih =>
    intro t ht
    rw [scAt0_pos V c t (by omega)]
    dsimp only
    exact ih ⟨t.val - 1, Nat.lt_of_le_of_lt (Nat.sub_le _ _) t.isLt⟩ (by show t.val - 1 = n; omega)

/-! ## The output arrays after the region -/

/-- s = logistic (A·(x0·W) + M·(x1·W')) over the arrays as the region finds them. -/
abbrev s0 (c : Dev nD) : Mat 4096 128 :=
  sg (add (mm (V c main_arg3 : Mat 4096 4096) (mm (V c main_arg0 : Mat 4096 128) (V c main_arg8 : Mat 128 128)))
    (mm (V c main_arg6 : Mat 4096 8192) (mm (V c main_arg1 : Mat 8192 128) (V c main_arg9 : Mat 128 128))))

/-- A block of an output window read off a whole 4096 × 128 array: entry (p, q) is the array's (256·t + p, q). -/
theorem blk0_8_read (G : Mat 4096 128) (t : Fin cfg0.N) (p : Fin 256) (q : Fin 128) :
    ((cfg0.win 8).blk t).view.read (Elt Ideal) G (ix2 p q) = G (ix2 (row0 t p) q) := by
  obtain ⟨-, -, -, -, e0, e1, -⟩ := idx_facts0 t
  rw [View.read_apply]
  show G _ = G _
  congr 1
  funext a; apply Fin.ext
  match a with
  | ⟨0, _⟩ => show win0_8.index t 0 * 256 + 1 * p.val = t.val * 256 + p.val; rw [e0]; omega
  | ⟨1, _⟩ => show win0_8.index t 1 * 128 + 1 * q.val = q.val; rw [e1]; omega

theorem blk0_9_read (G : Mat 4096 128) (t : Fin cfg0.N) (p : Fin 256) (q : Fin 128) :
    ((cfg0.win 9).blk t).view.read (Elt Ideal) G (ix2 p q) = G (ix2 (row0 t p) q) := by
  obtain ⟨-, -, -, -, -, -, e0, e1⟩ := idx_facts0 t
  rw [View.read_apply]
  show G _ = G _
  congr 1
  funext a; apply Fin.ext
  match a with
  | ⟨0, _⟩ => show win0_9.index t 0 * 256 + 1 * p.val = t.val * 256 + p.val; rw [e0]; omega
  | ⟨1, _⟩ => show win0_9.index t 1 * 128 + 1 * q.val = q.val; rw [e1]; omega

/-- What point t writes back of the first output is rows [256·t, 256·t + 256) of s·Wa. -/
theorem flushed0_8_eq (c : Dev nD) (t : Fin cfg0.N) :
    (dat0 (F := Ideal) V c).flushed 8 t = ((cfg0.win 8).blk t).view.read (Elt Ideal) (mm (s0 V c) (V c main_arg12 : Mat 128 128)) := by
  show (cfg0.win 8).cut (grid0.coords t) ((dat0 (F := Ideal) V c).after 8 t) = _
  rw [after0_8]
  funext y
  obtain ⟨p, q, rfl⟩ : ∃ (p : Fin 256) (q : Fin 128), y = ix2 p q := ⟨y 0, y 1, eq_ix2 y⟩
  rw [blk0_8_read]
  show out8 (iblk0 V c 0 t) (iblk0 V c 1 t) (scAt0 V c t.val t.isLt).1 (scAt0 V c t.val t.isLt).2.1 (iblk0 V c 6 t) (ix2 p q) = _
  rw [out8_eq, sc_fst0 V c t.val t rfl, sc_snd0 V c t.val t rfl, iblk0_6_eq]
  exact rows_mm_sg (V c main_arg3 : Mat 4096 4096) (V c main_arg6 : Mat 4096 8192) _ _ _ _ _ p (row0 t p) q
    (fun k => iblk0_0_apply V c t p k) (fun k => iblk0_1_apply V c t p k)

/-- What point t writes back of the second output is rows [256·t, 256·t + 256) of s·Wb. -/
theorem flushed0_9_eq (c : Dev nD) (t : Fin cfg0.N) :
    (dat0 (F := Ideal) V c).flushed 9 t = ((cfg0.win 9).blk t).view.read (Elt Ideal) (mm (s0 V c) (V c main_arg13 : Mat 128 128)) := by
  show (cfg0.win 9).cut (grid0.coords t) ((dat0 (F := Ideal) V c).after 9 t) = _
  rw [after0_9]
  funext y
  obtain ⟨p, q, rfl⟩ : ∃ (p : Fin 256) (q : Fin 128), y = ix2 p q := ⟨y 0, y 1, eq_ix2 y⟩
  rw [blk0_9_read]
  show out9 (iblk0 V c 0 t) (iblk0 V c 1 t) (scAt0 V c t.val t.isLt).1 (scAt0 V c t.val t.isLt).2.1 (iblk0 V c 7 t) (ix2 p q) = _
  rw [out9_eq, sc_fst0 V c t.val t rfl, sc_snd0 V c t.val t rfl, iblk0_7_eq]
  exact rows_mm_sg (V c main_arg3 : Mat 4096 4096) (V c main_arg6 : Mat 4096 8192) _ _ _ _ _ p (row0 t p) q
    (fun k => iblk0_0_apply V c t p k) (fun k => iblk0_1_apply V c t p k)

/-- An index of a 4096 × 128 output is in point t's block iff each coordinate is in the block's range on its axis. -/
theorem mem_blk0_8 (t : Fin cfg0.N) (i : S4096x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v0_0).slice (win0_8.rect t)).set ↔ _
  rw [View.set_slice_whole, Rect.mem_set_unit]
  exact Iff.rfl

theorem mem_blk0_9 (t : Fin cfg0.N) (i : S4096x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v0_1).slice (win0_9.rect t)).set ↔ _
  rw [View.set_slice_whole, Rect.mem_set_unit]
  exact Iff.rfl

/-- Every row of the first output lies in the block of the point its index divided by 256 names. -/
theorem cover0_8 (i : S4096x128.Idx) : ∃ t : Fin cfg0.N, (cfg0.win 8).flush t = true ∧ i ∈ ((cfg0.win 8).blk t).view.set := by
  have hi0 : (i 0).val < 4096 := (i 0).isLt
  have hi1 : (i 1).val < 128 := (i 1).isLt
  have hN : cfg0.N = 16 := N_0
  let t : Fin cfg0.N := ⟨(i 0).val / 256, by rw [hN]; omega⟩
  obtain ⟨-, -, -, -, e0, e1, -⟩ := idx_facts0 t
  refine ⟨t, flush0_8 t, ?_⟩
  rw [mem_blk0_8]
  intro a
  match a with
  | ⟨0, _⟩ => show win0_8.index t 0 * 256 ≤ (i 0).val ∧ (i 0).val < win0_8.index t 0 * 256 + 256
              rw [e0]; show (i 0).val / 256 * 256 ≤ (i 0).val ∧ (i 0).val < (i 0).val / 256 * 256 + 256; omega
  | ⟨1, _⟩ => show win0_8.index t 1 * 128 ≤ (i 1).val ∧ (i 1).val < win0_8.index t 1 * 128 + 128
              rw [e1]; omega

theorem cover0_9 (i : S4096x128.Idx) : ∃ t : Fin cfg0.N, (cfg0.win 9).flush t = true ∧ i ∈ ((cfg0.win 9).blk t).view.set := by
  have hi0 : (i 0).val < 4096 := (i 0).isLt
  have hi1 : (i 1).val < 128 := (i 1).isLt
  have hN : cfg0.N = 16 := N_0
  let t : Fin cfg0.N := ⟨(i 0).val / 256, by rw [hN]; omega⟩
  obtain ⟨-, -, -, -, -, -, e0, e1⟩ := idx_facts0 t
  refine ⟨t, flush0_9 t, ?_⟩
  rw [mem_blk0_9]
  intro a
  match a with
  | ⟨0, _⟩ => show win0_9.index t 0 * 256 ≤ (i 0).val ∧ (i 0).val < win0_9.index t 0 * 256 + 256
              rw [e0]; show (i 0).val / 256 * 256 ≤ (i 0).val ∧ (i 0).val < (i 0).val / 256 * 256 + 256; omega
  | ⟨1, _⟩ => show win0_9.index t 1 * 128 ≤ (i 1).val ∧ (i 1).val < win0_9.index t 1 * 128 + 128
              rw [e1]; omega

/-- The first output after the region: s·Wa. -/
theorem final0_8 (c : Dev nD) :
    (dat0 (F := Ideal) V c).arrAt 8 cfg0.N
      = mm (sg (add (mm (V c main_arg3 : Mat 4096 4096) (mm (V c main_arg0 : Mat 4096 128) (V c main_arg8 : Mat 128 128)))
          (mm (V c main_arg6 : Mat 4096 8192) (mm (V c main_arg1 : Mat 8192 128) (V c main_arg9 : Mat 128 128)))))
        (V c main_arg12 : Mat 128 128) :=
  (dat0 (F := Ideal) V c).arrAt_eq_of_cover 8 (mm (s0 V c) (V c main_arg12 : Mat 128 128))
    (fun t _ => flushed0_8_eq V c t) cover0_8

/-- The second output after the region: s·Wb. -/
theorem final0_9 (c : Dev nD) :
    (dat0 (F := Ideal) V c).arrAt 9 cfg0.N
      = mm (sg (add (mm (V c main_arg3 : Mat 4096 4096) (mm (V c main_arg0 : Mat 4096 128) (V c main_arg8 : Mat 128 128)))
          (mm (V c main_arg6 : Mat 4096 8192) (mm (V c main_arg1 : Mat 8192 128) (V c main_arg9 : Mat 128 128)))))
        (V c main_arg13 : Mat 128 128) :=
  (dat0 (F := Ideal) V c).arrAt_eq_of_cover 9 (mm (s0 V c) (V c main_arg13 : Mat 128 128))
    (fun t _ => flushed0_9_eq V c t) cover0_9

end Cert.KernelIdeal.HandVal
end
-- ==== Proof.Val.Region0c.lean ====
import proofs.«129582_g64467459113426_cont_9to1_m_811_15_alg».proof.Proof.KI.Region0
import proofs.«129582_g64467459113426_cont_9to1_m_811_15_alg».proof.Proof.Spec
import proofs.«129582_g64467459113426_cont_9to1_m_811_15_alg».proof.Proof.LibMatmul
import proofs.«129582_g64467459113426_cont_9to1_m_811_15_alg».proof.Proof.Val.R0Pay
import Idealize.ShloMosaic.Lib.Pipeline.Value
import Idealize.ShloMosaic.Lib.ValueIdx
import Idealize.ShloMosaic.PureOps.Ideal.Laws
set_option maxRecDepth 16384
noncomputable section
open scoped BigOperators
namespace Cert.KernelIdeal.HandVal
open Cert.Spec
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))
namespace R0c

/-! # The first sweep at the extended reals: its third result is the transpose of (x0 · W)ᵀ · I1

The sweep keeps P = x0 · W (4096 × 128) in a scratch buffer from the first point on, adds (rows 256·t … 256·t + 255 of
P)ᵀ · (row block t of I1) to a 128 × 8192 accumulator at every point t, and at the last point stores the accumulator's
transpose. -/

/-! ## What the stores leave, as matrices -/

/-- The projected features kept in scratch: x0 · W. -/
theorem sc2A_eq (x2 : Vec Ideal S4096x128 .f32) (x5 : Vec Ideal S128x128 .f32) :
    sc2A x2 x5 = mm (x2 : Mat 4096 128) (x5 : Mat 128 128) := by
  unfold sc2A
  rw [View.canon_unit_zero off00]
  simp only [View.ld_unit_zero (S := S4096x128) off00, View.ld_unit_zero (S := S128x128) off00]
  exact pay0_5_eq x2 x5

/-- The zeroed accumulator reads zero. -/
theorem acc0_apply (p : Fin 128) (q : Fin 8192) : acc0 (F := Ideal) (ix2 p q) = 0 := by
  unfold acc0
  rw [View.canon_unit_zero off00]
  exact congrFun pay0_2_eq (ix2 p q)

/-- The accumulator after a point at grid coordinate i: entry (p, q) gains the sum over the block's rows r of
    s2[256·i + r, p] · (I1 block)[r, q]. -/
theorem accNext_apply (i : grid0.Coords) (x1 : Vec Ideal S256x8192 .f32) (s2 : Vec Ideal S4096x128 .f32) (s3 : Vec Ideal S128x8192 .f32)
    (p : Fin 128) (q : Fin 8192) (hi : (i 0).val < 16) :
    accNext i x1 s2 s3 (ix2 p q)
      = s3 (ix2 p q) + ∑ r : Fin 256, s2 (ix2 ⟨(i 0).val * 256 + r.val, by have := r.isLt; omega⟩ p) * x1 (ix2 r q) := by
  unfold accNext
  rw [View.canon_unit_zero off00]
  simp only [View.ld_unit_zero (S := S256x8192) off00, View.ld_unit_zero (S := S128x8192) off00]
  rw [pay0_9_eq]
  show s3 (ix2 p q) + ∑ r : Fin 256, (View.ld s2 (rSl i)) (ix2 r p) * x1 (ix2 r q) = _
  refine congrArg (s3 (ix2 p q) + ·) (Finset.sum_congr rfl fun r _ => ?_)
  refine congrArg (· * x1 (ix2 r q)) ?_
  show s2 ((rSl i).idx (ix2 r p)) = _
  refine congrArg s2 ?_
  funext d
  apply Fin.ext
  match d with
  | ⟨0, _⟩ => show k0_off1 i 0 + 1 * r.val = (i 0).val * 256 + r.val; rw [k0_off1_eq]; show 256 * (i 0).val + 1 * r.val = _; omega
  | ⟨1, _⟩ => show k0_off1 i 1 + 1 * p.val = p.val; rw [k0_off1_eq]; show 0 + 1 * p.val = _; omega

/-- The last point's store: the accumulator transposed. -/
theorem out10_eq (s3 : Vec Ideal S128x8192 .f32) : out10 s3 = tr (s3 : Mat 128 8192) := by
  unfold out10
  rw [View.canon_unit_zero off00]
  simp only [View.ld_unit_zero (S := S128x8192) off00]
  exact pay0_1_eq s3

/-! ## The windows' index maps and block reads -/

/-- The index maps of the I1 window, the x0 window and the W window, and the grid coordinate, decided over the 16
    points: the I1 window sits at block row `t`, the whole-array windows at block (0, 0). -/
theorem idx_facts : ∀ t : Fin cfg0.N,
    win0_1.index t (0 : Fin 2) = t.val ∧ win0_1.index t (1 : Fin 2) = 0
    ∧ win0_2.index t (0 : Fin 2) = 0 ∧ win0_2.index t (1 : Fin 2) = 0
    ∧ win0_5.index t (0 : Fin 2) = 0 ∧ win0_5.index t (1 : Fin 2) = 0
    ∧ ((grid0.coords t) 0).val = t.val :=
  (by decide +kernel : ∀ t : Fin grid0.N, _)

/-- Row a of the I1 block at point t is row 256·t + a of I1. -/
theorem iblk0_1_apply (c : Dev nD) (t : Fin cfg0.N) (a : Fin 256) (b : Fin 8192) (h : t.val * 256 + a.val < 4096) :
    (iblk0 V c 1 t : Vec Ideal S256x8192 .f32) (ix2 a b) = V c main_arg6 (ix2 ⟨t.val * 256 + a.val, h⟩ b) := by
  obtain ⟨e10, e11, e20, e21, e50, e51, eg⟩ := idx_facts t
  unfold iblk0
  rw [View.read_apply]
  show V c main_arg6 _ = V c main_arg6 _
  refine congrArg (V c main_arg6) ?_
  funext d
  apply Fin.ext
  match d with
  | ⟨0, _⟩ => show win0_1.index t (0 : Fin 2) * 256 + 1 * a.val = t.val * 256 + a.val; rw [e10]; omega
  | ⟨1, _⟩ => show win0_1.index t (1 : Fin 2) * 8192 + 1 * b.val = b.val; rw [e11]; omega

/-- The x0 window is the whole array at every point. -/
theorem iblk0_2_eq (c : Dev nD) (t : Fin cfg0.N) : (iblk0 V c 2 t : Vec Ideal S4096x128 .f32) = V c main_arg0 := by
  obtain ⟨e10, e11, e20, e21, e50, e51, eg⟩ := idx_facts t
  funext j
  obtain ⟨a, b, rfl⟩ : ∃ (a : Fin 4096) (b : Fin 128), j = ix2 a b := ⟨j 0, j 1, eq_ix2 j⟩
  unfold iblk0
  rw [View.read_apply]
  show V c main_arg0 _ = V c main_arg0 _
  refine congrArg (V c main_arg0) ?_
  funext d
  apply Fin.ext
  match d with
  | ⟨0, _⟩ => show win0_2.index t (0 : Fin 2) * 4096 + 1 * a.val = a.val; rw [e20]; omega
  | ⟨1, _⟩ => show win0_2.index t (1 : Fin 2) * 128 + 1 * b.val = b.val; rw [e21]; omega

/-- The W window is the whole array at every point. -/
theorem iblk0_5_eq (c : Dev nD) (t : Fin cfg0.N) : (iblk0 V c 5 t : Vec Ideal S128x128 .f32) = V c main_arg9 := by
  obtain ⟨e10, e11, e20, e21, e50, e51, eg⟩ := idx_facts t
  funext j
  obtain ⟨a, b, rfl⟩ : ∃ (a : Fin 128) (b : Fin 128), j = ix2 a b := ⟨j 0, j 1, eq_ix2 j⟩
  unfold iblk0
  rw [View.read_apply]
  show V c main_arg9 _ = V c main_arg9 _
  refine congrArg (V c main_arg9) ?_
  funext d
  apply Fin.ext
  match d with
  | ⟨0, _⟩ => show win0_5.index t (0 : Fin 2) * 128 + 1 * a.val = a.val; rw [e50]; omega
  | ⟨1, _⟩ => show win0_5.index t (1 : Fin 2) * 128 + 1 * b.val = b.val; rw [e51]; omega

/-! ## The scratch operands point by point -/

/-- The first point's product of the x0 window with the W window is x0 · W. -/
theorem sc2A_blocks (c : Dev nD) (t : Fin cfg0.N) :
    sc2A (iblk0 V c 2 t) (iblk0 V c 5 t) = (mm (V c main_arg0 : Mat 4096 128) (V c main_arg9 : Mat 128 128)) :=
  (sc2A_eq (iblk0 V c 2 t) (iblk0 V c 5 t)).trans
    (congrArg₂ (mm (a := 4096) (k := 128) (b := 128)) (iblk0_2_eq V c t) (iblk0_5_eq V c t))

/-- The projected features stay x0 · W from the first point on. -/
theorem sc2_const (c : Dev nD) : ∀ (n : ℕ) (t : Fin cfg0.N), t.val = n →
    (scAt0 (F := Ideal) V c t.val t.isLt).2.2.1 = (mm (V c main_arg0 : Mat 4096 128) (V c main_arg9 : Mat 128 128))
  | 0, t, ht => by
    rw [scAt0_A V c t ht]
    dsimp only
    exact sc2A_blocks V c t
  | n + 1, t, ht => by
    have hne : t.val ≠ 0 := by omega
    rw [scAt0_pos V c t hne]
    dsimp only
    exact sc2_const c n ⟨t.val - 1, Nat.lt_of_le_of_lt (Nat.sub_le _ _) t.isLt⟩ (by show t.val - 1 = n; omega)

/-- Row j's term of entry (p, q) of Pᵀ · I. -/
def rowTerm (P : Mat 4096 128) (I : Mat 4096 8192) (p : Fin 128) (q : Fin 8192) : Fin 4096 → EReal :=
  fun j => P (ix2 j p) * I (ix2 j q)

/-- The same as a function of a natural number (zero past the last row). -/
def accTerm (P : Mat 4096 128) (I : Mat 4096 8192) (p : Fin 128) (q : Fin 8192) : Nat → EReal :=
  fun j => if h : j < 4096 then rowTerm P I p q ⟨j, h⟩ else 0

/-- One point's update of the accumulator, over the projected features P = x0 · W: entry (p, q) gains the terms of rows
    256·t … 256·t + 255. -/
theorem acc_step (c : Dev nD) (t : Fin cfg0.N) (i : grid0.Coords) (hi : i = grid0.coords t)
    (x1 : Vec Ideal S256x8192 .f32) (hx1 : x1 = iblk0 V c 1 t) (s2 : Vec Ideal S4096x128 .f32) (hs2 : s2 = (mm (V c main_arg0 : Mat 4096 128) (V c main_arg9 : Mat 128 128)))
    (s3 : Vec Ideal S128x8192 .f32) (p : Fin 128) (q : Fin 8192) :
    accNext i x1 s2 s3 (ix2 p q)
      = s3 (ix2 p q) + ∑ r : Fin 256, accTerm (mm (V c main_arg0 : Mat 4096 128) (V c main_arg9 : Mat 128 128)) (V c main_arg6 : Mat 4096 8192) p q (t.val * 256 + r.val) := by
  obtain ⟨e10, e11, e20, e21, e50, e51, eg⟩ := idx_facts t
  have hN : t.val < 16 := lt_of_lt_of_eq t.isLt (show cfg0.N = 16 from N_0)
  have hi0 : (i 0).val = t.val := by rw [hi]; exact eg
  refine (accNext_apply i x1 s2 s3 p q (by omega)).trans ?_
  refine congrArg (s3 (ix2 p q) + ·) (Finset.sum_congr rfl fun r _ => ?_)
  have hr : t.val * 256 + r.val < 4096 := by have := r.isLt; omega
  subst hs2; subst hx1
  unfold accTerm rowTerm
  rw [dif_pos hr, iblk0_1_apply V c t r q hr]
  refine congrArg (· * V c main_arg6 (ix2 ⟨t.val * 256 + r.val, hr⟩ q)) ?_
  refine congrArg (fun j => (mm (V c main_arg0 : Mat 4096 128) (V c main_arg9 : Mat 128 128)) (ix2 j p)) (Fin.ext ?_)
  show (i 0).val * 256 + r.val = t.val * 256 + r.val
  rw [hi0]

/-- After point n the accumulator's entry (p, q) is the running sum of the first n + 1 blocks of 256 row terms. -/
theorem acc_apply (c : Dev nD) (p : Fin 128) (q : Fin 8192) : ∀ (n : ℕ) (t : Fin cfg0.N), t.val = n →
    (scAt0 (F := Ideal) V c t.val t.isLt).2.2.2 (ix2 p q) = blockAcc 256 (accTerm (mm (V c main_arg0 : Mat 4096 128) (V c main_arg9 : Mat 128 128)) (V c main_arg6 : Mat 4096 8192) p q) (n + 1)
  | 0, t, ht => by
    rw [scAt0_A V c t ht]
    dsimp only
    refine (acc_step V c t (grid0.coords t) rfl (iblk0 V c 1 t) rfl (sc2A (iblk0 V c 2 t) (iblk0 V c 5 t)) (sc2A_blocks V c t)
      acc0 p q).trans ?_
    rw [acc0_apply, ht]
    rfl
  | n + 1, t, ht => by
    have hne : t.val ≠ 0 := by omega
    have hlt : t.val - 1 < cfg0.N := Nat.lt_of_le_of_lt (Nat.sub_le _ _) t.isLt
    have hs2 := sc2_const V c n ⟨t.val - 1, hlt⟩ (by show t.val - 1 = n; omega)
    have hacc := acc_apply c p q n ⟨t.val - 1, hlt⟩ (by show t.val - 1 = n; omega)
    dsimp only at hs2 hacc
    rw [scAt0_pos V c t hne]
    dsimp only
    refine (acc_step V c t (grid0.coords t) rfl (iblk0 V c 1 t) rfl (scAt0 V c (t.val - 1) hlt).2.2.1 hs2
      (scAt0 V c (t.val - 1) hlt).2.2.2 p q).trans ?_
    rw [hacc, ht]
    rfl

/-- After the last point the accumulator is (x0 · W)ᵀ · I1: the 16 blocks of 256 rows are all 4096 rows. -/
theorem acc_last (c : Dev nD) (t : Fin cfg0.N) (ht : t.val = 15) :
    (scAt0 (F := Ideal) V c t.val t.isLt).2.2.2 = tmm (mm (V c main_arg0 : Mat 4096 128) (V c main_arg9 : Mat 128 128)) (V c main_arg6 : Mat 4096 8192) := by
  funext j
  obtain ⟨p, q, rfl⟩ : ∃ (p : Fin 128) (q : Fin 8192), j = ix2 p q := ⟨j 0, j 1, eq_ix2 j⟩
  rw [acc_apply V c p q 15 t ht, tmm_apply]
  exact blockAcc_eq 256 16 4096 rfl (rowTerm (mm (V c main_arg0 : Mat 4096 128) (V c main_arg9 : Mat 128 128)) (V c main_arg6 : Mat 4096 8192) p q)

/-! ## The result array -/

/-- The one write-back, after the last point, writes the accumulator's transpose: the window's block is the whole array. -/
theorem flushed_eq (c : Dev nD) (t : Fin cfg0.N) (hf : (cfg0.win 10).flush t = true) :
    (dat0 (F := Ideal) V c).flushed 10 t
      = ((cfg0.win 10).blk t).view.read (Elt Ideal) (tr (tmm (mm (V c main_arg0 : Mat 4096 128) (V c main_arg9 : Mat 128 128)) (V c main_arg6 : Mat 4096 8192))) := by
  have hN : cfg0.N = 16 := N_0
  have h15 : t.val = 15 := by have := (flush0_10 t).mp hf; have := t.isLt; omega
  obtain rfl : t = t0_15 := Fin.ext h15
  show (cfg0.win 10).cut (grid0.coords t0_15) ((dat0 V c).after 10 t0_15) = _
  rw [after0_10]
  refine (out10_eq _).trans ?_
  refine (congrArg (fun s : Mat 128 8192 => tr s) (acc_last V c t0_15 rfl)).trans ?_
  have hz' : (fun a => win0_10.index t0_15 a * main_v0_2.ty.shape.size a) = fun _ => 0 := funext fun a => by fin_cases a <;> decide +kernel
  exact (Memref.read_access_unit_zero (Elt Ideal) main_v0_2 hz' (fun a => by rw [congrFun hz' a]; simp)
    (tr (tmm (mm (V c main_arg0 : Mat 4096 128) (V c main_arg9 : Mat 128 128)) (V c main_arg6 : Mat 4096 8192)))).symm

/-- After the sweep the array holds the transpose of (x0 · W)ᵀ · I1. -/
theorem final (c : Dev nD) :
    (dat0 (F := Ideal) V c).arrAt 10 cfg0.N = tr (tmm (mm (V c main_arg0 : Mat 4096 128) (V c main_arg9 : Mat 128 128)) (V c main_arg6 : Mat 4096 8192)) :=
  (dat0 V c).arrAt_eq_of_cover 10 _ (flushed_eq V c) fun i =>
    ⟨t0_15, (flush0_10 t0_15).mpr rfl, by
      show i ∈ ((View.whole main_v0_2).slice (win0_10.rect t0_15)).set
      rw [View.set_slice_whole, Rect.mem_set_unit]
      intro a
      have h0 : (i 0 : Nat) < 8192 := (i 0).isLt
      have h1 : (i 1 : Nat) < 128 := (i 1).isLt
      match a with
      | ⟨0, _⟩ => show win0_10.index t0_15 0 * win0_10.size 0 ≤ (i 0 : Nat) ∧ (i 0 : Nat) < win0_10.index t0_15 0 * win0_10.size 0 + win0_10.xsize (grid0.coords t0_15) 0
                  rw [show win0_10.index t0_15 0 * win0_10.size 0 = 0 from by decide +kernel, show win0_10.xsize (grid0.coords t0_15) 0 = 8192 from by decide +kernel]; omega
      | ⟨1, _⟩ => show win0_10.index t0_15 1 * win0_10.size 1 ≤ (i 1 : Nat) ∧ (i 1 : Nat) < win0_10.index t0_15 1 * win0_10.size 1 + win0_10.xsize (grid0.coords t0_15) 1
                  rw [show win0_10.index t0_15 1 * win0_10.size 1 = 0 from by decide +kernel, show win0_10.xsize (grid0.coords t0_15) 1 = 128 from by decide +kernel]; omega⟩

end R0c

/-- THE THIRD RESULT of the first sweep: after it the array holds the transpose of (x0 · W)ᵀ · I1. -/
theorem final0_10 (c : Dev nD) :
    (dat0 (F := Ideal) V c).arrAt 10 cfg0.N = tr (tmm (mm (V c main_arg0 : Mat 4096 128) (V c main_arg9 : Mat 128 128)) (V c main_arg6 : Mat 4096 8192)) :=
  R0c.final V c

end Cert.KernelIdeal.HandVal
end
-- ==== Proof.Val.Region0.lean ====
/-
  Region 0's outputs as matrices.
-/
import proofs.«129582_g64467459113426_cont_9to1_m_811_15_alg».proof.Proof.Val.Region0ab
import proofs.«129582_g64467459113426_cont_9to1_m_811_15_alg».proof.Proof.Val.Region0c
-- ==== Proof.Val.R1Pay.lean ====
import proofs.«129582_g64467459113426_cont_9to1_m_811_15_alg».proof.Proof.Val.R0Pay

set_option maxRecDepth 16384

noncomputable section

open scoped BigOperators

namespace Cert.KernelIdeal.HandVal

open Cert.KernelIdeal Cert.KernelIdeal.Gen
open Cert.Spec
open Idealize.ShloMosaic Idealize.ShloMosaic.ValueIdx

/-! # The payloads of region 1 at the extended reals, as whole matrices

The second sweep's payloads: a transposed accumulator times a weight, the zero matrix, two plain products, the logistic
function of an addend plus a product, that times either of two weights, and an accumulator plus a product Lᵀ·R
contracted over the rows of both operands. -/

/-- The product Lᵀ·R of region 1 (1024 rows contracted; 128 × 4096 result) into the zero accumulator, at entry
    (d, col): the sum over the rows r of L[r, d] · R[r, col]. -/
theorem tmatmul1_apply (L : FVec Ideal S1024x128 .f32) (R : FVec Ideal S1024x4096 .f32) (d : Fin 128) (col : Fin 4096) :
    FloatOps.matmul dot_S1024x128_S1024x4096_S128x4096_0_0_1_1_n_n none L R (constant S128x4096 .f32 0x00000000#32) (ix2 d col)
      = ∑ r : Fin 1024, L (ix2 r d) * R (ix2 r col) := by
  have hrank : dot_S1024x128_S1024x4096_S128x4096_0_0_1_1_n_n.contr.rank = 1 := rfl
  have hsize : dot_S1024x128_S1024x4096_S128x4096_0_0_1_1_n_n.contr.size ⟨0, by rw [hrank]; exact Nat.one_pos⟩ = 1024 := rfl
  refine (Ideal.matmul_constant_zero_apply dot_S1024x128_S1024x4096_S128x4096_0_0_1_1_n_n none L R (ix2 d col)).trans ?_
  rw [← Equiv.sum_comp (contrEquiv1 dot_S1024x128_S1024x4096_S128x4096_0_0_1_1_n_n 1024 hrank hsize).symm]
  refine Finset.sum_congr rfl fun k _ => ?_
  have hl : dot_S1024x128_S1024x4096_S128x4096_0_0_1_1_n_n.lhsIdx (ix2 d col)
      ((contrEquiv1 dot_S1024x128_S1024x4096_S128x4096_0_0_1_1_n_n 1024 hrank hsize).symm k) = ix2 k d := by
    funext a
    refine Fin.ext ?_
    match a with
    | ⟨0, _⟩ =>
      refine (dot_S1024x128_S1024x4096_S128x4096_0_0_1_1_n_n.lhsIdx_val_of_single (cl := 0) rfl (ix2 d col) _).trans ?_
      exact contrEquiv1_symm_val dot_S1024x128_S1024x4096_S128x4096_0_0_1_1_n_n 1024 hrank hsize k
    | ⟨1, _⟩ => rfl
  have hr : dot_S1024x128_S1024x4096_S128x4096_0_0_1_1_n_n.rhsIdx (ix2 d col)
      ((contrEquiv1 dot_S1024x128_S1024x4096_S128x4096_0_0_1_1_n_n 1024 hrank hsize).symm k) = ix2 k col := by
    funext a
    refine Fin.ext ?_
    match a with
    | ⟨0, _⟩ =>
      refine (dot_S1024x128_S1024x4096_S128x4096_0_0_1_1_n_n.rhsIdx_val_of_single (cr := 0) rfl (ix2 d col) _).trans ?_
      exact contrEquiv1_symm_val dot_S1024x128_S1024x4096_S128x4096_0_0_1_1_n_n 1024 hrank hsize k
    | ⟨1, _⟩ => rfl
  rw [hl, hr]

/-- The same as whole matrices: `tmm L R`. -/
theorem tmatmul1_eq_tmm (L : FVec Ideal S1024x128 .f32) (R : FVec Ideal S1024x4096 .f32) :
    FloatOps.matmul dot_S1024x128_S1024x4096_S128x4096_0_0_1_1_n_n none L R (constant S128x4096 .f32 0x00000000#32)
      = tmm (L : Mat 1024 128) (R : Mat 1024 4096) := by
  funext j
  obtain ⟨d, col, rfl⟩ : ∃ (d : Fin 128) (col : Fin 4096), j = ix2 d col := ⟨j 0, j 1, eq_ix2 j⟩
  exact tmatmul1_apply L R d col

/-- Payload 1: the transposed accumulator times a 128 × 128 weight. -/
theorem pay1_1_eq (v28 : Vec Ideal S128x4096 .f32) (v30 : Vec Ideal S128x128 .f32) :
    k1_pay1 v28 v30 = mm (tr (v28 : Mat 128 4096)) (v30 : Mat 128 128) := by
  unfold k1_pay1
  rw [← transpose_eq_tr v28 transposes_S128x4096_p1_0_S4096x128]
  exact matmul_plain_eq_mm (M := 4096) (K := 128) (N := 128) none _ v30

/-- Payload 2: the zero matrix. -/
theorem pay1_2_eq : (k1_pay2 (F := Ideal) : Mat 128 4096) = fun _ => 0 := by
  unfold k1_pay2
  refine (shapeCast_self _ _).trans ?_
  funext j
  exact Ideal.ofBits_zero_f32

/-- Payload 3: a 4096 × 128 by 128 × 128 product. -/
theorem pay1_3_eq (x : Vec Ideal S4096x128 .f32) (w : Vec Ideal S128x128 .f32) :
    k1_pay3 x w = mm (x : Mat 4096 128) (w : Mat 128 128) := by
  unfold k1_pay3
  refine (shapeCast_self _ _).trans ?_
  exact matmul_plain_eq_mm (M := 4096) (K := 128) (N := 128) none x w

/-- Payload 4: an 8192 × 128 by 128 × 128 product. -/
theorem pay1_4_eq (x : Vec Ideal S8192x128 .f32) (w : Vec Ideal S128x128 .f32) :
    k1_pay4 x w = mm (x : Mat 8192 128) (w : Mat 128 128) := by
  unfold k1_pay4
  refine (shapeCast_self _ _).trans ?_
  exact matmul_plain_eq_mm (M := 8192) (K := 128) (N := 128) none x w

/-- Payload 5: the logistic function of the addend block plus the row block times the projected features. -/
theorem pay1_5_eq (v3 : Vec Ideal S1024x4096 .f32) (v4 : Vec Ideal S1024x128 .f32) (v6 : Vec Ideal S4096x128 .f32) :
    k1_pay5 v3 v4 v6 = sg (add (v4 : Mat 1024 128) (mm (v3 : Mat 1024 4096) (v6 : Mat 4096 128))) := by
  unfold k1_pay5
  funext j
  refine congrArg Ideal.logistic ?_
  refine congrArg₂ (· + ·) (congrFun (shapeCast_self v4 _) j) ?_
  exact congrFun (matmul_plain_eq_mm (M := 1024) (K := 4096) (N := 128) none v3 v6) j

/-- Payload 6: that, times a 128 × 128 weight. -/
theorem pay1_6_eq (v3 : Vec Ideal S1024x4096 .f32) (v4 : Vec Ideal S1024x128 .f32) (v6 : Vec Ideal S4096x128 .f32) (v10 : Vec Ideal S128x128 .f32) :
    k1_pay6 v3 v4 v6 v10 = mm (sg (add (v4 : Mat 1024 128) (mm (v3 : Mat 1024 4096) (v6 : Mat 4096 128)))) (v10 : Mat 128 128) := by
  unfold k1_pay6
  rw [← pay1_5_eq]
  exact matmul_plain_eq_mm (M := 1024) (K := 128) (N := 128) none (k1_pay5 v3 v4 v6) v10

/-- Payload 7: the same with the other weight. -/
theorem pay1_7_eq (v3 : Vec Ideal S1024x4096 .f32) (v4 : Vec Ideal S1024x128 .f32) (v6 : Vec Ideal S4096x128 .f32) (v13 : Vec Ideal S128x128 .f32) :
    k1_pay7 v3 v4 v6 v13 = mm (sg (add (v4 : Mat 1024 128) (mm (v3 : Mat 1024 4096) (v6 : Mat 4096 128)))) (v13 : Mat 128 128) := by
  unfold k1_pay7
  rw [← pay1_5_eq]
  exact matmul_plain_eq_mm (M := 1024) (K := 128) (N := 128) none (k1_pay5 v3 v4 v6) v13

/-- Payload 8: the accumulator plus the product of the projected rows, transposed on the left, with the row block. -/
theorem pay1_8_eq (v3 : Vec Ideal S1024x4096 .f32) (v16 : Vec Ideal S128x4096 .f32) (v19 : Vec Ideal S1024x128 .f32) :
    k1_pay8 v3 v16 v19 = add (v16 : Mat 128 4096) (tmm (v19 : Mat 1024 128) (v3 : Mat 1024 4096)) := by
  unfold k1_pay8
  refine (shapeCast_self _ _).trans ?_
  funext j
  exact congrArg (fun s => v16 j + s) (congrFun (tmatmul1_eq_tmm v19 v3) j)

end Cert.KernelIdeal.HandVal

end
-- ==== Proof.Val.R1Pieces.lean ====
import proofs.«129582_g64467459113426_cont_9to1_m_811_15_alg».proof.Proof.KI.R1RunA
import proofs.«129582_g64467459113426_cont_9to1_m_811_15_alg».proof.Proof.KI.R1RunB
import proofs.«129582_g64467459113426_cont_9to1_m_811_15_alg».proof.Proof.KI.R1RunC
import Idealize.ShloMosaic.Lib.Pipeline.Value
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: what each case's stores are, as payloads of what the body loads -/

theorem r1_hz : (![0, 0] : Fin 2 → Nat) = fun _ => 0 := funext fun a => by fin_cases a <;> rfl

/-! ## A middle point -/

theorem r1p_B9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) : View.canon (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1 = k1_pay6 x0 x5 xs0 x6 := by
  unfold kernelRun1_B
  dsimp only
  rw [View.canon_unit_zero r1_hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x4096) r1_hz, View.ld_unit_zero (S := S8192x128) r1_hz, View.ld_unit_zero (S := S4096x128) r1_hz, View.ld_unit_zero (S := S128x128) r1_hz, View.ld_unit_zero (S := S1024x128) r1_hz, View.ld_unit_zero (S := S128x4096) r1_hz]

theorem r1p_B10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) : View.canon (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1 = k1_pay7 x0 x5 xs0 x7 := by
  unfold kernelRun1_B
  dsimp only
  rw [View.canon_unit_zero r1_hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x4096) r1_hz, View.ld_unit_zero (S := S8192x128) r1_hz, View.ld_unit_zero (S := S4096x128) r1_hz, View.ld_unit_zero (S := S128x128) r1_hz, View.ld_unit_zero (S := S1024x128) r1_hz, View.ld_unit_zero (S := S128x4096) r1_hz]

/-! ## The last point -/

theorem r1p_C9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) : View.canon (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).1 = k1_pay6 x0 x5 xs0 x6 := by
  unfold kernelRun1_C
  dsimp only
  sl_unfold_words
  rw [View.canon_unit_zero r1_hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x4096) r1_hz, View.ld_unit_zero (S := S8192x128) r1_hz, View.ld_unit_zero (S := S4096x128) r1_hz, View.ld_unit_zero (S := S128x128) r1_hz, View.ld_unit_zero (S := S1024x128) r1_hz, View.ld_unit_zero (S := S128x4096) r1_hz, View.readCov_unit_zero (S := S4096x128) _ r1_hz, View.readCov_unit_zero (S := S8192x128) _ r1_hz, View.readCov_unit_zero (S := S128x4096) _ r1_hz]

theorem r1p_C10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) : View.canon (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.1 = k1_pay7 x0 x5 xs0 x7 := by
  unfold kernelRun1_C
  dsimp only
  sl_unfold_words
  rw [View.canon_unit_zero r1_hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x4096) r1_hz, View.ld_unit_zero (S := S8192x128) r1_hz, View.ld_unit_zero (S := S4096x128) r1_hz, View.ld_unit_zero (S := S128x128) r1_hz, View.ld_unit_zero (S := S1024x128) r1_hz, View.ld_unit_zero (S := S128x4096) r1_hz, View.readCov_unit_zero (S := S4096x128) _ r1_hz, View.readCov_unit_zero (S := S8192x128) _ r1_hz, View.readCov_unit_zero (S := S128x4096) _ r1_hz]

/-! ## The first point: the product x2·W is stored, read back, and used -/

theorem r1p_As0 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) : View.canon (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1 = k1_pay3 x2 x3 := by
  unfold kernelRun1_A
  dsimp only
  sl_unfold_words
  rw [View.canon_unit_zero r1_hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x4096) r1_hz, View.ld_unit_zero (S := S8192x128) r1_hz, View.ld_unit_zero (S := S4096x128) r1_hz, View.ld_unit_zero (S := S128x128) r1_hz, View.ld_unit_zero (S := S1024x128) r1_hz, View.ld_unit_zero (S := S128x4096) r1_hz, View.readCov_unit_zero (S := S4096x128) _ r1_hz, View.readCov_unit_zero (S := S8192x128) _ r1_hz, View.readCov_unit_zero (S := S128x4096) _ r1_hz]

theorem r1p_A9 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) : View.canon (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1 = k1_pay6 x0 x5 (k1_pay3 x2 x3) x6 := by
  unfold kernelRun1_A
  dsimp only
  sl_unfold_words
  rw [View.canon_unit_zero r1_hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x4096) r1_hz, View.ld_unit_zero (S := S8192x128) r1_hz, View.ld_unit_zero (S := S4096x128) r1_hz, View.ld_unit_zero (S := S128x128) r1_hz, View.ld_unit_zero (S := S1024x128) r1_hz, View.ld_unit_zero (S := S128x4096) r1_hz, View.readCov_unit_zero (S := S4096x128) _ r1_hz, View.readCov_unit_zero (S := S8192x128) _ r1_hz, View.readCov_unit_zero (S := S128x4096) _ r1_hz]

theorem r1p_A10 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) : View.canon (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1 = k1_pay7 x0 x5 (k1_pay3 x2 x3) x7 := by
  unfold kernelRun1_A
  dsimp only
  sl_unfold_words
  rw [View.canon_unit_zero r1_hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x4096) r1_hz, View.ld_unit_zero (S := S8192x128) r1_hz, View.ld_unit_zero (S := S4096x128) r1_hz, View.ld_unit_zero (S := S128x128) r1_hz, View.ld_unit_zero (S := S1024x128) r1_hz, View.ld_unit_zero (S := S128x4096) r1_hz, View.readCov_unit_zero (S := S4096x128) _ r1_hz, View.readCov_unit_zero (S := S8192x128) _ r1_hz, View.readCov_unit_zero (S := S128x4096) _ r1_hz]

end Cert.KernelIdeal.HandVal

end
-- ==== Proof.Val.R1abBlocks.lean ====
import proofs.«129582_g64467459113426_cont_9to1_m_811_15_alg».proof.Proof.KI.R1Runs
import proofs.«129582_g64467459113426_cont_9to1_m_811_15_alg».proof.Proof.Val.R1Pay
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.HandVal

open Cert.KernelIdeal Cert.KernelIdeal.Gen Cert.KernelIdeal.Hand
open Cert.Spec
open Idealize.ShloMosaic Idealize.ShloMosaic.TcCoe Idealize.ShloMosaic.ValueIdx Idealize.SL.Sem
open Idealize.ShloMosaic.Rounds
open Idealize.ShloMosaic.Pipeline (Dat)

/-! # Region 1, the two row-blocked results: the blocks and one point's arithmetic

I is the 8192 × 4096 matrix, a the 8192 × 128 addend, y the 4096 × 128 right factor, W a 128 × 128 weight. Point t
writes rows [1024·t, 1024·t + 1024) of each result; entry (r, q) of either is the sum over j of
logistic (a[r, j] + ∑ₖ I[r, k] · y[k, j]) · W[j, q]. -/

/-- The result as one function of the four arrays: logistic (a + I · y), times W. -/
abbrev G1ab (I : Mat 8192 4096) (a : Mat 8192 128) (y : Mat 4096 128) (W : Mat 128 128) : Mat 8192 128 :=
  mm (sg (add a (mm I y))) W

theorem G1ab_apply (I : Mat 8192 4096) (a : Mat 8192 128) (y : Mat 4096 128) (W : Mat 128 128) (r : Fin 8192) (q : Fin 128) :
    G1ab I a y W (ix2 r q)
      = ∑ j : Fin 128, Ideal.logistic (a (ix2 r j) + ∑ k : Fin 4096, I (ix2 r k) * y (ix2 k j)) * W (ix2 j q) := rfl

/-- The same expression on one 1024-row block. -/
theorem blk1ab_apply (v3 : Mat 1024 4096) (v4 : Mat 1024 128) (y : Mat 4096 128) (v10 : Mat 128 128) (p : Fin 1024) (q : Fin 128) :
    mm (sg (add v4 (mm v3 y))) v10 (ix2 p q)
      = ∑ j : Fin 128, Ideal.logistic (v4 (ix2 p j) + ∑ k : Fin 4096, v3 (ix2 p k) * y (ix2 k j)) * v10 (ix2 j q) := rfl

/-- One point's block is the matching rows of the result: when the row block holds row r of I at its row p, the addend
    block row r of a at its row p, and the weight block is W, entry (p, q) of the block's expression is the result's
    entry (r, q). -/
theorem point1ab (I : Mat 8192 4096) (a : Mat 8192 128) (y : Mat 4096 128) (W : Mat 128 128)
    (v3 : Mat 1024 4096) (v4 : Mat 1024 128) (v10 : Mat 128 128) (p : Fin 1024) (q : Fin 128) (r : Fin 8192)
    (h3 : ∀ k : Fin 4096, v3 (ix2 p k) = I (ix2 r k))
    (h4 : ∀ j : Fin 128, v4 (ix2 p j) = a (ix2 r j))
    (h10 : ∀ j : Fin 128, v10 (ix2 j q) = W (ix2 j q)) :
    mm (sg (add v4 (mm v3 y))) v10 (ix2 p q) = G1ab I a y W (ix2 r q) := by
  rw [blk1ab_apply, G1ab_apply]
  refine Finset.sum_congr rfl fun j _ => ?_
  rw [h4 j, h10 j]
  exact congrArg (fun s => Ideal.logistic (a (ix2 r j) + s) * W (ix2 j q)) (Finset.sum_congr rfl fun k _ => by rw [h3 k])

/-- The printed index maps, decided over the grid: windows 0, 5, 9 and 10 move by one row block per point; windows 2, 3,
    6 and 7 stay at block (0, 0). -/
theorem idx_facts1 : ∀ t : Fin cfg1.N,
    win1_0.index t (0 : Fin 2) = t.val ∧ win1_0.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

variable (V : (c : Dev nD) → (b : Ref sig .tc) → Buf (Elt Ideal) ((c : Thread nD τ).loc b))

/-! ## The inputs' blocks, read at an entry -/

/-- Window 0's block at point t is rows 1024·t … of the big matrix. -/
theorem iblk1_0_apply (c : Dev nD) (t : Fin cfg1.N) (x : S1024x4096.Idx) (k : S8192x4096.Idx)
    (hk0 : (k 0).val = t.val * 1024 + (x 0).val) (hk1 : (k 1).val = (x 1).val) :
    (iblk1 V c 0 t : Vec Ideal S1024x4096 .f32) x = (V c main_arg7 : S8192x4096.Idx → EReal) k := by
  obtain ⟨e00, e01, e20, e21, e30, e31, e50, e51, e60, e61, e70, e71, e90, e91, ea0, ea1⟩ := idx_facts1 t
  unfold iblk1
  rw [View.read_apply]
  show V c main_arg7 _ = V c main_arg7 _
  congr 1
  funext a
  apply Fin.ext
  match a with
  | ⟨0, _⟩ => show win1_0.index t 0 * 1024 + 1 * (x 0).val = (k 0).val; rw [e00, hk0]; omega
  | ⟨1, _⟩ => show win1_0.index t 1 * 4096 + 1 * (x 1).val = (k 1).val; rw [e01, hk1]; omega

/-- Window 2's block at any point is the features whole. -/
theorem iblk1_2_apply (c : Dev nD) (t : Fin cfg1.N) (x : S4096x128.Idx) :
    (iblk1 V c 2 t : Vec Ideal S4096x128 .f32) x = (V c main_arg2 : S4096x128.Idx → EReal) x := by
  obtain ⟨e00, e01, e20, e21, e30, e31, e50, e51, e60, e61, e70, e71, e90, e91, ea0, ea1⟩ := idx_facts1 t
  unfold iblk1
  rw [View.read_apply]
  show V c main_arg2 _ = V c main_arg2 _
  congr 1
  funext a
  apply Fin.ext
  match a with
  | ⟨0, _⟩ => show win1_2.index t 0 * 4096 + 1 * (x 0).val = (x 0).val; rw [e20]; omega
  | ⟨1, _⟩ => show win1_2.index t 1 * 128 + 1 * (x 1).val = (x 1).val; rw [e21]; omega

/-- Window 3's block at any point is the first weight whole. -/
theorem iblk1_3_apply (c : Dev nD) (t : Fin cfg1.N) (x : S128x128.Idx) :
    (iblk1 V c 3 t : Vec Ideal S128x128 .f32) x = (V c main_arg11 : S128x128.Idx → EReal) x := by
  obtain ⟨e00, e01, e20, e21, e30, e31, e50, e51, e60, e61, e70, e71, e90, e91, ea0, ea1⟩ := idx_facts1 t
  unfold iblk1
  rw [View.read_apply]
  show V c main_arg11 _ = V c main_arg11 _
  congr 1
  funext a
  apply Fin.ext
  match a with
  | ⟨0, _⟩ => show win1_3.index t 0 * 128 + 1 * (x 0).val = (x 0).val; rw [e30]; omega
  | ⟨1, _⟩ => show win1_3.index t 1 * 128 + 1 * (x 1).val = (x 1).val; rw [e31]; omega

/-- Window 5's block at point t is rows 1024·t … of the addend. -/
theorem iblk1_5_apply (c : Dev nD) (t : Fin cfg1.N) (x : S1024x128.Idx) (k : S8192x128.Idx)
    (hk0 : (k 0).val = t.val * 1024 + (x 0).val) (hk1 : (k 1).val = (x 1).val) :
    (iblk1 V c 5 t : Vec Ideal S1024x128 .f32) x = (V c main_v0_2 : S8192x128.Idx → EReal) k := by
  obtain ⟨e00, e01, e20, e21, e30, e31, e50, e51, e60, e61, e70, e71, e90, e91, ea0, ea1⟩ := idx_facts1 t
  unfold iblk1
  rw [View.read_apply]
  show V c main_v0_2 _ = V c main_v0_2 _
  congr 1
  funext a
  apply Fin.ext
  match a with
  | ⟨0, _⟩ => show win1_5.index t 0 * 1024 + 1 * (x 0).val = (k 0).val; rw [e50, hk0]; omega
  | ⟨1, _⟩ => show win1_5.index t 1 * 128 + 1 * (x 1).val = (k 1).val; rw [e51, hk1]; omega

/-- Window 6's block at any point is the second weight whole. -/
theorem iblk1_6_apply (c : Dev nD) (t : Fin cfg1.N) (x : S128x128.Idx) :
    (iblk1 V c 6 t : Vec Ideal S128x128 .f32) x = (V c main_arg14 : S128x128.Idx → EReal) x := by
  obtain ⟨e00, e01, e20, e21, e30, e31, e50, e51, e60, e61, e70, e71, e90, e91, ea0, ea1⟩ := idx_facts1 t
  unfold iblk1
  rw [View.read_apply]
  show V c main_arg14 _ = V c main_arg14 _
  congr 1
  funext a
  apply Fin.ext
  match a with
  | ⟨0, _⟩ => show win1_6.index t 0 * 128 + 1 * (x 0).val = (x 0).val; rw [e60]; omega
  | ⟨1, _⟩ => show win1_6.index t 1 * 128 + 1 * (x 1).val = (x 1).val; rw [e61]; omega

/-- Window 7's block at any point is the third weight whole. -/
theorem iblk1_7_apply (c : Dev nD) (t : Fin cfg1.N) (x : S128x128.Idx) :
    (iblk1 V c 7 t : Vec Ideal S128x128 .f32) x = (V c main_arg15 : S128x128.Idx → EReal) x := by
  obtain ⟨e00, e01, e20, e21, e30, e31, e50, e51, e60, e61, e70, e71, e90, e91, ea0, ea1⟩ := idx_facts1 t
  unfold iblk1
  rw [View.read_apply]
  show V c main_arg15 _ = V c main_arg15 _
  congr 1
  funext a
  apply Fin.ext
  match a with
  | ⟨0, _⟩ => show win1_7.index t 0 * 128 + 1 * (x 0).val = (x 0).val; rw [e70]; omega
  | ⟨1, _⟩ => show win1_7.index t 1 * 128 + 1 * (x 1).val = (x 1).val; rw [e71]; omega

/-! ## The outputs' blocks: where they sit, and that they cover their arrays -/

/-- Entry (p, q) of window 9's block at point t sits at row 1024·t + p of its array. -/
theorem emb1_9 (t : Fin cfg1.N) (p : Fin 1024) (q : Fin 128) (hr : t.val * 1024 + p.val < 8192) :
    ((cfg1.win 9).blk t).view.emb (ix2 p q) = (ix2 (⟨t.val * 1024 + p.val, hr⟩ : Fin 8192) q : S8192x128.Idx) := by
  obtain ⟨e00, e01, e20, e21, e30, e31, e50, e51, e60, e61, e70, e71, e90, e91, ea0, ea1⟩ := idx_facts1 t
  funext a
  apply Fin.ext
  match a with
  | ⟨0, _⟩ => show win1_9.index t 0 * 1024 + 1 * p.val = t.val * 1024 + p.val; rw [e90]; omega
  | ⟨1, _⟩ => show win1_9.index t 1 * 128 + 1 * q.val = q.val; rw [e91]; omega

/-- An index of the array is in point t's block of window 9 iff each coordinate is in the block's range on its axis. -/
theorem mem_blk1_9 (t : Fin cfg1.N) (i : S8192x128.Idx) :
    i ∈ ((cfg1.win 9).blk t).view.set ↔ ∀ a : Fin 2, win1_9.index t a * S1024x128.size a ≤ (i a).val ∧ (i a).val < win1_9.index t a * S1024x128.size a + S1024x128.size a := by
  show i ∈ ((View.whole main_v1_0).slice (win1_9.rect t)).set ↔ _
  rw [View.set_slice_whole, Rect.mem_set_unit]
  exact Iff.rfl

/-- Every entry of window 9's array is in some point's block: row r is in the block of point r / 1024. -/
theorem cover1_9 (i : S8192x128.Idx) : ∃ t : Fin cfg1.N, (cfg1.win 9).flush t = true ∧ i ∈ ((cfg1.win 9).blk t).view.set := by
  have hi0 : (i 0).val < 8192 := (i 0).isLt
  have hi1 : (i 1).val < 128 := (i 1).isLt
  have hN : cfg1.N = 8 := N_1
  let t : Fin cfg1.N := ⟨(i 0).val / 1024, by rw [hN]; omega⟩
  obtain ⟨e00, e01, e20, e21, e30, e31, e50, e51, e60, e61, e70, e71, e90, e91, ea0, ea1⟩ := idx_facts1 t
  refine ⟨t, flush1_9 t, ?_⟩
  rw [mem_blk1_9]
  intro a
  match a with
  | ⟨0, _⟩ => show win1_9.index t 0 * 1024 ≤ (i 0).val ∧ (i 0).val < win1_9.index t 0 * 1024 + 1024
              rw [e90]; show (i 0).val / 1024 * 1024 ≤ (i 0).val ∧ (i 0).val < (i 0).val / 1024 * 1024 + 1024; omega
  | ⟨1, _⟩ => show win1_9.index t 1 * 128 ≤ (i 1).val ∧ (i 1).val < win1_9.index t 1 * 128 + 128
              rw [e91]; omega

/-- Entry (p, q) of window 10's block at point t sits at row 1024·t + p of its array. -/
theorem emb1_10 (t : Fin cfg1.N) (p : Fin 1024) (q : Fin 128) (hr : t.val * 1024 + p.val < 8192) :
    ((cfg1.win 10).blk t).view.emb (ix2 p q) = (ix2 (⟨t.val * 1024 + p.val, hr⟩ : Fin 8192) q : S8192x128.Idx) := by
  obtain ⟨e00, e01, e20, e21, e30, e31, e50, e51, e60, e61, e70, e71, e90, e91, ea0, ea1⟩ := idx_facts1 t
  funext a
  apply Fin.ext
  match a with
  | ⟨0, _⟩ => show win1_10.index t 0 * 1024 + 1 * p.val = t.val * 1024 + p.val; rw [ea0]; omega
  | ⟨1, _⟩ => show win1_10.index t 1 * 128 + 1 * q.val = q.val; rw [ea1]; omega

/-- An index of the array is in point t's block of window 10 iff each coordinate is in the block's range on its axis. -/
theorem mem_blk1_10 (t : Fin cfg1.N) (i : S8192x128.Idx) :
    i ∈ ((cfg1.win 10).blk t).view.set ↔ ∀ a : Fin 2, win1_10.index t a * S1024x128.size a ≤ (i a).val ∧ (i a).val < win1_10.index t a * S1024x128.size a + S1024x128.size a := by
  show i ∈ ((View.whole main_v1_1).slice (win1_10.rect t)).set ↔ _
  rw [View.set_slice_whole, Rect.mem_set_unit]
  exact Iff.rfl

/-- Every entry of window 10's array is in some point's block: row r is in the block of point r / 1024. -/
theorem cover1_10 (i : S8192x128.Idx) : ∃ t : Fin cfg1.N, (cfg1.win 10).flush t = true ∧ i ∈ ((cfg1.win 10).blk t).view.set := by
  have hi0 : (i 0).val < 8192 := (i 0).isLt
  have hi1 : (i 1).val < 128 := (i 1).isLt
  have hN : cfg1.N = 8 := N_1
  let t : Fin cfg1.N := ⟨(i 0).val / 1024, by rw [hN]; omega⟩
  obtain ⟨e00, e01, e20, e21, e30, e31, e50, e51, e60, e61, e70, e71, e90, e91, ea0, ea1⟩ := idx_facts1 t
  refine ⟨t, flush1_10 t, ?_⟩
  rw [mem_blk1_10]
  intro a
  match a with
  | ⟨0, _⟩ => show win1_10.index t 0 * 1024 ≤ (i 0).val ∧ (i 0).val < win1_10.index t 0 * 1024 + 1024
              rw [ea0]; show (i 0).val / 1024 * 1024 ≤ (i 0).val ∧ (i 0).val < (i 0).val / 1024 * 1024 + 1024; omega
  | ⟨1, _⟩ => show win1_10.index t 1 * 128 ≤ (i 1).val ∧ (i 1).val < win1_10.index t 1 * 128 + 128
              rw [ea1]; omega

end Cert.KernelIdeal.HandVal

end
-- ==== Proof.Val.Region1ab.lean ====
import proofs.«129582_g64467459113426_cont_9to1_m_811_15_alg».proof.Proof.KI.Region1
import proofs.«129582_g64467459113426_cont_9to1_m_811_15_alg».proof.Proof.Val.R1Pay
import proofs.«129582_g64467459113426_cont_9to1_m_811_15_alg».proof.Proof.Val.R1Pieces
import proofs.«129582_g64467459113426_cont_9to1_m_811_15_alg».proof.Proof.Val.R1abBlocks
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.HandVal

open Cert.KernelIdeal Cert.KernelIdeal.Gen Cert.KernelIdeal.Hand
open Cert.Spec
open Idealize.ShloMosaic Idealize.ShloMosaic.TcCoe Idealize.ShloMosaic.ValueIdx Idealize.SL.Sem
open Idealize.ShloMosaic.Rounds
open Idealize.ShloMosaic.Pipeline (Dat)

variable (V : (c : Dev nD) → (b : Ref sig .tc) → Buf (Elt Ideal) ((c : Thread nD τ).loc b))

/-! # Region 1 at the extended reals: the two row-blocked results are logistic (a + I · (x · W₁)) times a weight

I is the 8192 × 4096 matrix, a the 8192 × 128 addend, x the 4096 × 128 features, W₁ the first weight. The first point
forms x · W₁ once and keeps it; every point then writes rows [1024·t, 1024·t + 1024) of both results from its row
blocks of I and a. -/

/-- The first point of the grid. -/
abbrev first1 : Fin cfg1.N := ⟨0, Nat.lt_of_lt_of_eq (by decide : 0 < 8) N_1.symm⟩

/-- From the first point on, the first carried buffer holds the features block times the first weight block: the first
    point stores it, and every later point hands it on unchanged. -/
theorem scr1_fst (c : Dev nD) (t0 : Fin cfg1.N) (h0 : t0.val = 0) : ∀ (n : ℕ) (hn : n < cfg1.N),
    (scrAt1 V c n hn).1 = k1_pay3 (iblk1 V c 2 t0) (iblk1 V c 3 t0)
  | 0, hn => by
    have ht : t0 = ⟨0, hn⟩ := Fin.ext h0
    subst ht
    refine (congrArg Prod.fst (scrAt1_A V c ⟨0, hn⟩ rfl)).trans ?_
    dsimp only
    unfold runA1
    exact r1p_As0 ..
  | n + 1, hn => by
    have ih := scr1_fst c t0 h0 n (Nat.lt_of_succ_lt hn)
    by_cases h1 : n + 1 = 7
    · exact (congrArg Prod.fst (scrAt1_C V c ⟨n + 1, hn⟩ (Nat.succ_ne_zero n) h1)).trans ih
    · exact (congrArg Prod.fst (scrAt1_B V c ⟨n + 1, hn⟩ (Nat.succ_ne_zero n) h1)).trans ih

/-- The carried product, over the arrays: the features times the first weight. -/
theorem carried1_eq (c : Dev nD) :
    mm (iblk1 V c 2 first1 : Mat 4096 128) (iblk1 V c 3 first1 : Mat 128 128)
      = (mm (V c main_arg2 : Mat 4096 128) (V c main_arg11 : Mat 128 128)) := by
  rw [show (iblk1 V c 2 first1 : Mat 4096 128) = (V c main_arg2 : Mat 4096 128) from funext (iblk1_2_apply V c first1),
    show (iblk1 V c 3 first1 : Mat 128 128) = (V c main_arg11 : Mat 128 128) from funext (iblk1_3_apply V c first1)]

/-- Window 9's buffer after the body at any point: the logistic of the addend block plus the row block times the carried
    product, times the weight block — the same expression in all three cases of the body. -/
theorem out9At1_eq (c : Dev nD) (t0 : Fin cfg1.N) (h0 : t0.val = 0) (t : Fin cfg1.N) :
    out9At1 V c t
      = k1_pay6 (iblk1 V c 0 t) (iblk1 V c 5 t) (k1_pay3 (iblk1 V c 2 t0) (iblk1 V c 3 t0)) (iblk1 V c 6 t) := by
  unfold out9At1
  split
  · next h =>
    have ht : t = t0 := Fin.ext (h.trans h0.symm)
    subst ht
    unfold runA1
    exact r1p_A9 ..
  · split
    · unfold runC1
      refine (r1p_C9 ..).trans ?_
      exact congrArg (fun s => k1_pay6 (iblk1 V c 0 t) (iblk1 V c 5 t) s (iblk1 V c 6 t)) (scr1_fst V c t0 h0 _ _)
    · unfold runB1
      refine (r1p_B9 ..).trans ?_
      exact congrArg (fun s => k1_pay6 (iblk1 V c 0 t) (iblk1 V c 5 t) s (iblk1 V c 6 t)) (scr1_fst V c t0 h0 _ _)

/-- Window 10's buffer after the body at any point: the logistic of the addend block plus the row block times the carried
    product, times the weight block — the same expression in all three cases of the body. -/
theorem out10At1_eq (c : Dev nD) (t0 : Fin cfg1.N) (h0 : t0.val = 0) (t : Fin cfg1.N) :
    out10At1 V c t
      = k1_pay7 (iblk1 V c 0 t) (iblk1 V c 5 t) (k1_pay3 (iblk1 V c 2 t0) (iblk1 V c 3 t0)) (iblk1 V c 7 t) := by
  unfold out10At1
  split
  · next h =>
    have ht : t = t0 := Fin.ext (h.trans h0.symm)
    subst ht
    unfold runA1
    exact r1p_A10 ..
  · split
    · unfold runC1
      refine (r1p_C10 ..).trans ?_
      exact congrArg (fun s => k1_pay7 (iblk1 V c 0 t) (iblk1 V c 5 t) s (iblk1 V c 7 t)) (scr1_fst V c t0 h0 _ _)
    · unfold runB1
      refine (r1p_B10 ..).trans ?_
      exact congrArg (fun s => k1_pay7 (iblk1 V c 0 t) (iblk1 V c 5 t) s (iblk1 V c 7 t)) (scr1_fst V c t0 h0 _ _)

/-- What point t writes back of window 9 is block t of the result. -/
theorem flushed1_9_eq (c : Dev nD) (t : Fin cfg1.N) :
    (dat1 (F := Ideal) V c).flushed 9 t
      = ((cfg1.win 9).blk t).view.read (Elt Ideal)
          (G1ab (V c main_arg7) (V c main_v0_2) (mm (V c main_arg2 : Mat 4096 128) (V c main_arg11 : Mat 128 128)) (V c main_arg14)) := by
  show (cfg1.win 9).cut (grid1.coords t) ((dat1 V c).after 9 t) = _
  rw [after1_9, out9At1_eq V c first1 rfl t, pay1_6_eq, pay1_3_eq, carried1_eq V c]
  have ht : t.val < 8 := by have := t.isLt; have hN : cfg1.N = 8 := N_1; omega
  funext j
  obtain ⟨p, q, rfl⟩ : ∃ (p : Fin 1024) (q : Fin 128), j = ix2 p q := ⟨j 0, j 1, eq_ix2 j⟩
  rw [View.read_apply]
  have hr : t.val * 1024 + p.val < 8192 := by have := p.isLt; omega
  rw [emb1_9 t p q hr]
  refine point1ab _ _ _ _ _ _ _ p q ⟨t.val * 1024 + p.val, hr⟩ (fun k => ?_) (fun j => ?_) (fun j => ?_)
  · exact iblk1_0_apply V c t (ix2 p k) (ix2 ⟨t.val * 1024 + p.val, hr⟩ k) rfl rfl
  · exact iblk1_5_apply V c t (ix2 p j) (ix2 ⟨t.val * 1024 + p.val, hr⟩ j) rfl rfl
  · exact iblk1_6_apply V c t (ix2 j q)

/-- What point t writes back of window 10 is block t of the result. -/
theorem flushed1_10_eq (c : Dev nD) (t : Fin cfg1.N) :
    (dat1 (F := Ideal) V c).flushed 10 t
      = ((cfg1.win 10).blk t).view.read (Elt Ideal)
          (G1ab (V c main_arg7) (V c main_v0_2) (mm (V c main_arg2 : Mat 4096 128) (V c main_arg11 : Mat 128 128)) (V c main_arg15)) := by
  show (cfg1.win 10).cut (grid1.coords t) ((dat1 V c).after 10 t) = _
  rw [after1_10, out10At1_eq V c first1 rfl t, pay1_7_eq, pay1_3_eq, carried1_eq V c]
  have ht : t.val < 8 := by have := t.isLt; have hN : cfg1.N = 8 := N_1; omega
  funext j
  obtain ⟨p, q, rfl⟩ : ∃ (p : Fin 1024) (q : Fin 128), j = ix2 p q := ⟨j 0, j 1, eq_ix2 j⟩
  rw [View.read_apply]
  have hr : t.val * 1024 + p.val < 8192 := by have := p.isLt; omega
  rw [emb1_10 t p q hr]
  refine point1ab _ _ _ _ _ _ _ p q ⟨t.val * 1024 + p.val, hr⟩ (fun k => ?_) (fun j => ?_) (fun j => ?_)
  · exact iblk1_0_apply V c t (ix2 p k) (ix2 ⟨t.val * 1024 + p.val, hr⟩ k) rfl rfl
  · exact iblk1_5_apply V c t (ix2 p j) (ix2 ⟨t.val * 1024 + p.val, hr⟩ j) rfl rfl
  · exact iblk1_7_apply V c t (ix2 j q)

/-- The first result array after the region, over the arrays as the region finds them. -/
theorem final1_9 (c : Dev nD) :
    (dat1 (F := Ideal) V c).arrAt 9 cfg1.N
      = mm (sg (add (V c main_v0_2 : Mat 8192 128) (mm (V c main_arg7 : Mat 8192 4096) (mm (V c main_arg2 : Mat 4096 128) (V c main_arg11 : Mat 128 128)))))
          (V c main_arg14 : Mat 128 128) :=
  (dat1 (F := Ideal) V c).arrAt_eq_of_cover 9
    (G1ab (V c main_arg7) (V c main_v0_2) (mm (V c main_arg2 : Mat 4096 128) (V c main_arg11 : Mat 128 128)) (V c main_arg14))
    (fun t _ => flushed1_9_eq V c t) cover1_9

/-- The second result array after the region, over the arrays as the region finds them. -/
theorem final1_10 (c : Dev nD) :
    (dat1 (F := Ideal) V c).arrAt 10 cfg1.N
      = mm (sg (add (V c main_v0_2 : Mat 8192 128) (mm (V c main_arg7 : Mat 8192 4096) (mm (V c main_arg2 : Mat 4096 128) (V c main_arg11 : Mat 128 128)))))
          (V c main_arg15 : Mat 128 128) :=
  (dat1 (F := Ideal) V c).arrAt_eq_of_cover 10
    (G1ab (V c main_arg7) (V c main_v0_2) (mm (V c main_arg2 : Mat 4096 128) (V c main_arg11 : Mat 128 128)) (V c main_arg15))
    (fun t _ => flushed1_10_eq V c t) cover1_10

end Cert.KernelIdeal.HandVal

end
-- ==== Proof.Val.R1cPieces.lean ====
import proofs.«129582_g64467459113426_cont_9to1_m_811_15_alg».proof.Proof.KI.R1RunA
import proofs.«129582_g64467459113426_cont_9to1_m_811_15_alg».proof.Proof.KI.R1RunB
import proofs.«129582_g64467459113426_cont_9to1_m_811_15_alg».proof.Proof.KI.R1RunC
import Idealize.ShloMosaic.Lib.Pipeline.Value
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.Tactic
open Idealize.SL.Sem
variable {F : FTy → Type} [FloatOps F]
namespace R1c

/-! # The second sweep: what its cases leave in the projected-rows product, the accumulator and the last output

The sweep keeps two things between its 8 points: the product x₁·W (8192×128), stored at the first point and only read
afterwards, and a 128×4096 accumulator, zeroed at the first point and at every point increased by (rows 1024·t … 1024·t + 1023
of the product)ᵀ · (row block t of the 8192×4096 operand). At the last point the accumulator just stored is read back,
transposed and multiplied by a 128×128 weight into the last output. -/

theorem hz : (![0, 0] : Fin 2 → Nat) = fun _ => 0 := funext fun a => by fin_cases a <;> rfl

/-- First point: the product buffer is left at the product of the whole left operand and its weight. -/
theorem pA_s1 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) :
    View.canon (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1 = k1_pay4 x1 x4 := by
  unfold kernelRun1_A
  dsimp only
  sl_unfold_run_names
  rw [View.canon_unit_zero hz]
  simp only [View.readAt_writes_junk_eq_canon, View.read_writes_junk_eq_canon, View.readAt_eq_ld,
    harg1.read_unread, harg2.read_unread, harg5.read_unread, harg9.read_unread, harg14.read_unread, harg15.read_unread,
    View.canon_unit_zero (S := S8192x128) hz,
    View.ld_unit_zero (S := S1024x4096) hz, View.ld_unit_zero (S := S8192x128) hz, View.ld_unit_zero (S := S128x128) hz,
    View.ld_unit_zero (S := S128x4096) hz, View.readCov_unit_zero (S := S128x4096) _ hz]

/-- First point: the accumulator is left at the zero block plus the first block's product; the rows of the product buffer it
    reads are read back from the store just made. -/
theorem pA_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) :
    View.canon (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1
      = k1_pay8 x0 (k1_pay2 (F := F)) (View.ld (k1_pay4 x1 x4) (Rect.unit (s := S8192x128) (k1_off1 i) S1024x128.size (k1_off1_inb i))) := by
  unfold kernelRun1_A
  dsimp only
  sl_unfold_run_names
  rw [View.canon_cons_unit_zero (S := S128x4096) hz]
  simp only [View.readAt_writes_junk_eq_canon, View.read_writes_junk_eq_canon, View.readAt_eq_ld,
    harg1.read_unread, harg2.read_unread, harg5.read_unread, harg9.read_unread, harg14.read_unread, harg15.read_unread,
    View.canon_unit_zero (S := S8192x128) hz,
    View.ld_unit_zero (S := S1024x4096) hz, View.ld_unit_zero (S := S8192x128) hz, View.ld_unit_zero (S := S128x128) hz,
    View.ld_unit_zero (S := S128x4096) hz, View.readCov_unit_zero (S := S128x4096) _ hz]

/-- A middle point: the accumulator, found at `xs2`, is left at `xs2` plus this block's product, over the product buffer as found. -/
theorem pB_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : ¬cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) :
    View.canon (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1
      = k1_pay8 x0 xs2 (View.ld xs1 (Rect.unit (s := S8192x128) (k1_off1 i) S1024x128.size (k1_off1_inb i))) := by
  unfold kernelRun1_B
  dsimp only
  sl_unfold_run_names
  rw [View.canon_unit_zero hz]
  simp only [View.readAt_writes_junk_eq_canon, View.read_writes_junk_eq_canon, View.readAt_eq_ld,
    harg1.read_unread, harg2.read_unread, harg5.read_unread, harg9.read_unread, harg14.read_unread, harg15.read_unread,
    View.canon_unit_zero (S := S8192x128) hz,
    View.ld_unit_zero (S := S1024x4096) hz, View.ld_unit_zero (S := S8192x128) hz, View.ld_unit_zero (S := S128x128) hz,
    View.ld_unit_zero (S := S128x4096) hz, View.readCov_unit_zero (S := S128x4096) _ hz]

/-- The last point: the same. -/
theorem pC_s2 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.2.1
      = k1_pay8 x0 xs2 (View.ld xs1 (Rect.unit (s := S8192x128) (k1_off1 i) S1024x128.size (k1_off1_inb i))) := by
  unfold kernelRun1_C
  dsimp only
  sl_unfold_run_names
  rw [View.canon_unit_zero hz]
  simp only [View.readAt_writes_junk_eq_canon, View.read_writes_junk_eq_canon, View.readAt_eq_ld,
    harg1.read_unread, harg2.read_unread, harg5.read_unread, harg9.read_unread, harg14.read_unread, harg15.read_unread,
    View.canon_unit_zero (S := S8192x128) hz,
    View.ld_unit_zero (S := S1024x4096) hz, View.ld_unit_zero (S := S8192x128) hz, View.ld_unit_zero (S := S128x128) hz,
    View.ld_unit_zero (S := S128x4096) hz, View.readCov_unit_zero (S := S128x4096) _ hz]

/-- The last point: the last output is the accumulator just stored, transposed, times the weight. -/
theorem pC_11 (c : Dev nD) (i : grid1.Coords) (arg1 : Memref sig .tc .vmem S1024x4096 .f32) (harg1 : arg1.IsWhole) (arg2 : Memref sig .tc .vmem S8192x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S8192x128 .f32) (harg14 : arg14.IsWhole) (arg15 : Memref sig .tc .vmem S128x4096 .f32) (harg15 : arg15.IsWhole) (hc0 : ¬cond1_0 i) (hc1 : cond1_1 i) (x0 : Vec F S1024x4096 .f32) (x1 : Vec F S8192x128 .f32) (x2 : Vec F S4096x128 .f32) (x3 : Vec F S128x128 .f32) (x4 : Vec F S128x128 .f32) (x5 : Vec F S1024x128 .f32) (x6 : Vec F S128x128 .f32) (x7 : Vec F S128x128 .f32) (x8 : Vec F S128x128 .f32) (xs0 : Vec F S4096x128 .f32) (xs1 : Vec F S8192x128 .f32) (xs2 : Vec F S128x4096 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2).2.2.1
      = k1_pay1 (k1_pay8 x0 xs2 (View.ld xs1 (Rect.unit (s := S8192x128) (k1_off1 i) S1024x128.size (k1_off1_inb i)))) x8 := by
  unfold kernelRun1_C
  dsimp only
  sl_unfold_run_names
  rw [View.canon_unit_zero hz]
  simp only [View.readAt_writes_junk_eq_canon, View.read_writes_junk_eq_canon, View.readAt_eq_ld,
    harg1.read_unread, harg2.read_unread, harg5.read_unread, harg9.read_unread, harg14.read_unread, harg15.read_unread,
    View.canon_unit_zero (S := S8192x128) hz,
    View.ld_unit_zero (S := S1024x4096) hz, View.ld_unit_zero (S := S8192x128) hz, View.ld_unit_zero (S := S128x128) hz,
    View.ld_unit_zero (S := S128x4096) hz, View.readCov_unit_zero (S := S128x4096) _ hz]

end R1c
end Cert.KernelIdeal.HandVal
end
-- ==== Proof.Val.Region1c.lean ====
import proofs.«129582_g64467459113426_cont_9to1_m_811_15_alg».proof.Proof.KI.Region1
import proofs.«129582_g64467459113426_cont_9to1_m_811_15_alg».proof.Proof.Val.R1cPieces
import proofs.«129582_g64467459113426_cont_9to1_m_811_15_alg».proof.Proof.Val.R1Pay
import proofs.«129582_g64467459113426_cont_9to1_m_811_15_alg».proof.Proof.Spec
import Idealize.ShloMosaic.Lib.Pipeline.Value
import Idealize.ShloMosaic.Lib.ValueIdx
import Idealize.ShloMosaic.PureOps.Ideal.Laws
set_option maxRecDepth 16384
noncomputable section
open scoped BigOperators
namespace Cert.KernelIdeal.HandVal
open Cert.Spec
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))
namespace R1c

/-! # The second sweep's last output as a matrix

Write P for the product x₁·W (8192×128) and I for the 8192×4096 operand, read 1024 rows at a time over 8 points. After
point n the accumulator's entry (k, r) is the sum over the rows j < 1024·(n + 1) of P[j, k] · I[j, r]: zero plus one block
of 1024 terms per point. After the last point that is entry (k, r) of Pᵀ·I (both contracted over their rows), and the last
point stores (Pᵀ·I)ᵀ·W₂ into the last output, which is written back there and nowhere else. -/

/-! ## Each case's stores at a point of the grid -/

theorem runA_s1 (c : Dev nD) (t : Fin cfg1.N) (h0 : t.val = 0) :
    View.canon (runA1 (F := Ideal) V c t h0).2.2.2.1 = k1_pay4 (iblk1 V c 1 t) (iblk1 V c 4 t) := by
  unfold runA1
  exact pA_s1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t)

theorem runA_s2 (c : Dev nD) (t : Fin cfg1.N) (h0 : t.val = 0) :
    View.canon (runA1 (F := Ideal) V c t h0).2.2.2.2.1
      = k1_pay8 (iblk1 V c 0 t) (k1_pay2 (F := Ideal)) (View.ld (k1_pay4 (iblk1 V c 1 t) (iblk1 V c 4 t)) (Rect.unit (s := S8192x128) (k1_off1 (grid1.coords t)) S1024x128.size (k1_off1_inb (grid1.coords t)))) := by
  unfold runA1
  exact pA_s2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t)

theorem runB_s2 (c : Dev nD) (t : Fin cfg1.N) (h0 : t.val ≠ 0) (h1 : t.val ≠ 7)
    (xs0 : Vec Ideal S4096x128 .f32) (xs1 : Vec Ideal S8192x128 .f32) (xs2 : Vec Ideal S128x4096 .f32) :
    View.canon (runB1 (F := Ideal) V c t h0 h1 xs0 xs1 xs2).2.2.1
      = k1_pay8 (iblk1 V c 0 t) xs2 (View.ld xs1 (Rect.unit (s := S8192x128) (k1_off1 (grid1.coords t)) S1024x128.size (k1_off1_inb (grid1.coords t)))) := by
  unfold runB1
  exact pB_s2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) xs0 xs1 xs2

theorem runC_s2 (c : Dev nD) (t : Fin cfg1.N) (h1 : t.val = 7)
    (xs0 : Vec Ideal S4096x128 .f32) (xs1 : Vec Ideal S8192x128 .f32) (xs2 : Vec Ideal S128x4096 .f32) :
    View.canon (runC1 (F := Ideal) V c t h1 xs0 xs1 xs2).2.2.2.1
      = k1_pay8 (iblk1 V c 0 t) xs2 (View.ld xs1 (Rect.unit (s := S8192x128) (k1_off1 (grid1.coords t)) S1024x128.size (k1_off1_inb (grid1.coords t)))) := by
  unfold runC1
  exact pC_s2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) xs0 xs1 xs2

theorem runC_11 (c : Dev nD) (t : Fin cfg1.N) (h1 : t.val = 7)
    (xs0 : Vec Ideal S4096x128 .f32) (xs1 : Vec Ideal S8192x128 .f32) (xs2 : Vec Ideal S128x4096 .f32) :
    View.canon (runC1 (F := Ideal) V c t h1 xs0 xs1 xs2).2.2.1
      = k1_pay1 (k1_pay8 (iblk1 V c 0 t) xs2 (View.ld xs1 (Rect.unit (s := S8192x128) (k1_off1 (grid1.coords t)) S1024x128.size (k1_off1_inb (grid1.coords t))))) (iblk1 V c 8 t) := by
  unfold runC1
  exact pC_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) xs0 xs1 xs2

/-! ## The windows' index maps and block reads -/

/-- The index maps of the windows read here and the offset of the rows loaded from the product buffer, decided over the 8
    points: the row-block window sits at block row `t`, the whole-array windows at block (0, 0), the rows start at 1024·t. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_4.index t (0 : Fin 2) = 0 ∧ win1_4.index t (1 : Fin 2) = 0
    ∧ win1_8.index t (0 : Fin 2) = 0 ∧ win1_8.index t (1 : Fin 2) = 0
    ∧ k1_off1 (grid1.coords t) (0 : Fin 2) = t.val * 1024 ∧ k1_off1 (grid1.coords t) (1 : Fin 2) = 0 :=
  (by decide +kernel : ∀ t : Fin grid1.N, _)

/-- Row a of the row block at point t is row 1024·t + a of the array. -/
theorem blk0 (c : Dev nD) (t : Fin cfg1.N) (a : Fin 1024) (r : Fin 4096) (h : t.val * 1024 + a.val < 8192) :
    (iblk1 V c 0 t : Vec Ideal S1024x4096 .f32) (ix2 a r) = (V c main_arg7 : Mat 8192 4096) (ix2 ⟨t.val * 1024 + a.val, h⟩ r) := by
  obtain ⟨e0, e1, -⟩ := idx_facts t
  show V c main_arg7 (((cfg1.win 0).blk t).view.emb (ix2 a r)) = V c main_arg7 (ix2 ⟨t.val * 1024 + a.val, h⟩ r)
  have hi : ((cfg1.win 0).blk t).view.emb (ix2 a r) = ix2 (⟨t.val * 1024 + a.val, h⟩ : Fin 8192) r := by
    funext d; apply Fin.ext
    match d with
    | ⟨0, _⟩ => show win1_0.index t (0 : Fin 2) * 1024 + 1 * a.val = t.val * 1024 + a.val; rw [e0]; omega
    | ⟨1, _⟩ => show win1_0.index t (1 : Fin 2) * 4096 + 1 * r.val = r.val; rw [e1]; omega
  rw [hi]

/-- Window 1 is the whole array at every point. -/
theorem blk1 (c : Dev nD) (t : Fin cfg1.N) : (iblk1 V c 1 t : Vec Ideal S8192x128 .f32) = (V c main_arg1 : Mat 8192 128) := by
  obtain ⟨-, -, e10, e11, e40, e41, e80, e81, -⟩ := idx_facts t
  funext j
  obtain ⟨a, b, rfl⟩ : ∃ (a : Fin 8192) (b : Fin 128), j = ix2 a b := ⟨j 0, j 1, eq_ix2 j⟩
  show V c main_arg1 (((cfg1.win 1).blk t).view.emb (ix2 a b)) = V c main_arg1 (ix2 a b)
  have hi : ((cfg1.win 1).blk t).view.emb (ix2 a b) = ix2 a b := by
    funext d; apply Fin.ext
    match d with
    | ⟨0, _⟩ => show win1_1.index t (0 : Fin 2) * 8192 + 1 * a.val = a.val; rw [e10]; omega
    | ⟨1, _⟩ => show win1_1.index t (1 : Fin 2) * 128 + 1 * b.val = b.val; rw [e11]; omega
  rw [hi]

/-- Window 4 is the whole array at every point. -/
theorem blk4 (c : Dev nD) (t : Fin cfg1.N) : (iblk1 V c 4 t : Vec Ideal S128x128 .f32) = (V c main_arg10 : Mat 128 128) := by
  obtain ⟨-, -, e10, e11, e40, e41, e80, e81, -⟩ := idx_facts t
  funext j
  obtain ⟨a, b, rfl⟩ : ∃ (a : Fin 128) (b : Fin 128), j = ix2 a b := ⟨j 0, j 1, eq_ix2 j⟩
  show V c main_arg10 (((cfg1.win 4).blk t).view.emb (ix2 a b)) = V c main_arg10 (ix2 a b)
  have hi : ((cfg1.win 4).blk t).view.emb (ix2 a b) = ix2 a b := by
    funext d; apply Fin.ext
    match d with
    | ⟨0, _⟩ => show win1_4.index t (0 : Fin 2) * 128 + 1 * a.val = a.val; rw [e40]; omega
    | ⟨1, _⟩ => show win1_4.index t (1 : Fin 2) * 128 + 1 * b.val = b.val; rw [e41]; omega
  rw [hi]

/-- Window 8 is the whole array at every point. -/
theorem blk8 (c : Dev nD) (t : Fin cfg1.N) : (iblk1 V c 8 t : Vec Ideal S128x128 .f32) = (V c main_arg16 : Mat 128 128) := by
  obtain ⟨-, -, e10, e11, e40, e41, e80, e81, -⟩ := idx_facts t
  funext j
  obtain ⟨a, b, rfl⟩ : ∃ (a : Fin 128) (b : Fin 128), j = ix2 a b := ⟨j 0, j 1, eq_ix2 j⟩
  show V c main_arg16 (((cfg1.win 8).blk t).view.emb (ix2 a b)) = V c main_arg16 (ix2 a b)
  have hi : ((cfg1.win 8).blk t).view.emb (ix2 a b) = ix2 a b := by
    funext d; apply Fin.ext
    match d with
    | ⟨0, _⟩ => show win1_8.index t (0 : Fin 2) * 128 + 1 * a.val = a.val; rw [e80]; omega
    | ⟨1, _⟩ => show win1_8.index t (1 : Fin 2) * 128 + 1 * b.val = b.val; rw [e81]; omega
  rw [hi]

/-- Row a of the rows loaded from the product buffer at point t is row 1024·t + a of the buffer. -/
theorem ldrow (Pm : Vec Ideal S8192x128 .f32) (t : Fin cfg1.N) (a : Fin 1024) (k : Fin 128) (h : t.val * 1024 + a.val < 8192) :
    View.ld Pm (Rect.unit (s := S8192x128) (k1_off1 (grid1.coords t)) S1024x128.size (k1_off1_inb (grid1.coords t))) (ix2 a k) = Pm (ix2 ⟨t.val * 1024 + a.val, h⟩ k) := by
  obtain ⟨-, -, -, -, -, -, -, -, o0, o1⟩ := idx_facts t
  show Pm ((Rect.unit (s := S8192x128) (k1_off1 (grid1.coords t)) S1024x128.size (k1_off1_inb (grid1.coords t))).idx (ix2 a k)) = Pm (ix2 ⟨t.val * 1024 + a.val, h⟩ k)
  have hi : (Rect.unit (s := S8192x128) (k1_off1 (grid1.coords t)) S1024x128.size (k1_off1_inb (grid1.coords t))).idx (ix2 a k) = ix2 (⟨t.val * 1024 + a.val, h⟩ : Fin 8192) k := by
    funext d; apply Fin.ext
    match d with
    | ⟨0, _⟩ => show k1_off1 (grid1.coords t) (0 : Fin 2) + 1 * a.val = t.val * 1024 + a.val; rw [o0]; omega
    | ⟨1, _⟩ => show k1_off1 (grid1.coords t) (1 : Fin 2) + 1 * k.val = k.val; rw [o1]; omega
  rw [hi]

/-! ## The accumulator point by point -/

/-- The accumulator's update at entry (k, r): it gains the sum over the block's rows a of (rows)[a, k] · (row block)[a, r]. -/
theorem step_apply (x0 : Vec Ideal S1024x4096 .f32) (acc : Vec Ideal S128x4096 .f32) (v19 : Vec Ideal S1024x128 .f32)
    (k : Fin 128) (r : Fin 4096) :
    k1_pay8 x0 acc v19 (ix2 k r) = acc (ix2 k r) + ∑ a : Fin 1024, v19 (ix2 a k) * x0 (ix2 a r) :=
  congrFun (pay1_8_eq x0 acc v19) (ix2 k r)

/-- Row j's term of entry (k, r) of Pᵀ·I. -/
def rowTerm (Pm : Mat 8192 128) (I : Mat 8192 4096) (k : Fin 128) (r : Fin 4096) : Fin 8192 → EReal :=
  fun j => Pm (ix2 j k) * I (ix2 j r)

/-- The same as a function of a natural number (zero past the last row). -/
def accTerm (Pm : Mat 8192 128) (I : Mat 8192 4096) (k : Fin 128) (r : Fin 4096) : Nat → EReal :=
  fun j => if h : j < 8192 then rowTerm Pm I k r ⟨j, h⟩ else 0

/-- Point t's block contributes the terms of rows 1024·t … 1024·t + 1023. -/
theorem blockTerm (c : Dev nD) (t : Fin cfg1.N) (k : Fin 128) (r : Fin 4096) (a : Fin 1024) (Pm : Vec Ideal S8192x128 .f32) :
    View.ld Pm (Rect.unit (s := S8192x128) (k1_off1 (grid1.coords t)) S1024x128.size (k1_off1_inb (grid1.coords t))) (ix2 a k) * (iblk1 V c 0 t : Vec Ideal S1024x4096 .f32) (ix2 a r)
      = accTerm Pm (V c main_arg7 : Mat 8192 4096) k r (t.val * 1024 + a.val) := by
  have hN : t.val < 8 := lt_of_lt_of_eq t.isLt (show cfg1.N = 8 from N_1)
  have ha : t.val * 1024 + a.val < 8192 := by have := a.isLt; omega
  unfold accTerm rowTerm
  rw [dif_pos ha, ldrow Pm t a k ha, blk0 V c t a r ha]

/-- The first point leaves the product buffer at P. -/
theorem prod_first (c : Dev nD) (t : Fin cfg1.N) :
    k1_pay4 (iblk1 V c 1 t) (iblk1 V c 4 t) = (mm (V c main_arg1 : Mat 8192 128) (V c main_arg10 : Mat 128 128)) := by
  exact (pay1_4_eq (iblk1 V c 1 t) (iblk1 V c 4 t)).trans
    (congrArg₂ (fun (A : Mat 8192 128) (B : Mat 128 128) => mm A B) (blk1 V c t) (blk4 V c t))

/-- A later point keeps the product buffer and adds its block to the accumulator, whichever of the two later cases it is. -/
theorem scr_later (c : Dev nD) (t : Fin cfg1.N) (h0 : t.val ≠ 0) :
    (scrAt1 (F := Ideal) V c t.val t.isLt).2.1 = (prev1 V c t).2.1
    ∧ (scrAt1 (F := Ideal) V c t.val t.isLt).2.2
        = k1_pay8 (iblk1 V c 0 t) (prev1 V c t).2.2 (View.ld (prev1 V c t).2.1 (Rect.unit (s := S8192x128) (k1_off1 (grid1.coords t)) S1024x128.size (k1_off1_inb (grid1.coords t)))) := by
  by_cases h7 : t.val = 7
  · rw [scrAt1_C V c t h0 h7]
    dsimp only
    exact ⟨rfl, runC_s2 V c t h7 (prev1 V c t).1 (prev1 V c t).2.1 (prev1 V c t).2.2⟩
  · rw [scrAt1_B V c t h0 h7]
    dsimp only
    exact ⟨rfl, runB_s2 V c t h0 h7 (prev1 V c t).1 (prev1 V c t).2.1 (prev1 V c t).2.2⟩

/-- After point n the product buffer holds P and the accumulator's entry (k, r) is the running sum of the first n + 1
    blocks of 1024 row terms. -/
theorem scr_inv (c : Dev nD) : ∀ (n : ℕ) (t : Fin cfg1.N), t.val = n →
    (scrAt1 (F := Ideal) V c t.val t.isLt).2.1 = (mm (V c main_arg1 : Mat 8192 128) (V c main_arg10 : Mat 128 128))
    ∧ ∀ (k : Fin 128) (r : Fin 4096), (scrAt1 (F := Ideal) V c t.val t.isLt).2.2 (ix2 k r)
        = blockAcc 1024 (accTerm (mm (V c main_arg1 : Mat 8192 128) (V c main_arg10 : Mat 128 128)) (V c main_arg7 : Mat 8192 4096) k r) (n + 1)
  | 0, t, ht => by
    rw [scrAt1_A V c t ht]
    dsimp only
    refine ⟨(runA_s1 V c t ht).trans (prod_first V c t), fun k r => ?_⟩
    rw [runA_s2 V c t ht, prod_first V c t]
    refine (step_apply _ _ _ k r).trans ?_
    rw [show (k1_pay2 (F := Ideal) : Mat 128 4096) (ix2 k r) = 0 from congrFun pay1_2_eq (ix2 k r)]
    show (0 : EReal) + _ = blockAcc 1024 _ 0 + ∑ a : Fin 1024, accTerm _ _ k r (0 * 1024 + a.val)
    refine congrArg ((0 : EReal) + ·) (Finset.sum_congr rfl fun a _ => ?_)
    have hb := blockTerm V c t k r a (mm (V c main_arg1 : Mat 8192 128) (V c main_arg10 : Mat 128 128))
    rw [ht] at hb
    exact hb
  | n + 1, t, ht => by
    have h0 : t.val ≠ 0 := by omega
    obtain ⟨ihP, ihA⟩ := scr_inv c n ⟨t.val - 1, Nat.lt_of_le_of_lt (Nat.sub_le _ _) t.isLt⟩ (by show t.val - 1 = n; omega)
    have ihP' : (prev1 V c t).2.1 = (mm (V c main_arg1 : Mat 8192 128) (V c main_arg10 : Mat 128 128)) := ihP
    have ihA' : ∀ (k : Fin 128) (r : Fin 4096), (prev1 V c t).2.2 (ix2 k r)
        = blockAcc 1024 (accTerm (mm (V c main_arg1 : Mat 8192 128) (V c main_arg10 : Mat 128 128)) (V c main_arg7 : Mat 8192 4096) k r) (n + 1) := ihA
    obtain ⟨sP, sA⟩ := scr_later V c t h0
    refine ⟨sP.trans ihP', fun k r => ?_⟩
    rw [sA, ihP']
    refine (step_apply _ _ _ k r).trans ?_
    rw [ihA' k r]
    show _ = blockAcc 1024 _ (n + 1) + ∑ a : Fin 1024, accTerm _ _ k r ((n + 1) * 1024 + a.val)
    refine congrArg (blockAcc 1024 (accTerm (mm (V c main_arg1 : Mat 8192 128) (V c main_arg10 : Mat 128 128)) (V c main_arg7 : Mat 8192 4096) k r) (n + 1) + ·) (Finset.sum_congr rfl fun a _ => ?_)
    have hb := blockTerm V c t k r a (mm (V c main_arg1 : Mat 8192 128) (V c main_arg10 : Mat 128 128))
    rw [ht] at hb
    exact hb

/-! ## The last output -/

/-- The last point of the sweep. -/
def tLast : Fin cfg1.N := ⟨7, by rw [show cfg1.N = 8 from N_1]; decide⟩

/-- After the last point the accumulator is Pᵀ·I: the 8 blocks of 1024 rows are all 8192 rows. -/
theorem acc_last (c : Dev nD) :
    (scrAt1 (F := Ideal) V c tLast.val tLast.isLt).2.2 = tmm (mm (V c main_arg1 : Mat 8192 128) (V c main_arg10 : Mat 128 128)) (V c main_arg7 : Mat 8192 4096) := by
  funext j
  obtain ⟨k, r, rfl⟩ : ∃ (k : Fin 128) (r : Fin 4096), j = ix2 k r := ⟨j 0, j 1, eq_ix2 j⟩
  rw [(scr_inv V c 7 tLast rfl).2 k r, tmm_apply]
  exact blockAcc_eq 1024 8 8192 rfl (rowTerm (mm (V c main_arg1 : Mat 8192 128) (V c main_arg10 : Mat 128 128)) (V c main_arg7 : Mat 8192 4096) k r)

/-- At the last point the last output's buffer is left at the accumulator of that point, transposed, times the weight. -/
theorem out11_eq (c : Dev nD) (t : Fin cfg1.N) (h1 : t.val = 7) :
    out11At1 (F := Ideal) V c t = k1_pay1 (scrAt1 V c t.val t.isLt).2.2 (iblk1 V c 8 t) := by
  have h0 : t.val ≠ 0 := by omega
  unfold out11At1
  rw [dif_pos h1, scrAt1_C V c t h0 h1]
  dsimp only
  rw [runC_s2 V c t h1 (prev1 V c t).1 (prev1 V c t).2.1 (prev1 V c t).2.2]
  exact runC_11 V c t h1 (prev1 V c t).1 (prev1 V c t).2.1 (prev1 V c t).2.2

/-- So it is left at (Pᵀ·I)ᵀ·W₂. -/
theorem out11_last (c : Dev nD) : out11At1 (F := Ideal) V c tLast = (mm (tr (tmm (mm (V c main_arg1 : Mat 8192 128) (V c main_arg10 : Mat 128 128)) (V c main_arg7 : Mat 8192 4096))) (V c main_arg16 : Mat 128 128)) := by
  rw [out11_eq V c tLast rfl]
  refine (pay1_1_eq _ _).trans ?_
  exact congrArg₂ (fun (A : Mat 128 4096) (B : Mat 128 128) => mm (tr A) B) (acc_last V c) (blk8 V c tLast)

/-- The one write-back, after the last point, writes (Pᵀ·I)ᵀ·W₂: the window's block is the whole array. -/
theorem flushed_eq (c : Dev nD) (t : Fin cfg1.N) (hf : (cfg1.win 11).flush t = true) :
    (dat1 (F := Ideal) V c).flushed 11 t = ((cfg1.win 11).blk t).view.read (Elt Ideal) (mm (tr (tmm (mm (V c main_arg1 : Mat 8192 128) (V c main_arg10 : Mat 128 128)) (V c main_arg7 : Mat 8192 4096))) (V c main_arg16 : Mat 128 128)) := by
  have hN : cfg1.N = 8 := N_1
  have h7 : t.val = 7 := by have := (flush1_11 t).mp hf; have := t.isLt; omega
  obtain rfl : t = tLast := Fin.ext h7
  show (cfg1.win 11).cut (grid1.coords tLast) ((dat1 V c).after 11 tLast) = _
  rw [after1_11]
  refine (out11_last V c).trans ?_
  have hz' : (fun a => win1_11.index tLast a * main_v1_2.ty.shape.size a) = fun _ => 0 := funext fun a => by fin_cases a <;> decide +kernel
  exact (Memref.read_access_unit_zero (Elt Ideal) main_v1_2 hz' (fun a => by rw [congrFun hz' a]; simp) (mm (tr (tmm (mm (V c main_arg1 : Mat 8192 128) (V c main_arg10 : Mat 128 128)) (V c main_arg7 : Mat 8192 4096))) (V c main_arg16 : Mat 128 128))).symm

/-- After the sweep the array holds (Pᵀ·I)ᵀ·W₂. -/
theorem final (c : Dev nD) : (dat1 (F := Ideal) V c).arrAt 11 cfg1.N = (mm (tr (tmm (mm (V c main_arg1 : Mat 8192 128) (V c main_arg10 : Mat 128 128)) (V c main_arg7 : Mat 8192 4096))) (V c main_arg16 : Mat 128 128)) :=
  (dat1 V c).arrAt_eq_of_cover 11 _ (flushed_eq V c) fun i =>
    ⟨tLast, (flush1_11 tLast).mpr rfl, by
      show i ∈ ((View.whole main_v1_2).slice (win1_11.rect tLast)).set
      rw [View.set_slice_whole, Rect.mem_set_unit]
      intro a
      have h0 : (i 0 : Nat) < 4096 := (i 0).isLt
      have h1 : (i 1 : Nat) < 128 := (i 1).isLt
      match a with
      | ⟨0, _⟩ => show win1_11.index tLast 0 * win1_11.size 0 ≤ (i 0 : Nat) ∧ (i 0 : Nat) < win1_11.index tLast 0 * win1_11.size 0 + win1_11.xsize (grid1.coords tLast) 0
                  rw [show win1_11.index tLast 0 * win1_11.size 0 = 0 from by decide +kernel, show win1_11.xsize (grid1.coords tLast) 0 = 4096 from by decide +kernel]; omega
      | ⟨1, _⟩ => show win1_11.index tLast 1 * win1_11.size 1 ≤ (i 1 : Nat) ∧ (i 1 : Nat) < win1_11.index tLast 1 * win1_11.size 1 + win1_11.xsize (grid1.coords tLast) 1
                  rw [show win1_11.index tLast 1 * win1_11.size 1 = 0 from by decide +kernel, show win1_11.xsize (grid1.coords tLast) 1 = 128 from by decide +kernel]; omega⟩

end R1c

/-- The second sweep's last output ends at ((x₁·W)ᵀ·I)ᵀ·W₂ of the arrays the sweep finds. -/
theorem final1_11 (c : Dev nD) :
    (dat1 (F := Ideal) V c).arrAt 11 cfg1.N
      = mm (tr (tmm (mm (V c main_arg1 : Mat 8192 128) (V c main_arg10 : Mat 128 128)) (V c main_arg7 : Mat 8192 4096))) (V c main_arg16 : Mat 128 128) :=
  R1c.final V c

end Cert.KernelIdeal.HandVal
end
-- ==== Proof.Val.Region1.lean ====
/-
  Region 1's outputs as matrices.
-/
import proofs.«129582_g64467459113426_cont_9to1_m_811_15_alg».proof.Proof.Val.Region1ab
import proofs.«129582_g64467459113426_cont_9to1_m_811_15_alg».proof.Proof.Val.Region1c
-- ==== Proof.Val.Region2.lean ====
import proofs.«129582_g64467459113426_cont_9to1_m_811_15_alg».proof.Proof.KI.Region2
import proofs.«129582_g64467459113426_cont_9to1_m_811_15_alg».proof.Proof.Spec
import proofs.«129582_g64467459113426_cont_9to1_m_811_15_alg».proof.Proof.LibMatmul
import Idealize.ShloMosaic.Lib.Pipeline.Value
import Idealize.ShloMosaic.Lib.ValueIdx
import Idealize.ShloMosaic.PureOps.Ideal.Laws
set_option maxRecDepth 16384
noncomputable section
open scoped BigOperators
namespace Cert.KernelIdeal.HandVal
open Cert.Spec
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))

/-! # Region 2 at the extended reals: the row-block sweep computes A0 · u00 and u01ᵀ · I1 -/

/-! ## The body's payloads at an index -/

/-- The zero block reads zero. -/
theorem pay1_apply2 (p : Fin 128) (q : Fin 8192) : k2_pay1 (F := Ideal) (ix2 p q) = 0 := by
  unfold k2_pay1
  show Ideal.ofBits .f32 0x00000000#32 = 0
  exact Ideal.ofBits_zero_f32

/-- The first result's block: entry (p, q) is the sum over k of (A0 block)[p, k] · u00[k, q]. -/
theorem pay2_apply2 (x0 : Vec Ideal S512x4096 .f32) (x2 : Vec Ideal S4096x128 .f32) (p : Fin 512) (q : Fin 128) :
    k2_pay2 x0 x2 (ix2 p q) = ∑ k : Fin 4096, x0 (ix2 p k) * x2 (ix2 k q) := by
  unfold k2_pay2
  simp only [shapeCast_self]
  exact Cert.Bridge.LibMatmul.matmul_zero_apply none x0 x2 p q

/-! The accumulating product contracts the ROWS of both operands: its one contraction coordinate is the row. -/

theorem tl_rank2 : dot_S512x128_S512x8192_S128x8192_0_0_1_1_n_n.contr.rank = 1 := rfl
theorem tl_size2 : dot_S512x128_S512x8192_S128x8192_0_0_1_1_n_n.contr.size ⟨0, by rw [tl_rank2]; exact Nat.one_pos⟩ = 512 := rfl

/-- The left operand's index at output (p, q) and row r is (r, p). -/
theorem tl_lhsIdx2 (p : Fin 128) (q : Fin 8192) (r : Fin 512) :
    dot_S512x128_S512x8192_S128x8192_0_0_1_1_n_n.lhsIdx (ix2 p q) ((contrEquiv1 dot_S512x128_S512x8192_S128x8192_0_0_1_1_n_n 512 tl_rank2 tl_size2).symm r) = ix2 r p := by
  funext a
  refine Fin.ext ?_
  match a with
  | ⟨0, _⟩ =>
    refine (dot_S512x128_S512x8192_S128x8192_0_0_1_1_n_n.lhsIdx_val_of_single (cl := 0) rfl (ix2 p q) _).trans ?_
    exact contrEquiv1_symm_val dot_S512x128_S512x8192_S128x8192_0_0_1_1_n_n 512 tl_rank2 tl_size2 r
  | ⟨1, _⟩ => rfl

/-- The right operand's index at output (p, q) and row r is (r, q). -/
theorem tl_rhsIdx2 (p : Fin 128) (q : Fin 8192) (r : Fin 512) :
    dot_S512x128_S512x8192_S128x8192_0_0_1_1_n_n.rhsIdx (ix2 p q) ((contrEquiv1 dot_S512x128_S512x8192_S128x8192_0_0_1_1_n_n 512 tl_rank2 tl_size2).symm r) = ix2 r q := by
  funext a
  refine Fin.ext ?_
  match a with
  | ⟨0, _⟩ =>
    refine (dot_S512x128_S512x8192_S128x8192_0_0_1_1_n_n.rhsIdx_val_of_single (cr := 0) rfl (ix2 p q) _).trans ?_
    exact contrEquiv1_symm_val dot_S512x128_S512x8192_S128x8192_0_0_1_1_n_n 512 tl_rank2 tl_size2 r
  | ⟨1, _⟩ => rfl

/-- The accumulator's update: entry (p, q) gains the sum over the block's rows r of (u01 block)[r, p] · (I1 block)[r, q]. -/
theorem pay3_apply2 (acc : Vec Ideal S128x8192 .f32) (x3 : Vec Ideal S512x128 .f32) (x1 : Vec Ideal S512x8192 .f32)
    (p : Fin 128) (q : Fin 8192) :
    k2_pay3 acc x3 x1 (ix2 p q) = acc (ix2 p q) + ∑ r : Fin 512, x3 (ix2 r p) * x1 (ix2 r q) := by
  unfold k2_pay3
  simp only [shapeCast_self]
  show acc (ix2 p q) + FloatOps.matmul (F := Ideal) dot_S512x128_S512x8192_S128x8192_0_0_1_1_n_n none x3 x1 (constant (F := Ideal) S128x8192 .f32 0x00000000#32) (ix2 p q) = _
  refine congrArg (acc (ix2 p q) + ·) ?_
  refine (Ideal.matmul_constant_zero_apply dot_S512x128_S512x8192_S128x8192_0_0_1_1_n_n none x3 x1 (ix2 p q)).trans ?_
  rw [← Equiv.sum_comp (contrEquiv1 dot_S512x128_S512x8192_S128x8192_0_0_1_1_n_n 512 tl_rank2 tl_size2).symm]
  refine Finset.sum_congr rfl fun r _ => ?_
  rw [tl_lhsIdx2, tl_rhsIdx2]

/-! ## The windows' index maps and block reads -/

/-- The windows' index maps, decided over the 8 points: the row-block windows sit at block row `t`, the whole-array
    windows at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

/-- Row a of the A0 block at point t is row 512·t + a of A0. -/
theorem iblk2_0_apply (c : Dev nD) (t : Fin cfg2.N) (a : Fin 512) (b : Fin 4096) (h : t.val * 512 + a.val < 4096) :
    (iblk2 V c 0 t : Vec Ideal S512x4096 .f32) (ix2 a b) = V c main_arg3 (ix2 ⟨t.val * 512 + a.val, h⟩ b) := by
  obtain ⟨e00, e01, e10, e11, e20, e21, e30, e31, e40, e41, e50, e51⟩ := idx_facts2 t
  unfold iblk2
  rw [View.read_apply]
  show V c main_arg3 _ = V c main_arg3 _
  refine congrArg (V c main_arg3) ?_
  funext d
  apply Fin.ext
  match d with
  | ⟨0, _⟩ => show win2_0.index t (0 : Fin 2) * 512 + 1 * a.val = t.val * 512 + a.val; rw [e00]; omega
  | ⟨1, _⟩ => show win2_0.index t (1 : Fin 2) * 4096 + 1 * b.val = b.val; rw [e01]; omega

/-- Row a of the I1 block at point t is row 512·t + a of I1. -/
theorem iblk2_1_apply (c : Dev nD) (t : Fin cfg2.N) (a : Fin 512) (b : Fin 8192) (h : t.val * 512 + a.val < 4096) :
    (iblk2 V c 1 t : Vec Ideal S512x8192 .f32) (ix2 a b) = V c main_arg6 (ix2 ⟨t.val * 512 + a.val, h⟩ b) := by
  obtain ⟨e00, e01, e10, e11, e20, e21, e30, e31, e40, e41, e50, e51⟩ := idx_facts2 t
  unfold iblk2
  rw [View.read_apply]
  show V c main_arg6 _ = V c main_arg6 _
  refine congrArg (V c main_arg6) ?_
  funext d
  apply Fin.ext
  match d with
  | ⟨0, _⟩ => show win2_1.index t (0 : Fin 2) * 512 + 1 * a.val = t.val * 512 + a.val; rw [e10]; omega
  | ⟨1, _⟩ => show win2_1.index t (1 : Fin 2) * 8192 + 1 * b.val = b.val; rw [e11]; omega

/-- The u00 window is the whole array at every point. -/
theorem iblk2_2_apply (c : Dev nD) (t : Fin cfg2.N) (a : Fin 4096) (b : Fin 128) (h : a.val < 4096) :
    (iblk2 V c 2 t : Vec Ideal S4096x128 .f32) (ix2 a b) = V c main_v0_0 (ix2 ⟨a.val, h⟩ b) := by
  obtain ⟨e00, e01, e10, e11, e20, e21, e30, e31, e40, e41, e50, e51⟩ := idx_facts2 t
  unfold iblk2
  rw [View.read_apply]
  show V c main_v0_0 _ = V c main_v0_0 _
  refine congrArg (V c main_v0_0) ?_
  funext d
  apply Fin.ext
  match d with
  | ⟨0, _⟩ => show win2_2.index t (0 : Fin 2) * 4096 + 1 * a.val = a.val; rw [e20]; omega
  | ⟨1, _⟩ => show win2_2.index t (1 : Fin 2) * 128 + 1 * b.val = b.val; rw [e21]; omega

/-- Row a of the u01 block at point t is row 512·t + a of u01. -/
theorem iblk2_3_apply (c : Dev nD) (t : Fin cfg2.N) (a : Fin 512) (b : Fin 128) (h : t.val * 512 + a.val < 4096) :
    (iblk2 V c 3 t : Vec Ideal S512x128 .f32) (ix2 a b) = V c main_v0_1 (ix2 ⟨t.val * 512 + a.val, h⟩ b) := by
  obtain ⟨e00, e01, e10, e11, e20, e21, e30, e31, e40, e41, e50, e51⟩ := idx_facts2 t
  unfold iblk2
  rw [View.read_apply]
  show V c main_v0_1 _ = V c main_v0_1 _
  refine congrArg (V c main_v0_1) ?_
  funext d
  apply Fin.ext
  match d with
  | ⟨0, _⟩ => show win2_3.index t (0 : Fin 2) * 512 + 1 * a.val = t.val * 512 + a.val; rw [e30]; omega
  | ⟨1, _⟩ => show win2_3.index t (1 : Fin 2) * 128 + 1 * b.val = b.val; rw [e31]; omega

/-! ## The first result: A0 · u00, one 512-row block per point -/

/-- Entry (p, q) of point t's block of the result array is entry (512·t + p, q) of the array. -/
theorem blk2_4_emb (t : Fin cfg2.N) (p : Fin 512) (q : Fin 128) (h : t.val * 512 + p.val < 4096) :
    ((cfg2.win 4).blk t).view.emb (ix2 p q) = (ix2 ⟨t.val * 512 + p.val, h⟩ q : (⟨2, ![4096, 128]⟩ : Shape).Idx) := by
  obtain ⟨e00, e01, e10, e11, e20, e21, e30, e31, e40, e41, e50, e51⟩ := idx_facts2 t
  funext d
  apply Fin.ext
  match d with
  | ⟨0, _⟩ => show win2_4.index t (0 : Fin 2) * 512 + 1 * p.val = t.val * 512 + p.val; rw [e40]; omega
  | ⟨1, _⟩ => show win2_4.index t (1 : Fin 2) * 128 + 1 * q.val = q.val; rw [e41]; omega

/-- What point t writes back is block t of A0 · u00. -/
theorem flushed2_4_eq (c : Dev nD) (t : Fin cfg2.N) :
    (dat2 (F := Ideal) V c).flushed 4 t
      = ((cfg2.win 4).blk t).view.read (Elt Ideal) (mm (V c main_arg3 : Mat 4096 4096) (V c main_v0_0 : Mat 4096 128)) := by
  have hN : t.val < 8 := lt_of_lt_of_eq t.isLt (show cfg2.N = 8 from N_2)
  show (cfg2.win 4).cut (grid2.coords t) ((dat2 V c).after 4 t) = _
  rw [after2_4]
  funext j
  obtain ⟨p, q, rfl⟩ : ∃ (p : Fin 512) (q : Fin 128), j = ix2 p q := ⟨j 0, j 1, eq_ix2 j⟩
  have hp : t.val * 512 + p.val < 4096 := by have := p.isLt; omega
  show k2_pay2 (iblk2 V c 0 t) (iblk2 V c 2 t) (ix2 p q)
    = mm (V c main_arg3 : Mat 4096 4096) (V c main_v0_0 : Mat 4096 128) (((cfg2.win 4).blk t).view.emb (ix2 p q))
  refine (pay2_apply2 (iblk2 V c 0 t) (iblk2 V c 2 t) p q).trans ?_
  refine Eq.trans ?_ (congrArg (mm (V c main_arg3 : Mat 4096 4096) (V c main_v0_0 : Mat 4096 128)) (blk2_4_emb t p q hp)).symm
  rw [mm_apply]
  refine Finset.sum_congr rfl fun k _ => ?_
  rw [iblk2_0_apply V c t p k hp, iblk2_2_apply V c t k q k.isLt]

/-- An index of the result array is in point t's block iff each coordinate is in the block's range. -/
theorem mem_blk2_4 (t : Fin cfg2.N) (i : S4096x128.Idx) :
    i ∈ ((cfg2.win 4).blk t).view.set ↔ ∀ a : Fin 2, win2_4.index t a * S512x128.size a ≤ (i a).val ∧ (i a).val < win2_4.index t a * S512x128.size a + S512x128.size a := by
  show i ∈ ((View.whole main_v2_0).slice (win2_4.rect t)).set ↔ _
  rw [View.set_slice_whole, Rect.mem_set_unit]
  exact Iff.rfl

/-- THE FIRST RESULT: after the sweep the array holds A0 · u00 (row i is written at point i / 512). -/
theorem final2_4 (c : Dev nD) :
    (dat2 (F := Ideal) V c).arrAt 4 cfg2.N = mm (V c main_arg3 : Mat 4096 4096) (V c main_v0_0 : Mat 4096 128) :=
  (dat2 V c).arrAt_eq_of_cover 4 _ (fun t _ => flushed2_4_eq V c t) fun i => by
    have hi0 : (i 0).val < 4096 := (i 0).isLt
    have hi1 : (i 1).val < 128 := (i 1).isLt
    have hN : cfg2.N = 8 := N_2
    have ht : (i 0).val / 512 < cfg2.N := by rw [hN]; omega
    obtain ⟨e00, e01, e10, e11, e20, e21, e30, e31, e40, e41, e50, e51⟩ := idx_facts2 ⟨(i 0).val / 512, ht⟩
    refine ⟨⟨(i 0).val / 512, ht⟩, flush2_4 _, ?_⟩
    rw [mem_blk2_4]
    intro a
    match a with
    | ⟨0, _⟩ =>
      show win2_4.index ⟨(i 0).val / 512, ht⟩ (0 : Fin 2) * 512 ≤ (i 0).val ∧ (i 0).val < win2_4.index ⟨(i 0).val / 512, ht⟩ (0 : Fin 2) * 512 + 512
      rw [e40]; dsimp only; omega
    | ⟨1, _⟩ =>
      show win2_4.index ⟨(i 0).val / 512, ht⟩ (1 : Fin 2) * 128 ≤ (i 1).val ∧ (i 1).val < win2_4.index ⟨(i 0).val / 512, ht⟩ (1 : Fin 2) * 128 + 128
      rw [e41]; omega

/-! ## The second result: u01ᵀ · I1, accumulated over the points -/

/-- Row j's term of entry (p, q) of u01ᵀ · I1. -/
def rowTerm2 (u : Mat 4096 128) (I : Mat 4096 8192) (p : Fin 128) (q : Fin 8192) : Fin 4096 → EReal :=
  fun j => u (ix2 j p) * I (ix2 j q)

/-- The same as a function of a natural number (zero past the last row). -/
def accTerm2 (u : Mat 4096 128) (I : Mat 4096 8192) (p : Fin 128) (q : Fin 8192) : Nat → EReal :=
  fun j => if h : j < 4096 then rowTerm2 u I p q ⟨j, h⟩ else 0

/-- Point t's block contributes the terms of rows 512·t … 512·t + 511. -/
theorem blockTerm2 (c : Dev nD) (t : Fin cfg2.N) (p : Fin 128) (q : Fin 8192) (r : Fin 512)
    (x3 : Vec Ideal S512x128 .f32) (x1 : Vec Ideal S512x8192 .f32) (h3 : x3 = iblk2 V c 3 t) (h1 : x1 = iblk2 V c 1 t) :
    x3 (ix2 r p) * x1 (ix2 r q)
      = accTerm2 (V c main_v0_1 : Mat 4096 128) (V c main_arg6 : Mat 4096 8192) p q (t.val * 512 + r.val) := by
  have hN : t.val < 8 := lt_of_lt_of_eq t.isLt (show cfg2.N = 8 from N_2)
  have hr : t.val * 512 + r.val < 4096 := by have := r.isLt; omega
  subst h3; subst h1
  unfold accTerm2 rowTerm2
  rw [dif_pos hr, iblk2_3_apply V c t r p hr, iblk2_1_apply V c t r q hr]

/-- After point n the accumulator's entry (p, q) is the running sum of the first n + 1 blocks of 512 row terms. -/
theorem outsAt2_apply (c : Dev nD) (p : Fin 128) (q : Fin 8192) : ∀ (n : ℕ) (h : n < cfg2.N),
    outsAt2 (F := Ideal) V c n h (ix2 p q)
      = blockAcc 512 (accTerm2 (V c main_v0_1 : Mat 4096 128) (V c main_arg6 : Mat 4096 8192) p q) (n + 1)
  | 0, h => by
    show k2_pay3 (k2_pay1 (F := Ideal)) (iblk2 V c 3 ⟨0, h⟩) (iblk2 V c 1 ⟨0, h⟩) (ix2 p q) = _
    refine (pay3_apply2 (k2_pay1 (F := Ideal)) (iblk2 V c 3 ⟨0, h⟩) (iblk2 V c 1 ⟨0, h⟩) p q).trans ?_
    rw [pay1_apply2]
    show (0 : EReal) + _ = blockAcc 512 _ 0 + ∑ r : Fin 512, accTerm2 _ _ p q (0 * 512 + r.val)
    refine congrArg ((0 : EReal) + ·) (Finset.sum_congr rfl fun r _ => ?_)
    exact blockTerm2 V c ⟨0, h⟩ p q r _ _ rfl rfl
  | n + 1, h => by
    show k2_pay3 (outsAt2 V c n (Nat.lt_of_succ_lt h)) (iblk2 V c 3 ⟨n + 1, h⟩) (iblk2 V c 1 ⟨n + 1, h⟩) (ix2 p q) = _
    refine (pay3_apply2 (outsAt2 V c n (Nat.lt_of_succ_lt h)) (iblk2 V c 3 ⟨n + 1, h⟩) (iblk2 V c 1 ⟨n + 1, h⟩) p q).trans ?_
    rw [outsAt2_apply c p q n (Nat.lt_of_succ_lt h)]
    show _ = blockAcc 512 _ (n + 1) + ∑ r : Fin 512, accTerm2 _ _ p q ((n + 1) * 512 + r.val)
    refine congrArg (blockAcc 512 (accTerm2 (V c main_v0_1 : Mat 4096 128) (V c main_arg6 : Mat 4096 8192) p q) (n + 1) + ·)
      (Finset.sum_congr rfl fun r _ => ?_)
    exact blockTerm2 V c ⟨n + 1, h⟩ p q r _ _ rfl rfl

/-- After the last point the accumulator is u01ᵀ · I1: the eight blocks of 512 rows are all 4096 rows. -/
theorem outsAt2_last (c : Dev nD) (h : 7 < cfg2.N) :
    outsAt2 (F := Ideal) V c 7 h = tmm (V c main_v0_1 : Mat 4096 128) (V c main_arg6 : Mat 4096 8192) := by
  funext j
  obtain ⟨p, q, rfl⟩ : ∃ (p : Fin 128) (q : Fin 8192), j = ix2 p q := ⟨j 0, j 1, eq_ix2 j⟩
  rw [outsAt2_apply V c p q 7 h, tmm_apply]
  exact blockAcc_eq 512 8 4096 rfl (rowTerm2 (V c main_v0_1 : Mat 4096 128) (V c main_arg6 : Mat 4096 8192) p q)

/-- The one write-back, after the last point, writes u01ᵀ · I1: the window's block is the whole array. -/
theorem flushed2_5_eq (c : Dev nD) (t : Fin cfg2.N) (hf : (cfg2.win 5).flush t = true) :
    (dat2 (F := Ideal) V c).flushed 5 t
      = ((cfg2.win 5).blk t).view.read (Elt Ideal) (tmm (V c main_v0_1 : Mat 4096 128) (V c main_arg6 : Mat 4096 8192)) := by
  have hN : cfg2.N = 8 := N_2
  have h7 : t.val = 7 := by have := (flush2_5 t).mp hf; have := t.isLt; omega
  obtain rfl : t = t2_7 := Fin.ext h7
  show (cfg2.win 5).cut (grid2.coords t2_7) ((dat2 V c).after 5 t2_7) = _
  rw [after2_5]
  refine (outsAt2_last V c _).trans ?_
  have hz' : (fun a => win2_5.index t2_7 a * main_v2_1.ty.shape.size a) = fun _ => 0 := funext fun a => by fin_cases a <;> decide
  exact (Memref.read_access_unit_zero (Elt Ideal) main_v2_1 hz' (fun a => by rw [congrFun hz' a]; simp)
    (tmm (V c main_v0_1 : Mat 4096 128) (V c main_arg6 : Mat 4096 8192))).symm

/-- THE SECOND RESULT: after the sweep the array holds u01ᵀ · I1. -/
theorem final2_5 (c : Dev nD) :
    (dat2 (F := Ideal) V c).arrAt 5 cfg2.N = tmm (V c main_v0_1 : Mat 4096 128) (V c main_arg6 : Mat 4096 8192) :=
  (dat2 V c).arrAt_eq_of_cover 5 _ (flushed2_5_eq V c) fun i =>
    ⟨t2_7, (flush2_5 t2_7).mpr rfl, by
      show i ∈ ((View.whole main_v2_1).slice (win2_5.rect t2_7)).set
      rw [View.set_slice_whole, Rect.mem_set_unit]
      intro a
      have h0 : (i 0 : Nat) < 128 := (i 0).isLt
      have h1 : (i 1 : Nat) < 8192 := (i 1).isLt
      match a with
      | ⟨0, _⟩ => show win2_5.index t2_7 0 * win2_5.size 0 ≤ (i 0 : Nat) ∧ (i 0 : Nat) < win2_5.index t2_7 0 * win2_5.size 0 + win2_5.xsize (grid2.coords t2_7) 0
                  rw [show win2_5.index t2_7 0 * win2_5.size 0 = 0 from by decide +kernel, show win2_5.xsize (grid2.coords t2_7) 0 = 128 from by decide +kernel]; omega
      | ⟨1, _⟩ => show win2_5.index t2_7 1 * win2_5.size 1 ≤ (i 1 : Nat) ∧ (i 1 : Nat) < win2_5.index t2_7 1 * win2_5.size 1 + win2_5.xsize (grid2.coords t2_7) 1
                  rw [show win2_5.index t2_7 1 * win2_5.size 1 = 0 from by decide +kernel, show win2_5.xsize (grid2.coords t2_7) 1 = 8192 from by decide +kernel]; omega⟩

end Cert.KernelIdeal.HandVal
end
-- ==== Proof.Val.Region3a.lean ====
import proofs.«129582_g64467459113426_cont_9to1_m_811_15_alg».proof.Proof.KI.Region3
import proofs.«129582_g64467459113426_cont_9to1_m_811_15_alg».proof.Proof.Spec
import proofs.«129582_g64467459113426_cont_9to1_m_811_15_alg».proof.Proof.LibMatmul
import Idealize.ShloMosaic.Lib.Pipeline.Value
import Idealize.ShloMosaic.Lib.ValueLayout
import Idealize.ShloMosaic.PureOps.Ideal.Laws
set_option maxRecDepth 16384
noncomputable section
namespace Cert.KernelIdeal.HandVal
open Cert.KernelIdeal Cert.KernelIdeal.Gen Cert.KernelIdeal.Hand
open Cert.Spec
open Idealize.ShloMosaic Idealize.ShloMosaic.TcCoe Idealize.ShloMosaic.Tactic Idealize.ShloMosaic.ValueIdx
open Idealize.SL.Sem
open Idealize.ShloMosaic.Pipeline (Dat Cfg Window)
open scoped BigOperators

/-! # The fourth sweep's row-block output as a matrix

Row block `t` of the output (rows 256·t … 256·t + 255, all 128 columns) is written back at point `t` and never again, and the
32 row blocks tile the 8192 rows. Entry (r, q) of what point `t = r / 256` writes is the logistic of entry (q, r) of the
128×8192 addend (the body loads its columns 256·t … 256·t + 255 and transposes them) plus the sum over j < 8192 of
A₁[r, j] · u[j, q]: row r of the row block of A₁ against the whole of u. So the array ends at logistic(addendᵀ + A₁·u). -/

namespace R3a

theorem hz : (![0, 0] : Fin 2 → Nat) = fun _ => 0 := funext fun a => by fin_cases a <;> rfl

section AnyFloat
variable {F : FTy → Type} [FloatOps F]

/-- At the first point the row-block output's buffer ends at the one covering store's payload: the logistic of the transposed addend
    columns plus the row block times the whole right operand, each load reading its whole buffer (the addend's through its
    column rectangle). -/
theorem out_A_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : cond3_0 i)
    (x0 : Vec F S256x8192 .f32) (x1 : Vec F S256x4096 .f32) (x2 : Vec F S8192x128 .f32) (x3 : Vec F S256x128 .f32) (x4 : Vec F S128x8192 .f32) :
    out3_A_5 c i arg1 harg1 arg2 harg2 arg3 harg3 arg4 harg4 arg5 harg5 arg6 harg6 arg7 harg7 hc0 x0 x1 x2 x3 x4
      = k3_pay2 (View.ld x4 (Rect.unit (s := S128x8192) (k3_off1 i) S128x256.size (k3_off1_inb i))) x0 x2 := by
  unfold out3_A_5
  rw [View.read_writes_eq_canon _ _ _ (cover3_A_5 c i arg1 harg1 arg2 harg2 arg3 harg3 arg4 harg4 arg5 harg5 arg6 harg6 arg7 harg7 hc0 x0 x1 x2 x3 x4)]
  unfold kernelRun3_A
  dsimp only
  rw [View.canon_unit_zero hz]
  simp only [View.readAt_eq_ld, harg1.read_unread, harg3.read_unread, harg5.read_unread,
    View.ld_unit_zero (S := S256x8192) hz, View.ld_unit_zero (S := S8192x128) hz]

/-- At a later point the row-block output's buffer ends at the one covering store's payload: the logistic of the transposed addend
    columns plus the row block times the whole right operand, each load reading its whole buffer (the addend's through its
    column rectangle). -/
theorem out_B_5 (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc0 : ¬cond3_0 i)
    (x0 : Vec F S256x8192 .f32) (x1 : Vec F S256x4096 .f32) (x2 : Vec F S8192x128 .f32) (x3 : Vec F S256x128 .f32) (x4 : Vec F S128x8192 .f32) (xo6 : Vec F S128x4096 .f32) :
    out3_B_5 c i arg1 harg1 arg2 harg2 arg3 harg3 arg4 harg4 arg5 harg5 arg6 harg6 arg7 harg7 hc0 x0 x1 x2 x3 x4 xo6
      = k3_pay2 (View.ld x4 (Rect.unit (s := S128x8192) (k3_off1 i) S128x256.size (k3_off1_inb i))) x0 x2 := by
  unfold out3_B_5
  rw [View.read_writes_eq_canon _ _ _ (cover3_B_5 c i arg1 harg1 arg2 harg2 arg3 harg3 arg4 harg4 arg5 harg5 arg6 harg6 arg7 harg7 hc0 x0 x1 x2 x3 x4 xo6)]
  unfold kernelRun3_B
  dsimp only
  rw [View.canon_unit_zero hz]
  simp only [View.readAt_eq_ld, harg1.read_unread, harg3.read_unread, harg5.read_unread,
    View.ld_unit_zero (S := S256x8192) hz, View.ld_unit_zero (S := S8192x128) hz]

end AnyFloat

/-- The payload at entry (p, q) of the block, over the extended reals: the logistic of the addend columns' entry (q, p) plus
    the sum over the contracted axis of the row block's row p against column q. -/
theorem pay_apply (v5 : Vec Ideal S128x256 .f32) (v8 : Vec Ideal S256x8192 .f32) (v9 : Vec Ideal S8192x128 .f32)
    (p : Fin 256) (q : Fin 128) :
    k3_pay2 v5 v8 v9 (ix2 p q) = Ideal.logistic (v5 (ix2 q p) + ∑ j : Fin 8192, v8 (ix2 p j) * v9 (ix2 j q)) := by
  unfold k3_pay2
  show Ideal.logistic (transpose S256x128 [1, 0] (shapeCast S128x256 v5 shapeCasts_S128x256_S128x256) transposes_S128x256_p1_0_S256x128 (ix2 p q)
      + FloatOps.matmul (F := Ideal) dot_S256x8192_S8192x128_S256x128_1_0_0_1_n_n none v8 (shapeCast S8192x128 v9 shapeCasts_S8192x128_S8192x128)
          (constant (F := Ideal) S256x128 .f32 0x00000000#32) (ix2 p q)) = _
  rw [shapeCast_self, shapeCast_self]
  refine congrArg Ideal.logistic ?_
  exact congr (congrArg HAdd.hAdd (ValueIdx.transpose_ix2_apply v5 transposes_S128x256_p1_0_S256x128 p q))
    (Cert.Bridge.LibMatmul.matmul_zero_apply none v8 v9 p q)

variable (V : (c : Dev nD) → (b : Ref sig .tc) → Buf (Elt Ideal) ((c : Thread nD τ).loc b))

/-- What the body leaves in the row-block output's buffer at point `t`, first point or not: the payload of the point's blocks. -/
theorem out5At_eq (c : Dev nD) (t : Fin cfg3.N) :
    out5At3 V c t = k3_pay2 (View.ld (iblk3 V c 4 t) (Rect.unit (s := S128x8192) (k3_off1 (grid3.coords t)) S128x256.size (k3_off1_inb (grid3.coords t)))) (iblk3 V c 0 t) (iblk3 V c 2 t) := by
  by_cases h0 : t.val = 0
  · rw [out5At3_A V c t h0]
    exact out_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t)
  · rw [out5At3_B V c t h0]
    exact out_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt))

/-- The windows' index maps and the addend's column offset, decided over the 32 points: the row-block windows are at block
    row `t`, the whole-array windows at block (0, 0), the columns loaded start at 256·t. -/
theorem idx_facts : ∀ t : Fin cfg3.N, win3_0.index t (0 : Fin 2) = t.val ∧ win3_0.index t (1 : Fin 2) = 0
    ∧ win3_2.index t (0 : Fin 2) = 0 ∧ win3_2.index t (1 : Fin 2) = 0
    ∧ win3_4.index t (0 : Fin 2) = 0 ∧ win3_4.index t (1 : Fin 2) = 0
    ∧ win3_5.index t (0 : Fin 2) = t.val ∧ win3_5.index t (1 : Fin 2) = 0
    ∧ k3_off1 (grid3.coords t) (0 : Fin 2) = 0 ∧ k3_off1 (grid3.coords t) (1 : Fin 2) = t.val * 256 :=
  (by decide +kernel : ∀ t : Fin grid3.N, _)

/-- Row `p` of the left operand's row block at point `t` is row 256·t + p of the array. -/
theorem read0 (c : Dev nD) (t : Fin cfg3.N) (p : Fin 256) (k : Fin 8192) (h : t.val * 256 + p.val < 8192) :
    iblk3 V c 0 t (ix2 p k) = (V c main_arg4 : Mat 8192 8192) (ix2 ⟨t.val * 256 + p.val, h⟩ k) := by
  obtain ⟨e0, e1, -⟩ := idx_facts t
  show V c main_arg4 (((cfg3.win 0).blk t).view.emb (ix2 p k)) = V c main_arg4 (ix2 ⟨t.val * 256 + p.val, h⟩ k)
  have hi : ((cfg3.win 0).blk t).view.emb (ix2 p k) = ix2 (⟨t.val * 256 + p.val, h⟩ : Fin 8192) k := by
    funext a; apply Fin.ext
    match a with
    | ⟨0, _⟩ => show win3_0.index t (0 : Fin 2) * 256 + 1 * p.val = t.val * 256 + p.val; rw [e0]; omega
    | ⟨1, _⟩ => show win3_0.index t (1 : Fin 2) * 8192 + 1 * k.val = k.val; rw [e1]; omega
  rw [hi]

/-- The right operand's window is the whole array at every point. -/
theorem read2 (c : Dev nD) (t : Fin cfg3.N) (k : Fin 8192) (q : Fin 128) :
    iblk3 V c 2 t (ix2 k q) = (V c main_v1_0 : Mat 8192 128) (ix2 k q) := by
  obtain ⟨-, -, e0, e1, -⟩ := idx_facts t
  show V c main_v1_0 (((cfg3.win 2).blk t).view.emb (ix2 k q)) = V c main_v1_0 (ix2 k q)
  have hi : ((cfg3.win 2).blk t).view.emb (ix2 k q) = ix2 k q := by
    funext a; apply Fin.ext
    match a with
    | ⟨0, _⟩ => show win3_2.index t (0 : Fin 2) * 8192 + 1 * k.val = k.val; rw [e0]; omega
    | ⟨1, _⟩ => show win3_2.index t (1 : Fin 2) * 128 + 1 * q.val = q.val; rw [e1]; omega
  rw [hi]

/-- Column `p` of the addend columns loaded at point `t` is column 256·t + p of the addend, whose window is the whole array. -/
theorem read4 (c : Dev nD) (t : Fin cfg3.N) (q : Fin 128) (p : Fin 256) (h : t.val * 256 + p.val < 8192) :
    View.ld (iblk3 V c 4 t) (Rect.unit (s := S128x8192) (k3_off1 (grid3.coords t)) S128x256.size (k3_off1_inb (grid3.coords t))) (ix2 q p)
      = (V c main_v2_1 : Mat 128 8192) (ix2 q ⟨t.val * 256 + p.val, h⟩) := by
  obtain ⟨-, -, -, -, e0, e1, -, -, o0, o1⟩ := idx_facts t
  show V c main_v2_1 (((cfg3.win 4).blk t).view.emb ((Rect.unit (s := S128x8192) (k3_off1 (grid3.coords t)) S128x256.size (k3_off1_inb (grid3.coords t))).idx (ix2 q p))) = V c main_v2_1 (ix2 q ⟨t.val * 256 + p.val, h⟩)
  have hi : ((cfg3.win 4).blk t).view.emb ((Rect.unit (s := S128x8192) (k3_off1 (grid3.coords t)) S128x256.size (k3_off1_inb (grid3.coords t))).idx (ix2 q p)) = ix2 q (⟨t.val * 256 + p.val, h⟩ : Fin 8192) := by
    funext a; apply Fin.ext
    match a with
    | ⟨0, _⟩ => show win3_4.index t (0 : Fin 2) * 128 + 1 * (k3_off1 (grid3.coords t) (0 : Fin 2) + 1 * q.val) = q.val; rw [e0, o0]; omega
    | ⟨1, _⟩ => show win3_4.index t (1 : Fin 2) * 8192 + 1 * (k3_off1 (grid3.coords t) (1 : Fin 2) + 1 * p.val) = t.val * 256 + p.val; rw [e1, o1]; omega
  rw [hi]

/-- The result: logistic(addendᵀ + A₁·u). -/
def G5 (A1 : Mat 8192 8192) (u : Mat 8192 128) (ad : Mat 128 8192) : Mat 8192 128 := sg (add (tr ad) (mm A1 u))

theorem G5_apply (A1 : Mat 8192 8192) (u : Mat 8192 128) (ad : Mat 128 8192) (r : Fin 8192) (q : Fin 128) :
    G5 A1 u ad (ix2 r q) = Ideal.logistic (ad (ix2 q r) + ∑ j : Fin 8192, A1 (ix2 r j) * u (ix2 j q)) := rfl

/-- Entry (p, q) of what point `t` leaves is entry (256·t + p, q) of the result. -/
theorem point_apply (c : Dev nD) (t : Fin cfg3.N) (p : Fin 256) (q : Fin 128) (h : t.val * 256 + p.val < 8192) :
    k3_pay2 (View.ld (iblk3 V c 4 t) (Rect.unit (s := S128x8192) (k3_off1 (grid3.coords t)) S128x256.size (k3_off1_inb (grid3.coords t)))) (iblk3 V c 0 t) (iblk3 V c 2 t) (ix2 p q)
      = G5 (V c main_arg4) (V c main_v1_0) (V c main_v2_1) (ix2 ⟨t.val * 256 + p.val, h⟩ q) := by
  rw [G5_apply]
  refine (pay_apply _ _ _ p q).trans ?_
  refine congrArg Ideal.logistic ?_
  refine congr (congrArg HAdd.hAdd (read4 V c t q p h)) (Finset.sum_congr rfl fun k _ => ?_)
  exact congr (congrArg HMul.hMul (read0 V c t p k h)) (read2 V c t k q)

/-- What point `t` writes back is row block `t` of the result. -/
theorem flushed_eq (c : Dev nD) (t : Fin cfg3.N) :
    (dat3 (F := Ideal) V c).flushed 5 t
      = ((cfg3.win 5).blk t).view.read (Elt Ideal) (G5 (V c main_arg4) (V c main_v1_0) (V c main_v2_1)) := by
  have hN : t.val < 32 := lt_of_lt_of_eq t.isLt (show cfg3.N = 32 from N_3)
  obtain ⟨-, -, -, -, -, -, e0, e1, -⟩ := idx_facts t
  show (cfg3.win 5).cut (grid3.coords t) ((dat3 V c).after 5 t) = _
  rw [after3_5, out5At_eq]
  funext j
  obtain ⟨p, q, rfl⟩ : ∃ (p : Fin 256) (q : Fin 128), j = ix2 p q := ⟨j 0, j 1, eq_ix2 j⟩
  have hp : t.val * 256 + p.val < 8192 := by have := p.isLt; omega
  show k3_pay2 (F := Ideal) _ _ _ (ix2 p q) = G5 (V c main_arg4) (V c main_v1_0) (V c main_v2_1) (((cfg3.win 5).blk t).view.emb (ix2 p q))
  have hi : ((cfg3.win 5).blk t).view.emb (ix2 p q) = ix2 (⟨t.val * 256 + p.val, hp⟩ : Fin 8192) q := by
    funext a; apply Fin.ext
    match a with
    | ⟨0, _⟩ => show win3_5.index t (0 : Fin 2) * 256 + 1 * p.val = t.val * 256 + p.val; rw [e0]; omega
    | ⟨1, _⟩ => show win3_5.index t (1 : Fin 2) * 128 + 1 * q.val = q.val; rw [e1]; omega
  rw [hi]
  exact point_apply V c t p q hp

/-- An index of the array is in point `t`'s row block iff each coordinate is in the block's range on its axis. -/
theorem mem_blk (t : Fin cfg3.N) (i : S8192x128.Idx) :
    i ∈ ((cfg3.win 5).blk t).view.set ↔ ∀ a : Fin 2, win3_5.index t a * S256x128.size a ≤ (i a).val ∧ (i a).val < win3_5.index t a * S256x128.size a + S256x128.size a := by
  show i ∈ ((View.whole main_v3_0).slice (win3_5.rect t)).set ↔ _
  rw [View.set_slice_whole, Rect.mem_set_unit]
  exact Iff.rfl

/-- The 32 row blocks cover the array: row r is in row block r / 256, and every point writes its block back. -/
theorem covered (i : S8192x128.Idx) : ∃ t : Fin cfg3.N, (cfg3.win 5).flush t = true ∧ i ∈ ((cfg3.win 5).blk t).view.set := by
  have hi0 : (i 0).val < 8192 := (i 0).isLt
  have hi1 : (i 1).val < 128 := (i 1).isLt
  have hN : cfg3.N = 32 := N_3
  have ht : (i 0).val / 256 < cfg3.N := by rw [hN]; omega
  obtain ⟨-, -, -, -, -, -, e0, e1, -⟩ := idx_facts ⟨(i 0).val / 256, ht⟩
  refine ⟨⟨(i 0).val / 256, ht⟩, flush3_5 _, ?_⟩
  rw [mem_blk]
  intro a
  match a with
  | ⟨0, _⟩ =>
    show win3_5.index ⟨(i 0).val / 256, ht⟩ (0 : Fin 2) * 256 ≤ (i 0).val ∧ (i 0).val < win3_5.index ⟨(i 0).val / 256, ht⟩ (0 : Fin 2) * 256 + 256
    rw [e0]; dsimp only; omega
  | ⟨1, _⟩ =>
    show win3_5.index ⟨(i 0).val / 256, ht⟩ (1 : Fin 2) * 128 ≤ (i 1).val ∧ (i 1).val < win3_5.index ⟨(i 0).val / 256, ht⟩ (1 : Fin 2) * 128 + 128
    rw [e1]; omega

/-- So the array ends at the result. -/
theorem final (c : Dev nD) :
    (dat3 (F := Ideal) V c).arrAt 5 cfg3.N = G5 (V c main_arg4) (V c main_v1_0) (V c main_v2_1) :=
  (dat3 (F := Ideal) V c).arrAt_eq_of_cover 5 (G5 (V c main_arg4) (V c main_v1_0) (V c main_v2_1)) (fun t _ => flushed_eq V c t) fun i => covered i

end R3a

variable (V : (c : Dev nD) → (b : Ref sig .tc) → Buf (Elt Ideal) ((c : Thread nD τ).loc b))

/-- The fourth sweep's row-block output ends at logistic(addendᵀ + A₁·u) of the arrays the sweep finds. -/
theorem final3_5 (c : Dev nD) :
    (dat3 (F := Ideal) V c).arrAt 5 cfg3.N
      = sg (add (tr (V c main_v2_1 : Mat 128 8192)) (mm (V c main_arg4 : Mat 8192 8192) (V c main_v1_0 : Mat 8192 128))) :=
  R3a.final V c

end Cert.KernelIdeal.HandVal

end
-- ==== Proof.Val.Region3b.lean ====
import proofs.«129582_g64467459113426_cont_9to1_m_811_15_alg».proof.Proof.KI.Region3
import proofs.«129582_g64467459113426_cont_9to1_m_811_15_alg».proof.Proof.Spec
import proofs.«129582_g64467459113426_cont_9to1_m_811_15_alg».proof.Proof.LibMatmul
import Idealize.ShloMosaic.Lib.Pipeline.Value
import Idealize.ShloMosaic.Lib.ValueIdx
import Idealize.ShloMosaic.PureOps.Ideal.Laws
set_option maxRecDepth 16384
noncomputable section
open scoped BigOperators
namespace Cert.KernelIdeal.HandVal
open Cert.Spec
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))
namespace R3b

/-! # The fourth sweep at the extended reals: its accumulator ends at u12ᵀ · I2 -/

/-! ## The accumulator's payloads at an index -/

/-- The zero block reads zero. -/
theorem pay1_apply3 (p : Fin 128) (q : Fin 4096) : k3_pay1 (F := Ideal) (ix2 p q) = 0 := by
  unfold k3_pay1
  show Ideal.ofBits .f32 0x00000000#32 = 0
  exact Ideal.ofBits_zero_f32

/-! The accumulating product contracts the ROWS of both operands: its one contraction coordinate is the row. -/

theorem tl_rank3 : dot_S256x128_S256x4096_S128x4096_0_0_1_1_n_n.contr.rank = 1 := rfl
theorem tl_size3 : dot_S256x128_S256x4096_S128x4096_0_0_1_1_n_n.contr.size ⟨0, by rw [tl_rank3]; exact Nat.one_pos⟩ = 256 := rfl

/-- The left operand's index at output (p, q) and row r is (r, p). -/
theorem tl_lhsIdx3 (p : Fin 128) (q : Fin 4096) (r : Fin 256) :
    dot_S256x128_S256x4096_S128x4096_0_0_1_1_n_n.lhsIdx (ix2 p q) ((contrEquiv1 dot_S256x128_S256x4096_S128x4096_0_0_1_1_n_n 256 tl_rank3 tl_size3).symm r) = ix2 r p := by
  funext a
  refine Fin.ext ?_
  match a with
  | ⟨0, _⟩ =>
    refine (dot_S256x128_S256x4096_S128x4096_0_0_1_1_n_n.lhsIdx_val_of_single (cl := 0) rfl (ix2 p q) _).trans ?_
    exact contrEquiv1_symm_val dot_S256x128_S256x4096_S128x4096_0_0_1_1_n_n 256 tl_rank3 tl_size3 r
  | ⟨1, _⟩ => rfl

/-- The right operand's index at output (p, q) and row r is (r, q). -/
theorem tl_rhsIdx3 (p : Fin 128) (q : Fin 4096) (r : Fin 256) :
    dot_S256x128_S256x4096_S128x4096_0_0_1_1_n_n.rhsIdx (ix2 p q) ((contrEquiv1 dot_S256x128_S256x4096_S128x4096_0_0_1_1_n_n 256 tl_rank3 tl_size3).symm r) = ix2 r q := by
  funext a
  refine Fin.ext ?_
  match a with
  | ⟨0, _⟩ =>
    refine (dot_S256x128_S256x4096_S128x4096_0_0_1_1_n_n.rhsIdx_val_of_single (cr := 0) rfl (ix2 p q) _).trans ?_
    exact contrEquiv1_symm_val dot_S256x128_S256x4096_S128x4096_0_0_1_1_n_n 256 tl_rank3 tl_size3 r
  | ⟨1, _⟩ => rfl

/-- The accumulator's update: entry (p, q) gains the sum over the block's rows r of (u12 block)[r, p] · (I2 block)[r, q]. -/
theorem pay3_apply3 (acc : Vec Ideal S128x4096 .f32) (x3 : Vec Ideal S256x128 .f32) (x1 : Vec Ideal S256x4096 .f32)
    (p : Fin 128) (q : Fin 4096) :
    k3_pay3 acc x3 x1 (ix2 p q) = acc (ix2 p q) + ∑ r : Fin 256, x3 (ix2 r p) * x1 (ix2 r q) := by
  unfold k3_pay3
  simp only [shapeCast_self]
  show acc (ix2 p q) + FloatOps.matmul (F := Ideal) dot_S256x128_S256x4096_S128x4096_0_0_1_1_n_n none x3 x1 (constant (F := Ideal) S128x4096 .f32 0x00000000#32) (ix2 p q) = _
  refine congrArg (acc (ix2 p q) + ·) ?_
  refine (Ideal.matmul_constant_zero_apply dot_S256x128_S256x4096_S128x4096_0_0_1_1_n_n none x3 x1 (ix2 p q)).trans ?_
  rw [← Equiv.sum_comp (contrEquiv1 dot_S256x128_S256x4096_S128x4096_0_0_1_1_n_n 256 tl_rank3 tl_size3).symm]
  refine Finset.sum_congr rfl fun r _ => ?_
  rw [tl_lhsIdx3, tl_rhsIdx3]

/-! ## The windows' index maps and block reads -/

/-- The index maps of the I2 window, the u12 window and the accumulator's window, decided over the 32 points: the
    row-block windows sit at block row `t`, the accumulator's at block (0, 0). -/
theorem idx_facts3b : ∀ t : Fin cfg3.N,
    win3_1.index t (0 : Fin 2) = t.val ∧ win3_1.index t (1 : Fin 2) = 0
    ∧ win3_3.index t (0 : Fin 2) = t.val ∧ win3_3.index t (1 : Fin 2) = 0
    ∧ win3_6.index t (0 : Fin 2) = 0 ∧ win3_6.index t (1 : Fin 2) = 0 :=
  (by decide +kernel : ∀ t : Fin grid3.N, _)

/-- Row a of the I2 block at point t is row 256·t + a of I2. -/
theorem iblk3_1_apply (c : Dev nD) (t : Fin cfg3.N) (a : Fin 256) (b : Fin 4096) (h : t.val * 256 + a.val < 8192) :
    (iblk3 V c 1 t : Vec Ideal S256x4096 .f32) (ix2 a b) = V c main_arg7 (ix2 ⟨t.val * 256 + a.val, h⟩ b) := by
  obtain ⟨e10, e11, e30, e31, e60, e61⟩ := idx_facts3b t
  unfold iblk3
  rw [View.read_apply]
  show V c main_arg7 _ = V c main_arg7 _
  refine congrArg (V c main_arg7) ?_
  funext d
  apply Fin.ext
  match d with
  | ⟨0, _⟩ => show win3_1.index t (0 : Fin 2) * 256 + 1 * a.val = t.val * 256 + a.val; rw [e10]; omega
  | ⟨1, _⟩ => show win3_1.index t (1 : Fin 2) * 4096 + 1 * b.val = b.val; rw [e11]; omega

/-- Row a of the u12 block at point t is row 256·t + a of u12. -/
theorem iblk3_3_apply (c : Dev nD) (t : Fin cfg3.N) (a : Fin 256) (b : Fin 128) (h : t.val * 256 + a.val < 8192) :
    (iblk3 V c 3 t : Vec Ideal S256x128 .f32) (ix2 a b) = V c main_v1_1 (ix2 ⟨t.val * 256 + a.val, h⟩ b) := by
  obtain ⟨e10, e11, e30, e31, e60, e61⟩ := idx_facts3b t
  unfold iblk3
  rw [View.read_apply]
  show V c main_v1_1 _ = V c main_v1_1 _
  refine congrArg (V c main_v1_1) ?_
  funext d
  apply Fin.ext
  match d with
  | ⟨0, _⟩ => show win3_3.index t (0 : Fin 2) * 256 + 1 * a.val = t.val * 256 + a.val; rw [e30]; omega
  | ⟨1, _⟩ => show win3_3.index t (1 : Fin 2) * 128 + 1 * b.val = b.val; rw [e31]; omega

/-! ## What each case leaves in the accumulator -/

theorem hz3 : (![0, 0] : Fin 2 → Nat) = fun _ => 0 := funext fun a => by fin_cases a <;> rfl

/-- FIRST POINT: the accumulator is left at 0 + (u12 block)ᵀ · (I2 block). -/
theorem out3_A_6_eq (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc : cond3_0 i) (x0 : Vec Ideal S256x8192 .f32) (x1 : Vec Ideal S256x4096 .f32) (x2 : Vec Ideal S8192x128 .f32) (x3 : Vec Ideal S256x128 .f32) (x4 : Vec Ideal S128x8192 .f32) :
    out3_A_6 c i arg1 harg1 arg2 harg2 arg3 harg3 arg4 harg4 arg5 harg5 arg6 harg6 arg7 harg7 hc x0 x1 x2 x3 x4 = k3_pay3 (k3_pay1 (F := Ideal)) x3 x1 := by
  unfold out3_A_6
  rw [View.read_writes_eq_canon _ _ _ (cover3_A_6 c i arg1 harg1 arg2 harg2 arg3 harg3 arg4 harg4 arg5 harg5 arg6 harg6 arg7 harg7 hc x0 x1 x2 x3 x4)]
  unfold kernelRun3_A
  dsimp only
  sl_unfold_words
  rw [View.canon_cons_unit_zero (S := S128x4096) hz3, View.readCov_unit_zero (S := S128x4096) _ hz3]
  simp only [View.readAt_eq_ld, harg2.read_unread, harg4.read_unread, View.ld_unit_zero (S := S256x128) hz3, View.ld_unit_zero (S := S256x4096) hz3]

/-- LATER POINTS: the accumulator, found at `xo`, is left at xo + (u12 block)ᵀ · (I2 block). -/
theorem out3_B_6_eq (c : Dev nD) (i : grid3.Coords) (arg1 : Memref sig .tc .vmem S256x8192 .f32) (harg1 : arg1.IsWhole) (arg2 : Memref sig .tc .vmem S256x4096 .f32) (harg2 : arg2.IsWhole) (arg3 : Memref sig .tc .vmem S8192x128 .f32) (harg3 : arg3.IsWhole) (arg4 : Memref sig .tc .vmem S256x128 .f32) (harg4 : arg4.IsWhole) (arg5 : Memref sig .tc .vmem S128x8192 .f32) (harg5 : arg5.IsWhole) (arg6 : Memref sig .tc .vmem S256x128 .f32) (harg6 : arg6.IsWhole) (arg7 : Memref sig .tc .vmem S128x4096 .f32) (harg7 : arg7.IsWhole) (hc : ¬cond3_0 i) (x0 : Vec Ideal S256x8192 .f32) (x1 : Vec Ideal S256x4096 .f32) (x2 : Vec Ideal S8192x128 .f32) (x3 : Vec Ideal S256x128 .f32) (x4 : Vec Ideal S128x8192 .f32) (xo : Vec Ideal S128x4096 .f32) :
    out3_B_6 c i arg1 harg1 arg2 harg2 arg3 harg3 arg4 harg4 arg5 harg5 arg6 harg6 arg7 harg7 hc x0 x1 x2 x3 x4 xo = k3_pay3 xo x3 x1 := by
  unfold out3_B_6
  rw [View.read_writes_eq_canon _ _ _ (cover3_B_6 c i arg1 harg1 arg2 harg2 arg3 harg3 arg4 harg4 arg5 harg5 arg6 harg6 arg7 harg7 hc x0 x1 x2 x3 x4 xo)]
  unfold kernelRun3_B
  dsimp only
  rw [View.canon_cons_unit_zero (S := S128x4096) hz3]
  simp only [View.readAt_eq_ld, harg2.read_unread, harg4.read_unread, harg7.read_unread, View.ld_unit_zero (S := S256x128) hz3, View.ld_unit_zero (S := S256x4096) hz3, View.ld_unit_zero (S := S128x4096) hz3]

/-! ## The accumulator point by point -/

/-- After the first point: the zero block plus the first block's product. -/
theorem outsAt3_zero_eq (c : Dev nD) (h : 0 < cfg3.N) :
    outsAt3 (F := Ideal) V c 0 h = k3_pay3 (k3_pay1 (F := Ideal)) (iblk3 V c 3 ⟨0, h⟩) (iblk3 V c 1 ⟨0, h⟩) :=
  (outsAt3_A V c ⟨0, h⟩ rfl).trans
    (out3_A_6_eq c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) ((hcond3_0 ⟨0, h⟩).mpr rfl) (iblk3 V c 0 ⟨0, h⟩) (iblk3 V c 1 ⟨0, h⟩) (iblk3 V c 2 ⟨0, h⟩) (iblk3 V c 3 ⟨0, h⟩) (iblk3 V c 4 ⟨0, h⟩))

/-- After a later point: what the point before left plus this block's product. -/
theorem outsAt3_succ_eq (c : Dev nD) (n : ℕ) (h : n + 1 < cfg3.N) :
    outsAt3 (F := Ideal) V c (n + 1) h
      = k3_pay3 (outsAt3 V c n (Nat.lt_of_succ_lt h)) (iblk3 V c 3 ⟨n + 1, h⟩) (iblk3 V c 1 ⟨n + 1, h⟩) :=
  (outsAt3_B V c ⟨n + 1, h⟩ (Nat.succ_ne_zero n)).trans
    (out3_B_6_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (fun hh => Nat.succ_ne_zero n ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩)
      (outsAt3 V c n (Nat.lt_of_succ_lt h)))

/-- Row j's term of entry (p, q) of u12ᵀ · I2. -/
def rowTerm3 (u : Mat 8192 128) (I : Mat 8192 4096) (p : Fin 128) (q : Fin 4096) : Fin 8192 → EReal :=
  fun j => u (ix2 j p) * I (ix2 j q)

/-- The same as a function of a natural number (zero past the last row). -/
def accTerm3 (u : Mat 8192 128) (I : Mat 8192 4096) (p : Fin 128) (q : Fin 4096) : Nat → EReal :=
  fun j => if h : j < 8192 then rowTerm3 u I p q ⟨j, h⟩ else 0

/-- Point t's block contributes the terms of rows 256·t … 256·t + 255. -/
theorem blockTerm3 (c : Dev nD) (t : Fin cfg3.N) (p : Fin 128) (q : Fin 4096) (r : Fin 256)
    (x3 : Vec Ideal S256x128 .f32) (x1 : Vec Ideal S256x4096 .f32) (h3 : x3 = iblk3 V c 3 t) (h1 : x1 = iblk3 V c 1 t) :
    x3 (ix2 r p) * x1 (ix2 r q)
      = accTerm3 (V c main_v1_1 : Mat 8192 128) (V c main_arg7 : Mat 8192 4096) p q (t.val * 256 + r.val) := by
  have hN : t.val < 32 := lt_of_lt_of_eq t.isLt (show cfg3.N = 32 from N_3)
  have hr : t.val * 256 + r.val < 8192 := by have := r.isLt; omega
  subst h3; subst h1
  unfold accTerm3 rowTerm3
  rw [dif_pos hr, iblk3_3_apply V c t r p hr, iblk3_1_apply V c t r q hr]

/-- After point n the accumulator's entry (p, q) is the running sum of the first n + 1 blocks of 256 row terms. -/
theorem outsAt3_apply (c : Dev nD) (p : Fin 128) (q : Fin 4096) : ∀ (n : ℕ) (h : n < cfg3.N),
    outsAt3 (F := Ideal) V c n h (ix2 p q)
      = blockAcc 256 (accTerm3 (V c main_v1_1 : Mat 8192 128) (V c main_arg7 : Mat 8192 4096) p q) (n + 1)
  | 0, h => by
    rw [outsAt3_zero_eq V c h]
    refine (pay3_apply3 (k3_pay1 (F := Ideal)) (iblk3 V c 3 ⟨0, h⟩) (iblk3 V c 1 ⟨0, h⟩) p q).trans ?_
    rw [pay1_apply3]
    show (0 : EReal) + _ = blockAcc 256 _ 0 + ∑ r : Fin 256, accTerm3 _ _ p q (0 * 256 + r.val)
    refine congrArg ((0 : EReal) + ·) (Finset.sum_congr rfl fun r _ => ?_)
    exact blockTerm3 V c ⟨0, h⟩ p q r _ _ rfl rfl
  | n + 1, h => by
    rw [outsAt3_succ_eq V c n h]
    refine (pay3_apply3 (outsAt3 V c n (Nat.lt_of_succ_lt h)) (iblk3 V c 3 ⟨n + 1, h⟩) (iblk3 V c 1 ⟨n + 1, h⟩) p q).trans ?_
    rw [outsAt3_apply c p q n (Nat.lt_of_succ_lt h)]
    show _ = blockAcc 256 _ (n + 1) + ∑ r : Fin 256, accTerm3 _ _ p q ((n + 1) * 256 + r.val)
    refine congrArg (blockAcc 256 (accTerm3 (V c main_v1_1 : Mat 8192 128) (V c main_arg7 : Mat 8192 4096) p q) (n + 1) + ·)
      (Finset.sum_congr rfl fun r _ => ?_)
    exact blockTerm3 V c ⟨n + 1, h⟩ p q r _ _ rfl rfl

/-- After the last point the accumulator is u12ᵀ · I2: the 32 blocks of 256 rows are all 8192 rows. -/
theorem outsAt3_last (c : Dev nD) (h : 31 < cfg3.N) :
    outsAt3 (F := Ideal) V c 31 h = tmm (V c main_v1_1 : Mat 8192 128) (V c main_arg7 : Mat 8192 4096) := by
  funext j
  obtain ⟨p, q, rfl⟩ : ∃ (p : Fin 128) (q : Fin 4096), j = ix2 p q := ⟨j 0, j 1, eq_ix2 j⟩
  rw [outsAt3_apply V c p q 31 h, tmm_apply]
  exact blockAcc_eq 256 32 8192 rfl (rowTerm3 (V c main_v1_1 : Mat 8192 128) (V c main_arg7 : Mat 8192 4096) p q)

/-! ## The result array -/

/-- The last point of the sweep. -/
def tLast : Fin cfg3.N := ⟨31, by rw [show cfg3.N = 32 from N_3]; decide⟩

/-- The one write-back, after the last point, writes u12ᵀ · I2: the window's block is the whole array. -/
theorem flushed3_6_eq (c : Dev nD) (t : Fin cfg3.N) (hf : (cfg3.win 6).flush t = true) :
    (dat3 (F := Ideal) V c).flushed 6 t
      = ((cfg3.win 6).blk t).view.read (Elt Ideal) (tmm (V c main_v1_1 : Mat 8192 128) (V c main_arg7 : Mat 8192 4096)) := by
  have hN : cfg3.N = 32 := N_3
  have h31 : t.val = 31 := by have := (flush3_6 t).mp hf; have := t.isLt; omega
  obtain rfl : t = tLast := Fin.ext h31
  show (cfg3.win 6).cut (grid3.coords tLast) ((dat3 V c).after 6 tLast) = _
  rw [after3_6]
  refine (outsAt3_last V c _).trans ?_
  have hz' : (fun a => win3_6.index tLast a * main_v3_1.ty.shape.size a) = fun _ => 0 := funext fun a => by fin_cases a <;> decide +kernel
  exact (Memref.read_access_unit_zero (Elt Ideal) main_v3_1 hz' (fun a => by rw [congrFun hz' a]; simp)
    (tmm (V c main_v1_1 : Mat 8192 128) (V c main_arg7 : Mat 8192 4096))).symm

/-- THE ACCUMULATED RESULT: after the sweep the array holds u12ᵀ · I2. -/
theorem final (c : Dev nD) :
    (dat3 (F := Ideal) V c).arrAt 6 cfg3.N = tmm (V c main_v1_1 : Mat 8192 128) (V c main_arg7 : Mat 8192 4096) :=
  (dat3 V c).arrAt_eq_of_cover 6 _ (flushed3_6_eq V c) fun i =>
    ⟨tLast, (flush3_6 tLast).mpr rfl, by
      show i ∈ ((View.whole main_v3_1).slice (win3_6.rect tLast)).set
      rw [View.set_slice_whole, Rect.mem_set_unit]
      intro a
      have h0 : (i 0 : Nat) < 128 := (i 0).isLt
      have h1 : (i 1 : Nat) < 4096 := (i 1).isLt
      match a with
      | ⟨0, _⟩ => show win3_6.index tLast 0 * win3_6.size 0 ≤ (i 0 : Nat) ∧ (i 0 : Nat) < win3_6.index tLast 0 * win3_6.size 0 + win3_6.xsize (grid3.coords tLast) 0
                  rw [show win3_6.index tLast 0 * win3_6.size 0 = 0 from by decide +kernel, show win3_6.xsize (grid3.coords tLast) 0 = 128 from by decide +kernel]; omega
      | ⟨1, _⟩ => show win3_6.index tLast 1 * win3_6.size 1 ≤ (i 1 : Nat) ∧ (i 1 : Nat) < win3_6.index tLast 1 * win3_6.size 1 + win3_6.xsize (grid3.coords tLast) 1
                  rw [show win3_6.index tLast 1 * win3_6.size 1 = 0 from by decide +kernel, show win3_6.xsize (grid3.coords tLast) 1 = 4096 from by decide +kernel]; omega⟩

end R3b

/-- THE ACCUMULATED RESULT of the fourth sweep: after it the array holds u12ᵀ · I2. -/
theorem final3_6 (c : Dev nD) :
    (dat3 (F := Ideal) V c).arrAt 6 cfg3.N = tmm (V c main_v1_1 : Mat 8192 128) (V c main_arg7 : Mat 8192 4096) :=
  R3b.final V c

end Cert.KernelIdeal.HandVal
end
-- ==== Proof.Val.Region3.lean ====
/-
  Region 3's outputs as matrices.
-/
import proofs.«129582_g64467459113426_cont_9to1_m_811_15_alg».proof.Proof.Val.Region3a
import proofs.«129582_g64467459113426_cont_9to1_m_811_15_alg».proof.Proof.Val.Region3b
-- ==== Proof.Val.Region4.lean ====
import proofs.«129582_g64467459113426_cont_9to1_m_811_15_alg».proof.Proof.KI.Region4
import proofs.«129582_g64467459113426_cont_9to1_m_811_15_alg».proof.Proof.Spec
import proofs.«129582_g64467459113426_cont_9to1_m_811_15_alg».proof.Proof.LibMatmul
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.HandVal

open Cert.KernelIdeal Cert.KernelIdeal.Gen Cert.KernelIdeal.Hand
open Cert.Spec
open Idealize.ShloMosaic Idealize.ShloMosaic.TcCoe Idealize.ShloMosaic.ValueIdx Idealize.SL.Sem
open Idealize.ShloMosaic.Rounds
open Idealize.ShloMosaic.Pipeline (Dat)

/-! # Region 4 at the extended reals: the result array is logistic (tᵀ + C · u)

C is the 4096 × 4096 matrix, u the 4096 × 128 right factor, t the 128 × 4096 transposed addend. Point i writes rows
[1024·i, 1024·i + 1024) of the result; entry (r, q) of it is logistic (t[q, r] + ∑ₖ C[r, k] · u[k, q]). -/

theorem hz4 : (![0, 0] : Fin 2 → Nat) = fun _ => 0 := funext fun a => by fin_cases a <;> rfl

/-- The body's payload at entry (p, q) of its 1024 × 128 block: the logistic function of the addend band's entry
    (q, p) plus the sum over k of the row block's (p, k) times the right factor's (k, q). -/
theorem pay4_apply (x2 : Vec Ideal S128x1024 .f32) (x0 : Vec Ideal S1024x4096 .f32) (x1 : Vec Ideal S4096x128 .f32)
    (p : Fin 1024) (q : Fin 128) :
    k4_pay1 x2 x0 x1 (ix2 p q) = Ideal.logistic (x2 (ix2 q p) + ∑ k : Fin 4096, x0 (ix2 p k) * x1 (ix2 k q)) := by
  unfold k4_pay1
  refine congrArg Ideal.logistic ?_
  refine congrArg₂ (· + ·) ?_ ?_
  · refine (transpose_ix2_apply _ _ p q).trans ?_
    exact congrFun (shapeCast_self x2 _) _
  · refine (Cert.Bridge.LibMatmul.matmul_zero_apply (M := 1024) (K := 4096) (N := 128) none x0 _ p q).trans ?_
    exact Finset.sum_congr rfl fun k _ => congrArg (x0 (ix2 p k) * ·) (congrFun (shapeCast_self x1 _) _)

/-- The result as one function of the three arrays. -/
abbrev G4 (C : Mat 4096 4096) (u : Mat 4096 128) (t : Mat 128 4096) : Mat 4096 128 := sg (add (tr t) (mm C u))

theorem G4_apply (C : Mat 4096 4096) (u : Mat 4096 128) (t : Mat 128 4096) (r : Fin 4096) (q : Fin 128) :
    G4 C u t (ix2 r q) = Ideal.logistic (t (ix2 q r) + ∑ k : Fin 4096, C (ix2 r k) * u (ix2 k q)) := rfl

/-- One point's block is the matching rows of the result: when the row block holds rows n·1024 … of C, the right
    factor is u whole, and the addend band holds columns n·1024 … of t, the payload's entry (p, q) is the result's
    entry (n·1024 + p, q). -/
theorem point4 (C : Mat 4096 4096) (u : Mat 4096 128) (t : Mat 128 4096)
    (x2 : Vec Ideal S128x1024 .f32) (x0 : Vec Ideal S1024x4096 .f32) (x1 : Vec Ideal S4096x128 .f32)
    (p : Fin 1024) (q : Fin 128) (r : Fin 4096)
    (h0 : ∀ k : Fin 4096, x0 (ix2 p k) = C (ix2 r k))
    (h1 : ∀ k : Fin 4096, x1 (ix2 k q) = u (ix2 k q))
    (h2 : x2 (ix2 q p) = t (ix2 q r)) :
    k4_pay1 x2 x0 x1 (ix2 p q) = G4 C u t (ix2 r q) := by
  rw [pay4_apply, G4_apply, h2]
  exact congrArg (fun s => Ideal.logistic (t (ix2 q r) + s)) (Finset.sum_congr rfl fun k _ => by rw [h0, h1])

/-- The printed index maps and the band's offsets, decided over the grid: windows 0 and 3 move by one row block per
    point, windows 1 and 2 stay at block (0, 0), and the band starts at column 1024·i. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ k4_off1 (grid4.coords t) (0 : Fin 2) = 0 ∧ k4_off1 (grid4.coords t) (1 : Fin 2) = t.val * 1024 :=
  (by decide +kernel : ∀ t : Fin grid4.N, _)

variable (V : (c : Dev nD) → (b : Ref sig .tc) → Buf (Elt Ideal) ((c : Thread nD τ).loc b))

/-- Window 0's block at point t is rows 1024·t … of the big matrix. -/
theorem iblk4_0_apply (c : Dev nD) (t : Fin cfg4.N) (x : S1024x4096.Idx) (k : S4096x4096.Idx)
    (hk0 : (k 0).val = t.val * 1024 + (x 0).val) (hk1 : (k 1).val = (x 1).val) :
    (iblk4 V c 0 t : Vec Ideal S1024x4096 .f32) x = (V c main_arg5 : S4096x4096.Idx → EReal) k := by
  obtain ⟨e0, e1, -⟩ := idx_facts4 t
  unfold iblk4
  rw [View.read_apply]
  show V c main_arg5 _ = V c main_arg5 _
  congr 1
  funext a
  apply Fin.ext
  match a with
  | ⟨0, _⟩ => show win4_0.index t 0 * 1024 + 1 * (x 0).val = (k 0).val; rw [e0, hk0]; omega
  | ⟨1, _⟩ => show win4_0.index t 1 * 4096 + 1 * (x 1).val = (k 1).val; rw [e1, hk1]; omega

/-- Window 1's block at any point is the right factor whole. -/
theorem iblk4_1_apply (c : Dev nD) (t : Fin cfg4.N) (x : S4096x128.Idx) :
    (iblk4 V c 1 t : Vec Ideal S4096x128 .f32) x = (V c main_v1_2 : S4096x128.Idx → EReal) x := by
  obtain ⟨-, -, e0, e1, -⟩ := idx_facts4 t
  unfold iblk4
  rw [View.read_apply]
  show V c main_v1_2 _ = V c main_v1_2 _
  congr 1
  funext a
  apply Fin.ext
  match a with
  | ⟨0, _⟩ => show win4_1.index t 0 * 4096 + 1 * (x 0).val = (x 0).val; rw [e0]; omega
  | ⟨1, _⟩ => show win4_1.index t 1 * 128 + 1 * (x 1).val = (x 1).val; rw [e1]; omega

/-- Window 2's block at any point is the transposed addend whole. -/
theorem iblk4_2_apply (c : Dev nD) (t : Fin cfg4.N) (x : S128x4096.Idx) :
    (iblk4 V c 2 t : Vec Ideal S128x4096 .f32) x = (V c main_v3_1 : S128x4096.Idx → EReal) x := by
  obtain ⟨-, -, -, -, e0, e1, -⟩ := idx_facts4 t
  unfold iblk4
  rw [View.read_apply]
  show V c main_v3_1 _ = V c main_v3_1 _
  congr 1
  funext a
  apply Fin.ext
  match a with
  | ⟨0, _⟩ => show win4_2.index t 0 * 128 + 1 * (x 0).val = (x 0).val; rw [e0]; omega
  | ⟨1, _⟩ => show win4_2.index t 1 * 4096 + 1 * (x 1).val = (x 1).val; rw [e1]; omega

/-- The band the body reads of window 2's block at point t: entry (q, p) is the addend's (q, 1024·t + p). -/
theorem band4_apply (c : Dev nD) (t : Fin cfg4.N) (q : Fin 128) (p : Fin 1024) (r : Fin 4096) (hr : r.val = t.val * 1024 + p.val) :
    (View.ld (iblk4 V c 2 t : Vec Ideal S128x4096 .f32) (r4_2 (grid4.coords t)) : Vec Ideal S128x1024 .f32) (ix2 q p)
      = (V c main_v3_1 : S128x4096.Idx → EReal) (ix2 q r) := by
  obtain ⟨-, -, -, -, -, -, -, -, o0, o1⟩ := idx_facts4 t
  show (iblk4 V c 2 t : Vec Ideal S128x4096 .f32) ((r4_2 (grid4.coords t)).idx (ix2 q p)) = _
  rw [iblk4_2_apply]
  congr 1
  funext a
  apply Fin.ext
  match a with
  | ⟨0, _⟩ => show k4_off1 (grid4.coords t) 0 + 1 * q.val = q.val; rw [o0]; omega
  | ⟨1, _⟩ => show k4_off1 (grid4.coords t) 1 + 1 * p.val = r.val; rw [o1, hr]; omega

/-- What point t writes back is block t of the result. -/
theorem flushed4_3_eq (c : Dev nD) (t : Fin cfg4.N) :
    (dat4 (F := Ideal) V c).flushed 3 t
      = ((cfg4.win 3).blk t).view.read (Elt Ideal) (G4 (V c main_arg5) (V c main_v1_2) (V c main_v3_1)) := by
  show (cfg4.win 3).cut (grid4.coords t) ((dat4 V c).after 3 t) = _
  rw [after4_3]
  unfold out4_3
  rw [View.canon_unit_zero hz4]
  simp only [View.ld_unit_zero (S := S1024x4096) hz4, View.ld_unit_zero (S := S4096x128) hz4]
  obtain ⟨-, -, -, -, -, -, e0, e1, -⟩ := idx_facts4 t
  have ht : t.val < 4 := by have := t.isLt; have hN : cfg4.N = 4 := N_4; omega
  funext j
  obtain ⟨p, q, rfl⟩ : ∃ (p : Fin 1024) (q : Fin 128), j = ix2 p q := ⟨j 0, j 1, eq_ix2 j⟩
  rw [View.read_apply]
  have hr : t.val * 1024 + p.val < 4096 := by have := p.isLt; omega
  have hemb : ((cfg4.win 3).blk t).view.emb (ix2 p q) = (ix2 (⟨t.val * 1024 + p.val, hr⟩ : Fin 4096) q : S4096x128.Idx) := by
    funext a
    apply Fin.ext
    match a with
    | ⟨0, _⟩ => show win4_3.index t 0 * 1024 + 1 * p.val = t.val * 1024 + p.val; rw [e0]; omega
    | ⟨1, _⟩ => show win4_3.index t 1 * 128 + 1 * q.val = q.val; rw [e1]; omega
  rw [hemb]
  refine point4 _ _ _ _ _ _ p q ⟨t.val * 1024 + p.val, hr⟩ (fun k => ?_) (fun k => ?_) ?_
  · exact iblk4_0_apply V c t (ix2 p k) (ix2 ⟨t.val * 1024 + p.val, hr⟩ k) rfl rfl
  · exact iblk4_1_apply V c t (ix2 k q)
  · exact band4_apply V c t q p ⟨t.val * 1024 + p.val, hr⟩ rfl

/-- An index of the array is in point t's block iff each coordinate is in the block's range on its axis. -/
theorem mem_blk4_3 (t : Fin cfg4.N) (i : S4096x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole main_v4).slice (win4_3.rect t)).set ↔ _
  rw [View.set_slice_whole, Rect.mem_set_unit]
  exact Iff.rfl

/-- Every entry of the result is in some point's block: row r is in the block of point r / 1024. -/
theorem cover4_3 (i : S4096x128.Idx) : ∃ t : Fin cfg4.N, (cfg4.win 3).flush t = true ∧ i ∈ ((cfg4.win 3).blk t).view.set := by
  have hi0 : (i 0).val < 4096 := (i 0).isLt
  have hi1 : (i 1).val < 128 := (i 1).isLt
  have hN : cfg4.N = 4 := N_4
  let t : Fin cfg4.N := ⟨(i 0).val / 1024, by rw [hN]; omega⟩
  obtain ⟨-, -, -, -, -, -, e0, e1, -⟩ := idx_facts4 t
  refine ⟨t, flush4_3 t, ?_⟩
  rw [mem_blk4_3]
  intro a
  match a with
  | ⟨0, _⟩ => show win4_3.index t 0 * 1024 ≤ (i 0).val ∧ (i 0).val < win4_3.index t 0 * 1024 + 1024
              rw [e0]; show (i 0).val / 1024 * 1024 ≤ (i 0).val ∧ (i 0).val < (i 0).val / 1024 * 1024 + 1024; omega
  | ⟨1, _⟩ => show win4_3.index t 1 * 128 ≤ (i 1).val ∧ (i 1).val < win4_3.index t 1 * 128 + 128
              rw [e1]; omega

/-- The result array after the region: logistic (tᵀ + C · u), over the arrays as the region finds them. -/
theorem final4_3 (c : Dev nD) :
    (dat4 (F := Ideal) V c).arrAt 3 cfg4.N
      = sg (add (tr (V c main_v3_1 : Mat 128 4096)) (mm (V c main_arg5 : Mat 4096 4096) (V c main_v1_2 : Mat 4096 128))) :=
  (dat4 (F := Ideal) V c).arrAt_eq_of_cover 3 (G4 (V c main_arg5) (V c main_v1_2) (V c main_v3_1))
    (fun t _ => flushed4_3_eq V c t) cover4_3

end Cert.KernelIdeal.HandVal

end
-- ==== Proof.Layer.lean ====
/-
  The two-level layer as three functions of its seventeen arguments, in the order the plain formulation computes them,
  and the one identity that joins the streamed formulation to it.

  Level one:  h0 = σ(A0·(x0·W1_00) + I1·(x1·W1_01)),  h1 = σ(I1ᵀ·(x0·W1_01) + I2·(x2·W1_21)),  h2 = I2ᵀ·(x1·W1_12).
  Level two:  out0 = A0·(h0·W2_00),  out1 = σ(I1ᵀ·(h0·W2_01) + A1·(h1·W2_11)),  out2 = σ(I2ᵀ·(h1·W2_12) + C2·(h2·W2_22)).
  The streamed formulation never forms a transposed incidence matrix: it computes (P)ᵀ·I row block by row block and transposes
  the small result; by `Cert.Spec.tr_tmm` that transpose is Iᵀ·P.
-/
import proofs.«129582_g64467459113426_cont_9to1_m_811_15_alg».proof.Proof.Spec

noncomputable section

namespace Cert.Spec

/-- Level one, rank 0: σ(A0·(x0·W1_00) + I1·(x1·W1_01)). -/
def h0 (x0 : Mat 4096 128) (x1 : Mat 8192 128) (A0 : Mat 4096 4096) (I1 : Mat 4096 8192) (W100 W101 : Mat 128 128) : Mat 4096 128 :=
  sg (add (mm A0 (mm x0 W100)) (mm I1 (mm x1 W101)))

/-- Level one, rank 1: σ(I1ᵀ·(x0·W1_01) + I2·(x2·W1_21)). -/
def h1 (x0 : Mat 4096 128) (x2 : Mat 4096 128) (I1 : Mat 4096 8192) (I2 : Mat 8192 4096) (W101 W121 : Mat 128 128) : Mat 8192 128 :=
  sg (add (mm (tr I1) (mm x0 W101)) (mm I2 (mm x2 W121)))

/-- Level one, rank 2: I2ᵀ·(x1·W1_12). -/
def h2 (x1 : Mat 8192 128) (I2 : Mat 8192 4096) (W112 : Mat 128 128) : Mat 4096 128 :=
  mm (tr I2) (mm x1 W112)

/-- Level two, rank 0. -/
def G0 (x0 : Mat 4096 128) (x1 : Mat 8192 128) (A0 : Mat 4096 4096) (I1 : Mat 4096 8192) (W100 W101 W200 : Mat 128 128) : Mat 4096 128 :=
  mm A0 (mm (h0 x0 x1 A0 I1 W100 W101) W200)

/-- Level two, rank 1. -/
def G1 (x0 : Mat 4096 128) (x1 : Mat 8192 128) (x2 : Mat 4096 128) (A0 : Mat 4096 4096) (A1 : Mat 8192 8192) (I1 : Mat 4096 8192) (I2 : Mat 8192 4096)
    (W100 W101 W121 W201 W211 : Mat 128 128) : Mat 8192 128 :=
  sg (add (mm (tr I1) (mm (h0 x0 x1 A0 I1 W100 W101) W201)) (mm A1 (mm (h1 x0 x2 I1 I2 W101 W121) W211)))

/-- Level two, rank 2. -/
def G2 (x0 : Mat 4096 128) (x1 : Mat 8192 128) (x2 : Mat 4096 128) (C2 : Mat 4096 4096) (I1 : Mat 4096 8192) (I2 : Mat 8192 4096)
    (W101 W112 W121 W212 W222 : Mat 128 128) : Mat 4096 128 :=
  sg (add (mm (tr I2) (mm (h1 x0 x2 I1 I2 W101 W121) W212)) (mm C2 (mm (h2 x1 I2 W112) W222)))

end Cert.Spec

end
-- ==== Proof.Streamed.lean ====
/-
  The streamed formulation of the layer computes the same three functions.

  It never transposes an incidence matrix.  Where the plain formulation has Iᵀ·P it accumulates Pᵀ·I over row blocks and
  transposes that small matrix; the transpose of Pᵀ·I is Iᵀ·P (`tr_tmm`: commutativity of the product under the sum).
  Everything else is the same expression, so each identity below is that one rewriting.
-/
import proofs.«129582_g64467459113426_cont_9to1_m_811_15_alg».proof.Proof.Layer

noncomputable section

namespace Cert.Spec

variable (x0 : Mat 4096 128) (x1 : Mat 8192 128) (x2 : Mat 4096 128) (A0 : Mat 4096 4096) (A1 : Mat 8192 8192) (C2 : Mat 4096 4096)
  (I1 : Mat 4096 8192) (I2 : Mat 8192 4096) (W100 W101 W112 W121 W200 W201 W211 W212 W222 : Mat 128 128)

/-- Level one, rank 1, streamed: the addend is the transpose of (x0·W1_01)ᵀ·I1. -/
theorem streamed_h1 : sg (add (tr (tmm (mm x0 W101) I1)) (mm I2 (mm x2 W121))) = h1 x0 x2 I1 I2 W101 W121 := by
  rw [tr_tmm]; rfl

/-- Level one, rank 2, streamed: the transpose of (x1·W1_12)ᵀ·I2. -/
theorem streamed_h2 : tr (tmm (mm x1 W112) I2) = h2 x1 I2 W112 := tr_tmm _ _

/-- Level two, rank 1, streamed over any level-one values. -/
theorem streamed_out1 (u01 : Mat 4096 128) (u11 : Mat 8192 128) :
    sg (add (tr (tmm u01 I1)) (mm A1 u11)) = sg (add (mm (tr I1) u01) (mm A1 u11)) := by
  rw [tr_tmm]

/-- Level two, rank 2, streamed over any level-one values. -/
theorem streamed_out2 (u12 : Mat 8192 128) (u22 : Mat 4096 128) :
    sg (add (tr (tmm u12 I2)) (mm C2 u22)) = sg (add (mm (tr I2) u12) (mm C2 u22)) := by
  rw [tr_tmm]

end Cert.Spec

end
-- ==== Proof.Val.Compose.lean ====
/-
  What the streamed program leaves in its three results, as the layer's functions of the launch arrays.

  Each region's outputs are known as functions of the arrays the region is entered with.  An array entered by a later region is
  either an argument (unchanged by every region before it) or an earlier region's output (unchanged by the regions in between),
  so substituting region after region gives every intermediate, and finally the three results, as expressions in the seventeen
  arguments; `Cert.Spec.tr_tmm` turns each transposed accumulation into the plain formulation's product with a transposed matrix.
-/
import proofs.«129582_g64467459113426_cont_9to1_m_811_15_alg».proof.Proof.KI.Run
import proofs.«129582_g64467459113426_cont_9to1_m_811_15_alg».proof.Proof.Val.Region0
import proofs.«129582_g64467459113426_cont_9to1_m_811_15_alg».proof.Proof.Val.Region1
import proofs.«129582_g64467459113426_cont_9to1_m_811_15_alg».proof.Proof.Val.Region2
import proofs.«129582_g64467459113426_cont_9to1_m_811_15_alg».proof.Proof.Val.Region3
import proofs.«129582_g64467459113426_cont_9to1_m_811_15_alg».proof.Proof.Val.Region4
import proofs.«129582_g64467459113426_cont_9to1_m_811_15_alg».proof.Proof.Streamed

set_option maxRecDepth 16384

noncomputable section

namespace Cert.KernelIdeal.HandVal

open Cert.Spec Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-! ## An argument is what it was launched with, at every region's entry -/
theorem V1_arg7 : V1 m c main_arg7 = (m ((c.tc : Thread nD τ).loc main_arg7)) :=
  (W1_keep m c main_arg7 (by decide)).trans <| rfl
theorem V1_arg1 : V1 m c main_arg1 = (m ((c.tc : Thread nD τ).loc main_arg1)) :=
  (W1_keep m c main_arg1 (by decide)).trans <| rfl
theorem V1_arg2 : V1 m c main_arg2 = (m ((c.tc : Thread nD τ).loc main_arg2)) :=
  (W1_keep m c main_arg2 (by decide)).trans <| rfl
theorem V1_arg11 : V1 m c main_arg11 = (m ((c.tc : Thread nD τ).loc main_arg11)) :=
  (W1_keep m c main_arg11 (by decide)).trans <| rfl
theorem V1_arg10 : V1 m c main_arg10 = (m ((c.tc : Thread nD τ).loc main_arg10)) :=
  (W1_keep m c main_arg10 (by decide)).trans <| rfl
theorem V1_arg14 : V1 m c main_arg14 = (m ((c.tc : Thread nD τ).loc main_arg14)) :=
  (W1_keep m c main_arg14 (by decide)).trans <| rfl
theorem V1_arg15 : V1 m c main_arg15 = (m ((c.tc : Thread nD τ).loc main_arg15)) :=
  (W1_keep m c main_arg15 (by decide)).trans <| rfl
theorem V1_arg16 : V1 m c main_arg16 = (m ((c.tc : Thread nD τ).loc main_arg16)) :=
  (W1_keep m c main_arg16 (by decide)).trans <| rfl
theorem V2_arg3 : V2 m c main_arg3 = (m ((c.tc : Thread nD τ).loc main_arg3)) :=
  (W2_keep m c main_arg3 (by decide)).trans <| (W1_keep m c main_arg3 (by decide)).trans <| rfl
theorem V2_arg6 : V2 m c main_arg6 = (m ((c.tc : Thread nD τ).loc main_arg6)) :=
  (W2_keep m c main_arg6 (by decide)).trans <| (W1_keep m c main_arg6 (by decide)).trans <| rfl
theorem V3_arg4 : V3 m c main_arg4 = (m ((c.tc : Thread nD τ).loc main_arg4)) :=
  (W3_keep m c main_arg4 (by decide)).trans <| (W2_keep m c main_arg4 (by decide)).trans <| (W1_keep m c main_arg4 (by decide)).trans <| rfl
theorem V3_arg7 : V3 m c main_arg7 = (m ((c.tc : Thread nD τ).loc main_arg7)) :=
  (W3_keep m c main_arg7 (by decide)).trans <| (W2_keep m c main_arg7 (by decide)).trans <| (W1_keep m c main_arg7 (by decide)).trans <| rfl
theorem V4_arg5 : V4 m c main_arg5 = (m ((c.tc : Thread nD τ).loc main_arg5)) :=
  (W4_keep m c main_arg5 (by decide)).trans <| (W3_keep m c main_arg5 (by decide)).trans <| (W2_keep m c main_arg5 (by decide)).trans <| (W1_keep m c main_arg5 (by decide)).trans <| rfl

/-! ## Region 0's outputs -/
theorem V1_v0_0 : V1 m c main_v0_0 = mm (h0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9))) (m ((c.tc : Thread nD τ).loc main_arg12)) :=
  (W1_arr m c (8 : Fin cfg0.W)).trans (final0_8 (V0 m) c)
theorem V1_v0_1 : V1 m c main_v0_1 = mm (h0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9))) (m ((c.tc : Thread nD τ).loc main_arg13)) :=
  (W1_arr m c (9 : Fin cfg0.W)).trans (final0_9 (V0 m) c)
theorem V1_v0_2 : V1 m c main_v0_2 = tr (tmm (mm (m ((c.tc : Thread nD τ).loc main_arg0)) (m ((c.tc : Thread nD τ).loc main_arg9))) (m ((c.tc : Thread nD τ).loc main_arg6))) :=
  (W1_arr m c (10 : Fin cfg0.W)).trans (final0_10 (V0 m) c)

/-! ## Region 1's outputs: the addend it is entered with is region 0's third output -/
theorem V2_v1_0 : V2 m c main_v1_0 = mm (h1 (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg11))) (m ((c.tc : Thread nD τ).loc main_arg14)) := by
  refine (W2_arr m c (9 : Fin cfg1.W)).trans ((final1_9 (V1 m) c).trans ?_)
  rw [V1_arg7, V1_arg2, V1_arg11, V1_arg14, V1_v0_2, streamed_h1]
theorem V2_v1_1 : V2 m c main_v1_1 = mm (h1 (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg11))) (m ((c.tc : Thread nD τ).loc main_arg15)) := by
  refine (W2_arr m c (10 : Fin cfg1.W)).trans ((final1_10 (V1 m) c).trans ?_)
  rw [V1_arg7, V1_arg2, V1_arg11, V1_arg15, V1_v0_2, streamed_h1]
theorem V2_v1_2 : V2 m c main_v1_2 = mm (h2 (m ((c.tc : Thread nD τ).loc main_arg1)) (m ((c.tc : Thread nD τ).loc main_arg7)) (m ((c.tc : Thread nD τ).loc main_arg10))) (m ((c.tc : Thread nD τ).loc main_arg16)) := by
  refine (W2_arr m c (11 : Fin cfg1.W)).trans ((final1_11 (V1 m) c).trans ?_)
  rw [V1_arg7, V1_arg1, V1_arg10, V1_arg16, streamed_h2]
/-- Region 1 leaves region 0's first two outputs alone. -/
theorem V2_v0_0 : V2 m c main_v0_0 = mm (h0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9))) (m ((c.tc : Thread nD τ).loc main_arg12)) := (W2_keep m c main_v0_0 (by decide)).trans (V1_v0_0 m c)
theorem V2_v0_1 : V2 m c main_v0_1 = mm (h0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9))) (m ((c.tc : Thread nD τ).loc main_arg13)) := (W2_keep m c main_v0_1 (by decide)).trans (V1_v0_1 m c)

/-! ## Region 2's outputs -/
theorem V3_v2_0 : V3 m c main_v2_0 = G0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9)) (m ((c.tc : Thread nD τ).loc main_arg12)) := by
  refine (W3_arr m c (4 : Fin cfg2.W)).trans ((final2_4 (V2 m) c).trans ?_)
  rw [V2_arg3, V2_v0_0]; rfl
theorem V3_v2_1 : V3 m c main_v2_1 = tmm (mm (h0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9))) (m ((c.tc : Thread nD τ).loc main_arg13))) (m ((c.tc : Thread nD τ).loc main_arg6)) := by
  refine (W3_arr m c (5 : Fin cfg2.W)).trans ((final2_5 (V2 m) c).trans ?_)
  rw [V2_arg6, V2_v0_1]
theorem V3_v1_0 : V3 m c main_v1_0 = mm (h1 (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg11))) (m ((c.tc : Thread nD τ).loc main_arg14)) := (W3_keep m c main_v1_0 (by decide)).trans (V2_v1_0 m c)
theorem V3_v1_1 : V3 m c main_v1_1 = mm (h1 (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg11))) (m ((c.tc : Thread nD τ).loc main_arg15)) := (W3_keep m c main_v1_1 (by decide)).trans (V2_v1_1 m c)
theorem V3_v1_2 : V3 m c main_v1_2 = mm (h2 (m ((c.tc : Thread nD τ).loc main_arg1)) (m ((c.tc : Thread nD τ).loc main_arg7)) (m ((c.tc : Thread nD τ).loc main_arg10))) (m ((c.tc : Thread nD τ).loc main_arg16)) := (W3_keep m c main_v1_2 (by decide)).trans (V2_v1_2 m c)

/-! ## Region 3's outputs -/
theorem V4_v3_0 : V4 m c main_v3_0 = G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg13)) (m ((c.tc : Thread nD τ).loc main_arg14)) := by
  refine (W4_arr m c (5 : Fin cfg3.W)).trans ((final3_5 (V3 m) c).trans ?_)
  rw [V3_arg4, V3_v1_0, V3_v2_1, streamed_out1]; rfl
theorem V4_v3_1 : V4 m c main_v3_1 = tmm (mm (h1 (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg11))) (m ((c.tc : Thread nD τ).loc main_arg15))) (m ((c.tc : Thread nD τ).loc main_arg7)) := by
  refine (W4_arr m c (6 : Fin cfg3.W)).trans ((final3_6 (V3 m) c).trans ?_)
  rw [V3_arg7, V3_v1_1]
theorem V4_v1_2 : V4 m c main_v1_2 = mm (h2 (m ((c.tc : Thread nD τ).loc main_arg1)) (m ((c.tc : Thread nD τ).loc main_arg7)) (m ((c.tc : Thread nD τ).loc main_arg10))) (m ((c.tc : Thread nD τ).loc main_arg16)) := (W4_keep m c main_v1_2 (by decide)).trans (V3_v1_2 m c)
theorem V4_v2_0 : V4 m c main_v2_0 = G0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9)) (m ((c.tc : Thread nD τ).loc main_arg12)) := (W4_keep m c main_v2_0 (by decide)).trans (V3_v2_0 m c)

/-! ## Region 4's output, and the three results at the end -/
theorem V5_v4 : V5 m c main_v4 = G2 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg15)) (m ((c.tc : Thread nD τ).loc main_arg16)) := by
  refine (W5_arr m c (3 : Fin cfg4.W)).trans ((final4_3 (V4 m) c).trans ?_)
  rw [V4_arg5, V4_v1_2, V4_v3_1, streamed_out2]; rfl
theorem V5_v2_0 : V5 m c main_v2_0 = G0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9)) (m ((c.tc : Thread nD τ).loc main_arg12)) := (W5_keep m c main_v2_0 (by decide)).trans (V4_v2_0 m c)
theorem V5_v3_0 : V5 m c main_v3_0 = G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg13)) (m ((c.tc : Thread nD τ).loc main_arg14)) := (W5_keep m c main_v3_0 (by decide)).trans (V4_v3_0 m c)

/-! ## The streamed program's run, with its three results named -/

/-- From any memory with zero counters every weakly fair execution of the streamed program terminates, its three results hold
    the layer's three functions of the launch arrays, and the seventeen arguments are unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v2_0) = G0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9)) (m ((c.tc : Thread nD τ).loc main_arg12))
      ∧ r.2.mem ((c.tc : Thread nD τ).loc main_v3_0) = G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg13)) (m ((c.tc : Thread nD τ).loc main_arg14))
      ∧ r.2.mem ((c.tc : Thread nD τ).loc main_v4) = G2 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c _ (mem_uc main_v2_0 (by decide))).trans (V5_v2_0 m c),
     (h c _ (mem_uc main_v3_0 (by decide))).trans (V5_v3_0 m c),
     (h c _ (mem_uc main_v4 (by decide))).trans (V5_v4 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c),
     (h c _ (mem_uc main_arg8 (by decide))).trans (W5_main_arg8 m c),
     (h c _ (mem_uc main_arg9 (by decide))).trans (W5_main_arg9 m c),
     (h c _ (mem_uc main_arg10 (by decide))).trans (W5_main_arg10 m c),
     (h c _ (mem_uc main_arg11 (by decide))).trans (W5_main_arg11 m c),
     (h c _ (mem_uc main_arg12 (by decide))).trans (W5_main_arg12 m c),
     (h c _ (mem_uc main_arg13 (by decide))).trans (W5_main_arg13 m c),
     (h c _ (mem_uc main_arg14 (by decide))).trans (W5_main_arg14 m c),
     (h c _ (mem_uc main_arg15 (by decide))).trans (W5_main_arg15 m c),
     (h c _ (mem_uc main_arg16 (by decide))).trans (W5_main_arg16 m c)⟩)
    (run_all m ρ)

end Cert.KernelIdeal.HandVal

end
-- ==== Proof.Ref.Terms.lean ====
/-
  The plain formulation's operations on matrices of extended reals, one at a time: the host's product of two
  matrices is the matrix product, its transpose the transpose, its entrywise sum the entrywise sum, and the chain
  divide(1, add(1, exp(negate x))) with the constant 1 broadcast to the matrix's shape is the logistic function
  entry by entry.
-/
import proofs.«129582_g64467459113426_cont_9to1_m_811_15_alg».proof.Proof.Gen.ReferenceIdeal
import proofs.«129582_g64467459113426_cont_9to1_m_811_15_alg».proof.Proof.Layer
import proofs.«129582_g64467459113426_cont_9to1_m_811_15_alg».proof.Proof.LibMatmul
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.Spec

/-! ## The four operations -/

/-- The host's product of an M×K by a K×N matrix, contracting the left operand's columns with the right operand's
    rows, is the matrix product: entry (p, q) is the sum over k of L[p, k]·R[k, q]. -/
theorem dot_plain_eq_mm {M K N : Nat} (L : FVec Ideal ⟨2, ![M, K]⟩ .f32) (R : FVec Ideal ⟨2, ![K, N]⟩ .f32) :
    Host.dotGeneral (F := Ideal) (DotDims.plain M K N) none L R = mm L R := by
  funext i
  obtain ⟨p, q, rfl⟩ : ∃ (p : Fin M) (q : Fin N), i = ix2 p q := ⟨i 0, i 1, eq_ix2 i⟩
  exact Cert.Bridge.LibMatmul.dotGeneral_apply none .single L R p q

/-- The transpose with permutation [1, 0] reads entry (q, p) at the operand's entry (p, q). -/
theorem transpose_eq_tr {a b : Nat} (X : FVec Ideal ⟨2, ![a, b]⟩ .f32)
    (h : (⟨2, ![a, b]⟩ : Shape).Transposes [1, 0] ⟨2, ![b, a]⟩) :
    transpose ⟨2, ![b, a]⟩ [1, 0] X h = tr X := by
  funext i
  obtain ⟨q, p, rfl⟩ : ∃ (q : Fin b) (p : Fin a), i = ix2 q p := ⟨i 0, i 1, eq_ix2 i⟩
  exact (transpose_ix2_apply X h q p).trans (tr_apply X q p).symm

/-- The entrywise float sum is the entrywise sum of extended reals. -/
theorem addf_eq_add {a b : Nat} (X Y : FVec Ideal ⟨2, ![a, b]⟩ .f32) : addf X Y = add X Y := rfl

/-- The word 0x3F800000 denotes the real number 1. -/
theorem one_word : Ideal.ofBits .f32 0x3F800000#32 = 1 := by
  simp [Ideal.ofBits, Ideal.ieee, -EReal.coe_mul]; norm_num

/-- The scalar constant 1 broadcast to a matrix's shape reads 1 at every entry. -/
theorem bcast_one_apply {a b : Nat} (h : S_.BroadcastsInDim ⟨2, ![a, b]⟩ (![] : Fin 0 → Fin 2))
    (i : (⟨2, ![a, b]⟩ : Shape).Idx) :
    broadcastInDim ⟨2, ![a, b]⟩ ![] h (constant (F := Ideal) S_ .f32 0x3F800000#32) i = 1 := by
  rw [broadcastInDim_apply _ h _ i (fun a => a.elim0) (fun a => a.elim0), constant_apply, one_word]

/-- 1 / (1 + e^(-x)), computed entry by entry with the broadcast constant 1, is the logistic function entry by entry. -/
theorem sigmoid_eq_sg {a b : Nat} (h : S_.BroadcastsInDim ⟨2, ![a, b]⟩ (![] : Fin 0 → Fin 2))
    (X : FVec Ideal ⟨2, ![a, b]⟩ .f32) :
    Host.divf (F := Ideal) (broadcastInDim ⟨2, ![a, b]⟩ ![] h (constant (F := Ideal) S_ .f32 0x3F800000#32))
      (addf (broadcastInDim ⟨2, ![a, b]⟩ ![] h (constant (F := Ideal) S_ .f32 0x3F800000#32)) (Host.exp (Host.negf X)))
      = sg X := by
  funext i
  show Ideal.div (broadcastInDim ⟨2, ![a, b]⟩ ![] h (constant (F := Ideal) S_ .f32 0x3F800000#32) i)
      (broadcastInDim ⟨2, ![a, b]⟩ ![] h (constant (F := Ideal) S_ .f32 0x3F800000#32) i + Ideal.exp (-(X i)))
    = Ideal.logistic (X i)
  rw [bcast_one_apply h i]
  rfl

/-! ## The six products of the program, by their shapes -/

/-- The 4096×128 by 128×128 product. -/
theorem dot0_eq_mm (L : FVec Ideal S4096x128 .f32) (R : FVec Ideal S128x128 .f32) :
    Host.dotGeneral (F := Ideal) dot_S4096x128_S128x128_S4096x128_1_0_0_1_n_n none L R = mm L R := dot_plain_eq_mm L R

/-- The 4096×4096 by 4096×128 product. -/
theorem dot1_eq_mm (L : FVec Ideal S4096x4096 .f32) (R : FVec Ideal S4096x128 .f32) :
    Host.dotGeneral (F := Ideal) dot_S4096x4096_S4096x128_S4096x128_1_0_0_1_n_n none L R = mm L R := dot_plain_eq_mm L R

/-- The 8192×128 by 128×128 product. -/
theorem dot2_eq_mm (L : FVec Ideal S8192x128 .f32) (R : FVec Ideal S128x128 .f32) :
    Host.dotGeneral (F := Ideal) dot_S8192x128_S128x128_S8192x128_1_0_0_1_n_n none L R = mm L R := dot_plain_eq_mm L R

/-- The 4096×8192 by 8192×128 product. -/
theorem dot3_eq_mm (L : FVec Ideal S4096x8192 .f32) (R : FVec Ideal S8192x128 .f32) :
    Host.dotGeneral (F := Ideal) dot_S4096x8192_S8192x128_S4096x128_1_0_0_1_n_n none L R = mm L R := dot_plain_eq_mm L R

/-- The 8192×4096 by 4096×128 product. -/
theorem dot4_eq_mm (L : FVec Ideal S8192x4096 .f32) (R : FVec Ideal S4096x128 .f32) :
    Host.dotGeneral (F := Ideal) dot_S8192x4096_S4096x128_S8192x128_1_0_0_1_n_n none L R = mm L R := dot_plain_eq_mm L R

/-- The 8192×8192 by 8192×128 product. -/
theorem dot5_eq_mm (L : FVec Ideal S8192x8192 .f32) (R : FVec Ideal S8192x128 .f32) :
    Host.dotGeneral (F := Ideal) dot_S8192x8192_S8192x128_S8192x128_1_0_0_1_n_n none L R = mm L R := dot_plain_eq_mm L R

/-! ## The program's two transposes and two logistic chains, by their shapes -/

/-- The transpose of a 4096×8192 matrix. -/
theorem transpose0_eq_tr (X : FVec Ideal S4096x8192 .f32) :
    transpose S8192x4096 [1, 0] X transposes_S4096x8192_S8192x4096_1_0 = tr X := transpose_eq_tr X _

/-- The transpose of an 8192×4096 matrix. -/
theorem transpose1_eq_tr (X : FVec Ideal S8192x4096 .f32) :
    transpose S4096x8192 [1, 0] X transposes_S8192x4096_S4096x8192_1_0 = tr X := transpose_eq_tr X _

/-- The logistic chain on a 4096×128 matrix. -/
theorem sigmoid0_eq_sg (X : FVec Ideal S4096x128 .f32) :
    Host.divf (F := Ideal) (broadcastInDim S4096x128 ![] bcast_S_S4096x128 (constant (F := Ideal) S_ .f32 0x3F800000#32))
      (addf (broadcastInDim S4096x128 ![] bcast_S_S4096x128 (constant (F := Ideal) S_ .f32 0x3F800000#32)) (Host.exp (Host.negf X))) = sg X := sigmoid_eq_sg bcast_S_S4096x128 X

/-- The logistic chain on a 8192×128 matrix. -/
theorem sigmoid1_eq_sg (X : FVec Ideal S8192x128 .f32) :
    Host.divf (F := Ideal) (broadcastInDim S8192x128 ![] bcast_S_S8192x128 (constant (F := Ideal) S_ .f32 0x3F800000#32))
      (addf (broadcastInDim S8192x128 ![] bcast_S_S8192x128 (constant (F := Ideal) S_ .f32 0x3F800000#32)) (Host.exp (Host.negf X))) = sg X := sigmoid_eq_sg bcast_S_S8192x128 X

/-! ## The three results

Each is the run's composed term of the arguments; rewriting its operations innermost first leaves the layer's function. -/

/-- Rank 0: A0·(σ(A0·(x0·W1_00) + I1·(x1·W1_01))·W2_00). -/
theorem out0_eq (x0 : FVec Ideal S4096x128 .f32) (x1 : FVec Ideal S8192x128 .f32) (A0 : FVec Ideal S4096x4096 .f32) (I1 : FVec Ideal S4096x8192 .f32) (W100 W101 W200 : FVec Ideal S128x128 .f32) :
    Host.dotGeneral dot_S4096x4096_S4096x128_S4096x128_1_0_0_1_n_n none A0 (Host.dotGeneral dot_S4096x128_S128x128_S4096x128_1_0_0_1_n_n none (Host.divf (F := Ideal) (broadcastInDim S4096x128 ![] bcast_S_S4096x128 (constant (F := Ideal) S_ .f32 0x3F800000#32)) (addf (broadcastInDim S4096x128 ![] bcast_S_S4096x128 (constant (F := Ideal) S_ .f32 0x3F800000#32)) (Host.exp (Host.negf (addf (Host.dotGeneral dot_S4096x4096_S4096x128_S4096x128_1_0_0_1_n_n none A0 (Host.dotGeneral dot_S4096x128_S128x128_S4096x128_1_0_0_1_n_n none x0 W100)) (Host.dotGeneral dot_S4096x8192_S8192x128_S4096x128_1_0_0_1_n_n none I1 (Host.dotGeneral dot_S8192x128_S128x128_S8192x128_1_0_0_1_n_n none x1 W101))))))) W200)
      = G0 x0 x1 A0 I1 W100 W101 W200 := by
  rw [sigmoid0_eq_sg]
  simp only [dot0_eq_mm, dot1_eq_mm, dot2_eq_mm, dot3_eq_mm, dot4_eq_mm, dot5_eq_mm, addf_eq_add]
  rfl

/-- Rank 1: σ(I1ᵀ·(h0·W2_01) + A1·(h1·W2_11)), with h0 and h1 the first level's results. -/
theorem out1_eq (x0 : FVec Ideal S4096x128 .f32) (x1 : FVec Ideal S8192x128 .f32) (x2 : FVec Ideal S4096x128 .f32) (A0 : FVec Ideal S4096x4096 .f32) (A1 : FVec Ideal S8192x8192 .f32) (I1 : FVec Ideal S4096x8192 .f32) (I2 : FVec Ideal S8192x4096 .f32) (W100 W101 W121 W201 W211 : FVec Ideal S128x128 .f32) :
    Host.divf (F := Ideal) (broadcastInDim S8192x128 ![] bcast_S_S8192x128 (constant (F := Ideal) S_ .f32 0x3F800000#32)) (addf (broadcastInDim S8192x128 ![] bcast_S_S8192x128 (constant (F := Ideal) S_ .f32 0x3F800000#32)) (Host.exp (Host.negf (addf (Host.dotGeneral dot_S8192x4096_S4096x128_S8192x128_1_0_0_1_n_n none (transpose S8192x4096 [1, 0] I1 transposes_S4096x8192_S8192x4096_1_0) (Host.dotGeneral dot_S4096x128_S128x128_S4096x128_1_0_0_1_n_n none (Host.divf (F := Ideal) (broadcastInDim S4096x128 ![] bcast_S_S4096x128 (constant (F := Ideal) S_ .f32 0x3F800000#32)) (addf (broadcastInDim S4096x128 ![] bcast_S_S4096x128 (constant (F := Ideal) S_ .f32 0x3F800000#32)) (Host.exp (Host.negf (addf (Host.dotGeneral dot_S4096x4096_S4096x128_S4096x128_1_0_0_1_n_n none A0 (Host.dotGeneral dot_S4096x128_S128x128_S4096x128_1_0_0_1_n_n none x0 W100)) (Host.dotGeneral dot_S4096x8192_S8192x128_S4096x128_1_0_0_1_n_n none I1 (Host.dotGeneral dot_S8192x128_S128x128_S8192x128_1_0_0_1_n_n none x1 W101))))))) W201)) (Host.dotGeneral dot_S8192x8192_S8192x128_S8192x128_1_0_0_1_n_n none A1 (Host.dotGeneral dot_S8192x128_S128x128_S8192x128_1_0_0_1_n_n none (Host.divf (F := Ideal) (broadcastInDim S8192x128 ![] bcast_S_S8192x128 (constant (F := Ideal) S_ .f32 0x3F800000#32)) (addf (broadcastInDim S8192x128 ![] bcast_S_S8192x128 (constant (F := Ideal) S_ .f32 0x3F800000#32)) (Host.exp (Host.negf (addf (Host.dotGeneral dot_S8192x4096_S4096x128_S8192x128_1_0_0_1_n_n none (transpose S8192x4096 [1, 0] I1 transposes_S4096x8192_S8192x4096_1_0) (Host.dotGeneral dot_S4096x128_S128x128_S4096x128_1_0_0_1_n_n none x0 W101)) (Host.dotGeneral dot_S8192x4096_S4096x128_S8192x128_1_0_0_1_n_n none I2 (Host.dotGeneral dot_S4096x128_S128x128_S4096x128_1_0_0_1_n_n none x2 W121))))))) W211))))))
      = G1 x0 x1 x2 A0 A1 I1 I2 W100 W101 W121 W201 W211 := by
  rw [sigmoid1_eq_sg, sigmoid1_eq_sg, sigmoid0_eq_sg, transpose0_eq_tr]
  simp only [dot0_eq_mm, dot1_eq_mm, dot2_eq_mm, dot3_eq_mm, dot4_eq_mm, dot5_eq_mm, addf_eq_add]
  rfl

/-- Rank 2: σ(I2ᵀ·(h1·W2_12) + C2·(h2·W2_22)), with h1 and h2 the first level's results. -/
theorem out2_eq (x0 : FVec Ideal S4096x128 .f32) (x1 : FVec Ideal S8192x128 .f32) (x2 : FVec Ideal S4096x128 .f32) (C2 : FVec Ideal S4096x4096 .f32) (I1 : FVec Ideal S4096x8192 .f32) (I2 : FVec Ideal S8192x4096 .f32) (W101 W112 W121 W212 W222 : FVec Ideal S128x128 .f32) :
    Host.divf (F := Ideal) (broadcastInDim S4096x128 ![] bcast_S_S4096x128 (constant (F := Ideal) S_ .f32 0x3F800000#32)) (addf (broadcastInDim S4096x128 ![] bcast_S_S4096x128 (constant (F := Ideal) S_ .f32 0x3F800000#32)) (Host.exp (Host.negf (addf (Host.dotGeneral dot_S4096x8192_S8192x128_S4096x128_1_0_0_1_n_n none (transpose S4096x8192 [1, 0] I2 transposes_S8192x4096_S4096x8192_1_0) (Host.dotGeneral dot_S8192x128_S128x128_S8192x128_1_0_0_1_n_n none (Host.divf (F := Ideal) (broadcastInDim S8192x128 ![] bcast_S_S8192x128 (constant (F := Ideal) S_ .f32 0x3F800000#32)) (addf (broadcastInDim S8192x128 ![] bcast_S_S8192x128 (constant (F := Ideal) S_ .f32 0x3F800000#32)) (Host.exp (Host.negf (addf (Host.dotGeneral dot_S8192x4096_S4096x128_S8192x128_1_0_0_1_n_n none (transpose S8192x4096 [1, 0] I1 transposes_S4096x8192_S8192x4096_1_0) (Host.dotGeneral dot_S4096x128_S128x128_S4096x128_1_0_0_1_n_n none x0 W101)) (Host.dotGeneral dot_S8192x4096_S4096x128_S8192x128_1_0_0_1_n_n none I2 (Host.dotGeneral dot_S4096x128_S128x128_S4096x128_1_0_0_1_n_n none x2 W121))))))) W212)) (Host.dotGeneral dot_S4096x4096_S4096x128_S4096x128_1_0_0_1_n_n none C2 (Host.dotGeneral dot_S4096x128_S128x128_S4096x128_1_0_0_1_n_n none (Host.dotGeneral dot_S4096x8192_S8192x128_S4096x128_1_0_0_1_n_n none (transpose S4096x8192 [1, 0] I2 transposes_S8192x4096_S4096x8192_1_0) (Host.dotGeneral dot_S8192x128_S128x128_S8192x128_1_0_0_1_n_n none x1 W112)) W222))))))
      = G2 x0 x1 x2 C2 I1 I2 W101 W112 W121 W212 W222 := by
  rw [sigmoid0_eq_sg, sigmoid1_eq_sg, transpose1_eq_tr, transpose0_eq_tr]
  simp only [dot0_eq_mm, dot1_eq_mm, dot2_eq_mm, dot3_eq_mm, dot4_eq_mm, dot5_eq_mm, addf_eq_add]
  rfl

end Cert.ReferenceIdeal.RefValue

end
-- ==== Proof.Ref.IsLayer.lean ====
/-
  The plain formulation's results are the layer's three functions.

  Every weakly fair execution of the plain formulation ends with its three result arrays at the layer's functions
  G0, G1, G2 of the seventeen argument arrays, and with the arguments unchanged: the run's composed terms are those
  functions, operation by operation (products, transposes, entrywise sums and the logistic chain).
-/
import proofs.«129582_g64467459113426_cont_9to1_m_811_15_alg».proof.Proof.Gen.ReferenceIdeal.Read
import proofs.«129582_g64467459113426_cont_9to1_m_811_15_alg».proof.Proof.Layer
import proofs.«129582_g64467459113426_cont_9to1_m_811_15_alg».proof.Proof.Ref.Terms

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The plain formulation's run, restated over the layer: on every device, from any memory with zero counters, every
    weakly fair execution terminates with the three results at G0, G1, G2 of the arguments' launch contents and the
    arguments unchanged. -/
theorem run_layer (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v27)
        = Cert.Spec.G0 (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9)) (m ((c.tc : Thread nD τ).loc main_arg12))
      ∧ r.2.mem ((c.tc : Thread nD τ).loc main_v38)
        = Cert.Spec.G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg13)) (m ((c.tc : Thread nD τ).loc main_arg14))
      ∧ r.2.mem ((c.tc : Thread nD τ).loc main_v49)
        = Cert.Spec.G2 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run Cert.ReferenceIdeal.defs _ _).mono (fun _ h c =>
      ⟨(h c).1.trans (out0_eq _ _ _ _ _ _ _),
       (h c).2.1.trans (out1_eq _ _ _ _ _ _ _ _ _ _ _ _),
       (h c).2.2.1.trans (out2_eq _ _ _ _ _ _ _ _ _ _ _),
       (h c).2.2.2⟩)
    (Cert.ReferenceIdeal.Value.run (F := Ideal) m ρ)

end Cert.ReferenceIdeal.RefValue

end
-- ==== Proof.lean ====
/-
  A two-level message-passing layer over a cell complex of ranks 0, 1, 2, computed two ways.

  The plain formulation multiplies out, for each of six messages, a neighbourhood matrix times (features times weights), with the
  two incidence matrices transposed where a message goes down a rank, sums the messages arriving at a rank and applies the logistic
  function.  The streamed formulation sweeps each neighbourhood matrix once per level in row blocks: a block of rows gives that block
  of a forward product at once, and its contribution (features-times-weights block)ᵀ·(matrix block) to the transposed product,
  which is accumulated over the sweep and transposed at the end.

  On the extended reals the two agree entry by entry.  A product of a row block with a whole matrix is the corresponding rows of the
  whole product; a sum over all rows taken block by block is the whole sum (associativity and commutativity of addition only); the
  transpose of Pᵀ·I is Iᵀ·P (commutativity of the product); the logistic function is one function on both sides.  No distributive
  law is used, so the finiteness of the inputs is never needed.

  The proof has four parts: the mathematics above, with no program in sight; for each of the five sweeps, what it leaves in its
  buffers point after point, for any float values, and the five sweeps in sequence (read once at the word level and once over the
  extended reals); each sweep's outputs as matrices over the extended reals, substituted sweep after sweep into the three results;
  and the plain formulation's run, operation by operation.
-/
import proofs.«129582_g64467459113426_cont_9to1_m_811_15_alg».proof.Defs
import proofs.«129582_g64467459113426_cont_9to1_m_811_15_alg».proof.Proof.Gen.Kernel
import proofs.«129582_g64467459113426_cont_9to1_m_811_15_alg».proof.Proof.Gen.KernelIdeal
import proofs.«129582_g64467459113426_cont_9to1_m_811_15_alg».proof.Proof.Gen.ReferenceIdeal
import proofs.«129582_g64467459113426_cont_9to1_m_811_15_alg».proof.Proof.Gen.Pre_finite_inputs
import proofs.«129582_g64467459113426_cont_9to1_m_811_15_alg».proof.Proof.K.Run
import proofs.«129582_g64467459113426_cont_9to1_m_811_15_alg».proof.Proof.Val.Compose
import proofs.«129582_g64467459113426_cont_9to1_m_811_15_alg».proof.Proof.Ref.IsLayer
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The plain formulation's run, its three results dropped. -/
theorem frame_ri : Cert.frame_ReferenceIdeal := fun m ρ _ =>
  (θ_run Cert.ReferenceIdeal.defs _ _).mono (fun _ h c => (h c).2.2.2) (Cert.ReferenceIdeal.RefValue.run_layer m ρ)

/-- The idealization rewrote nothing. -/
theorem preserves : Cert.preserves_Kernel_KernelIdeal := trivial

/-- Both programs end with the layer's three functions of the arguments they were launched with, and those arguments agree. -/
theorem algebraic : Cert.algebraic_KernelIdeal_ReferenceIdeal := by
  intro m ρ m' ρ' _ hagree
  refine ⟨fun c => Cert.Spec.G0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)),
    fun c => Cert.Spec.G1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Spec.G2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact Cert.KernelIdeal.HandVal.kernel_run m ρ
  · refine (θ_run Cert.ReferenceIdeal.defs _ _).mono (fun _ h c => ?_) (Cert.ReferenceIdeal.RefValue.run_layer m' ρ')
    obtain ⟨e0, e1, e2, e3, e4, e5, e6, e7, e8, e9, e10, e11, e12, e13, e14, e15, e16⟩ := hagree c
    obtain ⟨r0, r1, r2, hargs⟩ := h c
    refine ⟨r0.trans ?_, r1.trans ?_, r2.trans ?_, hargs⟩
    · rw [e0, e1, e3, e6, e8, e9, e12]
    · rw [e0, e1, e2, e3, e4, e6, e7, e8, e9, e11, e13, e14]
    · rw [e0, e1, e2, e5, e6, e7, e9, e10, e11, e15, e16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
